-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v207)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v207) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v234) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S2x200000 : Shape := ⟨2, ![2, 200000]⟩
abbrev S4x128x128 : Shape := ⟨3, ![4, 128, 128]⟩
abbrev S4x128 : Shape := ⟨2, ![4, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S4x128x128 : S_.BroadcastsInDim S4x128x128 (![] : Fin 0 → Fin S4x128x128.rank)
  reducesTo_S4x128x128_S_d0_1_2 : S4x128x128.ReducesTo [0, 1, 2] S_
  bcast_S_S4x128 : S_.BroadcastsInDim S4x128 (![] : Fin 0 → Fin S4x128.rank)
  reducesTo_S4x128_S_d0_1 : S4x128.ReducesTo [0, 1] S_

variable [Facts]

def fn_part1 {F : FTy → Type} [FloatOps F] (main_arg6 : FVec F S4x128 .f32) (main_v13 : IVec S_ 1) (main_v16 : IVec S4x128x128 1) : IVec S_ 1 :=
  let main_c_5 : IVec S_ 1 := constantI S_ 1 1#1
  let main_v17 : IVec S_ 1 := (fun x v => Host.reduce IntOp.andi x v reducesTo_S4x128x128_S_d0_1_2 h_S_) main_v16 main_c_5
  let main_v18 : IVec S_ 1 := andi main_v13 main_v17
  let main_v19 : FVec F S4x128 .f32 := Host.absf main_arg6
  let main_cst_6 : FVec F S_ .f32 := constant S_ .f32 0x7F800000#32
  let main_v20 : FVec F S4x128 .f32 := broadcastInDim S4x128 ![] bcast_S_S4x128 main_cst_6
  let main_v21 : IVec S4x128 1 := cmpf .olt main_v19 main_v20
  let main_c_7 : IVec S_ 1 := constantI S_ 1 1#1
  let main_v22 : IVec S_ 1 := (fun x v => Host.reduce IntOp.andi x v reducesTo_S4x128_S_d0_1 h_S_) main_v21 main_c_7
  let main_v23 : IVec S_ 1 := andi main_v18 main_v22
  main_v23

def fn {F : FTy → Type} [FloatOps F] (main_arg0 : FVec F S50000x128 .f32) (main_arg1 : IVec S2x800000 32) (main_arg2 : IVec S2x200000 32) (main_arg3 : FVec F S4x128x128 .f32) (main_arg4 : FVec F S4x128 .f32) (main_arg5 : FVec F S4x128x128 .f32) (main_arg6 : FVec F S4x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S4x128x128 .f32 := Host.absf main_arg3
  let main_cst_0 : FVec F S_ .f32 := constant S_ .f32 0x7F800000#32
  let main_v5 : FVec F S4x128x128 .f32 := broadcastInDim S4x128x128 ![] bcast_S_S4x128x128 main_cst_0
  let main_v6 : IVec S4x128x128 1 := cmpf .olt main_v4 main_v5
  let main_c_1 : IVec S_ 1 := constantI S_ 1 1#1
  let main_v7 : IVec S_ 1 := (fun x v => Host.reduce IntOp.andi x v reducesTo_S4x128x128_S_d0_1_2 h_S_) main_v6 main_c_1
  let main_v8 : IVec S_ 1 := andi main_v3 main_v7
  let main_v9 : FVec F S4x128 .f32 := Host.absf main_arg4
  let main_cst_2 : FVec F S_ .f32 := constant S_ .f32 0x7F800000#32
  let main_v10 : FVec F S4x128 .f32 := broadcastInDim S4x128 ![] bcast_S_S4x128 main_cst_2
  let main_v11 : IVec S4x128 1 := cmpf .olt main_v9 main_v10
  let main_c_3 : IVec S_ 1 := constantI S_ 1 1#1
  let main_v12 : IVec S_ 1 := (fun x v => Host.reduce IntOp.andi x v reducesTo_S4x128_S_d0_1 h_S_) main_v11 main_c_3
  let main_v13 : IVec S_ 1 := andi main_v8 main_v12
  let main_v14 : FVec F S4x128x128 .f32 := Host.absf main_arg5
  let main_cst_4 : FVec F S_ .f32 := constant S_ .f32 0x7F800000#32
  let main_v15 : FVec F S4x128x128 .f32 := broadcastInDim S4x128x128 ![] bcast_S_S4x128x128 main_cst_4
  let main_v16 : IVec S4x128x128 1 := cmpf .olt main_v14 main_v15
  fn_part1 (F := F) main_arg6 main_v13 main_v16
-- ==== Kernel.lean ====
abbrev S50000x128 : Shape := ⟨2, ![50000, 128]⟩
abbrev S2x800000 : Shape := ⟨2, ![2, 800000]⟩
abbrev S2x200000 : Shape := ⟨2, ![2, 200000]⟩
abbrev S4x128x128 : Shape := ⟨3, ![4, 128, 128]⟩
abbrev S4x128 : Shape := ⟨2, ![4, 128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S1x200000 : Shape := ⟨2, ![1, 200000]⟩
abbrev S200000 : Shape := ⟨1, ![200000]⟩
abbrev S250000 : Shape := ⟨1, ![250000]⟩
abbrev S250000x1 : Shape := ⟨2, ![250000, 1]⟩
abbrev S1x128x128 : Shape := ⟨3, ![1, 128, 128]⟩
abbrev S128x128 : Shape := ⟨2, ![128, 128]⟩
abbrev S5000x128 : Shape := ⟨2, ![5000, 128]⟩
abbrev S850000x128 : Shape := ⟨2, ![850000, 128]⟩
abbrev S250000x128 : Shape := ⟨2, ![250000, 128]⟩
abbrev S1x128 : Shape := ⟨2, ![1, 128]⟩
abbrev S128 : Shape := ⟨1, ![128]⟩

abbrev nBuf : Space → Nat
  | .hbm => 259
  | .vmem => 72
  | .smem => 0
  | _ => 0

abbrev hbmTy0_0 (i : Nat) : BufTy := match i % 128 with
  | 0 => ⟨S50000x128, .f32⟩
  | 1 => ⟨S2x800000, .i32⟩
  | 2 => ⟨S2x200000, .i32⟩
  | 3 => ⟨S4x128x128, .f32⟩
  | 4 => ⟨S4x128, .f32⟩
  | 5 => ⟨S4x128x128, .f32⟩
  | 6 => ⟨S4x128, .f32⟩
  | 7 => ⟨S50000, .i32⟩
  | 8 => ⟨S1x800000, .i32⟩
  | 9 => ⟨S800000, .i32⟩
  | 10 => ⟨S850000, .i32⟩
  | 11 => ⟨S1x800000, .i32⟩
  | 12 => ⟨S800000, .i32⟩
  | 13 => ⟨S850000, .i32⟩
  | 14 => ⟨S_, .f32⟩
  | 15 => ⟨S850000, .f32⟩
  | 16 => ⟨S_, .f32⟩
  | 17 => ⟨S50000, .f32⟩
  | 18 => ⟨S850000x1, .i32⟩
  | 19 => ⟨S50000, .f32⟩
  | 20 => ⟨S_, .f32⟩
  | 21 => ⟨S50000, .f32⟩
  | 22 => ⟨S50000, .i1⟩
  | 23 => ⟨S50000, .f32⟩
  | 24 => ⟨S_, .f32⟩
  | 25 => ⟨S_, .f32⟩
  | 26 => ⟨S50000, .f32⟩
  | 27 => ⟨S50000, .f32⟩
  | 28 => ⟨S_, .i32⟩
  | 29 => ⟨S850000, .i32⟩
  | 30 => ⟨S850000, .i1⟩
  | 31 => ⟨S_, .i32⟩
  | 32 => ⟨S850000, .i32⟩
  | 33 => ⟨S850000, .i32⟩
  | 34 => ⟨S850000, .i32⟩
  | 35 => ⟨S850000x1, .i32⟩
  | 36 => ⟨S850000, .f32⟩
  | 37 => ⟨S_, .i32⟩
  | 38 => ⟨S850000, .i32⟩
  | 39 => ⟨S850000, .i1⟩
  | 40 => ⟨S_, .i32⟩
  | 41 => ⟨S850000, .i32⟩
  | 42 => ⟨S850000, .i32⟩
  | 43 => ⟨S850000, .i32⟩
  | 44 => ⟨S850000x1, .i32⟩
  | 45 => ⟨S850000, .f32⟩
  | 46 => ⟨S850000, .f32⟩
  | 47 => ⟨S50000, .i32⟩
  | 48 => ⟨S1x200000, .i32⟩
  | 49 => ⟨S200000, .i32⟩
  | 50 => ⟨S250000, .i32⟩
  | 51 => ⟨S1x200000, .i32⟩
  | 52 => ⟨S200000, .i32⟩
  | 53 => ⟨S250000, .i32⟩
  | 54 => ⟨S_, .f32⟩
  | 55 => ⟨S250000, .f32⟩
  | 56 => ⟨S_, .f32⟩
  | 57 => ⟨S50000, .f32⟩
  | 58 => ⟨S250000x1, .i32⟩
  | 59 => ⟨S50000, .f32⟩
  | 60 => ⟨S_, .f32⟩
  | 61 => ⟨S50000, .f32⟩
  | 62 => ⟨S50000, .i1⟩
  | 63 => ⟨S50000, .f32⟩
  | 64 => ⟨S_, .f32⟩
  | 65 => ⟨S_, .f32⟩
  | 66 => ⟨S50000, .f32⟩
  | 67 => ⟨S50000, .f32⟩
  | 68 => ⟨S_, .i32⟩
  | 69 => ⟨S250000, .i32⟩
  | 70 => ⟨S250000, .i1⟩
  | 71 => ⟨S_, .i32⟩
  | 72 => ⟨S250000, .i32⟩
  | 73 => ⟨S250000, .i32⟩
  | 74 => ⟨S250000, .i32⟩
  | 75 => ⟨S250000x1, .i32⟩
  | 76 => ⟨S250000, .f32⟩
  | 77 => ⟨S_, .i32⟩
  | 78 => ⟨S250000, .i32⟩
  | 79 => ⟨S250000, .i1⟩
  | 80 => ⟨S_, .i32⟩
  | 81 => ⟨S250000, .i32⟩
  | 82 => ⟨S250000, .i32⟩
  | 83 => ⟨S250000, .i32⟩
  | 84 => ⟨S250000x1, .i32⟩
  | 85 => ⟨S250000, .f32⟩
  | 86 => ⟨S250000, .f32⟩
  | 87 => ⟨S1x128x128, .f32⟩
  | 88 => ⟨S128x128, .f32⟩
  | 89 => ⟨S50000x128, .f32⟩
  | 90 => ⟨S1x128x128, .f32⟩
  | 91 => ⟨S128x128, .f32⟩
  | 92 => ⟨S50000x128, .f32⟩
  | 93 => ⟨S_, .i32⟩
  | 94 => ⟨S850000, .i32⟩
  | 95 => ⟨S850000, .i1⟩
  | 96 => ⟨S_, .i32⟩
  | 97 => ⟨S850000, .i32⟩
  | 98 => ⟨S850000, .i32⟩
  | 99 => ⟨S850000, .i32⟩
  | 100 => ⟨S850000x1, .i32⟩
  | 101 => ⟨S850000x128, .f32⟩
  | 102 => ⟨S850000x1, .f32⟩
  | 103 => ⟨S850000x128, .f32⟩
  | 104 => ⟨S850000x128, .f32⟩
  | 105 => ⟨S_, .f32⟩
  | 106 => ⟨S50000x128, .f32⟩
  | 107 => ⟨S850000x1, .i32⟩
  | 108 => ⟨S50000x128, .f32⟩
  | 109 => ⟨S_, .i32⟩
  | 110 => ⟨S250000, .i32⟩
  | 111 => ⟨S250000, .i1⟩
  | 112 => ⟨S_, .i32⟩
  | 113 => ⟨S250000, .i32⟩
  | 114 => ⟨S250000, .i32⟩
  | 115 => ⟨S250000, .i32⟩
  | 116 => ⟨S250000x1, .i32⟩
  | 117 => ⟨S250000x128, .f32⟩
  | 118 => ⟨S250000x1, .f32⟩
  | 119 => ⟨S250000x128, .f32⟩
  | 120 => ⟨S250000x128, .f32⟩
  | 121 => ⟨S_, .f32⟩
  | 122 => ⟨S50000x128, .f32⟩
  | 123 => ⟨S250000x1, .i32⟩
  | 124 => ⟨S50000x128, .f32⟩
  | 125 => ⟨S1x128, .f32⟩
  | 126 => ⟨S128, .f32⟩
  | 127 => ⟨S1x128, .f32⟩
  | _ => ⟨S50000x128, .f32⟩

abbrev hbmTy0_1 (i : Nat) : BufTy := match i % 128 with
  | 0 => ⟨S128, .f32⟩
  | 1 => ⟨S50000x128, .f32⟩
  | 2 => ⟨S1x128x128, .f32⟩
  | 3 => ⟨S128x128, .f32⟩
  | 4 => ⟨S50000x128, .f32⟩
  | 5 => ⟨S1x128x128, .f32⟩
  | 6 => ⟨S128x128, .f32⟩
  | 7 => ⟨S50000x128, .f32⟩
  | 8 => ⟨S_, .i32⟩
  | 9 => ⟨S850000, .i32⟩
  | 10 => ⟨S850000, .i1⟩
  | 11 => ⟨S_, .i32⟩
  | 12 => ⟨S850000, .i32⟩
  | 13 => ⟨S850000, .i32⟩
  | 14 => ⟨S850000, .i32⟩
  | 15 => ⟨S850000x1, .i32⟩
  | 16 => ⟨S850000x128, .f32⟩
  | 17 => ⟨S850000x1, .f32⟩
  | 18 => ⟨S850000x128, .f32⟩
  | 19 => ⟨S850000x128, .f32⟩
  | 20 => ⟨S_, .f32⟩
  | 21 => ⟨S50000x128, .f32⟩
  | 22 => ⟨S850000x1, .i32⟩
  | 23 => ⟨S50000x128, .f32⟩
  | 24 => ⟨S_, .i32⟩
  | 25 => ⟨S250000, .i32⟩
  | 26 => ⟨S250000, .i1⟩
  | 27 => ⟨S_, .i32⟩
  | 28 => ⟨S250000, .i32⟩
  | 29 => ⟨S250000, .i32⟩
  | 30 => ⟨S250000, .i32⟩
  | 31 => ⟨S250000x1, .i32⟩
  | 32 => ⟨S250000x128, .f32⟩
  | 33 => ⟨S250000x1, .f32⟩
  | 34 => ⟨S250000x128, .f32⟩
  | 35 => ⟨S250000x128, .f32⟩
  | 36 => ⟨S_, .f32⟩
  | 37 => ⟨S50000x128, .f32⟩
  | 38 => ⟨S250000x1, .i32⟩
  | 39 => ⟨S50000x128, .f32⟩
  | 40 => ⟨S1x128, .f32⟩
  | 41 => ⟨S128, .f32⟩
  | 42 => ⟨S1x128, .f32⟩
  | 43 => ⟨S128, .f32⟩
  | 44 => ⟨S50000x128, .f32⟩
  | 45 => ⟨S1x128x128, .f32⟩
  | 46 => ⟨S128x128, .f32⟩
  | 47 => ⟨S50000x128, .f32⟩
  | 48 => ⟨S1x128x128, .f32⟩
  | 49 => ⟨S128x128, .f32⟩
  | 50 => ⟨S50000x128, .f32⟩
  | 51 => ⟨S_, .i32⟩
  | 52 => ⟨S850000, .i32⟩
  | 53 => ⟨S850000, .i1⟩
  | 54 => ⟨S_, .i32⟩
  | 55 => ⟨S850000, .i32⟩
  | 56 => ⟨S850000, .i32⟩
  | 57 => ⟨S850000, .i32⟩
  | 58 => ⟨S850000x1, .i32⟩
  | 59 => ⟨S850000x128, .f32⟩
  | 60 => ⟨S850000x1, .f32⟩
  | 61 => ⟨S850000x128, .f32⟩
  | 62 => ⟨S850000x128, .f32⟩
  | 63 => ⟨S_, .f32⟩
  | 64 => ⟨S50000x128, .f32⟩
  | 65 => ⟨S850000x1, .i32⟩
  | 66 => ⟨S50000x128, .f32⟩
  | 67 => ⟨S_, .i32⟩
  | 68 => ⟨S250000, .i32⟩
  | 69 => ⟨S250000, .i1⟩
  | 70 => ⟨S_, .i32⟩
  | 71 => ⟨S250000, .i32⟩
  | 72 => ⟨S250000, .i32⟩
  | 73 => ⟨S250000, .i32⟩
  | 74 => ⟨S250000x1, .i32⟩
  | 75 => ⟨S250000x128, .f32⟩
  | 76 => ⟨S250000x1, .f32⟩
  | 77 => ⟨S250000x128, .f32⟩
  | 78 => ⟨S250000x128, .f32⟩
  | 79 => ⟨S_, .f32⟩
  | 80 => ⟨S50000x128, .f32⟩
  | 81 => ⟨S250000x1, .i32⟩
  | 82 => ⟨S50000x128, .f32⟩
  | 83 => ⟨S1x128, .f32⟩
  | 84 => ⟨S128, .f32⟩
  | 85 => ⟨S1x128, .f32⟩
  | 86 => ⟨S128, .f32⟩
  | 87 => ⟨S50000x128, .f32⟩
  | 88 => ⟨S1x128x128, .f32⟩
  | 89 => ⟨S128x128, .f32⟩
  | 90 => ⟨S50000x128, .f32⟩
  | 91 => ⟨S1x128x128, .f32⟩
  | 92 => ⟨S128x128, .f32⟩
  | 93 => ⟨S50000x128, .f32⟩
  | 94 => ⟨S_, .i32⟩
  | 95 => ⟨S850000, .i32⟩
  | 96 => ⟨S850000, .i1⟩
  | 97 => ⟨S_, .i32⟩
  | 98 => ⟨S850000, .i32⟩
  | 99 => ⟨S850000, .i32⟩
  | 100 => ⟨S850000, .i32⟩
  | 101 => ⟨S850000x1, .i32⟩
  | 102 => ⟨S850000x128, .f32⟩
  | 103 => ⟨S850000x1, .f32⟩
  | 104 => ⟨S850000x128, .f32⟩
  | 105 => ⟨S850000x128, .f32⟩
  | 106 => ⟨S_, .f32⟩
  | 107 => ⟨S50000x128, .f32⟩
  | 108 => ⟨S850000x1, .i32⟩
  | 109 => ⟨S50000x128, .f32⟩
  | 110 => ⟨S_, .i32⟩
  | 111 => ⟨S250000, .i32⟩
  | 112 => ⟨S250000, .i1⟩
  | 113 => ⟨S_, .i32⟩
  | 114 => ⟨S250000, .i32⟩
  | 115 => ⟨S250000, .i32⟩
  | 116 => ⟨S250000, .i32⟩
  | 117 => ⟨S250000x1, .i32⟩
  | 118 => ⟨S250000x128, .f32⟩
  | 119 => ⟨S250000x1, .f32⟩
  | 120 => ⟨S250000x128, .f32⟩
  | 121 => ⟨S250000x128, .f32⟩
  | 122 => ⟨S_, .f32⟩
  | 123 => ⟨S50000x128, .f32⟩
  | 124 => ⟨S250000x1, .i32⟩
  | 125 => ⟨S50000x128, .f32⟩
  | 126 => ⟨S1x128, .f32⟩
  | 127 => ⟨S128, .f32⟩
  | _ => ⟨S50000x128, .f32⟩

abbrev hbmTy0_2 (i : Nat) : BufTy := match i % 128 with
  | 0 => ⟨S1x128, .f32⟩
  | 1 => ⟨S128, .f32⟩
  | 2 => ⟨S50000x128, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S128, .f32⟩
  | .local _ .vmem, ⟨15, _⟩ => ⟨S128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S128x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S128x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S128, .f32⟩
  | .local _ .vmem, ⟨33, _⟩ => ⟨S128, .f32⟩
  | .local _ .vmem, ⟨34, _⟩ => ⟨S5000x128, .f32⟩
  | .local _ .vmem, ⟨35, _⟩ => ⟨S5000x128, .f32⟩
  | .local _ .vmem, ⟨36, _⟩ => ⟨S5000x128, .f32⟩
  | .local _ .vmem, ⟨37, _⟩ => ⟨S5000x128, .f32⟩
  | .local _ .vmem, ⟨38, _⟩ => ⟨S128x128, .f32⟩
  | .local _ .vmem, ⟨39, _⟩ => ⟨S5000x128, .f32⟩
  | .local _ .vmem, ⟨40, _⟩ => ⟨S5000x128, .f32⟩
  | .local _ .vmem, ⟨41, _⟩ => ⟨S5000x128, .f32⟩
  | .local _ .vmem, ⟨42, _⟩ => ⟨S5000x128, .f32⟩
  | .local _ .vmem, ⟨43, _⟩ => ⟨S128x128, .f32⟩
  | .local _ .vmem, ⟨44, _⟩ => ⟨S5000x128, .f32⟩
  | .local _ .vmem, ⟨45, _⟩ => ⟨S5000x128, .f32⟩
  | .local _ .vmem, ⟨46, _⟩ => ⟨S5000x128, .f32⟩
  | .local _ .vmem, ⟨47, _⟩ => ⟨S5000x128, .f32⟩
  | .local _ .vmem, ⟨48, _⟩ => ⟨S5000x128, .f32⟩
  | .local _ .vmem, ⟨49, _⟩ => ⟨S5000x128, .f32⟩
  | .local _ .vmem, ⟨50, _⟩ => ⟨S128, .f32⟩
  | .local _ .vmem, ⟨51, _⟩ => ⟨S128, .f32⟩
  | .local _ .vmem, ⟨52, _⟩ => ⟨S5000x128, .f32⟩
  | .local _ .vmem, ⟨53, _⟩ => ⟨S5000x128, .f32⟩
  | .local _ .vmem, ⟨54, _⟩ => ⟨S5000x128, .f32⟩
  | .local _ .vmem, ⟨55, _⟩ => ⟨S5000x128, .f32⟩
  | .local _ .vmem, ⟨56, _⟩ => ⟨S128x128, .f32⟩
  | .local _ .vmem, ⟨57, _⟩ => ⟨S5000x128, .f32⟩
  | .local _ .vmem, ⟨58, _⟩ => ⟨S5000x128, .f32⟩
  | .local _ .vmem, ⟨59, _⟩ => ⟨S5000x128, .f32⟩
  | .local _ .vmem, ⟨60, _⟩ => ⟨S5000x128, .f32⟩
  | .local _ .vmem, ⟨61, _⟩ => ⟨S128x128, .f32⟩
  | .local _ .vmem, ⟨62, _⟩ => ⟨S5000x128, .f32⟩
  | .local _ .vmem, ⟨63, _⟩ => ⟨S5000x128, .f32⟩
  | .local _ .vmem, ⟨64, _⟩ => ⟨S5000x128, .f32⟩
  | .local _ .vmem, ⟨65, _⟩ => ⟨S5000x128, .f32⟩
  | .local _ .vmem, ⟨66, _⟩ => ⟨S5000x128, .f32⟩
  | .local _ .vmem, ⟨67, _⟩ => ⟨S5000x128, .f32⟩
  | .local _ .vmem, ⟨68, _⟩ => ⟨S128, .f32⟩
  | .local _ .vmem, ⟨69, _⟩ => ⟨S128, .f32⟩
  | .local _ .vmem, ⟨70, _⟩ => ⟨S5000x128, .f32⟩
  | .local _ .vmem, ⟨71, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | _, _ => false

abbrev semScoped : Fin 0 → Bool
  | ⟨_, h⟩ => absurd h (Nat.not_lt_zero _)

abbrev dmaSemScoped : Fin 72 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | _ => false

abbrev sig : RefSig :=
  ofTc nBuf bufTy 0 72 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v14 : Ref sig .tc := ⟨.hbm, 27, rfl⟩
abbrev main_c : Ref sig .tc := ⟨.hbm, 28, rfl⟩
abbrev main_v15 : Ref sig .tc := ⟨.hbm, 29, rfl⟩
abbrev main_v16 : Ref sig .tc := ⟨.hbm, 30, rfl⟩
abbrev main_c_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_4 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_6 : Ref sig .tc := ⟨.hbm, 54, rfl⟩
abbrev main_v37 : Ref sig .tc := ⟨.hbm, 55, rfl⟩
abbrev main_cst_7 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_8 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_9 : Ref sig .tc := ⟨.hbm, 64, rfl⟩
abbrev main_call1_v0 : Ref sig .tc := ⟨.hbm, 65, rfl⟩
abbrev main_call1_v1 : Ref sig .tc := ⟨.hbm, 66, rfl⟩
abbrev main_v44 : Ref sig .tc := ⟨.hbm, 67, rfl⟩
abbrev main_c_10 : Ref sig .tc := ⟨.hbm, 68, rfl⟩
abbrev main_v45 : Ref sig .tc := ⟨.hbm, 69, rfl⟩
abbrev main_v46 : Ref sig .tc := ⟨.hbm, 70, rfl⟩
abbrev main_c_11 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_c_12 : Ref sig .tc := ⟨.hbm, 77, rfl⟩
abbrev main_v52 : Ref sig .tc := ⟨.hbm, 78, rfl⟩
abbrev main_v53 : Ref sig .tc := ⟨.hbm, 79, rfl⟩
abbrev main_c_13 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_c_14 : Ref sig .tc := ⟨.hbm, 93, rfl⟩
abbrev main_v66 : Ref sig .tc := ⟨.hbm, 94, rfl⟩
abbrev main_v67 : Ref sig .tc := ⟨.hbm, 95, rfl⟩
abbrev main_c_15 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_cst_16 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_c_17 : Ref sig .tc := ⟨.hbm, 109, rfl⟩
abbrev main_v79 : Ref sig .tc := ⟨.hbm, 110, rfl⟩
abbrev main_v80 : Ref sig .tc := ⟨.hbm, 111, rfl⟩
abbrev main_c_18 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_cst_19 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_c_20 : Ref sig .tc := ⟨.hbm, 136, rfl⟩
abbrev main_v103 : Ref sig .tc := ⟨.hbm, 137, rfl⟩
abbrev main_v104 : Ref sig .tc := ⟨.hbm, 138, rfl⟩
abbrev main_c_21 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_cst_22 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_c_23 : Ref sig .tc := ⟨.hbm, 152, rfl⟩
abbrev main_v116 : Ref sig .tc := ⟨.hbm, 153, rfl⟩
abbrev main_v117 : Ref sig .tc := ⟨.hbm, 154, rfl⟩
abbrev main_c_24 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_cst_25 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_v130 : Ref sig .tc := ⟨.hbm, 169, rfl⟩
abbrev main_v131 : Ref sig .tc := ⟨.hbm, 170, rfl⟩
abbrev main_v132 : Ref sig .tc := ⟨.hbm, 171, rfl⟩
abbrev main_v133 : Ref sig .tc := ⟨.hbm, 172, rfl⟩
abbrev main_v134 : Ref sig .tc := ⟨.hbm, 173, rfl⟩
abbrev main_v135 : Ref sig .tc := ⟨.hbm, 174, rfl⟩
abbrev main_v136 : Ref sig .tc := ⟨.hbm, 175, rfl⟩
abbrev main_v137 : Ref sig .tc := ⟨.hbm, 176, rfl⟩
abbrev main_v138 : Ref sig .tc := ⟨.hbm, 177, rfl⟩
abbrev main_v139 : Ref sig .tc := ⟨.hbm, 178, rfl⟩
abbrev main_c_26 : Ref sig .tc := ⟨.hbm, 179, rfl⟩
abbrev main_v140 : Ref sig .tc := ⟨.hbm, 180, rfl⟩
abbrev main_v141 : Ref sig .tc := ⟨.hbm, 181, rfl⟩
abbrev main_c_27 : Ref sig .tc := ⟨.hbm, 182, rfl⟩
abbrev main_v142 : Ref sig .tc := ⟨.hbm, 183, rfl⟩
abbrev main_v143 : Ref sig .tc := ⟨.hbm, 184, rfl⟩
abbrev main_v144 : Ref sig .tc := ⟨.hbm, 185, rfl⟩
abbrev main_v145 : Ref sig .tc := ⟨.hbm, 186, rfl⟩
abbrev main_v146 : Ref sig .tc := ⟨.hbm, 187, rfl⟩
abbrev main_v147 : Ref sig .tc := ⟨.hbm, 188, rfl⟩
abbrev main_v148 : Ref sig .tc := ⟨.hbm, 189, rfl⟩
abbrev main_v149 : Ref sig .tc := ⟨.hbm, 190, rfl⟩
abbrev main_cst_28 : Ref sig .tc := ⟨.hbm, 191, rfl⟩
abbrev main_v150 : Ref sig .tc := ⟨.hbm, 192, rfl⟩
abbrev main_v151 : Ref sig .tc := ⟨.hbm, 193, rfl⟩
abbrev main_v152 : Ref sig .tc := ⟨.hbm, 194, rfl⟩
abbrev main_c_29 : Ref sig .tc := ⟨.hbm, 195, rfl⟩
abbrev main_v153 : Ref sig .tc := ⟨.hbm, 196, rfl⟩
abbrev main_v154 : Ref sig .tc := ⟨.hbm, 197, rfl⟩
abbrev main_c_30 : Ref sig .tc := ⟨.hbm, 198, rfl⟩
abbrev main_v155 : Ref sig .tc := ⟨.hbm, 199, rfl⟩
abbrev main_v156 : Ref sig .tc := ⟨.hbm, 200, rfl⟩
abbrev main_v157 : Ref sig .tc := ⟨.hbm, 201, rfl⟩
abbrev main_v158 : Ref sig .tc := ⟨.hbm, 202, rfl⟩
abbrev main_v159 : Ref sig .tc := ⟨.hbm, 203, rfl⟩
abbrev main_v160 : Ref sig .tc := ⟨.hbm, 204, rfl⟩
abbrev main_v161 : Ref sig .tc := ⟨.hbm, 205, rfl⟩
abbrev main_v162 : Ref sig .tc := ⟨.hbm, 206, rfl⟩
abbrev main_cst_31 : Ref sig .tc := ⟨.hbm, 207, rfl⟩
abbrev main_v163 : Ref sig .tc := ⟨.hbm, 208, rfl⟩
abbrev main_v164 : Ref sig .tc := ⟨.hbm, 209, rfl⟩
abbrev main_v165 : Ref sig .tc := ⟨.hbm, 210, rfl⟩
abbrev main_v166 : Ref sig .tc := ⟨.hbm, 211, rfl⟩
abbrev main_v167 : Ref sig .tc := ⟨.hbm, 212, rfl⟩
abbrev main_v168 : Ref sig .tc := ⟨.hbm, 213, rfl⟩
abbrev main_v169 : Ref sig .tc := ⟨.hbm, 214, rfl⟩
abbrev main_v170 : Ref sig .tc := ⟨.hbm, 215, rfl⟩
abbrev main_v171 : Ref sig .tc := ⟨.hbm, 216, rfl⟩
abbrev main_v172 : Ref sig .tc := ⟨.hbm, 217, rfl⟩
abbrev main_v173 : Ref sig .tc := ⟨.hbm, 218, rfl⟩
abbrev main_v174 : Ref sig .tc := ⟨.hbm, 219, rfl⟩
abbrev main_v175 : Ref sig .tc := ⟨.hbm, 220, rfl⟩
abbrev main_v176 : Ref sig .tc := ⟨.hbm, 221, rfl⟩
abbrev main_c_32 : Ref sig .tc := ⟨.hbm, 222, rfl⟩
abbrev main_v177 : Ref sig .tc := ⟨.hbm, 223, rfl⟩
abbrev main_v178 : Ref sig .tc := ⟨.hbm, 224, rfl⟩
abbrev main_c_33 : Ref sig .tc := ⟨.hbm, 225, rfl⟩
abbrev main_v179 : Ref sig .tc := ⟨.hbm, 226, rfl⟩
abbrev main_v180 : Ref sig .tc := ⟨.hbm, 227, rfl⟩
abbrev main_v181 : Ref sig .tc := ⟨.hbm, 228, rfl⟩
abbrev main_v182 : Ref sig .tc := ⟨.hbm, 229, rfl⟩
abbrev main_v183 : Ref sig .tc := ⟨.hbm, 230, rfl⟩
abbrev main_v184 : Ref sig .tc := ⟨.hbm, 231, rfl⟩
abbrev main_v185 : Ref sig .tc := ⟨.hbm, 232, rfl⟩
abbrev main_v186 : Ref sig .tc := ⟨.hbm, 233, rfl⟩
abbrev main_cst_34 : Ref sig .tc := ⟨.hbm, 234, rfl⟩
abbrev main_v187 : Ref sig .tc := ⟨.hbm, 235, rfl⟩
abbrev main_v188 : Ref sig .tc := ⟨.hbm, 236, rfl⟩
abbrev main_v189 : Ref sig .tc := ⟨.hbm, 237, rfl⟩
abbrev main_c_35 : Ref sig .tc := ⟨.hbm, 238, rfl⟩
abbrev main_v190 : Ref sig .tc := ⟨.hbm, 239, rfl⟩
abbrev main_v191 : Ref sig .tc := ⟨.hbm, 240, rfl⟩
abbrev main_c_36 : Ref sig .tc := ⟨.hbm, 241, rfl⟩
abbrev main_v192 : Ref sig .tc := ⟨.hbm, 242, rfl⟩
abbrev main_v193 : Ref sig .tc := ⟨.hbm, 243, rfl⟩
abbrev main_v194 : Ref sig .tc := ⟨.hbm, 244, rfl⟩
abbrev main_v195 : Ref sig .tc := ⟨.hbm, 245, rfl⟩
abbrev main_v196 : Ref sig .tc := ⟨.hbm, 246, rfl⟩
abbrev main_v197 : Ref sig .tc := ⟨.hbm, 247, rfl⟩
abbrev main_v198 : Ref sig .tc := ⟨.hbm, 248, rfl⟩
abbrev main_v199 : Ref sig .tc := ⟨.hbm, 249, rfl⟩
abbrev main_cst_37 : Ref sig .tc := ⟨.hbm, 250, rfl⟩
abbrev main_v200 : Ref sig .tc := ⟨.hbm, 251, rfl⟩
abbrev main_v201 : Ref sig .tc := ⟨.hbm, 252, rfl⟩
abbrev main_v202 : Ref sig .tc := ⟨.hbm, 253, rfl⟩
abbrev main_v203 : Ref sig .tc := ⟨.hbm, 254, rfl⟩
abbrev main_v204 : Ref sig .tc := ⟨.hbm, 255, rfl⟩
abbrev main_v205 : Ref sig .tc := ⟨.hbm, 256, rfl⟩
abbrev main_v206 : Ref sig .tc := ⟨.hbm, 257, rfl⟩
abbrev main_v207 : Ref sig .tc := ⟨.hbm, 258, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg4_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg2_1 : Ref sig .tc := ⟨.vmem, 22, rfl⟩
abbrev cc4_stg0_0 : Ref sig .tc := ⟨.vmem, 23, rfl⟩
abbrev cc4_stg0_1 : Ref sig .tc := ⟨.vmem, 24, rfl⟩
abbrev cc4_stg1_0 : Ref sig .tc := ⟨.vmem, 25, rfl⟩
abbrev cc4_stg2_0 : Ref sig .tc := ⟨.vmem, 26, rfl⟩
abbrev cc4_stg2_1 : Ref sig .tc := ⟨.vmem, 27, rfl⟩
abbrev cc5_stg0_0 : Ref sig .tc := ⟨.vmem, 28, rfl⟩
abbrev cc5_stg0_1 : Ref sig .tc := ⟨.vmem, 29, rfl⟩
abbrev cc5_stg1_0 : Ref sig .tc := ⟨.vmem, 30, rfl⟩
abbrev cc5_stg1_1 : Ref sig .tc := ⟨.vmem, 31, rfl⟩
abbrev cc5_stg2_0 : Ref sig .tc := ⟨.vmem, 32, rfl⟩
abbrev cc5_stg3_0 : Ref sig .tc := ⟨.vmem, 33, rfl⟩
abbrev cc5_stg4_0 : Ref sig .tc := ⟨.vmem, 34, rfl⟩
abbrev cc5_stg4_1 : Ref sig .tc := ⟨.vmem, 35, rfl⟩
abbrev cc6_stg0_0 : Ref sig .tc := ⟨.vmem, 36, rfl⟩
abbrev cc6_stg0_1 : Ref sig .tc := ⟨.vmem, 37, rfl⟩
abbrev cc6_stg1_0 : Ref sig .tc := ⟨.vmem, 38, rfl⟩
abbrev cc6_stg2_0 : Ref sig .tc := ⟨.vmem, 39, rfl⟩
abbrev cc6_stg2_1 : Ref sig .tc := ⟨.vmem, 40, rfl⟩
abbrev cc7_stg0_0 : Ref sig .tc := ⟨.vmem, 41, rfl⟩
abbrev cc7_stg0_1 : Ref sig .tc := ⟨.vmem, 42, rfl⟩
abbrev cc7_stg1_0 : Ref sig .tc := ⟨.vmem, 43, rfl⟩
abbrev cc7_stg2_0 : Ref sig .tc := ⟨.vmem, 44, rfl⟩
abbrev cc7_stg2_1 : Ref sig .tc := ⟨.vmem, 45, rfl⟩
abbrev cc8_stg0_0 : Ref sig .tc := ⟨.vmem, 46, rfl⟩
abbrev cc8_stg0_1 : Ref sig .tc := ⟨.vmem, 47, rfl⟩
abbrev cc8_stg1_0 : Ref sig .tc := ⟨.vmem, 48, rfl⟩
abbrev cc8_stg1_1 : Ref sig .tc := ⟨.vmem, 49, rfl⟩
abbrev cc8_stg2_0 : Ref sig .tc := ⟨.vmem, 50, rfl⟩
abbrev cc8_stg3_0 : Ref sig .tc := ⟨.vmem, 51, rfl⟩
abbrev cc8_stg4_0 : Ref sig .tc := ⟨.vmem, 52, rfl⟩
abbrev cc8_stg4_1 : Ref sig .tc := ⟨.vmem, 53, rfl⟩
abbrev cc9_stg0_0 : Ref sig .tc := ⟨.vmem, 54, rfl⟩
abbrev cc9_stg0_1 : Ref sig .tc := ⟨.vmem, 55, rfl⟩
abbrev cc9_stg1_0 : Ref sig .tc := ⟨.vmem, 56, rfl⟩
abbrev cc9_stg2_0 : Ref sig .tc := ⟨.vmem, 57, rfl⟩
abbrev cc9_stg2_1 : Ref sig .tc := ⟨.vmem, 58, rfl⟩
abbrev cc10_stg0_0 : Ref sig .tc := ⟨.vmem, 59, rfl⟩
abbrev cc10_stg0_1 : Ref sig .tc := ⟨.vmem, 60, rfl⟩
abbrev cc10_stg1_0 : Ref sig .tc := ⟨.vmem, 61, rfl⟩
abbrev cc10_stg2_0 : Ref sig .tc := ⟨.vmem, 62, rfl⟩
abbrev cc10_stg2_1 : Ref sig .tc := ⟨.vmem, 63, rfl⟩
abbrev cc11_stg0_0 : Ref sig .tc := ⟨.vmem, 64, rfl⟩
abbrev cc11_stg0_1 : Ref sig .tc := ⟨.vmem, 65, rfl⟩
abbrev cc11_stg1_0 : Ref sig .tc := ⟨.vmem, 66, rfl⟩
abbrev cc11_stg1_1 : Ref sig .tc := ⟨.vmem, 67, rfl⟩
abbrev cc11_stg2_0 : Ref sig .tc := ⟨.vmem, 68, rfl⟩
abbrev cc11_stg3_0 : Ref sig .tc := ⟨.vmem, 69, rfl⟩
abbrev cc11_stg4_0 : Ref sig .tc := ⟨.vmem, 70, rfl⟩
abbrev cc11_stg4_1 : Ref sig .tc := ⟨.vmem, 71, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem3_0 : DmaSem sig := 15
abbrev cc2_sem4_0 : DmaSem sig := 16
abbrev cc2_sem4_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem2_1 : DmaSem sig := 22
abbrev cc4_sem0_0 : DmaSem sig := 23
abbrev cc4_sem0_1 : DmaSem sig := 24
abbrev cc4_sem1_0 : DmaSem sig := 25
abbrev cc4_sem2_0 : DmaSem sig := 26
abbrev cc4_sem2_1 : DmaSem sig := 27
abbrev cc5_sem0_0 : DmaSem sig := 28
abbrev cc5_sem0_1 : DmaSem sig := 29
abbrev cc5_sem1_0 : DmaSem sig := 30
abbrev cc5_sem1_1 : DmaSem sig := 31
abbrev cc5_sem2_0 : DmaSem sig := 32
abbrev cc5_sem3_0 : DmaSem sig := 33
abbrev cc5_sem4_0 : DmaSem sig := 34
abbrev cc5_sem4_1 : DmaSem sig := 35
abbrev cc6_sem0_0 : DmaSem sig := 36
abbrev cc6_sem0_1 : DmaSem sig := 37
abbrev cc6_sem1_0 : DmaSem sig := 38
abbrev cc6_sem2_0 : DmaSem sig := 39
abbrev cc6_sem2_1 : DmaSem sig := 40
abbrev cc7_sem0_0 : DmaSem sig := 41
abbrev cc7_sem0_1 : DmaSem sig := 42
abbrev cc7_sem1_0 : DmaSem sig := 43
abbrev cc7_sem2_0 : DmaSem sig := 44
abbrev cc7_sem2_1 : DmaSem sig := 45
abbrev cc8_sem0_0 : DmaSem sig := 46
abbrev cc8_sem0_1 : DmaSem sig := 47
abbrev cc8_sem1_0 : DmaSem sig := 48
abbrev cc8_sem1_1 : DmaSem sig := 49
abbrev cc8_sem2_0 : DmaSem sig := 50
abbrev cc8_sem3_0 : DmaSem sig := 51
abbrev cc8_sem4_0 : DmaSem sig := 52
abbrev cc8_sem4_1 : DmaSem sig := 53
abbrev cc9_sem0_0 : DmaSem sig := 54
abbrev cc9_sem0_1 : DmaSem sig := 55
abbrev cc9_sem1_0 : DmaSem sig := 56
abbrev cc9_sem2_0 : DmaSem sig := 57
abbrev cc9_sem2_1 : DmaSem sig := 58
abbrev cc10_sem0_0 : DmaSem sig := 59
abbrev cc10_sem0_1 : DmaSem sig := 60
abbrev cc10_sem1_0 : DmaSem sig := 61
abbrev cc10_sem2_0 : DmaSem sig := 62
abbrev cc10_sem2_1 : DmaSem sig := 63
abbrev cc11_sem0_0 : DmaSem sig := 64
abbrev cc11_sem0_1 : DmaSem sig := 65
abbrev cc11_sem1_0 : DmaSem sig := 66
abbrev cc11_sem1_1 : DmaSem sig := 67
abbrev cc11_sem2_0 : DmaSem sig := 68
abbrev cc11_sem3_0 : DmaSem sig := 69
abbrev cc11_sem4_0 : DmaSem sig := 70
abbrev cc11_sem4_1 : DmaSem sig := 71

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_3 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S5000x128 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S5000x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S128x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S5000x128 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 1 → Nat :=
  let arg0 : BitVec 32 := BitVec.ofNat 32 (i 0).val
  let c0_i32 : BitVec 32 := 0#32
  let c0_i32_0 : BitVec 32 := 0#32
  ![c0_i32.toNat]

def cc8_transform_3 (i : grid8.Coords) : Fin 1 → Nat :=
  let arg0 : BitVec 32 := BitVec.ofNat 32 (i 0).val
  let c0_i32 : BitVec 32 := 0#32
  let c0_i32_0 : BitVec 32 := 0#32
  ![c0_i32.toNat]

def cc8_transform_4 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S5000x128 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 1 → Memref sig .tc .vmem S128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S128 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 2 → Memref sig .tc .vmem S5000x128 .f32 := fun | 0 => Memref.whole cc8_stg4_0 | 1 => Memref.whole cc8_stg4_1 | ⟨_ + 2, h⟩ => absurd h (Nat.not_lt.2 (Nat.le_add_left _ _))
abbrev sem8_4 : Fin 2 → DmaSem sig := fun | 0 => cc8_sem4_0 | 1 => cc8_sem4_1 | ⟨_ + 2, h⟩ => absurd h (Nat.not_lt.2 (Nat.le_add_left _ _))
abbrev reads8_4 : Fin grid8.rank → Bool := ![true]

abbrev grid9 : Pipeline.Grid := ⟨1, ![10], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S5000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S128x128 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 2 → Memref sig .tc .vmem S5000x128 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev grid10 : Pipeline.Grid := ⟨1, ![10], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S5000x128 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S128x128 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 2 → Memref sig .tc .vmem S5000x128 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true]

abbrev grid11 : Pipeline.Grid := ⟨1, ![10], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_2 (i : grid11.Coords) : Fin 1 → Nat :=
  let arg0 : BitVec 32 := BitVec.ofNat 32 (i 0).val
  let c0_i32 : BitVec 32 := 0#32
  let c0_i32_0 : BitVec 32 := 0#32
  ![c0_i32.toNat]

def cc11_transform_3 (i : grid11.Coords) : Fin 1 → Nat :=
  let arg0 : BitVec 32 := BitVec.ofNat 32 (i 0).val
  let c0_i32 : BitVec 32 := 0#32
  let c0_i32_0 : BitVec 32 := 0#32
  ![c0_i32.toNat]

def cc11_transform_4 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S5000x128 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 2 → Memref sig .tc .vmem S5000x128 .f32 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![true]

abbrev stage11_2 : Fin 1 → Memref sig .tc .vmem S128 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 1 → Memref sig .tc .vmem S128 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false]

abbrev stage11_4 : Fin 2 → Memref sig .tc .vmem S5000x128 .f32 := fun | 0 => Memref.whole cc11_stg4_0 | 1 => Memref.whole cc11_stg4_1 | ⟨_ + 2, h⟩ => absurd h (Nat.not_lt.2 (Nat.le_add_left _ _))
abbrev sem11_4 : Fin 2 → DmaSem sig := fun | 0 => cc11_sem4_0 | 1 => cc11_sem4_1 | ⟨_ + 2, h⟩ => absurd h (Nat.not_lt.2 (Nat.le_add_left _ _))
abbrev reads11_4 : Fin grid11.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  slices_S2x200000_S1x200000_0_0 : S2x200000.Slices ![0, 0] S1x200000
  shapeCasts_S1x200000_S200000 : S1x200000.ShapeCasts S200000
  concatenates_S200000_S50000_S250000_d0 : Shape.Concatenates [S200000, S50000] S250000 0
  slices_S2x200000_S1x200000_1_0 : S2x200000.Slices ![1, 0] S1x200000
  bcast_S_S250000 : S_.BroadcastsInDim S250000 (![] : Fin 0 → Fin S250000.rank)
  bcast_S250000_S250000x1_0 : S250000.BroadcastsInDim S250000x1 (![0] : Fin 1 → Fin S250000x1.rank)
  slices_S4x128x128_S1x128x128_0_0_0 : S4x128x128.Slices ![0, 0, 0] S1x128x128
  shapeCasts_S1x128x128_S128x128 : S1x128x128.ShapeCasts S128x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S250000x1_S250000x128_0_1 : S250000x1.BroadcastsInDim S250000x128 (![0, 1] : Fin 2 → Fin S250000x128.rank)
  slices_S4x128_S1x128_0_0 : S4x128.Slices ![0, 0] S1x128
  shapeCasts_S1x128_S128 : S1x128.ShapeCasts S128
  shapeCasts_S5000x128_S5000x128 : S5000x128.ShapeCasts S5000x128
  inb_S128_S128_0 : ∀ a, (![0] : Fin 1 → Nat) a + S128.size a ≤ S128.size a
  h_S128 : 0 < S128.numel
  shapeCasts_S128_S128 : S128.ShapeCasts S128
  shapeCasts_S128_S1x128 : S128.ShapeCasts S1x128
  broadcasts_S1x128_S5000x128 : S1x128.Broadcasts S5000x128
  slices_S4x128x128_S1x128x128_1_0_0 : S4x128x128.Slices ![1, 0, 0] S1x128x128
  slices_S4x128_S1x128_1_0 : S4x128.Slices ![1, 0] S1x128
  slices_S4x128x128_S1x128x128_2_0_0 : S4x128x128.Slices ![2, 0, 0] S1x128x128
  slices_S4x128_S1x128_2_0 : S4x128.Slices ![2, 0] S1x128
  slices_S4x128x128_S1x128x128_3_0_0 : S4x128x128.Slices ![3, 0, 0] S1x128x128
  slices_S4x128_S1x128_3_0 : S4x128.Slices ![3, 0] S1x128
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  scatter_S50000_S250000x1_S250000_n_0_0_1_wf : ScatterDims.WF S50000 S250000x1 S250000 [] [0] [0] 1
  gather_S50000_S250000x1_S250000_n_0_n_n_0_1_1_wf : GatherDims.WF S50000 S250000x1 S250000 [] [0] [] [0] [] 1 ![1]
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  gather_S50000x128_S250000x1_S250000x128_1_0_n_n_0_1_1128_wf : GatherDims.WF S50000x128 S250000x1 S250000x128 [1] [0] [] [0] [] 1 ![1, 128]
  scatter_S50000x128_S250000x1_S250000x128_1_0_0_1_wf : ScatterDims.WF S50000x128 S250000x1 S250000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128.size a ≤ S128.size a
  hwx2_2 : ∀ i : grid2.Coords, EltTy.bits .f32 = 32 ∨ (Rect.block (s := S128) S128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128.size a ≤ S128.size a
  hwx2_3 : ∀ i : grid2.Coords, EltTy.bits .f32 = 32 ∨ (Rect.block (s := S128) S128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x128.size a ≤ S50000x128.size a
  hwx2_4 : ∀ i : grid2.Coords, EltTy.bits .f32 = 32 ∨ (Rect.block (s := S50000x128) S5000x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S50000x128.size a
  hwx3_2 : ∀ i : grid3.Coords, EltTy.bits .f32 = 32 ∨ (Rect.block (s := S50000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S50000x128.size a
  hwx4_2 : ∀ i : grid4.Coords, EltTy.bits .f32 = 32 ∨ (Rect.block (s := S50000x128) S5000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x128.size a ≤ S50000x128.size a
  hwx5_1 : ∀ i : grid5.Coords, EltTy.bits .f32 = 32 ∨ (Rect.block (s := S50000x128) S5000x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128.size a ≤ S128.size a
  hwx5_2 : ∀ i : grid5.Coords, EltTy.bits .f32 = 32 ∨ (Rect.block (s := S128) S128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128.size a ≤ S128.size a
  hwx5_3 : ∀ i : grid5.Coords, EltTy.bits .f32 = 32 ∨ (Rect.block (s := S128) S128.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S5000x128.size a ≤ S50000x128.size a
  hwx5_4 : ∀ i : grid5.Coords, EltTy.bits .f32 = 32 ∨ (Rect.block (s := S50000x128) S5000x128.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S50000x128.size a
  hwx6_0 : ∀ i : grid6.Coords, EltTy.bits .f32 = 32 ∨ (Rect.block (s := S50000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x128.size a ≤ S128x128.size a
  hwx6_1 : ∀ i : grid6.Coords, EltTy.bits .f32 = 32 ∨ (Rect.block (s := S128x128) S128x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x128.size a ≤ S50000x128.size a
  hwx6_2 : ∀ i : grid6.Coords, EltTy.bits .f32 = 32 ∨ (Rect.block (s := S50000x128) S5000x128.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S50000x128.size a
  hwx7_0 : ∀ i : grid7.Coords, EltTy.bits .f32 = 32 ∨ (Rect.block (s := S50000x128) S5000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S128x128.size a ≤ S128x128.size a
  hwx7_1 : ∀ i : grid7.Coords, EltTy.bits .f32 = 32 ∨ (Rect.block (s := S128x128) S128x128.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S5000x128.size a ≤ S50000x128.size a
  hwx7_2 : ∀ i : grid7.Coords, EltTy.bits .f32 = 32 ∨ (Rect.block (s := S50000x128) S5000x128.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x128.size a ≤ S50000x128.size a
  hwx8_0 : ∀ i : grid8.Coords, EltTy.bits .f32 = 32 ∨ (Rect.block (s := S50000x128) S5000x128.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S5000x128.size a ≤ S50000x128.size a
  hwx8_1 : ∀ i : grid8.Coords, EltTy.bits .f32 = 32 ∨ (Rect.block (s := S50000x128) S5000x128.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S128.size a ≤ S128.size a
  hwx8_2 : ∀ i : grid8.Coords, EltTy.bits .f32 = 32 ∨ (Rect.block (s := S128) S128.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S128.size a ≤ S128.size a
  hwx8_3 : ∀ i : grid8.Coords, EltTy.bits .f32 = 32 ∨ (Rect.block (s := S128) S128.size (cc8_transform_3 i) (hinb8_3 i)).WholeWords (EltTy.packing .f32)
  hstage8_4 : ∀ j, (stage8_4 j).IsWhole
  nbuf8_4 : grid8.bufCount reads8_4 false = 2
  hreads8_4 : ∀ i i' : grid8.Coords, (∀ a, reads8_4 a = true → i a = i' a) → cc8_transform_4 i = cc8_transform_4 i'
  hinb8_4 : ∀ (i : grid8.Coords) a, (cc8_transform_4 i a + 1) * S5000x128.size a ≤ S50000x128.size a
  hwx8_4 : ∀ i : grid8.Coords, EltTy.bits .f32 = 32 ∨ (Rect.block (s := S50000x128) S5000x128.size (cc8_transform_4 i) (hinb8_4 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x128.size a ≤ S50000x128.size a
  hwx9_0 : ∀ i : grid9.Coords, EltTy.bits .f32 = 32 ∨ (Rect.block (s := S50000x128) S5000x128.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S128x128.size a ≤ S128x128.size a
  hwx9_1 : ∀ i : grid9.Coords, EltTy.bits .f32 = 32 ∨ (Rect.block (s := S128x128) S128x128.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S5000x128.size a ≤ S50000x128.size a
  hwx9_2 : ∀ i : grid9.Coords, EltTy.bits .f32 = 32 ∨ (Rect.block (s := S50000x128) S5000x128.size (cc9_transform_2 i) (hinb9_2 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S5000x128.size a ≤ S50000x128.size a
  hwx10_0 : ∀ i : grid10.Coords, EltTy.bits .f32 = 32 ∨ (Rect.block (s := S50000x128) S5000x128.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S128x128.size a ≤ S128x128.size a
  hwx10_1 : ∀ i : grid10.Coords, EltTy.bits .f32 = 32 ∨ (Rect.block (s := S128x128) S128x128.size (cc10_transform_1 i) (hinb10_1 i)).WholeWords (EltTy.packing .f32)
  hstage10_2 : ∀ j, (stage10_2 j).IsWhole
  nbuf10_2 : grid10.bufCount reads10_2 false = 2
  hreads10_2 : ∀ i i' : grid10.Coords, (∀ a, reads10_2 a = true → i a = i' a) → cc10_transform_2 i = cc10_transform_2 i'
  hinb10_2 : ∀ (i : grid10.Coords) a, (cc10_transform_2 i a + 1) * S5000x128.size a ≤ S50000x128.size a
  hwx10_2 : ∀ i : grid10.Coords, EltTy.bits .f32 = 32 ∨ (Rect.block (s := S50000x128) S5000x128.size (cc10_transform_2 i) (hinb10_2 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S5000x128.size a ≤ S50000x128.size a
  hwx11_0 : ∀ i : grid11.Coords, EltTy.bits .f32 = 32 ∨ (Rect.block (s := S50000x128) S5000x128.size (cc11_transform_0 i) (hinb11_0 i)).WholeWords (EltTy.packing .f32)
  hstage11_1 : ∀ j, (stage11_1 j).IsWhole
  nbuf11_1 : grid11.bufCount reads11_1 false = 2
  hreads11_1 : ∀ i i' : grid11.Coords, (∀ a, reads11_1 a = true → i a = i' a) → cc11_transform_1 i = cc11_transform_1 i'
  hinb11_1 : ∀ (i : grid11.Coords) a, (cc11_transform_1 i a + 1) * S5000x128.size a ≤ S50000x128.size a
  hwx11_1 : ∀ i : grid11.Coords, EltTy.bits .f32 = 32 ∨ (Rect.block (s := S50000x128) S5000x128.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S128.size a ≤ S128.size a
  hwx11_2 : ∀ i : grid11.Coords, EltTy.bits .f32 = 32 ∨ (Rect.block (s := S128) S128.size (cc11_transform_2 i) (hinb11_2 i)).WholeWords (EltTy.packing .f32)
  hstage11_3 : ∀ j, (stage11_3 j).IsWhole
  nbuf11_3 : grid11.bufCount reads11_3 true = 1
  hreads11_3 : ∀ i i' : grid11.Coords, (∀ a, reads11_3 a = true → i a = i' a) → cc11_transform_3 i = cc11_transform_3 i'
  hinb11_3 : ∀ (i : grid11.Coords) a, (cc11_transform_3 i a + 1) * S128.size a ≤ S128.size a
  hwx11_3 : ∀ i : grid11.Coords, EltTy.bits .f32 = 32 ∨ (Rect.block (s := S128) S128.size (cc11_transform_3 i) (hinb11_3 i)).WholeWords (EltTy.packing .f32)
  hstage11_4 : ∀ j, (stage11_4 j).IsWhole
  nbuf11_4 : grid11.bufCount reads11_4 false = 2
  hreads11_4 : ∀ i i' : grid11.Coords, (∀ a, reads11_4 a = true → i a = i' a) → cc11_transform_4 i = cc11_transform_4 i'
  hinb11_4 : ∀ (i : grid11.Coords) a, (cc11_transform_4 i a + 1) * S5000x128.size a ≤ S50000x128.size a
  hwx11_4 : ∀ i : grid11.Coords, EltTy.bits .f32 = 32 ∨ (Rect.block (s := S50000x128) S5000x128.size (cc11_transform_4 i) (hinb11_4 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def scatter_S50000_S250000x1_S250000_n_0_0_1 : ScatterDims S50000 S250000x1 S250000 where
  updateWindowDims := []
  insertedWindowDims := [0]
  scatterDimsToOperandDims := [0]
  indexVectorDim := 1
  wf := scatter_S50000_S250000x1_S250000_n_0_0_1_wf
def gather_S50000_S250000x1_S250000_n_0_n_n_0_1_1 : GatherDims S50000 S250000x1 S250000 where
  offsetDims := []
  collapsedSliceDims := [0]
  operandBatchingDims := []
  startIndicesBatchingDims := []
  startIndexMap := [0]
  indexVectorDim := 1
  sliceSizes := ![1]
  wf := gather_S50000_S250000x1_S250000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def gather_S50000x128_S250000x1_S250000x128_1_0_n_n_0_1_1128 : GatherDims S50000x128 S250000x1 S250000x128 where
  offsetDims := [1]
  collapsedSliceDims := [0]
  operandBatchingDims := []
  startIndicesBatchingDims := []
  startIndexMap := [0]
  indexVectorDim := 1
  sliceSizes := ![1, 128]
  wf := gather_S50000x128_S250000x1_S250000x128_1_0_n_n_0_1_1128_wf
def scatter_S50000x128_S250000x1_S250000x128_1_0_0_1 : ScatterDims S50000x128 S250000x1 S250000x128 where
  updateWindowDims := [1]
  insertedWindowDims := [0]
  scatterDimsToOperandDims := [0]
  indexVectorDim := 1
  wf := scatter_S50000x128_S250000x1_S250000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v61) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v62) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v64) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v65) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v78) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v91) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v93) S128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v95) S128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v96) S5000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v96) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v98) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v99) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v96) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v101) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v102) S5000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v115) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v128) S5000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v130) S128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v132) S128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v133) S5000x128.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v133) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v135) S128x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v136) S5000x128.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v133) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v138) S128x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v139) S5000x128.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.ofSpec (Memref.whole main_v152) S5000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v165) S5000x128.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v167) S128.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v169) S128.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v170) S5000x128.size cc8_transform_4 reads8_4 true false 2 stage8_4 sem8_4
    hrank8 hreads8_4 hinb8_4 nbuf8_4 (Memref.isWhole_whole _) hwx8_4 hstage8_4

abbrev win8 : Fin 5 → Pipeline.Window sig grid8 := fun | 0 => win8_0 | 1 => win8_1 | 2 => win8_2 | 3 => win8_3 | 4 => win8_4 | ⟨_ + 5, h⟩ => absurd h (Nat.not_lt.2 (Nat.le_add_left _ _))
abbrev spec8 : Fin 5 → Pipeline.WinSpec sig grid8.rank := fun w => (win8 w).toWinSpec

abbrev win9_0 : Pipeline.Window sig grid9 :=
  Pipeline.Window.ofSpec (Memref.whole main_v170) S5000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v172) S128x128.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v173) S5000x128.size cc9_transform_2 reads9_2 true false 2 stage9_2 sem9_2
    hrank9 hreads9_2 hinb9_2 nbuf9_2 (Memref.isWhole_whole _) hwx9_2 hstage9_2

abbrev win9 : Fin 3 → Pipeline.Window sig grid9 := fun | 0 => win9_0 | 1 => win9_1 | 2 => win9_2 | ⟨_ + 3, h⟩ => absurd h (Nat.not_lt.2 (Nat.le_add_left _ _))
abbrev spec9 : Fin 3 → Pipeline.WinSpec sig grid9.rank := fun w => (win9 w).toWinSpec

abbrev win10_0 : Pipeline.Window sig grid10 :=
  Pipeline.Window.ofSpec (Memref.whole main_v170) S5000x128.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v175) S128x128.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v176) S5000x128.size cc10_transform_2 reads10_2 true false 2 stage10_2 sem10_2
    hrank10 hreads10_2 hinb10_2 nbuf10_2 (Memref.isWhole_whole _) hwx10_2 hstage10_2

abbrev win10 : Fin 3 → Pipeline.Window sig grid10 := fun | 0 => win10_0 | 1 => win10_1 | 2 => win10_2 | ⟨_ + 3, h⟩ => absurd h (Nat.not_lt.2 (Nat.le_add_left _ _))
abbrev spec10 : Fin 3 → Pipeline.WinSpec sig grid10.rank := fun w => (win10 w).toWinSpec

abbrev win11_0 : Pipeline.Window sig grid11 :=
  Pipeline.Window.ofSpec (Memref.whole main_v189) S5000x128.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v202) S5000x128.size cc11_transform_1 reads11_1 false false 2 stage11_1 sem11_1
    hrank11 hreads11_1 hinb11_1 nbuf11_1 (Memref.isWhole_whole _) hwx11_1 hstage11_1

abbrev win11_2 : Pipeline.Window sig grid11 :=
  Pipeline.Window.ofSpec (Memref.whole main_v204) S128.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v206) S128.size cc11_transform_3 reads11_3 false true 1 stage11_3 sem11_3
    hrank11 hreads11_3 hinb11_3 nbuf11_3 (Memref.isWhole_whole _) hwx11_3 hstage11_3

abbrev win11_4 : Pipeline.Window sig grid11 :=
  Pipeline.Window.ofSpec (Memref.whole main_v207) S5000x128.size cc11_transform_4 reads11_4 true false 2 stage11_4 sem11_4
    hrank11 hreads11_4 hinb11_4 nbuf11_4 (Memref.isWhole_whole _) hwx11_4 hstage11_4

abbrev win11 : Fin 5 → Pipeline.Window sig grid11 := fun | 0 => win11_0 | 1 => win11_1 | 2 => win11_2 | 3 => win11_3 | 4 => win11_4 | ⟨_ + 5, h⟩ => absurd h (Nat.not_lt.2 (Nat.le_add_left _ _))
abbrev spec11 : Fin 5 → Pipeline.WinSpec sig grid11.rank := fun w => (win11 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S2x200000 : Shape := ⟨2, ![2, 200000]⟩
abbrev S4x128x128 : Shape := ⟨3, ![4, 128, 128]⟩
abbrev S4x128 : Shape := ⟨2, ![4, 128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S1x200000 : Shape := ⟨2, ![1, 200000]⟩
abbrev S200000 : Shape := ⟨1, ![200000]⟩
abbrev S250000 : Shape := ⟨1, ![250000]⟩
abbrev S250000x1 : Shape := ⟨2, ![250000, 1]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S850000x128 : Shape := ⟨2, ![850000, 128]⟩
abbrev S250000x128 : Shape := ⟨2, ![250000, 128]⟩

abbrev nBuf : Space → Nat
  | .hbm => 292
  | .vmem => 0
  | .smem => 0
  | _ => 0

abbrev hbmTy0_0 (i : Nat) : BufTy := match i % 128 with
  | 0 => ⟨S50000x128, .f32⟩
  | 1 => ⟨S2x800000, .i32⟩
  | 2 => ⟨S2x200000, .i32⟩
  | 3 => ⟨S4x128x128, .f32⟩
  | 4 => ⟨S4x128, .f32⟩
  | 5 => ⟨S4x128x128, .f32⟩
  | 6 => ⟨S4x128, .f32⟩
  | 7 => ⟨S50000, .i32⟩
  | 8 => ⟨S1x800000, .i32⟩
  | 9 => ⟨S800000, .i32⟩
  | 10 => ⟨S850000, .i32⟩
  | 11 => ⟨S1x800000, .i32⟩
  | 12 => ⟨S800000, .i32⟩
  | 13 => ⟨S850000, .i32⟩
  | 14 => ⟨S_, .f32⟩
  | 15 => ⟨S850000, .f32⟩
  | 16 => ⟨S_, .f32⟩
  | 17 => ⟨S50000, .f32⟩
  | 18 => ⟨S850000x1, .i32⟩
  | 19 => ⟨S50000, .f32⟩
  | 20 => ⟨S_, .f32⟩
  | 21 => ⟨S50000, .f32⟩
  | 22 => ⟨S50000, .i1⟩
  | 23 => ⟨S50000, .f32⟩
  | 24 => ⟨S_, .f32⟩
  | 25 => ⟨S_, .f32⟩
  | 26 => ⟨S50000, .f32⟩
  | 27 => ⟨S50000, .f32⟩
  | 28 => ⟨S_, .i32⟩
  | 29 => ⟨S850000, .i32⟩
  | 30 => ⟨S850000, .i1⟩
  | 31 => ⟨S_, .i32⟩
  | 32 => ⟨S850000, .i32⟩
  | 33 => ⟨S850000, .i32⟩
  | 34 => ⟨S850000, .i32⟩
  | 35 => ⟨S850000x1, .i32⟩
  | 36 => ⟨S850000, .f32⟩
  | 37 => ⟨S_, .i32⟩
  | 38 => ⟨S850000, .i32⟩
  | 39 => ⟨S850000, .i1⟩
  | 40 => ⟨S_, .i32⟩
  | 41 => ⟨S850000, .i32⟩
  | 42 => ⟨S850000, .i32⟩
  | 43 => ⟨S850000, .i32⟩
  | 44 => ⟨S850000x1, .i32⟩
  | 45 => ⟨S850000, .f32⟩
  | 46 => ⟨S850000, .f32⟩
  | 47 => ⟨S50000, .i32⟩
  | 48 => ⟨S1x200000, .i32⟩
  | 49 => ⟨S200000, .i32⟩
  | 50 => ⟨S250000, .i32⟩
  | 51 => ⟨S1x200000, .i32⟩
  | 52 => ⟨S200000, .i32⟩
  | 53 => ⟨S250000, .i32⟩
  | 54 => ⟨S_, .f32⟩
  | 55 => ⟨S250000, .f32⟩
  | 56 => ⟨S_, .f32⟩
  | 57 => ⟨S50000, .f32⟩
  | 58 => ⟨S250000x1, .i32⟩
  | 59 => ⟨S50000, .f32⟩
  | 60 => ⟨S_, .f32⟩
  | 61 => ⟨S50000, .f32⟩
  | 62 => ⟨S50000, .i1⟩
  | 63 => ⟨S50000, .f32⟩
  | 64 => ⟨S_, .f32⟩
  | 65 => ⟨S_, .f32⟩
  | 66 => ⟨S50000, .f32⟩
  | 67 => ⟨S50000, .f32⟩
  | 68 => ⟨S_, .i32⟩
  | 69 => ⟨S250000, .i32⟩
  | 70 => ⟨S250000, .i1⟩
  | 71 => ⟨S_, .i32⟩
  | 72 => ⟨S250000, .i32⟩
  | 73 => ⟨S250000, .i32⟩
  | 74 => ⟨S250000, .i32⟩
  | 75 => ⟨S250000x1, .i32⟩
  | 76 => ⟨S250000, .f32⟩
  | 77 => ⟨S_, .i32⟩
  | 78 => ⟨S250000, .i32⟩
  | 79 => ⟨S250000, .i1⟩
  | 80 => ⟨S_, .i32⟩
  | 81 => ⟨S250000, .i32⟩
  | 82 => ⟨S250000, .i32⟩
  | 83 => ⟨S250000, .i32⟩
  | 84 => ⟨S250000x1, .i32⟩
  | 85 => ⟨S250000, .f32⟩
  | 86 => ⟨S250000, .f32⟩
  | 87 => ⟨S1x128x128, .f32⟩
  | 88 => ⟨S128x128, .f32⟩
  | 89 => ⟨S1x128, .f32⟩
  | 90 => ⟨S128, .f32⟩
  | 91 => ⟨S50000x128, .f32⟩
  | 92 => ⟨S_, .i32⟩
  | 93 => ⟨S850000, .i32⟩
  | 94 => ⟨S850000, .i1⟩
  | 95 => ⟨S_, .i32⟩
  | 96 => ⟨S850000, .i32⟩
  | 97 => ⟨S850000, .i32⟩
  | 98 => ⟨S850000, .i32⟩
  | 99 => ⟨S850000x1, .i32⟩
  | 100 => ⟨S850000x128, .f32⟩
  | 101 => ⟨S850000x1, .f32⟩
  | 102 => ⟨S850000x128, .f32⟩
  | 103 => ⟨S850000x128, .f32⟩
  | 104 => ⟨S_, .f32⟩
  | 105 => ⟨S50000x128, .f32⟩
  | 106 => ⟨S850000x1, .i32⟩
  | 107 => ⟨S50000x128, .f32⟩
  | 108 => ⟨S1x128, .f32⟩
  | 109 => ⟨S50000x128, .f32⟩
  | 110 => ⟨S50000x128, .f32⟩
  | 111 => ⟨S1x128x128, .f32⟩
  | 112 => ⟨S128x128, .f32⟩
  | 113 => ⟨S1x128, .f32⟩
  | 114 => ⟨S128, .f32⟩
  | 115 => ⟨S50000x128, .f32⟩
  | 116 => ⟨S_, .i32⟩
  | 117 => ⟨S250000, .i32⟩
  | 118 => ⟨S250000, .i1⟩
  | 119 => ⟨S_, .i32⟩
  | 120 => ⟨S250000, .i32⟩
  | 121 => ⟨S250000, .i32⟩
  | 122 => ⟨S250000, .i32⟩
  | 123 => ⟨S250000x1, .i32⟩
  | 124 => ⟨S250000x128, .f32⟩
  | 125 => ⟨S250000x1, .f32⟩
  | 126 => ⟨S250000x128, .f32⟩
  | 127 => ⟨S250000x128, .f32⟩
  | _ => ⟨S50000x128, .f32⟩

abbrev hbmTy0_1 (i : Nat) : BufTy := match i % 128 with
  | 0 => ⟨S_, .f32⟩
  | 1 => ⟨S50000x128, .f32⟩
  | 2 => ⟨S250000x1, .i32⟩
  | 3 => ⟨S50000x128, .f32⟩
  | 4 => ⟨S1x128, .f32⟩
  | 5 => ⟨S50000x128, .f32⟩
  | 6 => ⟨S50000x128, .f32⟩
  | 7 => ⟨S50000x128, .f32⟩
  | 8 => ⟨S_, .f32⟩
  | 9 => ⟨S50000x128, .f32⟩
  | 10 => ⟨S50000x128, .f32⟩
  | 11 => ⟨S1x128x128, .f32⟩
  | 12 => ⟨S128x128, .f32⟩
  | 13 => ⟨S1x128, .f32⟩
  | 14 => ⟨S128, .f32⟩
  | 15 => ⟨S50000x128, .f32⟩
  | 16 => ⟨S_, .i32⟩
  | 17 => ⟨S850000, .i32⟩
  | 18 => ⟨S850000, .i1⟩
  | 19 => ⟨S_, .i32⟩
  | 20 => ⟨S850000, .i32⟩
  | 21 => ⟨S850000, .i32⟩
  | 22 => ⟨S850000, .i32⟩
  | 23 => ⟨S850000x1, .i32⟩
  | 24 => ⟨S850000x128, .f32⟩
  | 25 => ⟨S850000x1, .f32⟩
  | 26 => ⟨S850000x128, .f32⟩
  | 27 => ⟨S850000x128, .f32⟩
  | 28 => ⟨S_, .f32⟩
  | 29 => ⟨S50000x128, .f32⟩
  | 30 => ⟨S850000x1, .i32⟩
  | 31 => ⟨S50000x128, .f32⟩
  | 32 => ⟨S1x128, .f32⟩
  | 33 => ⟨S50000x128, .f32⟩
  | 34 => ⟨S50000x128, .f32⟩
  | 35 => ⟨S1x128x128, .f32⟩
  | 36 => ⟨S128x128, .f32⟩
  | 37 => ⟨S1x128, .f32⟩
  | 38 => ⟨S128, .f32⟩
  | 39 => ⟨S50000x128, .f32⟩
  | 40 => ⟨S_, .i32⟩
  | 41 => ⟨S250000, .i32⟩
  | 42 => ⟨S250000, .i1⟩
  | 43 => ⟨S_, .i32⟩
  | 44 => ⟨S250000, .i32⟩
  | 45 => ⟨S250000, .i32⟩
  | 46 => ⟨S250000, .i32⟩
  | 47 => ⟨S250000x1, .i32⟩
  | 48 => ⟨S250000x128, .f32⟩
  | 49 => ⟨S250000x1, .f32⟩
  | 50 => ⟨S250000x128, .f32⟩
  | 51 => ⟨S250000x128, .f32⟩
  | 52 => ⟨S_, .f32⟩
  | 53 => ⟨S50000x128, .f32⟩
  | 54 => ⟨S250000x1, .i32⟩
  | 55 => ⟨S50000x128, .f32⟩
  | 56 => ⟨S1x128, .f32⟩
  | 57 => ⟨S50000x128, .f32⟩
  | 58 => ⟨S50000x128, .f32⟩
  | 59 => ⟨S50000x128, .f32⟩
  | 60 => ⟨S_, .f32⟩
  | 61 => ⟨S50000x128, .f32⟩
  | 62 => ⟨S50000x128, .f32⟩
  | 63 => ⟨S1x128x128, .f32⟩
  | 64 => ⟨S128x128, .f32⟩
  | 65 => ⟨S1x128, .f32⟩
  | 66 => ⟨S128, .f32⟩
  | 67 => ⟨S50000x128, .f32⟩
  | 68 => ⟨S_, .i32⟩
  | 69 => ⟨S850000, .i32⟩
  | 70 => ⟨S850000, .i1⟩
  | 71 => ⟨S_, .i32⟩
  | 72 => ⟨S850000, .i32⟩
  | 73 => ⟨S850000, .i32⟩
  | 74 => ⟨S850000, .i32⟩
  | 75 => ⟨S850000x1, .i32⟩
  | 76 => ⟨S850000x128, .f32⟩
  | 77 => ⟨S850000x1, .f32⟩
  | 78 => ⟨S850000x128, .f32⟩
  | 79 => ⟨S850000x128, .f32⟩
  | 80 => ⟨S_, .f32⟩
  | 81 => ⟨S50000x128, .f32⟩
  | 82 => ⟨S850000x1, .i32⟩
  | 83 => ⟨S50000x128, .f32⟩
  | 84 => ⟨S1x128, .f32⟩
  | 85 => ⟨S50000x128, .f32⟩
  | 86 => ⟨S50000x128, .f32⟩
  | 87 => ⟨S1x128x128, .f32⟩
  | 88 => ⟨S128x128, .f32⟩
  | 89 => ⟨S1x128, .f32⟩
  | 90 => ⟨S128, .f32⟩
  | 91 => ⟨S50000x128, .f32⟩
  | 92 => ⟨S_, .i32⟩
  | 93 => ⟨S250000, .i32⟩
  | 94 => ⟨S250000, .i1⟩
  | 95 => ⟨S_, .i32⟩
  | 96 => ⟨S250000, .i32⟩
  | 97 => ⟨S250000, .i32⟩
  | 98 => ⟨S250000, .i32⟩
  | 99 => ⟨S250000x1, .i32⟩
  | 100 => ⟨S250000x128, .f32⟩
  | 101 => ⟨S250000x1, .f32⟩
  | 102 => ⟨S250000x128, .f32⟩
  | 103 => ⟨S250000x128, .f32⟩
  | 104 => ⟨S_, .f32⟩
  | 105 => ⟨S50000x128, .f32⟩
  | 106 => ⟨S250000x1, .i32⟩
  | 107 => ⟨S50000x128, .f32⟩
  | 108 => ⟨S1x128, .f32⟩
  | 109 => ⟨S50000x128, .f32⟩
  | 110 => ⟨S50000x128, .f32⟩
  | 111 => ⟨S50000x128, .f32⟩
  | 112 => ⟨S_, .f32⟩
  | 113 => ⟨S50000x128, .f32⟩
  | 114 => ⟨S50000x128, .f32⟩
  | 115 => ⟨S1x128x128, .f32⟩
  | 116 => ⟨S128x128, .f32⟩
  | 117 => ⟨S1x128, .f32⟩
  | 118 => ⟨S128, .f32⟩
  | 119 => ⟨S50000x128, .f32⟩
  | 120 => ⟨S_, .i32⟩
  | 121 => ⟨S850000, .i32⟩
  | 122 => ⟨S850000, .i1⟩
  | 123 => ⟨S_, .i32⟩
  | 124 => ⟨S850000, .i32⟩
  | 125 => ⟨S850000, .i32⟩
  | 126 => ⟨S850000, .i32⟩
  | 127 => ⟨S850000x1, .i32⟩
  | _ => ⟨S50000x128, .f32⟩

abbrev hbmTy0_2 (i : Nat) : BufTy := match i % 128 with
  | 0 => ⟨S850000x128, .f32⟩
  | 1 => ⟨S850000x1, .f32⟩
  | 2 => ⟨S850000x128, .f32⟩
  | 3 => ⟨S850000x128, .f32⟩
  | 4 => ⟨S_, .f32⟩
  | 5 => ⟨S50000x128, .f32⟩
  | 6 => ⟨S850000x1, .i32⟩
  | 7 => ⟨S50000x128, .f32⟩
  | 8 => ⟨S1x128, .f32⟩
  | 9 => ⟨S50000x128, .f32⟩
  | 10 => ⟨S50000x128, .f32⟩
  | 11 => ⟨S1x128x128, .f32⟩
  | 12 => ⟨S128x128, .f32⟩
  | 13 => ⟨S1x128, .f32⟩
  | 14 => ⟨S128, .f32⟩
  | 15 => ⟨S50000x128, .f32⟩
  | 16 => ⟨S_, .i32⟩
  | 17 => ⟨S250000, .i32⟩
  | 18 => ⟨S250000, .i1⟩
  | 19 => ⟨S_, .i32⟩
  | 20 => ⟨S250000, .i32⟩
  | 21 => ⟨S250000, .i32⟩
  | 22 => ⟨S250000, .i32⟩
  | 23 => ⟨S250000x1, .i32⟩
  | 24 => ⟨S250000x128, .f32⟩
  | 25 => ⟨S250000x1, .f32⟩
  | 26 => ⟨S250000x128, .f32⟩
  | 27 => ⟨S250000x128, .f32⟩
  | 28 => ⟨S_, .f32⟩
  | 29 => ⟨S50000x128, .f32⟩
  | 30 => ⟨S250000x1, .i32⟩
  | 31 => ⟨S50000x128, .f32⟩
  | 32 => ⟨S1x128, .f32⟩
  | 33 => ⟨S50000x128, .f32⟩
  | 34 => ⟨S50000x128, .f32⟩
  | 35 => ⟨S50000x128, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v14 : Ref sig .tc := ⟨.hbm, 27, rfl⟩
abbrev main_c : Ref sig .tc := ⟨.hbm, 28, rfl⟩
abbrev main_v15 : Ref sig .tc := ⟨.hbm, 29, rfl⟩
abbrev main_v16 : Ref sig .tc := ⟨.hbm, 30, rfl⟩
abbrev main_c_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_4 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_6 : Ref sig .tc := ⟨.hbm, 54, rfl⟩
abbrev main_v37 : Ref sig .tc := ⟨.hbm, 55, rfl⟩
abbrev main_cst_7 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_8 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_9 : Ref sig .tc := ⟨.hbm, 64, rfl⟩
abbrev main_call1_v0 : Ref sig .tc := ⟨.hbm, 65, rfl⟩
abbrev main_call1_v1 : Ref sig .tc := ⟨.hbm, 66, rfl⟩
abbrev main_v44 : Ref sig .tc := ⟨.hbm, 67, rfl⟩
abbrev main_c_10 : Ref sig .tc := ⟨.hbm, 68, rfl⟩
abbrev main_v45 : Ref sig .tc := ⟨.hbm, 69, rfl⟩
abbrev main_v46 : Ref sig .tc := ⟨.hbm, 70, rfl⟩
abbrev main_c_11 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_c_12 : Ref sig .tc := ⟨.hbm, 77, rfl⟩
abbrev main_v52 : Ref sig .tc := ⟨.hbm, 78, rfl⟩
abbrev main_v53 : Ref sig .tc := ⟨.hbm, 79, rfl⟩
abbrev main_c_13 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_c_14 : Ref sig .tc := ⟨.hbm, 92, rfl⟩
abbrev main_v65 : Ref sig .tc := ⟨.hbm, 93, rfl⟩
abbrev main_v66 : Ref sig .tc := ⟨.hbm, 94, rfl⟩
abbrev main_c_15 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_cst_16 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_c_17 : Ref sig .tc := ⟨.hbm, 116, rfl⟩
abbrev main_v86 : Ref sig .tc := ⟨.hbm, 117, rfl⟩
abbrev main_v87 : Ref sig .tc := ⟨.hbm, 118, rfl⟩
abbrev main_c_18 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_cst_19 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_call2_cst : Ref sig .tc := ⟨.hbm, 136, rfl⟩
abbrev main_call2_v0 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_c_20 : Ref sig .tc := ⟨.hbm, 144, rfl⟩
abbrev main_v109 : Ref sig .tc := ⟨.hbm, 145, rfl⟩
abbrev main_v110 : Ref sig .tc := ⟨.hbm, 146, rfl⟩
abbrev main_c_21 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_cst_22 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_c_23 : Ref sig .tc := ⟨.hbm, 168, rfl⟩
abbrev main_v130 : Ref sig .tc := ⟨.hbm, 169, rfl⟩
abbrev main_v131 : Ref sig .tc := ⟨.hbm, 170, rfl⟩
abbrev main_c_24 : Ref sig .tc := ⟨.hbm, 171, rfl⟩
abbrev main_v132 : Ref sig .tc := ⟨.hbm, 172, rfl⟩
abbrev main_v133 : Ref sig .tc := ⟨.hbm, 173, rfl⟩
abbrev main_v134 : Ref sig .tc := ⟨.hbm, 174, rfl⟩
abbrev main_v135 : Ref sig .tc := ⟨.hbm, 175, rfl⟩
abbrev main_v136 : Ref sig .tc := ⟨.hbm, 176, rfl⟩
abbrev main_v137 : Ref sig .tc := ⟨.hbm, 177, rfl⟩
abbrev main_v138 : Ref sig .tc := ⟨.hbm, 178, rfl⟩
abbrev main_v139 : Ref sig .tc := ⟨.hbm, 179, rfl⟩
abbrev main_cst_25 : Ref sig .tc := ⟨.hbm, 180, rfl⟩
abbrev main_v140 : Ref sig .tc := ⟨.hbm, 181, rfl⟩
abbrev main_v141 : Ref sig .tc := ⟨.hbm, 182, rfl⟩
abbrev main_v142 : Ref sig .tc := ⟨.hbm, 183, rfl⟩
abbrev main_v143 : Ref sig .tc := ⟨.hbm, 184, rfl⟩
abbrev main_v144 : Ref sig .tc := ⟨.hbm, 185, rfl⟩
abbrev main_v145 : Ref sig .tc := ⟨.hbm, 186, rfl⟩
abbrev main_v146 : Ref sig .tc := ⟨.hbm, 187, rfl⟩
abbrev main_call3_cst : Ref sig .tc := ⟨.hbm, 188, rfl⟩
abbrev main_call3_v0 : Ref sig .tc := ⟨.hbm, 189, rfl⟩
abbrev main_v147 : Ref sig .tc := ⟨.hbm, 190, rfl⟩
abbrev main_v148 : Ref sig .tc := ⟨.hbm, 191, rfl⟩
abbrev main_v149 : Ref sig .tc := ⟨.hbm, 192, rfl⟩
abbrev main_v150 : Ref sig .tc := ⟨.hbm, 193, rfl⟩
abbrev main_v151 : Ref sig .tc := ⟨.hbm, 194, rfl⟩
abbrev main_v152 : Ref sig .tc := ⟨.hbm, 195, rfl⟩
abbrev main_c_26 : Ref sig .tc := ⟨.hbm, 196, rfl⟩
abbrev main_v153 : Ref sig .tc := ⟨.hbm, 197, rfl⟩
abbrev main_v154 : Ref sig .tc := ⟨.hbm, 198, rfl⟩
abbrev main_c_27 : Ref sig .tc := ⟨.hbm, 199, rfl⟩
abbrev main_v155 : Ref sig .tc := ⟨.hbm, 200, rfl⟩
abbrev main_v156 : Ref sig .tc := ⟨.hbm, 201, rfl⟩
abbrev main_v157 : Ref sig .tc := ⟨.hbm, 202, rfl⟩
abbrev main_v158 : Ref sig .tc := ⟨.hbm, 203, rfl⟩
abbrev main_v159 : Ref sig .tc := ⟨.hbm, 204, rfl⟩
abbrev main_v160 : Ref sig .tc := ⟨.hbm, 205, rfl⟩
abbrev main_v161 : Ref sig .tc := ⟨.hbm, 206, rfl⟩
abbrev main_v162 : Ref sig .tc := ⟨.hbm, 207, rfl⟩
abbrev main_cst_28 : Ref sig .tc := ⟨.hbm, 208, rfl⟩
abbrev main_v163 : Ref sig .tc := ⟨.hbm, 209, rfl⟩
abbrev main_v164 : Ref sig .tc := ⟨.hbm, 210, rfl⟩
abbrev main_v165 : Ref sig .tc := ⟨.hbm, 211, rfl⟩
abbrev main_v166 : Ref sig .tc := ⟨.hbm, 212, rfl⟩
abbrev main_v167 : Ref sig .tc := ⟨.hbm, 213, rfl⟩
abbrev main_v168 : Ref sig .tc := ⟨.hbm, 214, rfl⟩
abbrev main_v169 : Ref sig .tc := ⟨.hbm, 215, rfl⟩
abbrev main_v170 : Ref sig .tc := ⟨.hbm, 216, rfl⟩
abbrev main_v171 : Ref sig .tc := ⟨.hbm, 217, rfl⟩
abbrev main_v172 : Ref sig .tc := ⟨.hbm, 218, rfl⟩
abbrev main_v173 : Ref sig .tc := ⟨.hbm, 219, rfl⟩
abbrev main_c_29 : Ref sig .tc := ⟨.hbm, 220, rfl⟩
abbrev main_v174 : Ref sig .tc := ⟨.hbm, 221, rfl⟩
abbrev main_v175 : Ref sig .tc := ⟨.hbm, 222, rfl⟩
abbrev main_c_30 : Ref sig .tc := ⟨.hbm, 223, rfl⟩
abbrev main_v176 : Ref sig .tc := ⟨.hbm, 224, rfl⟩
abbrev main_v177 : Ref sig .tc := ⟨.hbm, 225, rfl⟩
abbrev main_v178 : Ref sig .tc := ⟨.hbm, 226, rfl⟩
abbrev main_v179 : Ref sig .tc := ⟨.hbm, 227, rfl⟩
abbrev main_v180 : Ref sig .tc := ⟨.hbm, 228, rfl⟩
abbrev main_v181 : Ref sig .tc := ⟨.hbm, 229, rfl⟩
abbrev main_v182 : Ref sig .tc := ⟨.hbm, 230, rfl⟩
abbrev main_v183 : Ref sig .tc := ⟨.hbm, 231, rfl⟩
abbrev main_cst_31 : Ref sig .tc := ⟨.hbm, 232, rfl⟩
abbrev main_v184 : Ref sig .tc := ⟨.hbm, 233, rfl⟩
abbrev main_v185 : Ref sig .tc := ⟨.hbm, 234, rfl⟩
abbrev main_v186 : Ref sig .tc := ⟨.hbm, 235, rfl⟩
abbrev main_v187 : Ref sig .tc := ⟨.hbm, 236, rfl⟩
abbrev main_v188 : Ref sig .tc := ⟨.hbm, 237, rfl⟩
abbrev main_v189 : Ref sig .tc := ⟨.hbm, 238, rfl⟩
abbrev main_v190 : Ref sig .tc := ⟨.hbm, 239, rfl⟩
abbrev main_call4_cst : Ref sig .tc := ⟨.hbm, 240, rfl⟩
abbrev main_call4_v0 : Ref sig .tc := ⟨.hbm, 241, rfl⟩
abbrev main_v191 : Ref sig .tc := ⟨.hbm, 242, rfl⟩
abbrev main_v192 : Ref sig .tc := ⟨.hbm, 243, rfl⟩
abbrev main_v193 : Ref sig .tc := ⟨.hbm, 244, rfl⟩
abbrev main_v194 : Ref sig .tc := ⟨.hbm, 245, rfl⟩
abbrev main_v195 : Ref sig .tc := ⟨.hbm, 246, rfl⟩
abbrev main_v196 : Ref sig .tc := ⟨.hbm, 247, rfl⟩
abbrev main_c_32 : Ref sig .tc := ⟨.hbm, 248, rfl⟩
abbrev main_v197 : Ref sig .tc := ⟨.hbm, 249, rfl⟩
abbrev main_v198 : Ref sig .tc := ⟨.hbm, 250, rfl⟩
abbrev main_c_33 : Ref sig .tc := ⟨.hbm, 251, rfl⟩
abbrev main_v199 : Ref sig .tc := ⟨.hbm, 252, rfl⟩
abbrev main_v200 : Ref sig .tc := ⟨.hbm, 253, rfl⟩
abbrev main_v201 : Ref sig .tc := ⟨.hbm, 254, rfl⟩
abbrev main_v202 : Ref sig .tc := ⟨.hbm, 255, rfl⟩
abbrev main_v203 : Ref sig .tc := ⟨.hbm, 256, rfl⟩
abbrev main_v204 : Ref sig .tc := ⟨.hbm, 257, rfl⟩
abbrev main_v205 : Ref sig .tc := ⟨.hbm, 258, rfl⟩
abbrev main_v206 : Ref sig .tc := ⟨.hbm, 259, rfl⟩
abbrev main_cst_34 : Ref sig .tc := ⟨.hbm, 260, rfl⟩
abbrev main_v207 : Ref sig .tc := ⟨.hbm, 261, rfl⟩
abbrev main_v208 : Ref sig .tc := ⟨.hbm, 262, rfl⟩
abbrev main_v209 : Ref sig .tc := ⟨.hbm, 263, rfl⟩
abbrev main_v210 : Ref sig .tc := ⟨.hbm, 264, rfl⟩
abbrev main_v211 : Ref sig .tc := ⟨.hbm, 265, rfl⟩
abbrev main_v212 : Ref sig .tc := ⟨.hbm, 266, rfl⟩
abbrev main_v213 : Ref sig .tc := ⟨.hbm, 267, rfl⟩
abbrev main_v214 : Ref sig .tc := ⟨.hbm, 268, rfl⟩
abbrev main_v215 : Ref sig .tc := ⟨.hbm, 269, rfl⟩
abbrev main_v216 : Ref sig .tc := ⟨.hbm, 270, rfl⟩
abbrev main_v217 : Ref sig .tc := ⟨.hbm, 271, rfl⟩
abbrev main_c_35 : Ref sig .tc := ⟨.hbm, 272, rfl⟩
abbrev main_v218 : Ref sig .tc := ⟨.hbm, 273, rfl⟩
abbrev main_v219 : Ref sig .tc := ⟨.hbm, 274, rfl⟩
abbrev main_c_36 : Ref sig .tc := ⟨.hbm, 275, rfl⟩
abbrev main_v220 : Ref sig .tc := ⟨.hbm, 276, rfl⟩
abbrev main_v221 : Ref sig .tc := ⟨.hbm, 277, rfl⟩
abbrev main_v222 : Ref sig .tc := ⟨.hbm, 278, rfl⟩
abbrev main_v223 : Ref sig .tc := ⟨.hbm, 279, rfl⟩
abbrev main_v224 : Ref sig .tc := ⟨.hbm, 280, rfl⟩
abbrev main_v225 : Ref sig .tc := ⟨.hbm, 281, rfl⟩
abbrev main_v226 : Ref sig .tc := ⟨.hbm, 282, rfl⟩
abbrev main_v227 : Ref sig .tc := ⟨.hbm, 283, rfl⟩
abbrev main_cst_37 : Ref sig .tc := ⟨.hbm, 284, rfl⟩
abbrev main_v228 : Ref sig .tc := ⟨.hbm, 285, rfl⟩
abbrev main_v229 : Ref sig .tc := ⟨.hbm, 286, rfl⟩
abbrev main_v230 : Ref sig .tc := ⟨.hbm, 287, rfl⟩
abbrev main_v231 : Ref sig .tc := ⟨.hbm, 288, rfl⟩
abbrev main_v232 : Ref sig .tc := ⟨.hbm, 289, rfl⟩
abbrev main_v233 : Ref sig .tc := ⟨.hbm, 290, rfl⟩
abbrev main_v234 : Ref sig .tc := ⟨.hbm, 291, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  slices_S2x200000_S1x200000_0_0 : S2x200000.Slices ![0, 0] S1x200000
  shapeCasts_S1x200000_S200000 : S1x200000.ShapeCasts S200000
  concatenates_S200000_S50000_S250000_d0 : Shape.Concatenates [S200000, S50000] S250000 0
  slices_S2x200000_S1x200000_1_0 : S2x200000.Slices ![1, 0] S1x200000
  bcast_S_S250000 : S_.BroadcastsInDim S250000 (![] : Fin 0 → Fin S250000.rank)
  bcast_S250000_S250000x1_0 : S250000.BroadcastsInDim S250000x1 (![0] : Fin 1 → Fin S250000x1.rank)
  slices_S4x128x128_S1x128x128_0_0_0 : S4x128x128.Slices ![0, 0, 0] S1x128x128
  shapeCasts_S1x128x128_S128x128 : S1x128x128.ShapeCasts S128x128
  slices_S4x128_S1x128_0_0 : S4x128.Slices ![0, 0] S1x128
  shapeCasts_S1x128_S128 : S1x128.ShapeCasts S128
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S250000x1_S250000x128_0_1 : S250000x1.BroadcastsInDim S250000x128 (![0, 1] : Fin 2 → Fin S250000x128.rank)
  slices_S4x128x128_S1x128x128_1_0_0 : S4x128x128.Slices ![1, 0, 0] S1x128x128
  slices_S4x128_S1x128_1_0 : S4x128.Slices ![1, 0] S1x128
  slices_S4x128x128_S1x128x128_2_0_0 : S4x128x128.Slices ![2, 0, 0] S1x128x128
  slices_S4x128_S1x128_2_0 : S4x128.Slices ![2, 0] S1x128
  slices_S4x128x128_S1x128x128_3_0_0 : S4x128x128.Slices ![3, 0, 0] S1x128x128
  slices_S4x128_S1x128_3_0 : S4x128.Slices ![3, 0] S1x128
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  scatter_S50000_S250000x1_S250000_n_0_0_1_wf : ScatterDims.WF S50000 S250000x1 S250000 [] [0] [0] 1
  gather_S50000_S250000x1_S250000_n_0_n_n_0_1_1_wf : GatherDims.WF S50000 S250000x1 S250000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  gather_S50000x128_S250000x1_S250000x128_1_0_n_n_0_1_1128_wf : GatherDims.WF S50000x128 S250000x1 S250000x128 [1] [0] [] [0] [] 1 ![1, 128]
  scatter_S50000x128_S250000x1_S250000x128_1_0_0_1_wf : ScatterDims.WF S50000x128 S250000x1 S250000x128 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def scatter_S50000_S250000x1_S250000_n_0_0_1 : ScatterDims S50000 S250000x1 S250000 where
  updateWindowDims := []
  insertedWindowDims := [0]
  scatterDimsToOperandDims := [0]
  indexVectorDim := 1
  wf := scatter_S50000_S250000x1_S250000_n_0_0_1_wf
def gather_S50000_S250000x1_S250000_n_0_n_n_0_1_1 : GatherDims S50000 S250000x1 S250000 where
  offsetDims := []
  collapsedSliceDims := [0]
  operandBatchingDims := []
  startIndicesBatchingDims := []
  startIndexMap := [0]
  indexVectorDim := 1
  sliceSizes := ![1]
  wf := gather_S50000_S250000x1_S250000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def gather_S50000x128_S250000x1_S250000x128_1_0_n_n_0_1_1128 : GatherDims S50000x128 S250000x1 S250000x128 where
  offsetDims := [1]
  collapsedSliceDims := [0]
  operandBatchingDims := []
  startIndicesBatchingDims := []
  startIndexMap := [0]
  indexVectorDim := 1
  sliceSizes := ![1, 128]
  wf := gather_S50000x128_S250000x1_S250000x128_1_0_n_n_0_1_1128_wf
def scatter_S50000x128_S250000x1_S250000x128_1_0_0_1 : ScatterDims S50000x128 S250000x1 S250000x128 where
  updateWindowDims := [1]
  insertedWindowDims := [0]
  scatterDimsToOperandDims := [0]
  indexVectorDim := 1
  wf := scatter_S50000x128_S250000x1_S250000x128_1_0_0_1_wf

class Facts : Prop extends Facts₀ where

variable [Facts]
-- ==== Proof.KRun.lean ====
/-
  The kernel program's run with its result kept: every weakly fair execution ends, nothing faulting, with the result array
  at the contents of the last boundary of the fold through the program's host stretches and kernel regions, and the seven
  argument arrays as launched.
-/
import proofs.«113452_j3143916060941_1_alg».proof.Proof.Gen.KernelIdeal.Frame

-- membership in a rectangle of production extents (`View.cover_of_tiled`): the elaborator's structural look
-- recurses once per coordinate of the long axes
set_option maxRecDepth 16384

noncomputable section

namespace Cert.KernelIdeal.ValueRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program ends, nothing faulting, with each unscoped buffer at the last boundary's
    contents: in particular the result array, and the seven argument arrays as launched. -/
theorem run_value : θ_run defs (onTc (τ := τ) (main (F := F))) ⟨m, fun _ => 0, ρ⟩ (fun r => ∀ c : Dev nD,
      r.2.mem ((c.tc : Thread nD τ).loc main_v207) = W28 m ρ c (Proc.devRef .tc main_v207)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W28 m ρ c b)
    (hfin := fun c s' => by
      iintro ⟨⟨Hh, -⟩, HSI⟩
      unfold StableHlo.held
      imodintro
      iapply (pointsTo_read_all (Pipeline.ucRefs τ sig) (fun b => (((c : Thread nD τ)).1, b)) (W28 m ρ c) s')
      isplitl [Hh] <;> iassumption)
    (hQ := fun s h c =>
      ⟨h c _ (mem_uc main_v207 (by decide)),
       (h c _ (mem_uc main_arg0 (by decide))).trans (W28_main_arg0 m ρ c),
       (h c _ (mem_uc main_arg1 (by decide))).trans (W28_main_arg1 m ρ c),
       (h c _ (mem_uc main_arg2 (by decide))).trans (W28_main_arg2 m ρ c),
       (h c _ (mem_uc main_arg3 (by decide))).trans (W28_main_arg3 m ρ c),
       (h c _ (mem_uc main_arg4 (by decide))).trans (W28_main_arg4 m ρ c),
       (h c _ (mem_uc main_arg5 (by decide))).trans (W28_main_arg5 m ρ c),
       (h c _ (mem_uc main_arg6 (by decide))).trans (W28_main_arg6 m ρ c)⟩)

end Cert.KernelIdeal.ValueRun

end
-- ==== Proof.Spec.lean ====
/-
  The graph-convolution block as one function of its seven argument arrays, in the host operations' own terms.

  One layer takes node features x (50000 rows of 128), multiplies them by two weight matrices (the main branch and the
  control branch), and in each branch gathers the product's rows by an edge list's source nodes, scales every gathered
  row by that edge's weight, and sums the scaled rows into their destination nodes; the two branch sums and the two
  bias rows are then added. Three layers end in max(·, 0); the fourth does not. The edge weights are
  d(src)·d(dst) with d = deg^(-1/2) where the in-degree (self-loops included) is positive and 0 elsewhere.
-/
import proofs.«113452_j3143916060941_1_alg».proof.Proof.Gen.ReferenceIdeal
import Idealize.ShloMosaic.PureOps.Ideal

noncomputable section

namespace Cert.Spec

open Idealize.ShloMosaic Cert.ReferenceIdeal Cert.ReferenceIdeal.Facts₀ Cert.ReferenceIdeal.Facts

variable {F : FTy → Type} [FloatOps F]

/-- Source nodes of the main edge list with one self-loop per node appended. -/
def srcM (e : (⟨S2x800000, .i32⟩ : BufTy).Contents (Elt F)) : (⟨S850000, .i32⟩ : BufTy).Contents (Elt F) :=
  concatenate S850000 0 [⟨S800000, (shapeCast _ (extractStridedSlice S1x800000 ![0, 0] e slices_S2x800000_S1x800000_0_0) shapeCasts_S1x800000_S800000)⟩, ⟨S50000, (iotaInDim S50000 32 0)⟩] concatenates_S800000_S50000_S850000_d0

/-- Destination nodes of the main edge list with the self-loops appended. -/
def dstM (e : (⟨S2x800000, .i32⟩ : BufTy).Contents (Elt F)) : (⟨S850000, .i32⟩ : BufTy).Contents (Elt F) :=
  concatenate S850000 0 [⟨S800000, (shapeCast _ (extractStridedSlice S1x800000 ![1, 0] e slices_S2x800000_S1x800000_1_0) shapeCasts_S1x800000_S800000)⟩, ⟨S50000, (iotaInDim S50000 32 0)⟩] concatenates_S800000_S50000_S850000_d0

/-- A node index read as a row number: a negative one counts from the end. -/
def wrapM (s : (⟨S850000, .i32⟩ : BufTy).Contents (Elt F)) : (⟨S850000x1, .i32⟩ : BufTy).Contents (Elt F) :=
  broadcastInDim S850000x1 ![0] bcast_S850000_S850000x1_0 (select (cmpi .slt s (broadcastInDim S850000 ![] bcast_S_S850000 (constantI S_ 32 0#32))) (addi s (broadcastInDim S850000 ![] bcast_S_S850000 (constantI S_ 32 50000#32))) s)

/-- deg^(-1/2) per node of the main graph where the in-degree is positive, 0 elsewhere. -/
def dinvM (d : (⟨S850000, .i32⟩ : BufTy).Contents (Elt F)) : (⟨S50000, .f32⟩ : BufTy).Contents (Elt F) :=
  select (cmpf (F := F) .ogt (Host.scatterAdd scatter_S50000_S850000x1_S850000_n_0_0_1 (broadcastInDim S50000 ![] bcast_S_S50000 (constant S_ .f32 0x00000000#32)) (broadcastInDim S850000x1 ![0] bcast_S850000_S850000x1_0 d) (broadcastInDim S850000 ![] bcast_S_S850000 (constant S_ .f32 0x3F800000#32))) (broadcastInDim S50000 ![] bcast_S_S50000 (constant S_ .f32 0x00000000#32)))
    (Host.rsqrt (Host.scatterAdd scatter_S50000_S850000x1_S850000_n_0_0_1 (broadcastInDim S50000 ![] bcast_S_S50000 (constant S_ .f32 0x00000000#32)) (broadcastInDim S850000x1 ![0] bcast_S850000_S850000x1_0 d) (broadcastInDim S850000 ![] bcast_S_S850000 (constant S_ .f32 0x3F800000#32))))
    (broadcastInDim S50000 ![] bcast_S_S50000 (id (constant S_ .f32 0x00000000#32)))

/-- The main graph's edge weights d(src)·d(dst). -/
def nrmM (s d : (⟨S850000, .i32⟩ : BufTy).Contents (Elt F)) : (⟨S850000, .f32⟩ : BufTy).Contents (Elt F) :=
  mulf (Host.gather gather_S50000_S850000x1_S850000_n_0_n_n_0_1_1 (dinvM d) (wrapM s)) (Host.gather gather_S50000_S850000x1_S850000_n_0_n_n_0_1_1 (dinvM d) (wrapM d))

/-- Source nodes of the control edge list with the self-loops appended. -/
def srcC (e : (⟨S2x200000, .i32⟩ : BufTy).Contents (Elt F)) : (⟨S250000, .i32⟩ : BufTy).Contents (Elt F) :=
  concatenate S250000 0 [⟨S200000, (shapeCast _ (extractStridedSlice S1x200000 ![0, 0] e slices_S2x200000_S1x200000_0_0) shapeCasts_S1x200000_S200000)⟩, ⟨S50000, (iotaInDim S50000 32 0)⟩] concatenates_S200000_S50000_S250000_d0

/-- Destination nodes of the control edge list with the self-loops appended. -/
def dstC (e : (⟨S2x200000, .i32⟩ : BufTy).Contents (Elt F)) : (⟨S250000, .i32⟩ : BufTy).Contents (Elt F) :=
  concatenate S250000 0 [⟨S200000, (shapeCast _ (extractStridedSlice S1x200000 ![1, 0] e slices_S2x200000_S1x200000_1_0) shapeCasts_S1x200000_S200000)⟩, ⟨S50000, (iotaInDim S50000 32 0)⟩] concatenates_S200000_S50000_S250000_d0

def wrapC (s : (⟨S250000, .i32⟩ : BufTy).Contents (Elt F)) : (⟨S250000x1, .i32⟩ : BufTy).Contents (Elt F) :=
  broadcastInDim S250000x1 ![0] bcast_S250000_S250000x1_0 (select (cmpi .slt s (broadcastInDim S250000 ![] bcast_S_S250000 (constantI S_ 32 0#32))) (addi s (broadcastInDim S250000 ![] bcast_S_S250000 (constantI S_ 32 50000#32))) s)

def dinvC (d : (⟨S250000, .i32⟩ : BufTy).Contents (Elt F)) : (⟨S50000, .f32⟩ : BufTy).Contents (Elt F) :=
  select (cmpf (F := F) .ogt (Host.scatterAdd scatter_S50000_S250000x1_S250000_n_0_0_1 (broadcastInDim S50000 ![] bcast_S_S50000 (constant S_ .f32 0x00000000#32)) (broadcastInDim S250000x1 ![0] bcast_S250000_S250000x1_0 d) (broadcastInDim S250000 ![] bcast_S_S250000 (constant S_ .f32 0x3F800000#32))) (broadcastInDim S50000 ![] bcast_S_S50000 (constant S_ .f32 0x00000000#32)))
    (Host.rsqrt (Host.scatterAdd scatter_S50000_S250000x1_S250000_n_0_0_1 (broadcastInDim S50000 ![] bcast_S_S50000 (constant S_ .f32 0x00000000#32)) (broadcastInDim S250000x1 ![0] bcast_S250000_S250000x1_0 d) (broadcastInDim S250000 ![] bcast_S_S250000 (constant S_ .f32 0x3F800000#32))))
    (broadcastInDim S50000 ![] bcast_S_S50000 (id (constant S_ .f32 0x00000000#32)))

/-- The control graph's edge weights. -/
def nrmC (s d : (⟨S250000, .i32⟩ : BufTy).Contents (Elt F)) : (⟨S250000, .f32⟩ : BufTy).Contents (Elt F) :=
  mulf (Host.gather gather_S50000_S250000x1_S250000_n_0_n_n_0_1_1 (dinvC d) (wrapC s)) (Host.gather gather_S50000_S250000x1_S250000_n_0_n_n_0_1_1 (dinvC d) (wrapC d))

/-- Message passing over the main graph: gather the rows of h at the edges' sources, scale each by its edge's weight,
    sum them into the edges' destination rows. -/
def convM (h : (⟨S50000x128, .f32⟩ : BufTy).Contents (Elt F)) (s d : (⟨S850000, .i32⟩ : BufTy).Contents (Elt F))
    (n : (⟨S850000, .f32⟩ : BufTy).Contents (Elt F)) : (⟨S50000x128, .f32⟩ : BufTy).Contents (Elt F) :=
  Host.scatterAdd scatter_S50000x128_S850000x1_S850000x128_1_0_0_1 (broadcastInDim S50000x128 ![] bcast_S_S50000x128 (constant S_ .f32 0x00000000#32)) (broadcastInDim S850000x1 ![0] bcast_S850000_S850000x1_0 d)
    (mulf (Host.gather gather_S50000x128_S850000x1_S850000x128_1_0_n_n_0_1_1128 h (wrapM s)) (broadcastInDim S850000x128 ![0, 1] bcast_S850000x1_S850000x128_0_1 (broadcastInDim S850000x1 ![0] bcast_S850000_S850000x1_0 n)))

/-- Message passing over the control graph. -/
def convC (h : (⟨S50000x128, .f32⟩ : BufTy).Contents (Elt F)) (s d : (⟨S250000, .i32⟩ : BufTy).Contents (Elt F))
    (n : (⟨S250000, .f32⟩ : BufTy).Contents (Elt F)) : (⟨S50000x128, .f32⟩ : BufTy).Contents (Elt F) :=
  Host.scatterAdd scatter_S50000x128_S250000x1_S250000x128_1_0_0_1 (broadcastInDim S50000x128 ![] bcast_S_S50000x128 (constant S_ .f32 0x00000000#32)) (broadcastInDim S250000x1 ![0] bcast_S250000_S250000x1_0 d)
    (mulf (Host.gather gather_S50000x128_S250000x1_S250000x128_1_0_n_n_0_1_1128 h (wrapC s)) (broadcastInDim S250000x128 ![0, 1] bcast_S250000x1_S250000x128_0_1 (broadcastInDim S250000x1 ![0] bcast_S250000_S250000x1_0 n)))

/-- Node features times a 128×128 weight matrix. -/
def mm (x : (⟨S50000x128, .f32⟩ : BufTy).Contents (Elt F)) (w : (⟨S128x128, .f32⟩ : BufTy).Contents (Elt F)) : (⟨S50000x128, .f32⟩ : BufTy).Contents (Elt F) :=
  Host.dotGeneral dot_S50000x128_S128x128_S50000x128_1_0_0_1_n_n none x w

/-- A bias row repeated down the 50000 nodes. -/
def rowb (b : (⟨S128, .f32⟩ : BufTy).Contents (Elt F)) : (⟨S50000x128, .f32⟩ : BufTy).Contents (Elt F) :=
  broadcastInDim S50000x128 ![0, 1] bcast_S1x128_S50000x128_0_1 (broadcastInDim S1x128 ![1] bcast_S128_S1x128_1 b)

/-- The two branches, each with its bias, added. -/
def comb (a b : (⟨S50000x128, .f32⟩ : BufTy).Contents (Elt F)) (bm bc : (⟨S128, .f32⟩ : BufTy).Contents (Elt F)) : (⟨S50000x128, .f32⟩ : BufTy).Contents (Elt F) :=
  addf (addf a (rowb bm)) (addf b (rowb bc))

/-- max(·, 0), entry by entry. -/
def relu (x : (⟨S50000x128, .f32⟩ : BufTy).Contents (Elt F)) : (⟨S50000x128, .f32⟩ : BufTy).Contents (Elt F) :=
  maximumf x (broadcastInDim S50000x128 ![] bcast_S_S50000x128 (constant S_ .f32 0x00000000#32))

/-- Layer k's weight matrix out of the stack of four. -/
def wsl0 (a : (⟨S4x128x128, .f32⟩ : BufTy).Contents (Elt F)) : (⟨S128x128, .f32⟩ : BufTy).Contents (Elt F) := shapeCast _ (extractStridedSlice S1x128x128 ![0, 0, 0] a slices_S4x128x128_S1x128x128_0_0_0) shapeCasts_S1x128x128_S128x128
def wsl1 (a : (⟨S4x128x128, .f32⟩ : BufTy).Contents (Elt F)) : (⟨S128x128, .f32⟩ : BufTy).Contents (Elt F) := shapeCast _ (extractStridedSlice S1x128x128 ![1, 0, 0] a slices_S4x128x128_S1x128x128_1_0_0) shapeCasts_S1x128x128_S128x128
def wsl2 (a : (⟨S4x128x128, .f32⟩ : BufTy).Contents (Elt F)) : (⟨S128x128, .f32⟩ : BufTy).Contents (Elt F) := shapeCast _ (extractStridedSlice S1x128x128 ![2, 0, 0] a slices_S4x128x128_S1x128x128_2_0_0) shapeCasts_S1x128x128_S128x128
def wsl3 (a : (⟨S4x128x128, .f32⟩ : BufTy).Contents (Elt F)) : (⟨S128x128, .f32⟩ : BufTy).Contents (Elt F) := shapeCast _ (extractStridedSlice S1x128x128 ![3, 0, 0] a slices_S4x128x128_S1x128x128_3_0_0) shapeCasts_S1x128x128_S128x128
/-- Layer k's bias row out of the stack of four. -/
def bsl0 (a : (⟨S4x128, .f32⟩ : BufTy).Contents (Elt F)) : (⟨S128, .f32⟩ : BufTy).Contents (Elt F) := shapeCast _ (extractStridedSlice S1x128 ![0, 0] a slices_S4x128_S1x128_0_0) shapeCasts_S1x128_S128
def bsl1 (a : (⟨S4x128, .f32⟩ : BufTy).Contents (Elt F)) : (⟨S128, .f32⟩ : BufTy).Contents (Elt F) := shapeCast _ (extractStridedSlice S1x128 ![1, 0] a slices_S4x128_S1x128_1_0) shapeCasts_S1x128_S128
def bsl2 (a : (⟨S4x128, .f32⟩ : BufTy).Contents (Elt F)) : (⟨S128, .f32⟩ : BufTy).Contents (Elt F) := shapeCast _ (extractStridedSlice S1x128 ![2, 0] a slices_S4x128_S1x128_2_0) shapeCasts_S1x128_S128
def bsl3 (a : (⟨S4x128, .f32⟩ : BufTy).Contents (Elt F)) : (⟨S128, .f32⟩ : BufTy).Contents (Elt F) := shapeCast _ (extractStridedSlice S1x128 ![3, 0] a slices_S4x128_S1x128_3_0) shapeCasts_S1x128_S128

/-- One layer before its activation. -/
def layer (x : (⟨S50000x128, .f32⟩ : BufTy).Contents (Elt F)) (wm wc : (⟨S128x128, .f32⟩ : BufTy).Contents (Elt F)) (bm bc : (⟨S128, .f32⟩ : BufTy).Contents (Elt F))
    (e1 : (⟨S2x800000, .i32⟩ : BufTy).Contents (Elt F)) (e2 : (⟨S2x200000, .i32⟩ : BufTy).Contents (Elt F)) : (⟨S50000x128, .f32⟩ : BufTy).Contents (Elt F) :=
  comb (convM (mm x wm) (srcM e1) (dstM e1) (nrmM (srcM e1) (dstM e1))) (convC (mm x wc) (srcC e2) (dstC e2) (nrmC (srcC e2) (dstC e2))) bm bc

/-- The block: four layers, the first three followed by max(·, 0). -/
def result (a0 : (⟨S50000x128, .f32⟩ : BufTy).Contents (Elt F)) (a1 : (⟨S2x800000, .i32⟩ : BufTy).Contents (Elt F)) (a2 : (⟨S2x200000, .i32⟩ : BufTy).Contents (Elt F))
    (a3 : (⟨S4x128x128, .f32⟩ : BufTy).Contents (Elt F)) (a4 : (⟨S4x128, .f32⟩ : BufTy).Contents (Elt F)) (a5 : (⟨S4x128x128, .f32⟩ : BufTy).Contents (Elt F)) (a6 : (⟨S4x128, .f32⟩ : BufTy).Contents (Elt F)) :
    (⟨S50000x128, .f32⟩ : BufTy).Contents (Elt F) :=
  layer (relu (layer (relu (layer (relu (layer a0 (wsl0 a3) (wsl0 a5) (bsl0 a4) (bsl0 a6) a1 a2)) (wsl1 a3) (wsl1 a5) (bsl1 a4) (bsl1 a6) a1 a2)) (wsl2 a3) (wsl2 a5) (bsl2 a4) (bsl2 a6) a1 a2)) (wsl3 a3) (wsl3 a5) (bsl3 a4) (bsl3 a6) a1 a2

end Cert.Spec

end
-- ==== Proof.Prep.lean ====
/-
  The kernel program's host operations before its first region: both edge lists get one self-loop per node appended,
  each graph's in-degrees are counted by a scatter-add of ones, d = deg^(-1/2) where the degree is positive and 0
  elsewhere, every edge gets the weight d(src)·d(dst), and the first layer's main weight matrix is cut out of its stack.
-/
import proofs.«113452_j3143916060941_1_alg».proof.Proof.Gen.KernelIdeal.Launch
import proofs.«113452_j3143916060941_1_alg».proof.Proof.Spec
import Idealize.ShloMosaic.Lib.StableHlo.Run

set_option maxRecDepth 16384

noncomputable section

namespace Cert.KernelIdeal.Prep

open Cert.KernelIdeal Cert.KernelIdeal.Gen Idealize.ShloMosaic Idealize.ShloMosaic.TcCoe Idealize.ShloMosaic.StableHlo

variable {F : FTy → Type} [FloatOps F] (W : Valuation τ sig (Elt F))

theorem srcM : after hostOps0_4 (after hostOps0_3 (after hostOps0_2 (after hostOps0_1 (after hostOps0 W)))) (Proc.devRef .tc main_v3) = Cert.Spec.srcM (W (Proc.devRef .tc main_arg1)) := by
  simp only [hostOps0, hostOps0_1, hostOps0_2, hostOps0_3, hostOps0_4]; after_results_simp; rfl
theorem dstM : after hostOps0_4 (after hostOps0_3 (after hostOps0_2 (after hostOps0_1 (after hostOps0 W)))) (Proc.devRef .tc main_v6) = Cert.Spec.dstM (W (Proc.devRef .tc main_arg1)) := by
  simp only [hostOps0, hostOps0_1, hostOps0_2, hostOps0_3, hostOps0_4]; after_results_simp; rfl
theorem nrmM : after hostOps0_4 (after hostOps0_3 (after hostOps0_2 (after hostOps0_1 (after hostOps0 W)))) (Proc.devRef .tc main_v29) = Cert.Spec.nrmM (Cert.Spec.srcM (W (Proc.devRef .tc main_arg1))) (Cert.Spec.dstM (W (Proc.devRef .tc main_arg1))) := by
  simp only [hostOps0, hostOps0_1, hostOps0_2, hostOps0_3, hostOps0_4]; after_results_simp; rfl
theorem srcC : after hostOps0_4 (after hostOps0_3 (after hostOps0_2 (after hostOps0_1 (after hostOps0 W)))) (Proc.devRef .tc main_v33) = Cert.Spec.srcC (W (Proc.devRef .tc main_arg2)) := by
  simp only [hostOps0, hostOps0_1, hostOps0_2, hostOps0_3, hostOps0_4]; after_results_simp; rfl
theorem dstC : after hostOps0_4 (after hostOps0_3 (after hostOps0_2 (after hostOps0_1 (after hostOps0 W)))) (Proc.devRef .tc main_v36) = Cert.Spec.dstC (W (Proc.devRef .tc main_arg2)) := by
  simp only [hostOps0, hostOps0_1, hostOps0_2, hostOps0_3, hostOps0_4]; after_results_simp; rfl
theorem nrmC : after hostOps0_4 (after hostOps0_3 (after hostOps0_2 (after hostOps0_1 (after hostOps0 W)))) (Proc.devRef .tc main_v59) = Cert.Spec.nrmC (Cert.Spec.srcC (W (Proc.devRef .tc main_arg2))) (Cert.Spec.dstC (W (Proc.devRef .tc main_arg2))) := by
  simp only [hostOps0, hostOps0_1, hostOps0_2, hostOps0_3, hostOps0_4]; after_results_simp; rfl
theorem w0 : after hostOps0_4 (after hostOps0_3 (after hostOps0_2 (after hostOps0_1 (after hostOps0 W)))) (Proc.devRef .tc main_v61) = Cert.Spec.wsl0 (W (Proc.devRef .tc main_arg3)) := by
  simp only [hostOps0, hostOps0_1, hostOps0_2, hostOps0_3, hostOps0_4]; after_results_simp; rfl

set_option maxHeartbeats 4000000 in
/-- The stretches leave the float arguments as they found them. -/
theorem keep : after hostOps0_4 (after hostOps0_3 (after hostOps0_2 (after hostOps0_1 (after hostOps0 W)))) (Proc.devRef .tc main_arg0) = W (Proc.devRef .tc main_arg0)
    ∧ after hostOps0_4 (after hostOps0_3 (after hostOps0_2 (after hostOps0_1 (after hostOps0 W)))) (Proc.devRef .tc main_arg3) = W (Proc.devRef .tc main_arg3)
    ∧ after hostOps0_4 (after hostOps0_3 (after hostOps0_2 (after hostOps0_1 (after hostOps0 W)))) (Proc.devRef .tc main_arg4) = W (Proc.devRef .tc main_arg4)
    ∧ after hostOps0_4 (after hostOps0_3 (after hostOps0_2 (after hostOps0_1 (after hostOps0 W)))) (Proc.devRef .tc main_arg5) = W (Proc.devRef .tc main_arg5)
    ∧ after hostOps0_4 (after hostOps0_3 (after hostOps0_2 (after hostOps0_1 (after hostOps0 W)))) (Proc.devRef .tc main_arg6) = W (Proc.devRef .tc main_arg6) := by
  refine ⟨?_, ?_, ?_, ?_, ?_⟩ <;> (simp only [hostOps0, hostOps0_1, hostOps0_2, hostOps0_3, hostOps0_4]; after_results_simp)

end Cert.KernelIdeal.Prep

end
-- ==== Proof.St1.lean ====
/-
  Host stretch 1 of the kernel program: one weight matrix cut out of its stack of four.
-/
import proofs.«113452_j3143916060941_1_alg».proof.Proof.Gen.KernelIdeal.Launch
import proofs.«113452_j3143916060941_1_alg».proof.Proof.Spec
import Idealize.ShloMosaic.Lib.StableHlo.Run

set_option maxRecDepth 16384

noncomputable section

namespace Cert.KernelIdeal.St1

open Cert.KernelIdeal Cert.KernelIdeal.Gen Idealize.ShloMosaic Idealize.ShloMosaic.TcCoe Idealize.ShloMosaic.StableHlo

variable {F : FTy → Type} [FloatOps F] (W : Valuation τ sig (Elt F))

/-- The stretch's result: the layer's weight matrix. -/
theorem val : after hostOps1 W (Proc.devRef .tc main_v64) = Cert.Spec.wsl0 (W (Proc.devRef .tc main_arg5)) := by
  simp only [hostOps1]; after_results_simp; rfl

set_option maxHeartbeats 4000000 in
/-- The stretch leaves these buffers as it found them: none of its operations writes them. -/
theorem keep : after hostOps1 W (Proc.devRef .tc main_v3) = W (Proc.devRef .tc main_v3)
    ∧ after hostOps1 W (Proc.devRef .tc main_v6) = W (Proc.devRef .tc main_v6)
    ∧ after hostOps1 W (Proc.devRef .tc main_v29) = W (Proc.devRef .tc main_v29)
    ∧ after hostOps1 W (Proc.devRef .tc main_v33) = W (Proc.devRef .tc main_v33)
    ∧ after hostOps1 W (Proc.devRef .tc main_v36) = W (Proc.devRef .tc main_v36)
    ∧ after hostOps1 W (Proc.devRef .tc main_v59) = W (Proc.devRef .tc main_v59)
    ∧ after hostOps1 W (Proc.devRef .tc main_arg3) = W (Proc.devRef .tc main_arg3)
    ∧ after hostOps1 W (Proc.devRef .tc main_arg4) = W (Proc.devRef .tc main_arg4)
    ∧ after hostOps1 W (Proc.devRef .tc main_arg5) = W (Proc.devRef .tc main_arg5)
    ∧ after hostOps1 W (Proc.devRef .tc main_arg6) = W (Proc.devRef .tc main_arg6)
    ∧ after hostOps1 W (Proc.devRef .tc main_arg0) = W (Proc.devRef .tc main_arg0)
    ∧ after hostOps1 W (Proc.devRef .tc main_v62) = W (Proc.devRef .tc main_v62) := by
  refine ⟨?_, ?_, ?_, ?_, ?_, ?_, ?_, ?_, ?_, ?_, ?_, ?_⟩ <;> (simp only [hostOps1]; after_results_simp)

end Cert.KernelIdeal.St1

end
-- ==== Proof.St2.lean ====
/-
  Host stretch 2 of the kernel program: each branch's product is gathered by its edge list's sources, scaled by the edge
  weights and summed into the destinations, and the layer's two bias rows are cut out of their stacks.
-/
import proofs.«113452_j3143916060941_1_alg».proof.Proof.Gen.KernelIdeal.Launch
import proofs.«113452_j3143916060941_1_alg».proof.Proof.Spec
import Idealize.ShloMosaic.Lib.StableHlo.Run

set_option maxRecDepth 16384

noncomputable section

namespace Cert.KernelIdeal.St2

open Cert.KernelIdeal Cert.KernelIdeal.Gen Idealize.ShloMosaic Idealize.ShloMosaic.TcCoe Idealize.ShloMosaic.StableHlo

variable {F : FTy → Type} [FloatOps F] (W : Valuation τ sig (Elt F))

theorem aggM : after hostOps2 W (Proc.devRef .tc main_v78) = Cert.Spec.convM (W (Proc.devRef .tc main_v62)) (W (Proc.devRef .tc main_v3)) (W (Proc.devRef .tc main_v6)) (W (Proc.devRef .tc main_v29)) := by
  simp only [hostOps2]; after_results_simp; rfl

theorem aggC : after hostOps2 W (Proc.devRef .tc main_v91) = Cert.Spec.convC (W (Proc.devRef .tc main_v65)) (W (Proc.devRef .tc main_v33)) (W (Proc.devRef .tc main_v36)) (W (Proc.devRef .tc main_v59)) := by
  simp only [hostOps2]; after_results_simp; rfl

theorem biasM : after hostOps2 W (Proc.devRef .tc main_v93) = Cert.Spec.bsl0 (W (Proc.devRef .tc main_arg4)) := by
  simp only [hostOps2]; after_results_simp; rfl

theorem biasC : after hostOps2 W (Proc.devRef .tc main_v95) = Cert.Spec.bsl0 (W (Proc.devRef .tc main_arg6)) := by
  simp only [hostOps2]; after_results_simp; rfl

set_option maxHeartbeats 4000000 in
/-- The stretch leaves these buffers as it found them: none of its operations writes them. -/
theorem keep : after hostOps2 W (Proc.devRef .tc main_v3) = W (Proc.devRef .tc main_v3)
    ∧ after hostOps2 W (Proc.devRef .tc main_v6) = W (Proc.devRef .tc main_v6)
    ∧ after hostOps2 W (Proc.devRef .tc main_v29) = W (Proc.devRef .tc main_v29)
    ∧ after hostOps2 W (Proc.devRef .tc main_v33) = W (Proc.devRef .tc main_v33)
    ∧ after hostOps2 W (Proc.devRef .tc main_v36) = W (Proc.devRef .tc main_v36)
    ∧ after hostOps2 W (Proc.devRef .tc main_v59) = W (Proc.devRef .tc main_v59)
    ∧ after hostOps2 W (Proc.devRef .tc main_arg3) = W (Proc.devRef .tc main_arg3)
    ∧ after hostOps2 W (Proc.devRef .tc main_arg4) = W (Proc.devRef .tc main_arg4)
    ∧ after hostOps2 W (Proc.devRef .tc main_arg5) = W (Proc.devRef .tc main_arg5)
    ∧ after hostOps2 W (Proc.devRef .tc main_arg6) = W (Proc.devRef .tc main_arg6) := by
  refine ⟨?_, ?_, ?_, ?_, ?_, ?_, ?_, ?_, ?_, ?_⟩ <;> (simp only [hostOps2]; after_results_simp)

end Cert.KernelIdeal.St2

end
-- ==== Proof.St3.lean ====
/-
  Host stretch 3 of the kernel program: one weight matrix cut out of its stack of four.
-/
import proofs.«113452_j3143916060941_1_alg».proof.Proof.Gen.KernelIdeal.Launch
import proofs.«113452_j3143916060941_1_alg».proof.Proof.Spec
import Idealize.ShloMosaic.Lib.StableHlo.Run

set_option maxRecDepth 16384

noncomputable section

namespace Cert.KernelIdeal.St3

open Cert.KernelIdeal Cert.KernelIdeal.Gen Idealize.ShloMosaic Idealize.ShloMosaic.TcCoe Idealize.ShloMosaic.StableHlo

variable {F : FTy → Type} [FloatOps F] (W : Valuation τ sig (Elt F))

/-- The stretch's result: the layer's weight matrix. -/
theorem val : after hostOps3 W (Proc.devRef .tc main_v98) = Cert.Spec.wsl1 (W (Proc.devRef .tc main_arg3)) := by
  simp only [hostOps3]; after_results_simp; rfl

set_option maxHeartbeats 4000000 in
/-- The stretch leaves these buffers as it found them: none of its operations writes them. -/
theorem keep : after hostOps3 W (Proc.devRef .tc main_v3) = W (Proc.devRef .tc main_v3)
    ∧ after hostOps3 W (Proc.devRef .tc main_v6) = W (Proc.devRef .tc main_v6)
    ∧ after hostOps3 W (Proc.devRef .tc main_v29) = W (Proc.devRef .tc main_v29)
    ∧ after hostOps3 W (Proc.devRef .tc main_v33) = W (Proc.devRef .tc main_v33)
    ∧ after hostOps3 W (Proc.devRef .tc main_v36) = W (Proc.devRef .tc main_v36)
    ∧ after hostOps3 W (Proc.devRef .tc main_v59) = W (Proc.devRef .tc main_v59)
    ∧ after hostOps3 W (Proc.devRef .tc main_arg3) = W (Proc.devRef .tc main_arg3)
    ∧ after hostOps3 W (Proc.devRef .tc main_arg4) = W (Proc.devRef .tc main_arg4)
    ∧ after hostOps3 W (Proc.devRef .tc main_arg5) = W (Proc.devRef .tc main_arg5)
    ∧ after hostOps3 W (Proc.devRef .tc main_arg6) = W (Proc.devRef .tc main_arg6)
    ∧ after hostOps3 W (Proc.devRef .tc main_v96) = W (Proc.devRef .tc main_v96) := by
  refine ⟨?_, ?_, ?_, ?_, ?_, ?_, ?_, ?_, ?_, ?_, ?_⟩ <;> (simp only [hostOps3]; after_results_simp)

end Cert.KernelIdeal.St3

end
-- ==== Proof.St4.lean ====
/-
  Host stretch 4 of the kernel program: one weight matrix cut out of its stack of four.
-/
import proofs.«113452_j3143916060941_1_alg».proof.Proof.Gen.KernelIdeal.Launch
import proofs.«113452_j3143916060941_1_alg».proof.Proof.Spec
import Idealize.ShloMosaic.Lib.StableHlo.Run

set_option maxRecDepth 16384

noncomputable section

namespace Cert.KernelIdeal.St4

open Cert.KernelIdeal Cert.KernelIdeal.Gen Idealize.ShloMosaic Idealize.ShloMosaic.TcCoe Idealize.ShloMosaic.StableHlo

variable {F : FTy → Type} [FloatOps F] (W : Valuation τ sig (Elt F))

/-- The stretch's result: the layer's weight matrix. -/
theorem val : after hostOps4 W (Proc.devRef .tc main_v101) = Cert.Spec.wsl1 (W (Proc.devRef .tc main_arg5)) := by
  simp only [hostOps4]; after_results_simp; rfl

set_option maxHeartbeats 4000000 in
/-- The stretch leaves these buffers as it found them: none of its operations writes them. -/
theorem keep : after hostOps4 W (Proc.devRef .tc main_v3) = W (Proc.devRef .tc main_v3)
    ∧ after hostOps4 W (Proc.devRef .tc main_v6) = W (Proc.devRef .tc main_v6)
    ∧ after hostOps4 W (Proc.devRef .tc main_v29) = W (Proc.devRef .tc main_v29)
    ∧ after hostOps4 W (Proc.devRef .tc main_v33) = W (Proc.devRef .tc main_v33)
    ∧ after hostOps4 W (Proc.devRef .tc main_v36) = W (Proc.devRef .tc main_v36)
    ∧ after hostOps4 W (Proc.devRef .tc main_v59) = W (Proc.devRef .tc main_v59)
    ∧ after hostOps4 W (Proc.devRef .tc main_arg3) = W (Proc.devRef .tc main_arg3)
    ∧ after hostOps4 W (Proc.devRef .tc main_arg4) = W (Proc.devRef .tc main_arg4)
    ∧ after hostOps4 W (Proc.devRef .tc main_arg5) = W (Proc.devRef .tc main_arg5)
    ∧ after hostOps4 W (Proc.devRef .tc main_arg6) = W (Proc.devRef .tc main_arg6)
    ∧ after hostOps4 W (Proc.devRef .tc main_v96) = W (Proc.devRef .tc main_v96)
    ∧ after hostOps4 W (Proc.devRef .tc main_v99) = W (Proc.devRef .tc main_v99) := by
  refine ⟨?_, ?_, ?_, ?_, ?_, ?_, ?_, ?_, ?_, ?_, ?_, ?_⟩ <;> (simp only [hostOps4]; after_results_simp)

end Cert.KernelIdeal.St4

end
-- ==== Proof.St5.lean ====
/-
  Host stretch 5 of the kernel program: each branch's product is gathered by its edge list's sources, scaled by the edge
  weights and summed into the destinations, and the layer's two bias rows are cut out of their stacks.
-/
import proofs.«113452_j3143916060941_1_alg».proof.Proof.Gen.KernelIdeal.Launch
import proofs.«113452_j3143916060941_1_alg».proof.Proof.Spec
import Idealize.ShloMosaic.Lib.StableHlo.Run

set_option maxRecDepth 16384

noncomputable section

namespace Cert.KernelIdeal.St5

open Cert.KernelIdeal Cert.KernelIdeal.Gen Idealize.ShloMosaic Idealize.ShloMosaic.TcCoe Idealize.ShloMosaic.StableHlo

variable {F : FTy → Type} [FloatOps F] (W : Valuation τ sig (Elt F))

theorem aggM : after hostOps5 W (Proc.devRef .tc main_v115) = Cert.Spec.convM (W (Proc.devRef .tc main_v99)) (W (Proc.devRef .tc main_v3)) (W (Proc.devRef .tc main_v6)) (W (Proc.devRef .tc main_v29)) := by
  simp only [hostOps5]; after_results_simp; rfl

theorem aggC : after hostOps5 W (Proc.devRef .tc main_v128) = Cert.Spec.convC (W (Proc.devRef .tc main_v102)) (W (Proc.devRef .tc main_v33)) (W (Proc.devRef .tc main_v36)) (W (Proc.devRef .tc main_v59)) := by
  simp only [hostOps5]; after_results_simp; rfl

theorem biasM : after hostOps5 W (Proc.devRef .tc main_v130) = Cert.Spec.bsl1 (W (Proc.devRef .tc main_arg4)) := by
  simp only [hostOps5]; after_results_simp; rfl

theorem biasC : after hostOps5 W (Proc.devRef .tc main_v132) = Cert.Spec.bsl1 (W (Proc.devRef .tc main_arg6)) := by
  simp only [hostOps5]; after_results_simp; rfl

set_option maxHeartbeats 4000000 in
/-- The stretch leaves these buffers as it found them: none of its operations writes them. -/
theorem keep : after hostOps5 W (Proc.devRef .tc main_v3) = W (Proc.devRef .tc main_v3)
    ∧ after hostOps5 W (Proc.devRef .tc main_v6) = W (Proc.devRef .tc main_v6)
    ∧ after hostOps5 W (Proc.devRef .tc main_v29) = W (Proc.devRef .tc main_v29)
    ∧ after hostOps5 W (Proc.devRef .tc main_v33) = W (Proc.devRef .tc main_v33)
    ∧ after hostOps5 W (Proc.devRef .tc main_v36) = W (Proc.devRef .tc main_v36)
    ∧ after hostOps5 W (Proc.devRef .tc main_v59) = W (Proc.devRef .tc main_v59)
    ∧ after hostOps5 W (Proc.devRef .tc main_arg3) = W (Proc.devRef .tc main_arg3)
    ∧ after hostOps5 W (Proc.devRef .tc main_arg4) = W (Proc.devRef .tc main_arg4)
    ∧ after hostOps5 W (Proc.devRef .tc main_arg5) = W (Proc.devRef .tc main_arg5)
    ∧ after hostOps5 W (Proc.devRef .tc main_arg6) = W (Proc.devRef .tc main_arg6) := by
  refine ⟨?_, ?_, ?_, ?_, ?_, ?_, ?_, ?_, ?_, ?_⟩ <;> (simp only [hostOps5]; after_results_simp)

end Cert.KernelIdeal.St5

end
-- ==== Proof.St6.lean ====
/-
  Host stretch 6 of the kernel program: one weight matrix cut out of its stack of four.
-/
import proofs.«113452_j3143916060941_1_alg».proof.Proof.Gen.KernelIdeal.Launch
import proofs.«113452_j3143916060941_1_alg».proof.Proof.Spec
import Idealize.ShloMosaic.Lib.StableHlo.Run

set_option maxRecDepth 16384

noncomputable section

namespace Cert.KernelIdeal.St6

open Cert.KernelIdeal Cert.KernelIdeal.Gen Idealize.ShloMosaic Idealize.ShloMosaic.TcCoe Idealize.ShloMosaic.StableHlo

variable {F : FTy → Type} [FloatOps F] (W : Valuation τ sig (Elt F))

/-- The stretch's result: the layer's weight matrix. -/
theorem val : after hostOps6 W (Proc.devRef .tc main_v135) = Cert.Spec.wsl2 (W (Proc.devRef .tc main_arg3)) := by
  simp only [hostOps6]; after_results_simp; rfl

set_option maxHeartbeats 4000000 in
/-- The stretch leaves these buffers as it found them: none of its operations writes them. -/
theorem keep : after hostOps6 W (Proc.devRef .tc main_v3) = W (Proc.devRef .tc main_v3)
    ∧ after hostOps6 W (Proc.devRef .tc main_v6) = W (Proc.devRef .tc main_v6)
    ∧ after hostOps6 W (Proc.devRef .tc main_v29) = W (Proc.devRef .tc main_v29)
    ∧ after hostOps6 W (Proc.devRef .tc main_v33) = W (Proc.devRef .tc main_v33)
    ∧ after hostOps6 W (Proc.devRef .tc main_v36) = W (Proc.devRef .tc main_v36)
    ∧ after hostOps6 W (Proc.devRef .tc main_v59) = W (Proc.devRef .tc main_v59)
    ∧ after hostOps6 W (Proc.devRef .tc main_arg3) = W (Proc.devRef .tc main_arg3)
    ∧ after hostOps6 W (Proc.devRef .tc main_arg4) = W (Proc.devRef .tc main_arg4)
    ∧ after hostOps6 W (Proc.devRef .tc main_arg5) = W (Proc.devRef .tc main_arg5)
    ∧ after hostOps6 W (Proc.devRef .tc main_arg6) = W (Proc.devRef .tc main_arg6)
    ∧ after hostOps6 W (Proc.devRef .tc main_v133) = W (Proc.devRef .tc main_v133) := by
  refine ⟨?_, ?_, ?_, ?_, ?_, ?_, ?_, ?_, ?_, ?_, ?_⟩ <;> (simp only [hostOps6]; after_results_simp)

end Cert.KernelIdeal.St6

end
-- ==== Proof.St7.lean ====
/-
  Host stretch 7 of the kernel program: one weight matrix cut out of its stack of four.
-/
import proofs.«113452_j3143916060941_1_alg».proof.Proof.Gen.KernelIdeal.Launch
import proofs.«113452_j3143916060941_1_alg».proof.Proof.Spec
import Idealize.ShloMosaic.Lib.StableHlo.Run

set_option maxRecDepth 16384

noncomputable section

namespace Cert.KernelIdeal.St7

open Cert.KernelIdeal Cert.KernelIdeal.Gen Idealize.ShloMosaic Idealize.ShloMosaic.TcCoe Idealize.ShloMosaic.StableHlo

variable {F : FTy → Type} [FloatOps F] (W : Valuation τ sig (Elt F))

/-- The stretch's result: the layer's weight matrix. -/
theorem val : after hostOps7 W (Proc.devRef .tc main_v138) = Cert.Spec.wsl2 (W (Proc.devRef .tc main_arg5)) := by
  simp only [hostOps7]; after_results_simp; rfl

set_option maxHeartbeats 4000000 in
/-- The stretch leaves these buffers as it found them: none of its operations writes them. -/
theorem keep : after hostOps7 W (Proc.devRef .tc main_v3) = W (Proc.devRef .tc main_v3)
    ∧ after hostOps7 W (Proc.devRef .tc main_v6) = W (Proc.devRef .tc main_v6)
    ∧ after hostOps7 W (Proc.devRef .tc main_v29) = W (Proc.devRef .tc main_v29)
    ∧ after hostOps7 W (Proc.devRef .tc main_v33) = W (Proc.devRef .tc main_v33)
    ∧ after hostOps7 W (Proc.devRef .tc main_v36) = W (Proc.devRef .tc main_v36)
    ∧ after hostOps7 W (Proc.devRef .tc main_v59) = W (Proc.devRef .tc main_v59)
    ∧ after hostOps7 W (Proc.devRef .tc main_arg3) = W (Proc.devRef .tc main_arg3)
    ∧ after hostOps7 W (Proc.devRef .tc main_arg4) = W (Proc.devRef .tc main_arg4)
    ∧ after hostOps7 W (Proc.devRef .tc main_arg5) = W (Proc.devRef .tc main_arg5)
    ∧ after hostOps7 W (Proc.devRef .tc main_arg6) = W (Proc.devRef .tc main_arg6)
    ∧ after hostOps7 W (Proc.devRef .tc main_v133) = W (Proc.devRef .tc main_v133)
    ∧ after hostOps7 W (Proc.devRef .tc main_v136) = W (Proc.devRef .tc main_v136) := by
  refine ⟨?_, ?_, ?_, ?_, ?_, ?_, ?_, ?_, ?_, ?_, ?_, ?_⟩ <;> (simp only [hostOps7]; after_results_simp)

end Cert.KernelIdeal.St7

end
-- ==== Proof.St8.lean ====
/-
  Host stretch 8 of the kernel program: each branch's product is gathered by its edge list's sources, scaled by the edge
  weights and summed into the destinations, and the layer's two bias rows are cut out of their stacks.
-/
import proofs.«113452_j3143916060941_1_alg».proof.Proof.Gen.KernelIdeal.Launch
import proofs.«113452_j3143916060941_1_alg».proof.Proof.Spec
import Idealize.ShloMosaic.Lib.StableHlo.Run

set_option maxRecDepth 16384

noncomputable section

namespace Cert.KernelIdeal.St8

open Cert.KernelIdeal Cert.KernelIdeal.Gen Idealize.ShloMosaic Idealize.ShloMosaic.TcCoe Idealize.ShloMosaic.StableHlo

variable {F : FTy → Type} [FloatOps F] (W : Valuation τ sig (Elt F))

theorem aggM : after hostOps8 W (Proc.devRef .tc main_v152) = Cert.Spec.convM (W (Proc.devRef .tc main_v136)) (W (Proc.devRef .tc main_v3)) (W (Proc.devRef .tc main_v6)) (W (Proc.devRef .tc main_v29)) := by
  simp only [hostOps8]; after_results_simp; rfl

theorem aggC : after hostOps8 W (Proc.devRef .tc main_v165) = Cert.Spec.convC (W (Proc.devRef .tc main_v139)) (W (Proc.devRef .tc main_v33)) (W (Proc.devRef .tc main_v36)) (W (Proc.devRef .tc main_v59)) := by
  simp only [hostOps8]; after_results_simp; rfl

theorem biasM : after hostOps8 W (Proc.devRef .tc main_v167) = Cert.Spec.bsl2 (W (Proc.devRef .tc main_arg4)) := by
  simp only [hostOps8]; after_results_simp; rfl

theorem biasC : after hostOps8 W (Proc.devRef .tc main_v169) = Cert.Spec.bsl2 (W (Proc.devRef .tc main_arg6)) := by
  simp only [hostOps8]; after_results_simp; rfl

set_option maxHeartbeats 4000000 in
/-- The stretch leaves these buffers as it found them: none of its operations writes them. -/
theorem keep : after hostOps8 W (Proc.devRef .tc main_v3) = W (Proc.devRef .tc main_v3)
    ∧ after hostOps8 W (Proc.devRef .tc main_v6) = W (Proc.devRef .tc main_v6)
    ∧ after hostOps8 W (Proc.devRef .tc main_v29) = W (Proc.devRef .tc main_v29)
    ∧ after hostOps8 W (Proc.devRef .tc main_v33) = W (Proc.devRef .tc main_v33)
    ∧ after hostOps8 W (Proc.devRef .tc main_v36) = W (Proc.devRef .tc main_v36)
    ∧ after hostOps8 W (Proc.devRef .tc main_v59) = W (Proc.devRef .tc main_v59)
    ∧ after hostOps8 W (Proc.devRef .tc main_arg3) = W (Proc.devRef .tc main_arg3)
    ∧ after hostOps8 W (Proc.devRef .tc main_arg4) = W (Proc.devRef .tc main_arg4)
    ∧ after hostOps8 W (Proc.devRef .tc main_arg5) = W (Proc.devRef .tc main_arg5)
    ∧ after hostOps8 W (Proc.devRef .tc main_arg6) = W (Proc.devRef .tc main_arg6) := by
  refine ⟨?_, ?_, ?_, ?_, ?_, ?_, ?_, ?_, ?_, ?_⟩ <;> (simp only [hostOps8]; after_results_simp)

end Cert.KernelIdeal.St8

end
-- ==== Proof.St9.lean ====
/-
  Host stretch 9 of the kernel program: one weight matrix cut out of its stack of four.
-/
import proofs.«113452_j3143916060941_1_alg».proof.Proof.Gen.KernelIdeal.Launch
import proofs.«113452_j3143916060941_1_alg».proof.Proof.Spec
import Idealize.ShloMosaic.Lib.StableHlo.Run

set_option maxRecDepth 16384

noncomputable section

namespace Cert.KernelIdeal.St9

open Cert.KernelIdeal Cert.KernelIdeal.Gen Idealize.ShloMosaic Idealize.ShloMosaic.TcCoe Idealize.ShloMosaic.StableHlo

variable {F : FTy → Type} [FloatOps F] (W : Valuation τ sig (Elt F))

/-- The stretch's result: the layer's weight matrix. -/
theorem val : after hostOps9 W (Proc.devRef .tc main_v172) = Cert.Spec.wsl3 (W (Proc.devRef .tc main_arg3)) := by
  simp only [hostOps9]; after_results_simp; rfl

set_option maxHeartbeats 4000000 in
/-- The stretch leaves these buffers as it found them: none of its operations writes them. -/
theorem keep : after hostOps9 W (Proc.devRef .tc main_v3) = W (Proc.devRef .tc main_v3)
    ∧ after hostOps9 W (Proc.devRef .tc main_v6) = W (Proc.devRef .tc main_v6)
    ∧ after hostOps9 W (Proc.devRef .tc main_v29) = W (Proc.devRef .tc main_v29)
    ∧ after hostOps9 W (Proc.devRef .tc main_v33) = W (Proc.devRef .tc main_v33)
    ∧ after hostOps9 W (Proc.devRef .tc main_v36) = W (Proc.devRef .tc main_v36)
    ∧ after hostOps9 W (Proc.devRef .tc main_v59) = W (Proc.devRef .tc main_v59)
    ∧ after hostOps9 W (Proc.devRef .tc main_arg3) = W (Proc.devRef .tc main_arg3)
    ∧ after hostOps9 W (Proc.devRef .tc main_arg4) = W (Proc.devRef .tc main_arg4)
    ∧ after hostOps9 W (Proc.devRef .tc main_arg5) = W (Proc.devRef .tc main_arg5)
    ∧ after hostOps9 W (Proc.devRef .tc main_arg6) = W (Proc.devRef .tc main_arg6)
    ∧ after hostOps9 W (Proc.devRef .tc main_v170) = W (Proc.devRef .tc main_v170) := by
  refine ⟨?_, ?_, ?_, ?_, ?_, ?_, ?_, ?_, ?_, ?_, ?_⟩ <;> (simp only [hostOps9]; after_results_simp)

end Cert.KernelIdeal.St9

end
-- ==== Proof.St10.lean ====
/-
  Host stretch 10 of the kernel program: one weight matrix cut out of its stack of four.
-/
import proofs.«113452_j3143916060941_1_alg».proof.Proof.Gen.KernelIdeal.Launch
import proofs.«113452_j3143916060941_1_alg».proof.Proof.Spec
import Idealize.ShloMosaic.Lib.StableHlo.Run

set_option maxRecDepth 16384

noncomputable section

namespace Cert.KernelIdeal.St10

open Cert.KernelIdeal Cert.KernelIdeal.Gen Idealize.ShloMosaic Idealize.ShloMosaic.TcCoe Idealize.ShloMosaic.StableHlo

variable {F : FTy → Type} [FloatOps F] (W : Valuation τ sig (Elt F))

/-- The stretch's result: the layer's weight matrix. -/
theorem val : after hostOps10 W (Proc.devRef .tc main_v175) = Cert.Spec.wsl3 (W (Proc.devRef .tc main_arg5)) := by
  simp only [hostOps10]; after_results_simp; rfl

set_option maxHeartbeats 4000000 in
/-- The stretch leaves these buffers as it found them: none of its operations writes them. -/
theorem keep : after hostOps10 W (Proc.devRef .tc main_v3) = W (Proc.devRef .tc main_v3)
    ∧ after hostOps10 W (Proc.devRef .tc main_v6) = W (Proc.devRef .tc main_v6)
    ∧ after hostOps10 W (Proc.devRef .tc main_v29) = W (Proc.devRef .tc main_v29)
    ∧ after hostOps10 W (Proc.devRef .tc main_v33) = W (Proc.devRef .tc main_v33)
    ∧ after hostOps10 W (Proc.devRef .tc main_v36) = W (Proc.devRef .tc main_v36)
    ∧ after hostOps10 W (Proc.devRef .tc main_v59) = W (Proc.devRef .tc main_v59)
    ∧ after hostOps10 W (Proc.devRef .tc main_arg3) = W (Proc.devRef .tc main_arg3)
    ∧ after hostOps10 W (Proc.devRef .tc main_arg4) = W (Proc.devRef .tc main_arg4)
    ∧ after hostOps10 W (Proc.devRef .tc main_arg5) = W (Proc.devRef .tc main_arg5)
    ∧ after hostOps10 W (Proc.devRef .tc main_arg6) = W (Proc.devRef .tc main_arg6)
    ∧ after hostOps10 W (Proc.devRef .tc main_v170) = W (Proc.devRef .tc main_v170)
    ∧ after hostOps10 W (Proc.devRef .tc main_v173) = W (Proc.devRef .tc main_v173) := by
  refine ⟨?_, ?_, ?_, ?_, ?_, ?_, ?_, ?_, ?_, ?_, ?_, ?_⟩ <;> (simp only [hostOps10]; after_results_simp)

end Cert.KernelIdeal.St10

end
-- ==== Proof.St11.lean ====
/-
  Host stretch 11 of the kernel program: each branch's product is gathered by its edge list's sources, scaled by the edge
  weights and summed into the destinations, and the layer's two bias rows are cut out of their stacks.
-/
import proofs.«113452_j3143916060941_1_alg».proof.Proof.Gen.KernelIdeal.Launch
import proofs.«113452_j3143916060941_1_alg».proof.Proof.Spec
import Idealize.ShloMosaic.Lib.StableHlo.Run

set_option maxRecDepth 16384

noncomputable section

namespace Cert.KernelIdeal.St11

open Cert.KernelIdeal Cert.KernelIdeal.Gen Idealize.ShloMosaic Idealize.ShloMosaic.TcCoe Idealize.ShloMosaic.StableHlo

variable {F : FTy → Type} [FloatOps F] (W : Valuation τ sig (Elt F))

theorem aggM : after hostOps11 W (Proc.devRef .tc main_v189) = Cert.Spec.convM (W (Proc.devRef .tc main_v173)) (W (Proc.devRef .tc main_v3)) (W (Proc.devRef .tc main_v6)) (W (Proc.devRef .tc main_v29)) := by
  simp only [hostOps11]; after_results_simp; rfl

theorem aggC : after hostOps11 W (Proc.devRef .tc main_v202) = Cert.Spec.convC (W (Proc.devRef .tc main_v176)) (W (Proc.devRef .tc main_v33)) (W (Proc.devRef .tc main_v36)) (W (Proc.devRef .tc main_v59)) := by
  simp only [hostOps11]; after_results_simp; rfl

theorem biasM : after hostOps11 W (Proc.devRef .tc main_v204) = Cert.Spec.bsl3 (W (Proc.devRef .tc main_arg4)) := by
  simp only [hostOps11]; after_results_simp; rfl

theorem biasC : after hostOps11 W (Proc.devRef .tc main_v206) = Cert.Spec.bsl3 (W (Proc.devRef .tc main_arg6)) := by
  simp only [hostOps11]; after_results_simp; rfl

set_option maxHeartbeats 4000000 in
/-- The stretch leaves these buffers as it found them: none of its operations writes them. -/
theorem keep : after hostOps11 W (Proc.devRef .tc main_v3) = W (Proc.devRef .tc main_v3)
    ∧ after hostOps11 W (Proc.devRef .tc main_v6) = W (Proc.devRef .tc main_v6)
    ∧ after hostOps11 W (Proc.devRef .tc main_v29) = W (Proc.devRef .tc main_v29)
    ∧ after hostOps11 W (Proc.devRef .tc main_v33) = W (Proc.devRef .tc main_v33)
    ∧ after hostOps11 W (Proc.devRef .tc main_v36) = W (Proc.devRef .tc main_v36)
    ∧ after hostOps11 W (Proc.devRef .tc main_v59) = W (Proc.devRef .tc main_v59)
    ∧ after hostOps11 W (Proc.devRef .tc main_arg3) = W (Proc.devRef .tc main_arg3)
    ∧ after hostOps11 W (Proc.devRef .tc main_arg4) = W (Proc.devRef .tc main_arg4)
    ∧ after hostOps11 W (Proc.devRef .tc main_arg5) = W (Proc.devRef .tc main_arg5)
    ∧ after hostOps11 W (Proc.devRef .tc main_arg6) = W (Proc.devRef .tc main_arg6) := by
  refine ⟨?_, ?_, ?_, ?_, ?_, ?_, ?_, ?_, ?_, ?_⟩ <;> (simp only [hostOps11]; after_results_simp)

end Cert.KernelIdeal.St11

end
-- ==== Proof.Body.lean ====
/-
  What one grid point computes, entry by entry, at the exact instance.

  A matmul point multiplies its 5000-row block of the features by the whole 128×128 weight matrix: entry (p, q) of the
  block is the sum over k of block(p, k)·weight(k, q) (a change of float format is the identity here, and the accumulator
  starts at zero). A combine point adds its two 5000-row blocks and the two bias rows, entry by entry, and the first three
  layers' points then take the maximum with 0. The host's matrix product and the host's combine of whole arrays are the
  same expressions at a whole-array index; the two combines differ only in how the four summands are grouped, which
  addition of extended reals does not see (it is commutative and associative, infinities included).
-/
import proofs.«113452_j3143916060941_1_alg».proof.Proof.Gen.KernelIdeal.Skeleton
import proofs.«113452_j3143916060941_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Idealize.ShloMosaic Idealize.ShloMosaic.ValueIdx Idealize.ShloMosaic.Pipeline Cert.KernelIdeal Cert.KernelIdeal.Gen

/-- Entry j of a matmul point's block: the sum over the contracted axis of the feature block times the weights. -/
theorem pay_mm (x0 : Vec Ideal S5000x128 .f32) (x1 : Vec Ideal S128x128 .f32) (j : S5000x128.Idx) :
    k0_pay1 x0 x1 j = ∑ k : dot_S5000x128_S128x128_S5000x128_1_0_0_1_n_n.contr.Idx, x0 (dot_S5000x128_S128x128_S5000x128_1_0_0_1_n_n.lhsIdx j k) * x1 (dot_S5000x128_S128x128_S5000x128_1_0_0_1_n_n.rhsIdx j k) := by
  unfold k0_pay1
  refine (Ideal.matmul_constant_zero_apply dot_S5000x128_S128x128_S5000x128_1_0_0_1_n_n none _ _ j).trans ?_
  rw [shapeCast_self]
  rfl

/-- Entry i of the host's product of whole arrays: the same sum. -/
theorem mm_apply (x : (⟨Cert.ReferenceIdeal.S50000x128, .f32⟩ : BufTy).Contents (Elt Ideal)) (w : (⟨Cert.ReferenceIdeal.S128x128, .f32⟩ : BufTy).Contents (Elt Ideal))
    (i : Cert.ReferenceIdeal.S50000x128.Idx) :
    Cert.Spec.mm (F := Ideal) x w i = ∑ k : Cert.ReferenceIdeal.dot_S50000x128_S128x128_S50000x128_1_0_0_1_n_n.contr.Idx, x (Cert.ReferenceIdeal.dot_S50000x128_S128x128_S50000x128_1_0_0_1_n_n.lhsIdx i k) * w (Cert.ReferenceIdeal.dot_S50000x128_S128x128_S50000x128_1_0_0_1_n_n.rhsIdx i k) := by
  unfold Cert.Spec.mm
  exact Ideal.dotGeneral_apply Cert.ReferenceIdeal.dot_S50000x128_S128x128_S50000x128_1_0_0_1_n_n none _ x w i

/-- A matmul point's entry is the whole product's entry, when the point's feature block is rows r·5000 … of x and its
    weight block is all of w. -/
theorem mm_block (X : (⟨Cert.ReferenceIdeal.S50000x128, .f32⟩ : BufTy).Contents (Elt Ideal)) (Wt : (⟨Cert.ReferenceIdeal.S128x128, .f32⟩ : BufTy).Contents (Elt Ideal))
    (x0 : Vec Ideal S5000x128 .f32) (x1 : Vec Ideal S128x128 .f32) (r : ℕ) (j : S5000x128.Idx) (i : Cert.ReferenceIdeal.S50000x128.Idx)
    (hi0 : (i 0).val = r * 5000 + (j 0).val) (hi1 : (i 1).val = (j 1).val)
    (h0 : ∀ (y : S5000x128.Idx) (z : Cert.ReferenceIdeal.S50000x128.Idx), (z 0).val = r * 5000 + (y 0).val → (z 1).val = (y 1).val → x0 y = X z)
    (h1 : ∀ (y : S128x128.Idx) (z : Cert.ReferenceIdeal.S128x128.Idx), (z 0).val = (y 0).val → (z 1).val = (y 1).val → x1 y = Wt z) :
    k0_pay1 x0 x1 j = Cert.Spec.mm (F := Ideal) X Wt i := by
  rw [pay_mm, mm_apply]
  refine Finset.sum_congr rfl fun k _ => ?_
  rw [h0 (dot_S5000x128_S128x128_S5000x128_1_0_0_1_n_n.lhsIdx j k) (Cert.ReferenceIdeal.dot_S50000x128_S128x128_S50000x128_1_0_0_1_n_n.lhsIdx i k) hi0 rfl, h1 (dot_S5000x128_S128x128_S5000x128_1_0_0_1_n_n.rhsIdx j k) (Cert.ReferenceIdeal.dot_S50000x128_S128x128_S50000x128_1_0_0_1_n_n.rhsIdx i k) rfl (show ((Cert.ReferenceIdeal.dot_S50000x128_S128x128_S50000x128_1_0_0_1_n_n.rhsIdx i k) 1).val = ((dot_S5000x128_S128x128_S5000x128_1_0_0_1_n_n.rhsIdx j k) 1).val from hi1)]

/-- A bias row repeated down the nodes, at (P, q), is the row's entry q. -/
theorem rowb_apply (b : (⟨Cert.ReferenceIdeal.S128, .f32⟩ : BufTy).Contents (Elt Ideal)) (P : Fin 50000) (q : Fin 128) :
    Cert.Spec.rowb (F := Ideal) b (ix2 P q) = b (ix1 q) := by
  unfold Cert.Spec.rowb
  rw [broadcastInDim_apply _ _ _ (ix2 P q) (ix2 (0 : Fin 1) q) (fun a => by match a with | ⟨0, _⟩ => rfl | ⟨1, _⟩ => rfl),
    broadcastInDim_apply _ _ _ (ix2 (0 : Fin 1) q) (ix1 q) (fun a => by match a with | ⟨0, _⟩ => rfl)]

/-- The host's combine at (P, q). -/
theorem comb_apply (a b : (⟨Cert.ReferenceIdeal.S50000x128, .f32⟩ : BufTy).Contents (Elt Ideal)) (bm bc : (⟨Cert.ReferenceIdeal.S128, .f32⟩ : BufTy).Contents (Elt Ideal))
    (P : Fin 50000) (q : Fin 128) :
    Cert.Spec.comb (F := Ideal) a b bm bc (ix2 P q) = (a (ix2 P q) + bm (ix1 q)) + (b (ix2 P q) + bc (ix1 q)) := by
  unfold Cert.Spec.comb
  rw [addf_apply, addf_apply, addf_apply, rowb_apply, rowb_apply]

/-- The host's max(·, 0) at an index. -/
theorem relu_apply (x : (⟨Cert.ReferenceIdeal.S50000x128, .f32⟩ : BufTy).Contents (Elt Ideal)) (i : Cert.ReferenceIdeal.S50000x128.Idx) :
    Cert.Spec.relu (F := Ideal) x i = max (x i) 0 := by
  unfold Cert.Spec.relu
  rw [maximumf_apply, broadcastInDim_apply _ _ _ i (fun a => a.elim0) (fun a => a.elim0), constant_apply, Ideal.ofBits_zero_f32]

/-- A combine point's entry (p, q) before the activation: the four summands, grouped the point's way. -/
theorem pay_comb (x0 x1 : Vec Ideal S5000x128 .f32) (x2 x3 : Vec Ideal S128 .f32) (p : Fin 5000) (q : Fin 128) :
    k11_pay1 x0 x1 x2 x3 (ix2 p q) = ((x0 (ix2 p q) + x1 (ix2 p q)) + x2 (ix1 q)) + x3 (ix1 q) := by
  unfold k11_pay1
  simp only [shapeCast_self]
  rw [addf_apply, addf_apply, addf_apply, broadcastTo_1b_ab_apply, broadcastTo_1b_ab_apply, shapeCast_a_1a_apply, shapeCast_a_1a_apply]

/-- A combine point's entry (p, q) with the activation. -/
theorem pay_comb_relu (x0 x1 : Vec Ideal S5000x128 .f32) (x2 x3 : Vec Ideal S128 .f32) (p : Fin 5000) (q : Fin 128) :
    k2_pay1 x0 x1 x2 x3 (ix2 p q) = max (((x0 (ix2 p q) + x1 (ix2 p q)) + x2 (ix1 q)) + x3 (ix1 q)) 0 := by
  unfold k2_pay1
  simp only [shapeCast_self]
  rw [maximumf_apply, addf_apply, addf_apply, addf_apply, broadcastTo_1b_ab_apply, broadcastTo_1b_ab_apply, shapeCast_a_1a_apply, shapeCast_a_1a_apply, broadcast_apply]
  show max _ (Ideal.ofBits .f32 0x00000000#32) = _
  rw [Ideal.ofBits_zero_f32]

/-- Regrouping four summands: ((a + b) + c) + d = (a + c) + (b + d). -/
theorem regroup (a b c d : EReal) : ((a + b) + c) + d = (a + c) + (b + d) := by
  rw [add_assoc (a + b) c d, add_add_add_comm]

/-- A combine point's entry with the activation is the host's entry of the whole arrays, when the point's blocks are the
    arrays' entries at the matching row. -/
theorem comb_relu_block (A B : (⟨Cert.ReferenceIdeal.S50000x128, .f32⟩ : BufTy).Contents (Elt Ideal)) (Bm Bc : (⟨Cert.ReferenceIdeal.S128, .f32⟩ : BufTy).Contents (Elt Ideal))
    (x0 x1 : Vec Ideal S5000x128 .f32) (x2 x3 : Vec Ideal S128 .f32) (p : Fin 5000) (q : Fin 128) (P : Fin 50000)
    (h0 : x0 (ix2 p q) = A (ix2 P q)) (h1 : x1 (ix2 p q) = B (ix2 P q)) (h2 : x2 (ix1 q) = Bm (ix1 q)) (h3 : x3 (ix1 q) = Bc (ix1 q)) :
    k2_pay1 x0 x1 x2 x3 (ix2 p q) = Cert.Spec.relu (F := Ideal) (Cert.Spec.comb (F := Ideal) A B Bm Bc) (ix2 P q) := by
  rw [pay_comb_relu, relu_apply, comb_apply, regroup, h0, h1, h2, h3]

/-- The same without the activation (the last layer). -/
theorem comb_block (A B : (⟨Cert.ReferenceIdeal.S50000x128, .f32⟩ : BufTy).Contents (Elt Ideal)) (Bm Bc : (⟨Cert.ReferenceIdeal.S128, .f32⟩ : BufTy).Contents (Elt Ideal))
    (x0 x1 : Vec Ideal S5000x128 .f32) (x2 x3 : Vec Ideal S128 .f32) (p : Fin 5000) (q : Fin 128) (P : Fin 50000)
    (h0 : x0 (ix2 p q) = A (ix2 P q)) (h1 : x1 (ix2 p q) = B (ix2 P q)) (h2 : x2 (ix1 q) = Bm (ix1 q)) (h3 : x3 (ix1 q) = Bc (ix1 q)) :
    k11_pay1 x0 x1 x2 x3 (ix2 p q) = Cert.Spec.comb (F := Ideal) A B Bm Bc (ix2 P q) := by
  rw [pay_comb, comb_apply, regroup, h0, h1, h2, h3]

end Cert.KernelIdeal.Body

end
-- ==== Proof.Reg0.lean ====
/-
  Kernel region 0: a matrix product tiled over ten blocks of 5000 rows. Point t multiplies rows 5000·t … 5000·t + 4999 of
  the features by the whole weight matrix and writes the same rows of the result; the ten row blocks tile the 50000
  rows, so after the region the result array is the whole product of the arrays the region found.
-/
import proofs.«113452_j3143916060941_1_alg».proof.Proof.Gen.KernelIdeal.Frame
import proofs.«113452_j3143916060941_1_alg».proof.Proof.Body

set_option maxRecDepth 16384

noncomputable section

namespace Cert.KernelIdeal.Reg0

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The index maps over the ten points: the feature window and the result window sit at row block t, the weight window at
    its one block. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 ∧ t.val < 10 :=
  (by decide +kernel : ∀ t : Fin grid0.N, _)

/-- What point t writes back is row block t of the product of the arrays the region found. -/
theorem flushed_eq (c : Dev nD) (t : Fin cfg0.N) :
    (dat0 V c).flushed 2 t = ((cfg0.win 2).blk t).view.read (Elt Ideal) (Cert.Spec.mm (F := Ideal) (V c main_arg0) (V c main_v61)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  obtain ⟨e0, e1, e2, e3, e4, e5, e6⟩ := idx_facts t
  funext j
  show k0_pay1 (iblk0 V c 0 t) (iblk0 V c 1 t) j = Cert.Spec.mm (F := Ideal) (V c main_arg0) (V c main_v61) (((cfg0.win 2).blk t).view.emb j)
  refine Body.mm_block (V c main_arg0) (V c main_v61) _ _ t.val j _ ?_ ?_ ?_ ?_
  · show win0_2.index t (0 : Fin 2) * 5000 + 1 * (j 0).val = t.val * 5000 + (j 0).val
    omega
  · show win0_2.index t (1 : Fin 2) * 128 + 1 * (j 1).val = (j 1).val
    omega
  · intro y z hz0 hz1
    show V c main_arg0 (((cfg0.win 0).blk t).view.emb y) = V c main_arg0 z
    refine congrArg (V c main_arg0) (funext fun a => Fin.ext ?_)
    match a with
    | ⟨0, _⟩ => show win0_0.index t (0 : Fin 2) * 5000 + 1 * (y 0).val = (z 0).val; omega
    | ⟨1, _⟩ => show win0_0.index t (1 : Fin 2) * 128 + 1 * (y 1).val = (z 1).val; omega
  · intro y z hz0 hz1
    show V c main_v61 (((cfg0.win 1).blk t).view.emb y) = V c main_v61 z
    refine congrArg (V c main_v61) (funext fun a => Fin.ext ?_)
    match a with
    | ⟨0, _⟩ => show win0_1.index t (0 : Fin 2) * 128 + 1 * (y 0).val = (z 0).val; omega
    | ⟨1, _⟩ => show win0_1.index t (1 : Fin 2) * 128 + 1 * (y 1).val = (z 1).val; omega

/-- An index of the result array is in point t's block iff each coordinate is in the block's range on its axis. -/
theorem mem_blk (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v62).slice (win0_2.rect t)).set ↔ _
  rw [View.set_slice_whole, Rect.mem_set_unit]
  exact Iff.rfl

/-- After the region the result array is the product of the arrays the region found: row r is in block r / 5000. -/
theorem value (c : Dev nD) : (dat0 V c).arrAt 2 cfg0.N = Cert.Spec.mm (F := Ideal) (V c main_arg0) (V c main_v61) :=
  (dat0 V c).arrAt_eq_of_cover 2 _ (fun t _ => flushed_eq V c t) fun i => by
    have hi0 : (i 0).val < 50000 := (i 0).isLt
    have hi1 : (i 1).val < 128 := (i 1).isLt
    have hN : grid0.N = 10 := N_0
    let t : Fin cfg0.N := ⟨(i 0).val / 5000, by show _ < grid0.N; omega⟩
    have ht : t.val = (i 0).val / 5000 := rfl
    obtain ⟨e0, e1, e2, e3, e4, e5, e6⟩ := idx_facts t
    refine ⟨t, flush0_2 t, ?_⟩
    rw [mem_blk]
    intro a
    match a with
    | ⟨0, _⟩ => show win0_2.index t (0 : Fin 2) * 5000 ≤ (i 0).val ∧ (i 0).val < win0_2.index t (0 : Fin 2) * 5000 + 5000; omega
    | ⟨1, _⟩ => show win0_2.index t (1 : Fin 2) * 128 ≤ (i 1).val ∧ (i 1).val < win0_2.index t (1 : Fin 2) * 128 + 128; omega

end Cert.KernelIdeal.Reg0

end
-- ==== Proof.Reg1.lean ====
/-
  Kernel region 1: a matrix product tiled over ten blocks of 5000 rows. Point t multiplies rows 5000·t … 5000·t + 4999 of
  the features by the whole weight matrix and writes the same rows of the result; the ten row blocks tile the 50000
  rows, so after the region the result array is the whole product of the arrays the region found.
-/
import proofs.«113452_j3143916060941_1_alg».proof.Proof.Gen.KernelIdeal.Frame
import proofs.«113452_j3143916060941_1_alg».proof.Proof.Body

set_option maxRecDepth 16384

noncomputable section

namespace Cert.KernelIdeal.Reg1

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The index maps over the ten points: the feature window and the result window sit at row block t, the weight window at
    its one block. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 ∧ t.val < 10 :=
  (by decide +kernel : ∀ t : Fin grid1.N, _)

/-- What point t writes back is row block t of the product of the arrays the region found. -/
theorem flushed_eq (c : Dev nD) (t : Fin cfg1.N) :
    (dat1 V c).flushed 2 t = ((cfg1.win 2).blk t).view.read (Elt Ideal) (Cert.Spec.mm (F := Ideal) (V c main_arg0) (V c main_v64)) := by
  show (cfg1.win 2).cut (grid1.coords t) ((dat1 V c).after 2 t) = _
  rw [after1_2]
  unfold out1_2
  rw [View.canon_unit_zero hz]
  simp only [View.ld_unit_zero (S := S5000x128) hz, View.ld_unit_zero (S := S128x128) hz]
  obtain ⟨e0, e1, e2, e3, e4, e5, e6⟩ := idx_facts t
  funext j
  show k0_pay1 (iblk1 V c 0 t) (iblk1 V c 1 t) j = Cert.Spec.mm (F := Ideal) (V c main_arg0) (V c main_v64) (((cfg1.win 2).blk t).view.emb j)
  refine Body.mm_block (V c main_arg0) (V c main_v64) _ _ t.val j _ ?_ ?_ ?_ ?_
  · show win1_2.index t (0 : Fin 2) * 5000 + 1 * (j 0).val = t.val * 5000 + (j 0).val
    omega
  · show win1_2.index t (1 : Fin 2) * 128 + 1 * (j 1).val = (j 1).val
    omega
  · intro y z hz0 hz1
    show V c main_arg0 (((cfg1.win 0).blk t).view.emb y) = V c main_arg0 z
    refine congrArg (V c main_arg0) (funext fun a => Fin.ext ?_)
    match a with
    | ⟨0, _⟩ => show win1_0.index t (0 : Fin 2) * 5000 + 1 * (y 0).val = (z 0).val; omega
    | ⟨1, _⟩ => show win1_0.index t (1 : Fin 2) * 128 + 1 * (y 1).val = (z 1).val; omega
  · intro y z hz0 hz1
    show V c main_v64 (((cfg1.win 1).blk t).view.emb y) = V c main_v64 z
    refine congrArg (V c main_v64) (funext fun a => Fin.ext ?_)
    match a with
    | ⟨0, _⟩ => show win1_1.index t (0 : Fin 2) * 128 + 1 * (y 0).val = (z 0).val; omega
    | ⟨1, _⟩ => show win1_1.index t (1 : Fin 2) * 128 + 1 * (y 1).val = (z 1).val; omega

/-- An index of the result array is in point t's block iff each coordinate is in the block's range on its axis. -/
theorem mem_blk (t : Fin cfg1.N) (i : S50000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v65).slice (win1_2.rect t)).set ↔ _
  rw [View.set_slice_whole, Rect.mem_set_unit]
  exact Iff.rfl

/-- After the region the result array is the product of the arrays the region found: row r is in block r / 5000. -/
theorem value (c : Dev nD) : (dat1 V c).arrAt 2 cfg1.N = Cert.Spec.mm (F := Ideal) (V c main_arg0) (V c main_v64) :=
  (dat1 V c).arrAt_eq_of_cover 2 _ (fun t _ => flushed_eq V c t) fun i => by
    have hi0 : (i 0).val < 50000 := (i 0).isLt
    have hi1 : (i 1).val < 128 := (i 1).isLt
    have hN : grid1.N = 10 := N_1
    let t : Fin cfg1.N := ⟨(i 0).val / 5000, by show _ < grid1.N; omega⟩
    have ht : t.val = (i 0).val / 5000 := rfl
    obtain ⟨e0, e1, e2, e3, e4, e5, e6⟩ := idx_facts t
    refine ⟨t, flush1_2 t, ?_⟩
    rw [mem_blk]
    intro a
    match a with
    | ⟨0, _⟩ => show win1_2.index t (0 : Fin 2) * 5000 ≤ (i 0).val ∧ (i 0).val < win1_2.index t (0 : Fin 2) * 5000 + 5000; omega
    | ⟨1, _⟩ => show win1_2.index t (1 : Fin 2) * 128 ≤ (i 1).val ∧ (i 1).val < win1_2.index t (1 : Fin 2) * 128 + 128; omega

end Cert.KernelIdeal.Reg1

end
-- ==== Proof.Reg2.lean ====
/-
  Kernel region 2: the two branches' sums and the two bias rows added, then max(·, 0), tiled over ten blocks of 5000 rows.
  Point t reads rows 5000·t … 5000·t + 4999 of both branch arrays and both whole bias rows and writes the same rows of the
  result; the ten row blocks tile the 50000 rows, so after the region the result array is that combination of the
  arrays the region found.
-/
import proofs.«113452_j3143916060941_1_alg».proof.Proof.Gen.KernelIdeal.Frame
import proofs.«113452_j3143916060941_1_alg».proof.Proof.Body

set_option maxRecDepth 16384

noncomputable section

namespace Cert.KernelIdeal.Reg2

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl
theorem hz1 : (![0] : Fin 1 → Nat) = fun _ => 0 := funext fun a => by fin_cases a; rfl

/-- The index maps over the ten points: the two branch windows and the result window sit at row block t, the bias
    windows at their one block. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 1) = 0 ∧ win2_3.index t (0 : Fin 1) = 0
    ∧ win2_4.index t (0 : Fin 2) = t.val ∧ win2_4.index t (1 : Fin 2) = 0 ∧ t.val < 10 :=
  (by decide +kernel : ∀ t : Fin grid2.N, _)

/-- What point t writes back is row block t of the combination of the arrays the region found. -/
theorem flushed_eq (c : Dev nD) (t : Fin cfg2.N) :
    (dat2 V c).flushed 4 t = ((cfg2.win 4).blk t).view.read (Elt Ideal) (Cert.Spec.relu (F := Ideal) (Cert.Spec.comb (F := Ideal) (V c main_v78) (V c main_v91) (V c main_v93) (V c main_v95))) := by
  show (cfg2.win 4).cut (grid2.coords t) ((dat2 V c).after 4 t) = _
  rw [after2_4]
  unfold out2_4
  rw [View.canon_unit_zero hz]
  simp only [View.ld_unit_zero (S := S5000x128) hz, View.ld_unit_zero (S := S128) hz1]
  obtain ⟨e0, e1, e2, e3, e4, e5, e6, e7, e8⟩ := idx_facts t
  funext j
  obtain ⟨p, q, rfl⟩ : ∃ (p : Fin 5000) (q : Fin 128), j = ix2 p q := ⟨j 0, j 1, eq_ix2 j⟩
  have hP : t.val * 5000 + p.val < 50000 := by have := p.isLt; omega
  have hemb : ((cfg2.win 4).blk t).view.emb (ix2 p q) = ix2 (⟨t.val * 5000 + p.val, hP⟩ : Fin 50000) q := funext fun a => Fin.ext (by
    match a with
    | ⟨0, _⟩ => show win2_4.index t (0 : Fin 2) * 5000 + 1 * p.val = t.val * 5000 + p.val; omega
    | ⟨1, _⟩ => show win2_4.index t (1 : Fin 2) * 128 + 1 * q.val = q.val; omega)
  show k2_pay1 (iblk2 V c 0 t) (iblk2 V c 1 t) (iblk2 V c 2 t) (iblk2 V c 3 t) (ix2 p q) = (Cert.Spec.relu (F := Ideal) (Cert.Spec.comb (F := Ideal) (V c main_v78) (V c main_v91) (V c main_v93) (V c main_v95))) (((cfg2.win 4).blk t).view.emb (ix2 p q))
  refine (Body.comb_relu_block (V c main_v78) (V c main_v91) (V c main_v93) (V c main_v95) (iblk2 V c 0 t) (iblk2 V c 1 t) (iblk2 V c 2 t) (iblk2 V c 3 t) p q ⟨t.val * 5000 + p.val, hP⟩ ?_ ?_ ?_ ?_).trans (congrArg (Cert.Spec.relu (F := Ideal) (Cert.Spec.comb (F := Ideal) (V c main_v78) (V c main_v91) (V c main_v93) (V c main_v95))) hemb.symm)
  · show V c main_v78 (((cfg2.win 0).blk t).view.emb (ix2 p q)) = V c main_v78 _
    refine congrArg (V c main_v78) (funext fun a => Fin.ext ?_)
    match a with
    | ⟨0, _⟩ => show win2_0.index t (0 : Fin 2) * 5000 + 1 * p.val = t.val * 5000 + p.val; omega
    | ⟨1, _⟩ => show win2_0.index t (1 : Fin 2) * 128 + 1 * q.val = q.val; omega
  · show V c main_v91 (((cfg2.win 1).blk t).view.emb (ix2 p q)) = V c main_v91 _
    refine congrArg (V c main_v91) (funext fun a => Fin.ext ?_)
    match a with
    | ⟨0, _⟩ => show win2_1.index t (0 : Fin 2) * 5000 + 1 * p.val = t.val * 5000 + p.val; omega
    | ⟨1, _⟩ => show win2_1.index t (1 : Fin 2) * 128 + 1 * q.val = q.val; omega
  · show V c main_v93 (((cfg2.win 2).blk t).view.emb (ix1 q)) = V c main_v93 _
    refine congrArg (V c main_v93) (funext fun a => Fin.ext ?_)
    match a with
    | ⟨0, _⟩ => show win2_2.index t (0 : Fin 1) * 128 + 1 * q.val = q.val; omega
  · show V c main_v95 (((cfg2.win 3).blk t).view.emb (ix1 q)) = V c main_v95 _
    refine congrArg (V c main_v95) (funext fun a => Fin.ext ?_)
    match a with
    | ⟨0, _⟩ => show win2_3.index t (0 : Fin 1) * 128 + 1 * q.val = q.val; omega

/-- An index of the result array is in point t's block iff each coordinate is in the block's range on its axis. -/
theorem mem_blk (t : Fin cfg2.N) (i : S50000x128.Idx) :
    i ∈ ((cfg2.win 4).blk t).view.set ↔ ∀ a : Fin 2, win2_4.index t a * S5000x128.size a ≤ (i a).val ∧ (i a).val < win2_4.index t a * S5000x128.size a + S5000x128.size a := by
  show i ∈ ((View.whole main_v96).slice (win2_4.rect t)).set ↔ _
  rw [View.set_slice_whole, Rect.mem_set_unit]
  exact Iff.rfl

/-- After the region the result array is the combination of the arrays the region found: row r is in block r / 5000. -/
theorem value (c : Dev nD) : (dat2 V c).arrAt 4 cfg2.N = Cert.Spec.relu (F := Ideal) (Cert.Spec.comb (F := Ideal) (V c main_v78) (V c main_v91) (V c main_v93) (V c main_v95)) :=
  (dat2 V c).arrAt_eq_of_cover 4 _ (fun t _ => flushed_eq V c t) fun i => by
    have hi0 : (i 0).val < 50000 := (i 0).isLt
    have hi1 : (i 1).val < 128 := (i 1).isLt
    have hN : grid2.N = 10 := N_2
    let t : Fin cfg2.N := ⟨(i 0).val / 5000, by show _ < grid2.N; omega⟩
    have ht : t.val = (i 0).val / 5000 := rfl
    obtain ⟨e0, e1, e2, e3, e4, e5, e6, e7, e8⟩ := idx_facts t
    refine ⟨t, flush2_4 t, ?_⟩
    rw [mem_blk]
    intro a
    match a with
    | ⟨0, _⟩ => show win2_4.index t (0 : Fin 2) * 5000 ≤ (i 0).val ∧ (i 0).val < win2_4.index t (0 : Fin 2) * 5000 + 5000; omega
    | ⟨1, _⟩ => show win2_4.index t (1 : Fin 2) * 128 ≤ (i 1).val ∧ (i 1).val < win2_4.index t (1 : Fin 2) * 128 + 128; omega

end Cert.KernelIdeal.Reg2

end
-- ==== Proof.Body3.lean ====
/-
  The matmul points of the second to fourth layers: the same product as the first layer's, with one more change of
  layout of the feature block that changes nothing (a cast of a shape to itself).
-/
import proofs.«113452_j3143916060941_1_alg».proof.Proof.Body

noncomputable section

namespace Cert.KernelIdeal.Body

open Idealize.ShloMosaic Idealize.ShloMosaic.ValueIdx Idealize.ShloMosaic.Pipeline Cert.KernelIdeal Cert.KernelIdeal.Gen

/-- Entry j of a later layer's matmul point: the sum over the contracted axis of the feature block times the weights. -/
theorem pay_mm3 (x0 : Vec Ideal S5000x128 .f32) (x1 : Vec Ideal S128x128 .f32) (j : S5000x128.Idx) :
    k3_pay1 x0 x1 j = ∑ k : dot_S5000x128_S128x128_S5000x128_1_0_0_1_n_n.contr.Idx, x0 (dot_S5000x128_S128x128_S5000x128_1_0_0_1_n_n.lhsIdx j k) * x1 (dot_S5000x128_S128x128_S5000x128_1_0_0_1_n_n.rhsIdx j k) := by
  unfold k3_pay1
  refine (Ideal.matmul_constant_zero_apply dot_S5000x128_S128x128_S5000x128_1_0_0_1_n_n none _ _ j).trans ?_
  rw [shapeCast_self, shapeCast_self]
  rfl

/-- A later layer's matmul point's entry is the whole product's entry, when the point's feature block is rows r·5000 … of x
    and its weight block is all of w. -/
theorem mm_block3 (X : (⟨Cert.ReferenceIdeal.S50000x128, .f32⟩ : BufTy).Contents (Elt Ideal)) (Wt : (⟨Cert.ReferenceIdeal.S128x128, .f32⟩ : BufTy).Contents (Elt Ideal))
    (x0 : Vec Ideal S5000x128 .f32) (x1 : Vec Ideal S128x128 .f32) (r : ℕ) (j : S5000x128.Idx) (i : Cert.ReferenceIdeal.S50000x128.Idx)
    (hi0 : (i 0).val = r * 5000 + (j 0).val) (hi1 : (i 1).val = (j 1).val)
    (h0 : ∀ (y : S5000x128.Idx) (z : Cert.ReferenceIdeal.S50000x128.Idx), (z 0).val = r * 5000 + (y 0).val → (z 1).val = (y 1).val → x0 y = X z)
    (h1 : ∀ (y : S128x128.Idx) (z : Cert.ReferenceIdeal.S128x128.Idx), (z 0).val = (y 0).val → (z 1).val = (y 1).val → x1 y = Wt z) :
    k3_pay1 x0 x1 j = Cert.Spec.mm (F := Ideal) X Wt i := by
  rw [pay_mm3, mm_apply]
  refine Finset.sum_congr rfl fun k _ => ?_
  rw [h0 (dot_S5000x128_S128x128_S5000x128_1_0_0_1_n_n.lhsIdx j k) (Cert.ReferenceIdeal.dot_S50000x128_S128x128_S50000x128_1_0_0_1_n_n.lhsIdx i k) hi0 rfl, h1 (dot_S5000x128_S128x128_S5000x128_1_0_0_1_n_n.rhsIdx j k) (Cert.ReferenceIdeal.dot_S50000x128_S128x128_S50000x128_1_0_0_1_n_n.rhsIdx i k) rfl (show ((Cert.ReferenceIdeal.dot_S50000x128_S128x128_S50000x128_1_0_0_1_n_n.rhsIdx i k) 1).val = ((dot_S5000x128_S128x128_S5000x128_1_0_0_1_n_n.rhsIdx j k) 1).val from hi1)]

end Cert.KernelIdeal.Body

end
-- ==== Proof.Reg3.lean ====
/-
  Kernel region 3: a matrix product tiled over ten blocks of 5000 rows. Point t multiplies rows 5000·t … 5000·t + 4999 of
  the features by the whole weight matrix and writes the same rows of the result; the ten row blocks tile the 50000
  rows, so after the region the result array is the whole product of the arrays the region found.
-/
import proofs.«113452_j3143916060941_1_alg».proof.Proof.Gen.KernelIdeal.Frame
import proofs.«113452_j3143916060941_1_alg».proof.Proof.Body3

set_option maxRecDepth 16384

noncomputable section

namespace Cert.KernelIdeal.Reg3

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The index maps over the ten points: the feature window and the result window sit at row block t, the weight window at
    its one block. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 ∧ t.val < 10 :=
  (by decide +kernel : ∀ t : Fin grid3.N, _)

set_option maxHeartbeats 4000000 in
/-- What point t writes back is row block t of the product of the arrays the region found. -/
theorem flushed_eq (c : Dev nD) (t : Fin cfg3.N) :
    (dat3 V c).flushed 2 t = ((cfg3.win 2).blk t).view.read (Elt Ideal) (Cert.Spec.mm (F := Ideal) (V c main_v96) (V c main_v98)) := by
  show (cfg3.win 2).cut (grid3.coords t) ((dat3 V c).after 2 t) = _
  rw [after3_2]
  unfold out3_2
  rw [View.canon_unit_zero hz]
  simp only [View.ld_unit_zero (S := S5000x128) hz, View.ld_unit_zero (S := S128x128) hz]
  obtain ⟨e0, e1, e2, e3, e4, e5, e6⟩ := idx_facts t
  funext j
  show k3_pay1 (iblk3 V c 0 t) (iblk3 V c 1 t) j = Cert.Spec.mm (F := Ideal) (V c main_v96) (V c main_v98) (((cfg3.win 2).blk t).view.emb j)
  refine Body.mm_block3 (V c main_v96) (V c main_v98) _ _ t.val j _ ?_ ?_ ?_ ?_
  · show win3_2.index t (0 : Fin 2) * 5000 + 1 * (j 0).val = t.val * 5000 + (j 0).val
    omega
  · show win3_2.index t (1 : Fin 2) * 128 + 1 * (j 1).val = (j 1).val
    omega
  · intro y z hz0 hz1
    show V c main_v96 (((cfg3.win 0).blk t).view.emb y) = V c main_v96 z
    refine congrArg (V c main_v96) (funext fun a => Fin.ext ?_)
    match a with
    | ⟨0, _⟩ => show win3_0.index t (0 : Fin 2) * 5000 + 1 * (y 0).val = (z 0).val; omega
    | ⟨1, _⟩ => show win3_0.index t (1 : Fin 2) * 128 + 1 * (y 1).val = (z 1).val; omega
  · intro y z hz0 hz1
    show V c main_v98 (((cfg3.win 1).blk t).view.emb y) = V c main_v98 z
    refine congrArg (V c main_v98) (funext fun a => Fin.ext ?_)
    match a with
    | ⟨0, _⟩ => show win3_1.index t (0 : Fin 2) * 128 + 1 * (y 0).val = (z 0).val; omega
    | ⟨1, _⟩ => show win3_1.index t (1 : Fin 2) * 128 + 1 * (y 1).val = (z 1).val; omega

/-- An index of the result array is in point t's block iff each coordinate is in the block's range on its axis. -/
theorem mem_blk (t : Fin cfg3.N) (i : S50000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v99).slice (win3_2.rect t)).set ↔ _
  rw [View.set_slice_whole, Rect.mem_set_unit]
  exact Iff.rfl

set_option maxHeartbeats 4000000 in
/-- After the region the result array is the product of the arrays the region found: row r is in block r / 5000. -/
theorem value (c : Dev nD) : (dat3 V c).arrAt 2 cfg3.N = Cert.Spec.mm (F := Ideal) (V c main_v96) (V c main_v98) :=
  (dat3 V c).arrAt_eq_of_cover 2 _ (fun t _ => flushed_eq V c t) fun i => by
    have hi0 : (i 0).val < 50000 := (i 0).isLt
    have hi1 : (i 1).val < 128 := (i 1).isLt
    have hN : grid3.N = 10 := N_3
    let t : Fin cfg3.N := ⟨(i 0).val / 5000, by show _ < grid3.N; omega⟩
    have ht : t.val = (i 0).val / 5000 := rfl
    obtain ⟨e0, e1, e2, e3, e4, e5, e6⟩ := idx_facts t
    refine ⟨t, flush3_2 t, ?_⟩
    rw [mem_blk]
    intro a
    match a with
    | ⟨0, _⟩ => show win3_2.index t (0 : Fin 2) * 5000 ≤ (i 0).val ∧ (i 0).val < win3_2.index t (0 : Fin 2) * 5000 + 5000; omega
    | ⟨1, _⟩ => show win3_2.index t (1 : Fin 2) * 128 ≤ (i 1).val ∧ (i 1).val < win3_2.index t (1 : Fin 2) * 128 + 128; omega

end Cert.KernelIdeal.Reg3

end
-- ==== Proof.Reg4.lean ====
/-
  Kernel region 4: a matrix product tiled over ten blocks of 5000 rows. Point t multiplies rows 5000·t … 5000·t + 4999 of
  the features by the whole weight matrix and writes the same rows of the result; the ten row blocks tile the 50000
  rows, so after the region the result array is the whole product of the arrays the region found.
-/
import proofs.«113452_j3143916060941_1_alg».proof.Proof.Gen.KernelIdeal.Frame
import proofs.«113452_j3143916060941_1_alg».proof.Proof.Body3

set_option maxRecDepth 16384

noncomputable section

namespace Cert.KernelIdeal.Reg4

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The index maps over the ten points: the feature window and the result window sit at row block t, the weight window at
    its one block. -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 ∧ t.val < 10 :=
  (by decide +kernel : ∀ t : Fin grid4.N, _)

set_option maxHeartbeats 4000000 in
/-- What point t writes back is row block t of the product of the arrays the region found. -/
theorem flushed_eq (c : Dev nD) (t : Fin cfg4.N) :
    (dat4 V c).flushed 2 t = ((cfg4.win 2).blk t).view.read (Elt Ideal) (Cert.Spec.mm (F := Ideal) (V c main_v96) (V c main_v101)) := by
  show (cfg4.win 2).cut (grid4.coords t) ((dat4 V c).after 2 t) = _
  rw [after4_2]
  unfold out4_2
  rw [View.canon_unit_zero hz]
  simp only [View.ld_unit_zero (S := S5000x128) hz, View.ld_unit_zero (S := S128x128) hz]
  obtain ⟨e0, e1, e2, e3, e4, e5, e6⟩ := idx_facts t
  funext j
  show k3_pay1 (iblk4 V c 0 t) (iblk4 V c 1 t) j = Cert.Spec.mm (F := Ideal) (V c main_v96) (V c main_v101) (((cfg4.win 2).blk t).view.emb j)
  refine Body.mm_block3 (V c main_v96) (V c main_v101) _ _ t.val j _ ?_ ?_ ?_ ?_
  · show win4_2.index t (0 : Fin 2) * 5000 + 1 * (j 0).val = t.val * 5000 + (j 0).val
    omega
  · show win4_2.index t (1 : Fin 2) * 128 + 1 * (j 1).val = (j 1).val
    omega
  · intro y z hz0 hz1
    show V c main_v96 (((cfg4.win 0).blk t).view.emb y) = V c main_v96 z
    refine congrArg (V c main_v96) (funext fun a => Fin.ext ?_)
    match a with
    | ⟨0, _⟩ => show win4_0.index t (0 : Fin 2) * 5000 + 1 * (y 0).val = (z 0).val; omega
    | ⟨1, _⟩ => show win4_0.index t (1 : Fin 2) * 128 + 1 * (y 1).val = (z 1).val; omega
  · intro y z hz0 hz1
    show V c main_v101 (((cfg4.win 1).blk t).view.emb y) = V c main_v101 z
    refine congrArg (V c main_v101) (funext fun a => Fin.ext ?_)
    match a with
    | ⟨0, _⟩ => show win4_1.index t (0 : Fin 2) * 128 + 1 * (y 0).val = (z 0).val; omega
    | ⟨1, _⟩ => show win4_1.index t (1 : Fin 2) * 128 + 1 * (y 1).val = (z 1).val; omega

/-- An index of the result array is in point t's block iff each coordinate is in the block's range on its axis. -/
theorem mem_blk (t : Fin cfg4.N) (i : S50000x128.Idx) :
    i ∈ ((cfg4.win 2).blk t).view.set ↔ ∀ a : Fin 2, win4_2.index t a * S5000x128.size a ≤ (i a).val ∧ (i a).val < win4_2.index t a * S5000x128.size a + S5000x128.size a := by
  show i ∈ ((View.whole main_v102).slice (win4_2.rect t)).set ↔ _
  rw [View.set_slice_whole, Rect.mem_set_unit]
  exact Iff.rfl

set_option maxHeartbeats 4000000 in
/-- After the region the result array is the product of the arrays the region found: row r is in block r / 5000. -/
theorem value (c : Dev nD) : (dat4 V c).arrAt 2 cfg4.N = Cert.Spec.mm (F := Ideal) (V c main_v96) (V c main_v101) :=
  (dat4 V c).arrAt_eq_of_cover 2 _ (fun t _ => flushed_eq V c t) fun i => by
    have hi0 : (i 0).val < 50000 := (i 0).isLt
    have hi1 : (i 1).val < 128 := (i 1).isLt
    have hN : grid4.N = 10 := N_4
    let t : Fin cfg4.N := ⟨(i 0).val / 5000, by show _ < grid4.N; omega⟩
    have ht : t.val = (i 0).val / 5000 := rfl
    obtain ⟨e0, e1, e2, e3, e4, e5, e6⟩ := idx_facts t
    refine ⟨t, flush4_2 t, ?_⟩
    rw [mem_blk]
    intro a
    match a with
    | ⟨0, _⟩ => show win4_2.index t (0 : Fin 2) * 5000 ≤ (i 0).val ∧ (i 0).val < win4_2.index t (0 : Fin 2) * 5000 + 5000; omega
    | ⟨1, _⟩ => show win4_2.index t (1 : Fin 2) * 128 ≤ (i 1).val ∧ (i 1).val < win4_2.index t (1 : Fin 2) * 128 + 128; omega

end Cert.KernelIdeal.Reg4

end
-- ==== Proof.Reg5.lean ====
/-
  Kernel region 5: the two branches' sums and the two bias rows added, then max(·, 0), tiled over ten blocks of 5000 rows.
  Point t reads rows 5000·t … 5000·t + 4999 of both branch arrays and both whole bias rows and writes the same rows of the
  result; the ten row blocks tile the 50000 rows, so after the region the result array is that combination of the
  arrays the region found.
-/
import proofs.«113452_j3143916060941_1_alg».proof.Proof.Gen.KernelIdeal.Frame
import proofs.«113452_j3143916060941_1_alg».proof.Proof.Body

set_option maxRecDepth 16384

noncomputable section

namespace Cert.KernelIdeal.Reg5

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl
theorem hz1 : (![0] : Fin 1 → Nat) = fun _ => 0 := funext fun a => by fin_cases a; rfl

/-- The index maps over the ten points: the two branch windows and the result window sit at row block t, the bias
    windows at their one block. -/
theorem idx_facts : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 1) = 0 ∧ win5_3.index t (0 : Fin 1) = 0
    ∧ win5_4.index t (0 : Fin 2) = t.val ∧ win5_4.index t (1 : Fin 2) = 0 ∧ t.val < 10 :=
  (by decide +kernel : ∀ t : Fin grid5.N, _)

/-- What point t writes back is row block t of the combination of the arrays the region found. -/
theorem flushed_eq (c : Dev nD) (t : Fin cfg5.N) :
    (dat5 V c).flushed 4 t = ((cfg5.win 4).blk t).view.read (Elt Ideal) (Cert.Spec.relu (F := Ideal) (Cert.Spec.comb (F := Ideal) (V c main_v115) (V c main_v128) (V c main_v130) (V c main_v132))) := by
  show (cfg5.win 4).cut (grid5.coords t) ((dat5 V c).after 4 t) = _
  rw [after5_4]
  unfold out5_4
  rw [View.canon_unit_zero hz]
  simp only [View.ld_unit_zero (S := S5000x128) hz, View.ld_unit_zero (S := S128) hz1]
  obtain ⟨e0, e1, e2, e3, e4, e5, e6, e7, e8⟩ := idx_facts t
  funext j
  obtain ⟨p, q, rfl⟩ : ∃ (p : Fin 5000) (q : Fin 128), j = ix2 p q := ⟨j 0, j 1, eq_ix2 j⟩
  have hP : t.val * 5000 + p.val < 50000 := by have := p.isLt; omega
  have hemb : ((cfg5.win 4).blk t).view.emb (ix2 p q) = ix2 (⟨t.val * 5000 + p.val, hP⟩ : Fin 50000) q := funext fun a => Fin.ext (by
    match a with
    | ⟨0, _⟩ => show win5_4.index t (0 : Fin 2) * 5000 + 1 * p.val = t.val * 5000 + p.val; omega
    | ⟨1, _⟩ => show win5_4.index t (1 : Fin 2) * 128 + 1 * q.val = q.val; omega)
  show k2_pay1 (iblk5 V c 0 t) (iblk5 V c 1 t) (iblk5 V c 2 t) (iblk5 V c 3 t) (ix2 p q) = (Cert.Spec.relu (F := Ideal) (Cert.Spec.comb (F := Ideal) (V c main_v115) (V c main_v128) (V c main_v130) (V c main_v132))) (((cfg5.win 4).blk t).view.emb (ix2 p q))
  refine (Body.comb_relu_block (V c main_v115) (V c main_v128) (V c main_v130) (V c main_v132) (iblk5 V c 0 t) (iblk5 V c 1 t) (iblk5 V c 2 t) (iblk5 V c 3 t) p q ⟨t.val * 5000 + p.val, hP⟩ ?_ ?_ ?_ ?_).trans (congrArg (Cert.Spec.relu (F := Ideal) (Cert.Spec.comb (F := Ideal) (V c main_v115) (V c main_v128) (V c main_v130) (V c main_v132))) hemb.symm)
  · show V c main_v115 (((cfg5.win 0).blk t).view.emb (ix2 p q)) = V c main_v115 _
    refine congrArg (V c main_v115) (funext fun a => Fin.ext ?_)
    match a with
    | ⟨0, _⟩ => show win5_0.index t (0 : Fin 2) * 5000 + 1 * p.val = t.val * 5000 + p.val; omega
    | ⟨1, _⟩ => show win5_0.index t (1 : Fin 2) * 128 + 1 * q.val = q.val; omega
  · show V c main_v128 (((cfg5.win 1).blk t).view.emb (ix2 p q)) = V c main_v128 _
    refine congrArg (V c main_v128) (funext fun a => Fin.ext ?_)
    match a with
    | ⟨0, _⟩ => show win5_1.index t (0 : Fin 2) * 5000 + 1 * p.val = t.val * 5000 + p.val; omega
    | ⟨1, _⟩ => show win5_1.index t (1 : Fin 2) * 128 + 1 * q.val = q.val; omega
  · show V c main_v130 (((cfg5.win 2).blk t).view.emb (ix1 q)) = V c main_v130 _
    refine congrArg (V c main_v130) (funext fun a => Fin.ext ?_)
    match a with
    | ⟨0, _⟩ => show win5_2.index t (0 : Fin 1) * 128 + 1 * q.val = q.val; omega
  · show V c main_v132 (((cfg5.win 3).blk t).view.emb (ix1 q)) = V c main_v132 _
    refine congrArg (V c main_v132) (funext fun a => Fin.ext ?_)
    match a with
    | ⟨0, _⟩ => show win5_3.index t (0 : Fin 1) * 128 + 1 * q.val = q.val; omega

/-- An index of the result array is in point t's block iff each coordinate is in the block's range on its axis. -/
theorem mem_blk (t : Fin cfg5.N) (i : S50000x128.Idx) :
    i ∈ ((cfg5.win 4).blk t).view.set ↔ ∀ a : Fin 2, win5_4.index t a * S5000x128.size a ≤ (i a).val ∧ (i a).val < win5_4.index t a * S5000x128.size a + S5000x128.size a := by
  show i ∈ ((View.whole main_v133).slice (win5_4.rect t)).set ↔ _
  rw [View.set_slice_whole, Rect.mem_set_unit]
  exact Iff.rfl

/-- After the region the result array is the combination of the arrays the region found: row r is in block r / 5000. -/
theorem value (c : Dev nD) : (dat5 V c).arrAt 4 cfg5.N = Cert.Spec.relu (F := Ideal) (Cert.Spec.comb (F := Ideal) (V c main_v115) (V c main_v128) (V c main_v130) (V c main_v132)) :=
  (dat5 V c).arrAt_eq_of_cover 4 _ (fun t _ => flushed_eq V c t) fun i => by
    have hi0 : (i 0).val < 50000 := (i 0).isLt
    have hi1 : (i 1).val < 128 := (i 1).isLt
    have hN : grid5.N = 10 := N_5
    let t : Fin cfg5.N := ⟨(i 0).val / 5000, by show _ < grid5.N; omega⟩
    have ht : t.val = (i 0).val / 5000 := rfl
    obtain ⟨e0, e1, e2, e3, e4, e5, e6, e7, e8⟩ := idx_facts t
    refine ⟨t, flush5_4 t, ?_⟩
    rw [mem_blk]
    intro a
    match a with
    | ⟨0, _⟩ => show win5_4.index t (0 : Fin 2) * 5000 ≤ (i 0).val ∧ (i 0).val < win5_4.index t (0 : Fin 2) * 5000 + 5000; omega
    | ⟨1, _⟩ => show win5_4.index t (1 : Fin 2) * 128 ≤ (i 1).val ∧ (i 1).val < win5_4.index t (1 : Fin 2) * 128 + 128; omega

end Cert.KernelIdeal.Reg5

end
-- ==== Proof.Reg6.lean ====
/-
  Kernel region 6: a matrix product tiled over ten blocks of 5000 rows. Point t multiplies rows 5000·t … 5000·t + 4999 of
  the features by the whole weight matrix and writes the same rows of the result; the ten row blocks tile the 50000
  rows, so after the region the result array is the whole product of the arrays the region found.
-/
import proofs.«113452_j3143916060941_1_alg».proof.Proof.Gen.KernelIdeal.Frame
import proofs.«113452_j3143916060941_1_alg».proof.Proof.Body3

set_option maxRecDepth 16384

noncomputable section

namespace Cert.KernelIdeal.Reg6

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The index maps over the ten points: the feature window and the result window sit at row block t, the weight window at
    its one block. -/
theorem idx_facts : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 ∧ t.val < 10 :=
  (by decide +kernel : ∀ t : Fin grid6.N, _)

set_option maxHeartbeats 4000000 in
/-- What point t writes back is row block t of the product of the arrays the region found. -/
theorem flushed_eq (c : Dev nD) (t : Fin cfg6.N) :
    (dat6 V c).flushed 2 t = ((cfg6.win 2).blk t).view.read (Elt Ideal) (Cert.Spec.mm (F := Ideal) (V c main_v133) (V c main_v135)) := by
  show (cfg6.win 2).cut (grid6.coords t) ((dat6 V c).after 2 t) = _
  rw [after6_2]
  unfold out6_2
  rw [View.canon_unit_zero hz]
  simp only [View.ld_unit_zero (S := S5000x128) hz, View.ld_unit_zero (S := S128x128) hz]
  obtain ⟨e0, e1, e2, e3, e4, e5, e6⟩ := idx_facts t
  funext j
  show k3_pay1 (iblk6 V c 0 t) (iblk6 V c 1 t) j = Cert.Spec.mm (F := Ideal) (V c main_v133) (V c main_v135) (((cfg6.win 2).blk t).view.emb j)
  refine Body.mm_block3 (V c main_v133) (V c main_v135) _ _ t.val j _ ?_ ?_ ?_ ?_
  · show win6_2.index t (0 : Fin 2) * 5000 + 1 * (j 0).val = t.val * 5000 + (j 0).val
    omega
  · show win6_2.index t (1 : Fin 2) * 128 + 1 * (j 1).val = (j 1).val
    omega
  · intro y z hz0 hz1
    show V c main_v133 (((cfg6.win 0).blk t).view.emb y) = V c main_v133 z
    refine congrArg (V c main_v133) (funext fun a => Fin.ext ?_)
    match a with
    | ⟨0, _⟩ => show win6_0.index t (0 : Fin 2) * 5000 + 1 * (y 0).val = (z 0).val; omega
    | ⟨1, _⟩ => show win6_0.index t (1 : Fin 2) * 128 + 1 * (y 1).val = (z 1).val; omega
  · intro y z hz0 hz1
    show V c main_v135 (((cfg6.win 1).blk t).view.emb y) = V c main_v135 z
    refine congrArg (V c main_v135) (funext fun a => Fin.ext ?_)
    match a with
    | ⟨0, _⟩ => show win6_1.index t (0 : Fin 2) * 128 + 1 * (y 0).val = (z 0).val; omega
    | ⟨1, _⟩ => show win6_1.index t (1 : Fin 2) * 128 + 1 * (y 1).val = (z 1).val; omega

/-- An index of the result array is in point t's block iff each coordinate is in the block's range on its axis. -/
theorem mem_blk (t : Fin cfg6.N) (i : S50000x128.Idx) :
    i ∈ ((cfg6.win 2).blk t).view.set ↔ ∀ a : Fin 2, win6_2.index t a * S5000x128.size a ≤ (i a).val ∧ (i a).val < win6_2.index t a * S5000x128.size a + S5000x128.size a := by
  show i ∈ ((View.whole main_v136).slice (win6_2.rect t)).set ↔ _
  rw [View.set_slice_whole, Rect.mem_set_unit]
  exact Iff.rfl

set_option maxHeartbeats 4000000 in
/-- After the region the result array is the product of the arrays the region found: row r is in block r / 5000. -/
theorem value (c : Dev nD) : (dat6 V c).arrAt 2 cfg6.N = Cert.Spec.mm (F := Ideal) (V c main_v133) (V c main_v135) :=
  (dat6 V c).arrAt_eq_of_cover 2 _ (fun t _ => flushed_eq V c t) fun i => by
    have hi0 : (i 0).val < 50000 := (i 0).isLt
    have hi1 : (i 1).val < 128 := (i 1).isLt
    have hN : grid6.N = 10 := N_6
    let t : Fin cfg6.N := ⟨(i 0).val / 5000, by show _ < grid6.N; omega⟩
    have ht : t.val = (i 0).val / 5000 := rfl
    obtain ⟨e0, e1, e2, e3, e4, e5, e6⟩ := idx_facts t
    refine ⟨t, flush6_2 t, ?_⟩
    rw [mem_blk]
    intro a
    match a with
    | ⟨0, _⟩ => show win6_2.index t (0 : Fin 2) * 5000 ≤ (i 0).val ∧ (i 0).val < win6_2.index t (0 : Fin 2) * 5000 + 5000; omega
    | ⟨1, _⟩ => show win6_2.index t (1 : Fin 2) * 128 ≤ (i 1).val ∧ (i 1).val < win6_2.index t (1 : Fin 2) * 128 + 128; omega

end Cert.KernelIdeal.Reg6

end
-- ==== Proof.Reg7.lean ====
/-
  Kernel region 7: a matrix product tiled over ten blocks of 5000 rows. Point t multiplies rows 5000·t … 5000·t + 4999 of
  the features by the whole weight matrix and writes the same rows of the result; the ten row blocks tile the 50000
  rows, so after the region the result array is the whole product of the arrays the region found.
-/
import proofs.«113452_j3143916060941_1_alg».proof.Proof.Gen.KernelIdeal.Frame
import proofs.«113452_j3143916060941_1_alg».proof.Proof.Body3

set_option maxRecDepth 16384

noncomputable section

namespace Cert.KernelIdeal.Reg7

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The index maps over the ten points: the feature window and the result window sit at row block t, the weight window at
    its one block. -/
theorem idx_facts : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 2) = t.val ∧ win7_2.index t (1 : Fin 2) = 0 ∧ t.val < 10 :=
  (by decide +kernel : ∀ t : Fin grid7.N, _)

set_option maxHeartbeats 4000000 in
/-- What point t writes back is row block t of the product of the arrays the region found. -/
theorem flushed_eq (c : Dev nD) (t : Fin cfg7.N) :
    (dat7 V c).flushed 2 t = ((cfg7.win 2).blk t).view.read (Elt Ideal) (Cert.Spec.mm (F := Ideal) (V c main_v133) (V c main_v138)) := by
  show (cfg7.win 2).cut (grid7.coords t) ((dat7 V c).after 2 t) = _
  rw [after7_2]
  unfold out7_2
  rw [View.canon_unit_zero hz]
  simp only [View.ld_unit_zero (S := S5000x128) hz, View.ld_unit_zero (S := S128x128) hz]
  obtain ⟨e0, e1, e2, e3, e4, e5, e6⟩ := idx_facts t
  funext j
  show k3_pay1 (iblk7 V c 0 t) (iblk7 V c 1 t) j = Cert.Spec.mm (F := Ideal) (V c main_v133) (V c main_v138) (((cfg7.win 2).blk t).view.emb j)
  refine Body.mm_block3 (V c main_v133) (V c main_v138) _ _ t.val j _ ?_ ?_ ?_ ?_
  · show win7_2.index t (0 : Fin 2) * 5000 + 1 * (j 0).val = t.val * 5000 + (j 0).val
    omega
  · show win7_2.index t (1 : Fin 2) * 128 + 1 * (j 1).val = (j 1).val
    omega
  · intro y z hz0 hz1
    show V c main_v133 (((cfg7.win 0).blk t).view.emb y) = V c main_v133 z
    refine congrArg (V c main_v133) (funext fun a => Fin.ext ?_)
    match a with
    | ⟨0, _⟩ => show win7_0.index t (0 : Fin 2) * 5000 + 1 * (y 0).val = (z 0).val; omega
    | ⟨1, _⟩ => show win7_0.index t (1 : Fin 2) * 128 + 1 * (y 1).val = (z 1).val; omega
  · intro y z hz0 hz1
    show V c main_v138 (((cfg7.win 1).blk t).view.emb y) = V c main_v138 z
    refine congrArg (V c main_v138) (funext fun a => Fin.ext ?_)
    match a with
    | ⟨0, _⟩ => show win7_1.index t (0 : Fin 2) * 128 + 1 * (y 0).val = (z 0).val; omega
    | ⟨1, _⟩ => show win7_1.index t (1 : Fin 2) * 128 + 1 * (y 1).val = (z 1).val; omega

/-- An index of the result array is in point t's block iff each coordinate is in the block's range on its axis. -/
theorem mem_blk (t : Fin cfg7.N) (i : S50000x128.Idx) :
    i ∈ ((cfg7.win 2).blk t).view.set ↔ ∀ a : Fin 2, win7_2.index t a * S5000x128.size a ≤ (i a).val ∧ (i a).val < win7_2.index t a * S5000x128.size a + S5000x128.size a := by
  show i ∈ ((View.whole main_v139).slice (win7_2.rect t)).set ↔ _
  rw [View.set_slice_whole, Rect.mem_set_unit]
  exact Iff.rfl

set_option maxHeartbeats 4000000 in
/-- After the region the result array is the product of the arrays the region found: row r is in block r / 5000. -/
theorem value (c : Dev nD) : (dat7 V c).arrAt 2 cfg7.N = Cert.Spec.mm (F := Ideal) (V c main_v133) (V c main_v138) :=
  (dat7 V c).arrAt_eq_of_cover 2 _ (fun t _ => flushed_eq V c t) fun i => by
    have hi0 : (i 0).val < 50000 := (i 0).isLt
    have hi1 : (i 1).val < 128 := (i 1).isLt
    have hN : grid7.N = 10 := N_7
    let t : Fin cfg7.N := ⟨(i 0).val / 5000, by show _ < grid7.N; omega⟩
    have ht : t.val = (i 0).val / 5000 := rfl
    obtain ⟨e0, e1, e2, e3, e4, e5, e6⟩ := idx_facts t
    refine ⟨t, flush7_2 t, ?_⟩
    rw [mem_blk]
    intro a
    match a with
    | ⟨0, _⟩ => show win7_2.index t (0 : Fin 2) * 5000 ≤ (i 0).val ∧ (i 0).val < win7_2.index t (0 : Fin 2) * 5000 + 5000; omega
    | ⟨1, _⟩ => show win7_2.index t (1 : Fin 2) * 128 ≤ (i 1).val ∧ (i 1).val < win7_2.index t (1 : Fin 2) * 128 + 128; omega

end Cert.KernelIdeal.Reg7

end
-- ==== Proof.Reg8.lean ====
/-
  Kernel region 8: the two branches' sums and the two bias rows added, then max(·, 0), tiled over ten blocks of 5000 rows.
  Point t reads rows 5000·t … 5000·t + 4999 of both branch arrays and both whole bias rows and writes the same rows of the
  result; the ten row blocks tile the 50000 rows, so after the region the result array is that combination of the
  arrays the region found.
-/
import proofs.«113452_j3143916060941_1_alg».proof.Proof.Gen.KernelIdeal.Frame
import proofs.«113452_j3143916060941_1_alg».proof.Proof.Body

set_option maxRecDepth 16384

noncomputable section

namespace Cert.KernelIdeal.Reg8

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl
theorem hz1 : (![0] : Fin 1 → Nat) = fun _ => 0 := funext fun a => by fin_cases a; rfl

/-- The index maps over the ten points: the two branch windows and the result window sit at row block t, the bias
    windows at their one block. -/
theorem idx_facts : ∀ t : Fin cfg8.N, win8_0.index t (0 : Fin 2) = t.val ∧ win8_0.index t (1 : Fin 2) = 0
    ∧ win8_1.index t (0 : Fin 2) = t.val ∧ win8_1.index t (1 : Fin 2) = 0
    ∧ win8_2.index t (0 : Fin 1) = 0 ∧ win8_3.index t (0 : Fin 1) = 0
    ∧ win8_4.index t (0 : Fin 2) = t.val ∧ win8_4.index t (1 : Fin 2) = 0 ∧ t.val < 10 :=
  (by decide +kernel : ∀ t : Fin grid8.N, _)

/-- What point t writes back is row block t of the combination of the arrays the region found. -/
theorem flushed_eq (c : Dev nD) (t : Fin cfg8.N) :
    (dat8 V c).flushed 4 t = ((cfg8.win 4).blk t).view.read (Elt Ideal) (Cert.Spec.relu (F := Ideal) (Cert.Spec.comb (F := Ideal) (V c main_v152) (V c main_v165) (V c main_v167) (V c main_v169))) := by
  show (cfg8.win 4).cut (grid8.coords t) ((dat8 V c).after 4 t) = _
  rw [after8_4]
  unfold out8_4
  rw [View.canon_unit_zero hz]
  simp only [View.ld_unit_zero (S := S5000x128) hz, View.ld_unit_zero (S := S128) hz1]
  obtain ⟨e0, e1, e2, e3, e4, e5, e6, e7, e8⟩ := idx_facts t
  funext j
  obtain ⟨p, q, rfl⟩ : ∃ (p : Fin 5000) (q : Fin 128), j = ix2 p q := ⟨j 0, j 1, eq_ix2 j⟩
  have hP : t.val * 5000 + p.val < 50000 := by have := p.isLt; omega
  have hemb : ((cfg8.win 4).blk t).view.emb (ix2 p q) = ix2 (⟨t.val * 5000 + p.val, hP⟩ : Fin 50000) q := funext fun a => Fin.ext (by
    match a with
    | ⟨0, _⟩ => show win8_4.index t (0 : Fin 2) * 5000 + 1 * p.val = t.val * 5000 + p.val; omega
    | ⟨1, _⟩ => show win8_4.index t (1 : Fin 2) * 128 + 1 * q.val = q.val; omega)
  show k2_pay1 (iblk8 V c 0 t) (iblk8 V c 1 t) (iblk8 V c 2 t) (iblk8 V c 3 t) (ix2 p q) = (Cert.Spec.relu (F := Ideal) (Cert.Spec.comb (F := Ideal) (V c main_v152) (V c main_v165) (V c main_v167) (V c main_v169))) (((cfg8.win 4).blk t).view.emb (ix2 p q))
  refine (Body.comb_relu_block (V c main_v152) (V c main_v165) (V c main_v167) (V c main_v169) (iblk8 V c 0 t) (iblk8 V c 1 t) (iblk8 V c 2 t) (iblk8 V c 3 t) p q ⟨t.val * 5000 + p.val, hP⟩ ?_ ?_ ?_ ?_).trans (congrArg (Cert.Spec.relu (F := Ideal) (Cert.Spec.comb (F := Ideal) (V c main_v152) (V c main_v165) (V c main_v167) (V c main_v169))) hemb.symm)
  · show V c main_v152 (((cfg8.win 0).blk t).view.emb (ix2 p q)) = V c main_v152 _
    refine congrArg (V c main_v152) (funext fun a => Fin.ext ?_)
    match a with
    | ⟨0, _⟩ => show win8_0.index t (0 : Fin 2) * 5000 + 1 * p.val = t.val * 5000 + p.val; omega
    | ⟨1, _⟩ => show win8_0.index t (1 : Fin 2) * 128 + 1 * q.val = q.val; omega
  · show V c main_v165 (((cfg8.win 1).blk t).view.emb (ix2 p q)) = V c main_v165 _
    refine congrArg (V c main_v165) (funext fun a => Fin.ext ?_)
    match a with
    | ⟨0, _⟩ => show win8_1.index t (0 : Fin 2) * 5000 + 1 * p.val = t.val * 5000 + p.val; omega
    | ⟨1, _⟩ => show win8_1.index t (1 : Fin 2) * 128 + 1 * q.val = q.val; omega
  · show V c main_v167 (((cfg8.win 2).blk t).view.emb (ix1 q)) = V c main_v167 _
    refine congrArg (V c main_v167) (funext fun a => Fin.ext ?_)
    match a with
    | ⟨0, _⟩ => show win8_2.index t (0 : Fin 1) * 128 + 1 * q.val = q.val; omega
  · show V c main_v169 (((cfg8.win 3).blk t).view.emb (ix1 q)) = V c main_v169 _
    refine congrArg (V c main_v169) (funext fun a => Fin.ext ?_)
    match a with
    | ⟨0, _⟩ => show win8_3.index t (0 : Fin 1) * 128 + 1 * q.val = q.val; omega

/-- An index of the result array is in point t's block iff each coordinate is in the block's range on its axis. -/
theorem mem_blk (t : Fin cfg8.N) (i : S50000x128.Idx) :
    i ∈ ((cfg8.win 4).blk t).view.set ↔ ∀ a : Fin 2, win8_4.index t a * S5000x128.size a ≤ (i a).val ∧ (i a).val < win8_4.index t a * S5000x128.size a + S5000x128.size a := by
  show i ∈ ((View.whole main_v170).slice (win8_4.rect t)).set ↔ _
  rw [View.set_slice_whole, Rect.mem_set_unit]
  exact Iff.rfl

/-- After the region the result array is the combination of the arrays the region found: row r is in block r / 5000. -/
theorem value (c : Dev nD) : (dat8 V c).arrAt 4 cfg8.N = Cert.Spec.relu (F := Ideal) (Cert.Spec.comb (F := Ideal) (V c main_v152) (V c main_v165) (V c main_v167) (V c main_v169)) :=
  (dat8 V c).arrAt_eq_of_cover 4 _ (fun t _ => flushed_eq V c t) fun i => by
    have hi0 : (i 0).val < 50000 := (i 0).isLt
    have hi1 : (i 1).val < 128 := (i 1).isLt
    have hN : grid8.N = 10 := N_8
    let t : Fin cfg8.N := ⟨(i 0).val / 5000, by show _ < grid8.N; omega⟩
    have ht : t.val = (i 0).val / 5000 := rfl
    obtain ⟨e0, e1, e2, e3, e4, e5, e6, e7, e8⟩ := idx_facts t
    refine ⟨t, flush8_4 t, ?_⟩
    rw [mem_blk]
    intro a
    match a with
    | ⟨0, _⟩ => show win8_4.index t (0 : Fin 2) * 5000 ≤ (i 0).val ∧ (i 0).val < win8_4.index t (0 : Fin 2) * 5000 + 5000; omega
    | ⟨1, _⟩ => show win8_4.index t (1 : Fin 2) * 128 ≤ (i 1).val ∧ (i 1).val < win8_4.index t (1 : Fin 2) * 128 + 128; omega

end Cert.KernelIdeal.Reg8

end
-- ==== Proof.Reg9.lean ====
/-
  Kernel region 9: a matrix product tiled over ten blocks of 5000 rows. Point t multiplies rows 5000·t … 5000·t + 4999 of
  the features by the whole weight matrix and writes the same rows of the result; the ten row blocks tile the 50000
  rows, so after the region the result array is the whole product of the arrays the region found.
-/
import proofs.«113452_j3143916060941_1_alg».proof.Proof.Gen.KernelIdeal.Frame
import proofs.«113452_j3143916060941_1_alg».proof.Proof.Body3

set_option maxRecDepth 16384

noncomputable section

namespace Cert.KernelIdeal.Reg9

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The index maps over the ten points: the feature window and the result window sit at row block t, the weight window at
    its one block. -/
theorem idx_facts : ∀ t : Fin cfg9.N, win9_0.index t (0 : Fin 2) = t.val ∧ win9_0.index t (1 : Fin 2) = 0
    ∧ win9_1.index t (0 : Fin 2) = 0 ∧ win9_1.index t (1 : Fin 2) = 0
    ∧ win9_2.index t (0 : Fin 2) = t.val ∧ win9_2.index t (1 : Fin 2) = 0 ∧ t.val < 10 :=
  (by decide +kernel : ∀ t : Fin grid9.N, _)

set_option maxHeartbeats 4000000 in
/-- What point t writes back is row block t of the product of the arrays the region found. -/
theorem flushed_eq (c : Dev nD) (t : Fin cfg9.N) :
    (dat9 V c).flushed 2 t = ((cfg9.win 2).blk t).view.read (Elt Ideal) (Cert.Spec.mm (F := Ideal) (V c main_v170) (V c main_v172)) := by
  show (cfg9.win 2).cut (grid9.coords t) ((dat9 V c).after 2 t) = _
  rw [after9_2]
  unfold out9_2
  rw [View.canon_unit_zero hz]
  simp only [View.ld_unit_zero (S := S5000x128) hz, View.ld_unit_zero (S := S128x128) hz]
  obtain ⟨e0, e1, e2, e3, e4, e5, e6⟩ := idx_facts t
  funext j
  show k3_pay1 (iblk9 V c 0 t) (iblk9 V c 1 t) j = Cert.Spec.mm (F := Ideal) (V c main_v170) (V c main_v172) (((cfg9.win 2).blk t).view.emb j)
  refine Body.mm_block3 (V c main_v170) (V c main_v172) _ _ t.val j _ ?_ ?_ ?_ ?_
  · show win9_2.index t (0 : Fin 2) * 5000 + 1 * (j 0).val = t.val * 5000 + (j 0).val
    omega
  · show win9_2.index t (1 : Fin 2) * 128 + 1 * (j 1).val = (j 1).val
    omega
  · intro y z hz0 hz1
    show V c main_v170 (((cfg9.win 0).blk t).view.emb y) = V c main_v170 z
    refine congrArg (V c main_v170) (funext fun a => Fin.ext ?_)
    match a with
    | ⟨0, _⟩ => show win9_0.index t (0 : Fin 2) * 5000 + 1 * (y 0).val = (z 0).val; omega
    | ⟨1, _⟩ => show win9_0.index t (1 : Fin 2) * 128 + 1 * (y 1).val = (z 1).val; omega
  · intro y z hz0 hz1
    show V c main_v172 (((cfg9.win 1).blk t).view.emb y) = V c main_v172 z
    refine congrArg (V c main_v172) (funext fun a => Fin.ext ?_)
    match a with
    | ⟨0, _⟩ => show win9_1.index t (0 : Fin 2) * 128 + 1 * (y 0).val = (z 0).val; omega
    | ⟨1, _⟩ => show win9_1.index t (1 : Fin 2) * 128 + 1 * (y 1).val = (z 1).val; omega

/-- An index of the result array is in point t's block iff each coordinate is in the block's range on its axis. -/
theorem mem_blk (t : Fin cfg9.N) (i : S50000x128.Idx) :
    i ∈ ((cfg9.win 2).blk t).view.set ↔ ∀ a : Fin 2, win9_2.index t a * S5000x128.size a ≤ (i a).val ∧ (i a).val < win9_2.index t a * S5000x128.size a + S5000x128.size a := by
  show i ∈ ((View.whole main_v173).slice (win9_2.rect t)).set ↔ _
  rw [View.set_slice_whole, Rect.mem_set_unit]
  exact Iff.rfl

set_option maxHeartbeats 4000000 in
/-- After the region the result array is the product of the arrays the region found: row r is in block r / 5000. -/
theorem value (c : Dev nD) : (dat9 V c).arrAt 2 cfg9.N = Cert.Spec.mm (F := Ideal) (V c main_v170) (V c main_v172) :=
  (dat9 V c).arrAt_eq_of_cover 2 _ (fun t _ => flushed_eq V c t) fun i => by
    have hi0 : (i 0).val < 50000 := (i 0).isLt
    have hi1 : (i 1).val < 128 := (i 1).isLt
    have hN : grid9.N = 10 := N_9
    let t : Fin cfg9.N := ⟨(i 0).val / 5000, by show _ < grid9.N; omega⟩
    have ht : t.val = (i 0).val / 5000 := rfl
    obtain ⟨e0, e1, e2, e3, e4, e5, e6⟩ := idx_facts t
    refine ⟨t, flush9_2 t, ?_⟩
    rw [mem_blk]
    intro a
    match a with
    | ⟨0, _⟩ => show win9_2.index t (0 : Fin 2) * 5000 ≤ (i 0).val ∧ (i 0).val < win9_2.index t (0 : Fin 2) * 5000 + 5000; omega
    | ⟨1, _⟩ => show win9_2.index t (1 : Fin 2) * 128 ≤ (i 1).val ∧ (i 1).val < win9_2.index t (1 : Fin 2) * 128 + 128; omega

end Cert.KernelIdeal.Reg9

end
-- ==== Proof.Reg10.lean ====
/-
  Kernel region 10: a matrix product tiled over ten blocks of 5000 rows. Point t multiplies rows 5000·t … 5000·t + 4999 of
  the features by the whole weight matrix and writes the same rows of the result; the ten row blocks tile the 50000
  rows, so after the region the result array is the whole product of the arrays the region found.
-/
import proofs.«113452_j3143916060941_1_alg».proof.Proof.Gen.KernelIdeal.Frame
import proofs.«113452_j3143916060941_1_alg».proof.Proof.Body3

set_option maxRecDepth 16384

noncomputable section

namespace Cert.KernelIdeal.Reg10

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The index maps over the ten points: the feature window and the result window sit at row block t, the weight window at
    its one block. -/
theorem idx_facts : ∀ t : Fin cfg10.N, win10_0.index t (0 : Fin 2) = t.val ∧ win10_0.index t (1 : Fin 2) = 0
    ∧ win10_1.index t (0 : Fin 2) = 0 ∧ win10_1.index t (1 : Fin 2) = 0
    ∧ win10_2.index t (0 : Fin 2) = t.val ∧ win10_2.index t (1 : Fin 2) = 0 ∧ t.val < 10 :=
  (by decide +kernel : ∀ t : Fin grid10.N, _)

set_option maxHeartbeats 4000000 in
/-- What point t writes back is row block t of the product of the arrays the region found. -/
theorem flushed_eq (c : Dev nD) (t : Fin cfg10.N) :
    (dat10 V c).flushed 2 t = ((cfg10.win 2).blk t).view.read (Elt Ideal) (Cert.Spec.mm (F := Ideal) (V c main_v170) (V c main_v175)) := by
  show (cfg10.win 2).cut (grid10.coords t) ((dat10 V c).after 2 t) = _
  rw [after10_2]
  unfold out10_2
  rw [View.canon_unit_zero hz]
  simp only [View.ld_unit_zero (S := S5000x128) hz, View.ld_unit_zero (S := S128x128) hz]
  obtain ⟨e0, e1, e2, e3, e4, e5, e6⟩ := idx_facts t
  funext j
  show k3_pay1 (iblk10 V c 0 t) (iblk10 V c 1 t) j = Cert.Spec.mm (F := Ideal) (V c main_v170) (V c main_v175) (((cfg10.win 2).blk t).view.emb j)
  refine Body.mm_block3 (V c main_v170) (V c main_v175) _ _ t.val j _ ?_ ?_ ?_ ?_
  · show win10_2.index t (0 : Fin 2) * 5000 + 1 * (j 0).val = t.val * 5000 + (j 0).val
    omega
  · show win10_2.index t (1 : Fin 2) * 128 + 1 * (j 1).val = (j 1).val
    omega
  · intro y z hz0 hz1
    show V c main_v170 (((cfg10.win 0).blk t).view.emb y) = V c main_v170 z
    refine congrArg (V c main_v170) (funext fun a => Fin.ext ?_)
    match a with
    | ⟨0, _⟩ => show win10_0.index t (0 : Fin 2) * 5000 + 1 * (y 0).val = (z 0).val; omega
    | ⟨1, _⟩ => show win10_0.index t (1 : Fin 2) * 128 + 1 * (y 1).val = (z 1).val; omega
  · intro y z hz0 hz1
    show V c main_v175 (((cfg10.win 1).blk t).view.emb y) = V c main_v175 z
    refine congrArg (V c main_v175) (funext fun a => Fin.ext ?_)
    match a with
    | ⟨0, _⟩ => show win10_1.index t (0 : Fin 2) * 128 + 1 * (y 0).val = (z 0).val; omega
    | ⟨1, _⟩ => show win10_1.index t (1 : Fin 2) * 128 + 1 * (y 1).val = (z 1).val; omega

/-- An index of the result array is in point t's block iff each coordinate is in the block's range on its axis. -/
theorem mem_blk (t : Fin cfg10.N) (i : S50000x128.Idx) :
    i ∈ ((cfg10.win 2).blk t).view.set ↔ ∀ a : Fin 2, win10_2.index t a * S5000x128.size a ≤ (i a).val ∧ (i a).val < win10_2.index t a * S5000x128.size a + S5000x128.size a := by
  show i ∈ ((View.whole main_v176).slice (win10_2.rect t)).set ↔ _
  rw [View.set_slice_whole, Rect.mem_set_unit]
  exact Iff.rfl

set_option maxHeartbeats 4000000 in
/-- After the region the result array is the product of the arrays the region found: row r is in block r / 5000. -/
theorem value (c : Dev nD) : (dat10 V c).arrAt 2 cfg10.N = Cert.Spec.mm (F := Ideal) (V c main_v170) (V c main_v175) :=
  (dat10 V c).arrAt_eq_of_cover 2 _ (fun t _ => flushed_eq V c t) fun i => by
    have hi0 : (i 0).val < 50000 := (i 0).isLt
    have hi1 : (i 1).val < 128 := (i 1).isLt
    have hN : grid10.N = 10 := N_10
    let t : Fin cfg10.N := ⟨(i 0).val / 5000, by show _ < grid10.N; omega⟩
    have ht : t.val = (i 0).val / 5000 := rfl
    obtain ⟨e0, e1, e2, e3, e4, e5, e6⟩ := idx_facts t
    refine ⟨t, flush10_2 t, ?_⟩
    rw [mem_blk]
    intro a
    match a with
    | ⟨0, _⟩ => show win10_2.index t (0 : Fin 2) * 5000 ≤ (i 0).val ∧ (i 0).val < win10_2.index t (0 : Fin 2) * 5000 + 5000; omega
    | ⟨1, _⟩ => show win10_2.index t (1 : Fin 2) * 128 ≤ (i 1).val ∧ (i 1).val < win10_2.index t (1 : Fin 2) * 128 + 128; omega

end Cert.KernelIdeal.Reg10

end
-- ==== Proof.Reg11.lean ====
/-
  Kernel region 11: the two branches' sums and the two bias rows added, tiled over ten blocks of 5000 rows.
  Point t reads rows 5000·t … 5000·t + 4999 of both branch arrays and both whole bias rows and writes the same rows of the
  result; the ten row blocks tile the 50000 rows, so after the region the result array is that combination of the
  arrays the region found.
-/
import proofs.«113452_j3143916060941_1_alg».proof.Proof.Gen.KernelIdeal.Frame
import proofs.«113452_j3143916060941_1_alg».proof.Proof.Body

set_option maxRecDepth 16384

noncomputable section

namespace Cert.KernelIdeal.Reg11

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl
theorem hz1 : (![0] : Fin 1 → Nat) = fun _ => 0 := funext fun a => by fin_cases a; rfl

/-- The index maps over the ten points: the two branch windows and the result window sit at row block t, the bias
    windows at their one block. -/
theorem idx_facts : ∀ t : Fin cfg11.N, win11_0.index t (0 : Fin 2) = t.val ∧ win11_0.index t (1 : Fin 2) = 0
    ∧ win11_1.index t (0 : Fin 2) = t.val ∧ win11_1.index t (1 : Fin 2) = 0
    ∧ win11_2.index t (0 : Fin 1) = 0 ∧ win11_3.index t (0 : Fin 1) = 0
    ∧ win11_4.index t (0 : Fin 2) = t.val ∧ win11_4.index t (1 : Fin 2) = 0 ∧ t.val < 10 :=
  (by decide +kernel : ∀ t : Fin grid11.N, _)

/-- What point t writes back is row block t of the combination of the arrays the region found. -/
theorem flushed_eq (c : Dev nD) (t : Fin cfg11.N) :
    (dat11 V c).flushed 4 t = ((cfg11.win 4).blk t).view.read (Elt Ideal) (Cert.Spec.comb (F := Ideal) (V c main_v189) (V c main_v202) (V c main_v204) (V c main_v206)) := by
  show (cfg11.win 4).cut (grid11.coords t) ((dat11 V c).after 4 t) = _
  rw [after11_4]
  unfold out11_4
  rw [View.canon_unit_zero hz]
  simp only [View.ld_unit_zero (S := S5000x128) hz, View.ld_unit_zero (S := S128) hz1]
  obtain ⟨e0, e1, e2, e3, e4, e5, e6, e7, e8⟩ := idx_facts t
  funext j
  obtain ⟨p, q, rfl⟩ : ∃ (p : Fin 5000) (q : Fin 128), j = ix2 p q := ⟨j 0, j 1, eq_ix2 j⟩
  have hP : t.val * 5000 + p.val < 50000 := by have := p.isLt; omega
  have hemb : ((cfg11.win 4).blk t).view.emb (ix2 p q) = ix2 (⟨t.val * 5000 + p.val, hP⟩ : Fin 50000) q := funext fun a => Fin.ext (by
    match a with
    | ⟨0, _⟩ => show win11_4.index t (0 : Fin 2) * 5000 + 1 * p.val = t.val * 5000 + p.val; omega
    | ⟨1, _⟩ => show win11_4.index t (1 : Fin 2) * 128 + 1 * q.val = q.val; omega)
  show k11_pay1 (iblk11 V c 0 t) (iblk11 V c 1 t) (iblk11 V c 2 t) (iblk11 V c 3 t) (ix2 p q) = (Cert.Spec.comb (F := Ideal) (V c main_v189) (V c main_v202) (V c main_v204) (V c main_v206)) (((cfg11.win 4).blk t).view.emb (ix2 p q))
  refine (Body.comb_block (V c main_v189) (V c main_v202) (V c main_v204) (V c main_v206) (iblk11 V c 0 t) (iblk11 V c 1 t) (iblk11 V c 2 t) (iblk11 V c 3 t) p q ⟨t.val * 5000 + p.val, hP⟩ ?_ ?_ ?_ ?_).trans (congrArg (Cert.Spec.comb (F := Ideal) (V c main_v189) (V c main_v202) (V c main_v204) (V c main_v206)) hemb.symm)
  · show V c main_v189 (((cfg11.win 0).blk t).view.emb (ix2 p q)) = V c main_v189 _
    refine congrArg (V c main_v189) (funext fun a => Fin.ext ?_)
    match a with
    | ⟨0, _⟩ => show win11_0.index t (0 : Fin 2) * 5000 + 1 * p.val = t.val * 5000 + p.val; omega
    | ⟨1, _⟩ => show win11_0.index t (1 : Fin 2) * 128 + 1 * q.val = q.val; omega
  · show V c main_v202 (((cfg11.win 1).blk t).view.emb (ix2 p q)) = V c main_v202 _
    refine congrArg (V c main_v202) (funext fun a => Fin.ext ?_)
    match a with
    | ⟨0, _⟩ => show win11_1.index t (0 : Fin 2) * 5000 + 1 * p.val = t.val * 5000 + p.val; omega
    | ⟨1, _⟩ => show win11_1.index t (1 : Fin 2) * 128 + 1 * q.val = q.val; omega
  · show V c main_v204 (((cfg11.win 2).blk t).view.emb (ix1 q)) = V c main_v204 _
    refine congrArg (V c main_v204) (funext fun a => Fin.ext ?_)
    match a with
    | ⟨0, _⟩ => show win11_2.index t (0 : Fin 1) * 128 + 1 * q.val = q.val; omega
  · show V c main_v206 (((cfg11.win 3).blk t).view.emb (ix1 q)) = V c main_v206 _
    refine congrArg (V c main_v206) (funext fun a => Fin.ext ?_)
    match a with
    | ⟨0, _⟩ => show win11_3.index t (0 : Fin 1) * 128 + 1 * q.val = q.val; omega

/-- An index of the result array is in point t's block iff each coordinate is in the block's range on its axis. -/
theorem mem_blk (t : Fin cfg11.N) (i : S50000x128.Idx) :
    i ∈ ((cfg11.win 4).blk t).view.set ↔ ∀ a : Fin 2, win11_4.index t a * S5000x128.size a ≤ (i a).val ∧ (i a).val < win11_4.index t a * S5000x128.size a + S5000x128.size a := by
  show i ∈ ((View.whole main_v207).slice (win11_4.rect t)).set ↔ _
  rw [View.set_slice_whole, Rect.mem_set_unit]
  exact Iff.rfl

/-- After the region the result array is the combination of the arrays the region found: row r is in block r / 5000. -/
theorem value (c : Dev nD) : (dat11 V c).arrAt 4 cfg11.N = Cert.Spec.comb (F := Ideal) (V c main_v189) (V c main_v202) (V c main_v204) (V c main_v206) :=
  (dat11 V c).arrAt_eq_of_cover 4 _ (fun t _ => flushed_eq V c t) fun i => by
    have hi0 : (i 0).val < 50000 := (i 0).isLt
    have hi1 : (i 1).val < 128 := (i 1).isLt
    have hN : grid11.N = 10 := N_11
    let t : Fin cfg11.N := ⟨(i 0).val / 5000, by show _ < grid11.N; omega⟩
    have ht : t.val = (i 0).val / 5000 := rfl
    obtain ⟨e0, e1, e2, e3, e4, e5, e6, e7, e8⟩ := idx_facts t
    refine ⟨t, flush11_4 t, ?_⟩
    rw [mem_blk]
    intro a
    match a with
    | ⟨0, _⟩ => show win11_4.index t (0 : Fin 2) * 5000 ≤ (i 0).val ∧ (i 0).val < win11_4.index t (0 : Fin 2) * 5000 + 5000; omega
    | ⟨1, _⟩ => show win11_4.index t (1 : Fin 2) * 128 ≤ (i 1).val ∧ (i 1).val < win11_4.index t (1 : Fin 2) * 128 + 128; omega

end Cert.KernelIdeal.Reg11

end
-- ==== Proof.KChain.lean ====
/-
  The kernel program's result as one function of its arguments, at the exact instance.

  The program is a fold: host stretches and kernel regions alternate, and each boundary's buffer contents are the next
  segment's input. The edge lists with their self-loops, the edge weights and the four float arguments are written
  before the first region (or never) and are read, unchanged, by every layer. A layer is two matmul regions (the two
  branches' products), a stretch of gathers and scatter-adds, and a combine region; its output array is the next
  layer's features. Walking the fold back from the last boundary gives the four-layer block of the arguments.
-/
import proofs.«113452_j3143916060941_1_alg».proof.Proof.Gen.KernelIdeal.Frame
import proofs.«113452_j3143916060941_1_alg».proof.Proof.Prep
import proofs.«113452_j3143916060941_1_alg».proof.Proof.St1
import proofs.«113452_j3143916060941_1_alg».proof.Proof.St2
import proofs.«113452_j3143916060941_1_alg».proof.Proof.St3
import proofs.«113452_j3143916060941_1_alg».proof.Proof.St4
import proofs.«113452_j3143916060941_1_alg».proof.Proof.St5
import proofs.«113452_j3143916060941_1_alg».proof.Proof.St6
import proofs.«113452_j3143916060941_1_alg».proof.Proof.St7
import proofs.«113452_j3143916060941_1_alg».proof.Proof.St8
import proofs.«113452_j3143916060941_1_alg».proof.Proof.St9
import proofs.«113452_j3143916060941_1_alg».proof.Proof.St10
import proofs.«113452_j3143916060941_1_alg».proof.Proof.St11
import proofs.«113452_j3143916060941_1_alg».proof.Proof.Reg0
import proofs.«113452_j3143916060941_1_alg».proof.Proof.Reg1
import proofs.«113452_j3143916060941_1_alg».proof.Proof.Reg2
import proofs.«113452_j3143916060941_1_alg».proof.Proof.Reg3
import proofs.«113452_j3143916060941_1_alg».proof.Proof.Reg4
import proofs.«113452_j3143916060941_1_alg».proof.Proof.Reg5
import proofs.«113452_j3143916060941_1_alg».proof.Proof.Reg6
import proofs.«113452_j3143916060941_1_alg».proof.Proof.Reg7
import proofs.«113452_j3143916060941_1_alg».proof.Proof.Reg8
import proofs.«113452_j3143916060941_1_alg».proof.Proof.Reg9
import proofs.«113452_j3143916060941_1_alg».proof.Proof.Reg10
import proofs.«113452_j3143916060941_1_alg».proof.Proof.Reg11

set_option maxRecDepth 16384

noncomputable section

namespace Cert.KernelIdeal.Chain

open Cert.KernelIdeal Cert.KernelIdeal.Gen
open Idealize.ShloMosaic Idealize.ShloMosaic.TcCoe Idealize.ShloMosaic.StableHlo
open Idealize.SL.Sem

variable (m : (ℓ : Loc nD τ sig) → Buf (Elt Ideal) ℓ) (ρ : Dev nD → PrngReg) (c : Dev nD)

/-- Two boundaries agree on the buffers every layer reads: both edge lists with their self-loops, both graphs' edge
    weights, and the weight and bias stacks. -/
structure LiveEq (A B : Valuation τ sig (Elt Ideal)) : Prop where
  v3 : A (Proc.devRef .tc main_v3) = B (Proc.devRef .tc main_v3)
  v6 : A (Proc.devRef .tc main_v6) = B (Proc.devRef .tc main_v6)
  v29 : A (Proc.devRef .tc main_v29) = B (Proc.devRef .tc main_v29)
  v33 : A (Proc.devRef .tc main_v33) = B (Proc.devRef .tc main_v33)
  v36 : A (Proc.devRef .tc main_v36) = B (Proc.devRef .tc main_v36)
  v59 : A (Proc.devRef .tc main_v59) = B (Proc.devRef .tc main_v59)
  a3 : A (Proc.devRef .tc main_arg3) = B (Proc.devRef .tc main_arg3)
  a4 : A (Proc.devRef .tc main_arg4) = B (Proc.devRef .tc main_arg4)
  a5 : A (Proc.devRef .tc main_arg5) = B (Proc.devRef .tc main_arg5)
  a6 : A (Proc.devRef .tc main_arg6) = B (Proc.devRef .tc main_arg6)

theorem LiveEq.trans {A B C : Valuation τ sig (Elt Ideal)} (h : LiveEq A B) (h' : LiveEq B C) : LiveEq A C :=
  ⟨h.v3.trans h'.v3, h.v6.trans h'.v6, h.v29.trans h'.v29, h.v33.trans h'.v33, h.v36.trans h'.v36, h.v59.trans h'.v59, h.a3.trans h'.a3, h.a4.trans h'.a4, h.a5.trans h'.a5, h.a6.trans h'.a6⟩

/-! ## No region and no later stretch writes those buffers -/

theorem reg0_live : LiveEq (W6 m ρ c) (W5 m ρ c) :=
  ⟨W6_of_ne m ρ c main_v3 (by decide),
   W6_of_ne m ρ c main_v6 (by decide),
   W6_of_ne m ρ c main_v29 (by decide),
   W6_of_ne m ρ c main_v33 (by decide),
   W6_of_ne m ρ c main_v36 (by decide),
   W6_of_ne m ρ c main_v59 (by decide),
   W6_of_ne m ρ c main_arg3 (by decide),
   W6_of_ne m ρ c main_arg4 (by decide),
   W6_of_ne m ρ c main_arg5 (by decide),
   W6_of_ne m ρ c main_arg6 (by decide)⟩
theorem reg1_live : LiveEq (W8 m ρ c) (W7 m ρ c) :=
  ⟨W8_of_ne m ρ c main_v3 (by decide),
   W8_of_ne m ρ c main_v6 (by decide),
   W8_of_ne m ρ c main_v29 (by decide),
   W8_of_ne m ρ c main_v33 (by decide),
   W8_of_ne m ρ c main_v36 (by decide),
   W8_of_ne m ρ c main_v59 (by decide),
   W8_of_ne m ρ c main_arg3 (by decide),
   W8_of_ne m ρ c main_arg4 (by decide),
   W8_of_ne m ρ c main_arg5 (by decide),
   W8_of_ne m ρ c main_arg6 (by decide)⟩
theorem reg2_live : LiveEq (W10 m ρ c) (W9 m ρ c) :=
  ⟨W10_of_ne m ρ c main_v3 (by decide),
   W10_of_ne m ρ c main_v6 (by decide),
   W10_of_ne m ρ c main_v29 (by decide),
   W10_of_ne m ρ c main_v33 (by decide),
   W10_of_ne m ρ c main_v36 (by decide),
   W10_of_ne m ρ c main_v59 (by decide),
   W10_of_ne m ρ c main_arg3 (by decide),
   W10_of_ne m ρ c main_arg4 (by decide),
   W10_of_ne m ρ c main_arg5 (by decide),
   W10_of_ne m ρ c main_arg6 (by decide)⟩
theorem reg3_live : LiveEq (W12 m ρ c) (W11 m ρ c) :=
  ⟨W12_of_ne m ρ c main_v3 (by decide),
   W12_of_ne m ρ c main_v6 (by decide),
   W12_of_ne m ρ c main_v29 (by decide),
   W12_of_ne m ρ c main_v33 (by decide),
   W12_of_ne m ρ c main_v36 (by decide),
   W12_of_ne m ρ c main_v59 (by decide),
   W12_of_ne m ρ c main_arg3 (by decide),
   W12_of_ne m ρ c main_arg4 (by decide),
   W12_of_ne m ρ c main_arg5 (by decide),
   W12_of_ne m ρ c main_arg6 (by decide)⟩
theorem reg4_live : LiveEq (W14 m ρ c) (W13 m ρ c) :=
  ⟨W14_of_ne m ρ c main_v3 (by decide),
   W14_of_ne m ρ c main_v6 (by decide),
   W14_of_ne m ρ c main_v29 (by decide),
   W14_of_ne m ρ c main_v33 (by decide),
   W14_of_ne m ρ c main_v36 (by decide),
   W14_of_ne m ρ c main_v59 (by decide),
   W14_of_ne m ρ c main_arg3 (by decide),
   W14_of_ne m ρ c main_arg4 (by decide),
   W14_of_ne m ρ c main_arg5 (by decide),
   W14_of_ne m ρ c main_arg6 (by decide)⟩
theorem reg5_live : LiveEq (W16 m ρ c) (W15 m ρ c) :=
  ⟨W16_of_ne m ρ c main_v3 (by decide),
   W16_of_ne m ρ c main_v6 (by decide),
   W16_of_ne m ρ c main_v29 (by decide),
   W16_of_ne m ρ c main_v33 (by decide),
   W16_of_ne m ρ c main_v36 (by decide),
   W16_of_ne m ρ c main_v59 (by decide),
   W16_of_ne m ρ c main_arg3 (by decide),
   W16_of_ne m ρ c main_arg4 (by decide),
   W16_of_ne m ρ c main_arg5 (by decide),
   W16_of_ne m ρ c main_arg6 (by decide)⟩
theorem reg6_live : LiveEq (W18 m ρ c) (W17 m ρ c) :=
  ⟨W18_of_ne m ρ c main_v3 (by decide),
   W18_of_ne m ρ c main_v6 (by decide),
   W18_of_ne m ρ c main_v29 (by decide),
   W18_of_ne m ρ c main_v33 (by decide),
   W18_of_ne m ρ c main_v36 (by decide),
   W18_of_ne m ρ c main_v59 (by decide),
   W18_of_ne m ρ c main_arg3 (by decide),
   W18_of_ne m ρ c main_arg4 (by decide),
   W18_of_ne m ρ c main_arg5 (by decide),
   W18_of_ne m ρ c main_arg6 (by decide)⟩
theorem reg7_live : LiveEq (W20 m ρ c) (W19 m ρ c) :=
  ⟨W20_of_ne m ρ c main_v3 (by decide),
   W20_of_ne m ρ c main_v6 (by decide),
   W20_of_ne m ρ c main_v29 (by decide),
   W20_of_ne m ρ c main_v33 (by decide),
   W20_of_ne m ρ c main_v36 (by decide),
   W20_of_ne m ρ c main_v59 (by decide),
   W20_of_ne m ρ c main_arg3 (by decide),
   W20_of_ne m ρ c main_arg4 (by decide),
   W20_of_ne m ρ c main_arg5 (by decide),
   W20_of_ne m ρ c main_arg6 (by decide)⟩
theorem reg8_live : LiveEq (W22 m ρ c) (W21 m ρ c) :=
  ⟨W22_of_ne m ρ c main_v3 (by decide),
   W22_of_ne m ρ c main_v6 (by decide),
   W22_of_ne m ρ c main_v29 (by decide),
   W22_of_ne m ρ c main_v33 (by decide),
   W22_of_ne m ρ c main_v36 (by decide),
   W22_of_ne m ρ c main_v59 (by decide),
   W22_of_ne m ρ c main_arg3 (by decide),
   W22_of_ne m ρ c main_arg4 (by decide),
   W22_of_ne m ρ c main_arg5 (by decide),
   W22_of_ne m ρ c main_arg6 (by decide)⟩
theorem reg9_live : LiveEq (W24 m ρ c) (W23 m ρ c) :=
  ⟨W24_of_ne m ρ c main_v3 (by decide),
   W24_of_ne m ρ c main_v6 (by decide),
   W24_of_ne m ρ c main_v29 (by decide),
   W24_of_ne m ρ c main_v33 (by decide),
   W24_of_ne m ρ c main_v36 (by decide),
   W24_of_ne m ρ c main_v59 (by decide),
   W24_of_ne m ρ c main_arg3 (by decide),
   W24_of_ne m ρ c main_arg4 (by decide),
   W24_of_ne m ρ c main_arg5 (by decide),
   W24_of_ne m ρ c main_arg6 (by decide)⟩
theorem reg10_live : LiveEq (W26 m ρ c) (W25 m ρ c) :=
  ⟨W26_of_ne m ρ c main_v3 (by decide),
   W26_of_ne m ρ c main_v6 (by decide),
   W26_of_ne m ρ c main_v29 (by decide),
   W26_of_ne m ρ c main_v33 (by decide),
   W26_of_ne m ρ c main_v36 (by decide),
   W26_of_ne m ρ c main_v59 (by decide),
   W26_of_ne m ρ c main_arg3 (by decide),
   W26_of_ne m ρ c main_arg4 (by decide),
   W26_of_ne m ρ c main_arg5 (by decide),
   W26_of_ne m ρ c main_arg6 (by decide)⟩
theorem host1_live : LiveEq (W7 m ρ c) (W6 m ρ c) :=
  have h := St1.keep (W6 m ρ c)
  ⟨h.1, h.2.1, h.2.2.1, h.2.2.2.1, h.2.2.2.2.1, h.2.2.2.2.2.1, h.2.2.2.2.2.2.1, h.2.2.2.2.2.2.2.1, h.2.2.2.2.2.2.2.2.1, h.2.2.2.2.2.2.2.2.2.1⟩
theorem host2_live : LiveEq (W9 m ρ c) (W8 m ρ c) :=
  have h := St2.keep (W8 m ρ c)
  ⟨h.1, h.2.1, h.2.2.1, h.2.2.2.1, h.2.2.2.2.1, h.2.2.2.2.2.1, h.2.2.2.2.2.2.1, h.2.2.2.2.2.2.2.1, h.2.2.2.2.2.2.2.2.1, h.2.2.2.2.2.2.2.2.2⟩
theorem host3_live : LiveEq (W11 m ρ c) (W10 m ρ c) :=
  have h := St3.keep (W10 m ρ c)
  ⟨h.1, h.2.1, h.2.2.1, h.2.2.2.1, h.2.2.2.2.1, h.2.2.2.2.2.1, h.2.2.2.2.2.2.1, h.2.2.2.2.2.2.2.1, h.2.2.2.2.2.2.2.2.1, h.2.2.2.2.2.2.2.2.2.1⟩
theorem host4_live : LiveEq (W13 m ρ c) (W12 m ρ c) :=
  have h := St4.keep (W12 m ρ c)
  ⟨h.1, h.2.1, h.2.2.1, h.2.2.2.1, h.2.2.2.2.1, h.2.2.2.2.2.1, h.2.2.2.2.2.2.1, h.2.2.2.2.2.2.2.1, h.2.2.2.2.2.2.2.2.1, h.2.2.2.2.2.2.2.2.2.1⟩
theorem host5_live : LiveEq (W15 m ρ c) (W14 m ρ c) :=
  have h := St5.keep (W14 m ρ c)
  ⟨h.1, h.2.1, h.2.2.1, h.2.2.2.1, h.2.2.2.2.1, h.2.2.2.2.2.1, h.2.2.2.2.2.2.1, h.2.2.2.2.2.2.2.1, h.2.2.2.2.2.2.2.2.1, h.2.2.2.2.2.2.2.2.2⟩
theorem host6_live : LiveEq (W17 m ρ c) (W16 m ρ c) :=
  have h := St6.keep (W16 m ρ c)
  ⟨h.1, h.2.1, h.2.2.1, h.2.2.2.1, h.2.2.2.2.1, h.2.2.2.2.2.1, h.2.2.2.2.2.2.1, h.2.2.2.2.2.2.2.1, h.2.2.2.2.2.2.2.2.1, h.2.2.2.2.2.2.2.2.2.1⟩
theorem host7_live : LiveEq (W19 m ρ c) (W18 m ρ c) :=
  have h := St7.keep (W18 m ρ c)
  ⟨h.1, h.2.1, h.2.2.1, h.2.2.2.1, h.2.2.2.2.1, h.2.2.2.2.2.1, h.2.2.2.2.2.2.1, h.2.2.2.2.2.2.2.1, h.2.2.2.2.2.2.2.2.1, h.2.2.2.2.2.2.2.2.2.1⟩
theorem host8_live : LiveEq (W21 m ρ c) (W20 m ρ c) :=
  have h := St8.keep (W20 m ρ c)
  ⟨h.1, h.2.1, h.2.2.1, h.2.2.2.1, h.2.2.2.2.1, h.2.2.2.2.2.1, h.2.2.2.2.2.2.1, h.2.2.2.2.2.2.2.1, h.2.2.2.2.2.2.2.2.1, h.2.2.2.2.2.2.2.2.2⟩
theorem host9_live : LiveEq (W23 m ρ c) (W22 m ρ c) :=
  have h := St9.keep (W22 m ρ c)
  ⟨h.1, h.2.1, h.2.2.1, h.2.2.2.1, h.2.2.2.2.1, h.2.2.2.2.2.1, h.2.2.2.2.2.2.1, h.2.2.2.2.2.2.2.1, h.2.2.2.2.2.2.2.2.1, h.2.2.2.2.2.2.2.2.2.1⟩
theorem host10_live : LiveEq (W25 m ρ c) (W24 m ρ c) :=
  have h := St10.keep (W24 m ρ c)
  ⟨h.1, h.2.1, h.2.2.1, h.2.2.2.1, h.2.2.2.2.1, h.2.2.2.2.2.1, h.2.2.2.2.2.2.1, h.2.2.2.2.2.2.2.1, h.2.2.2.2.2.2.2.2.1, h.2.2.2.2.2.2.2.2.2.1⟩

/-- Every boundary from the first region's exit on agrees with the first region's entry on those buffers. -/
theorem live6 : LiveEq (W6 m ρ c) (W5 m ρ c) := reg0_live m ρ c
theorem live7 : LiveEq (W7 m ρ c) (W5 m ρ c) := (host1_live m ρ c).trans (live6 m ρ c)
theorem live8 : LiveEq (W8 m ρ c) (W5 m ρ c) := (reg1_live m ρ c).trans (live7 m ρ c)
theorem live9 : LiveEq (W9 m ρ c) (W5 m ρ c) := (host2_live m ρ c).trans (live8 m ρ c)
theorem live10 : LiveEq (W10 m ρ c) (W5 m ρ c) := (reg2_live m ρ c).trans (live9 m ρ c)
theorem live11 : LiveEq (W11 m ρ c) (W5 m ρ c) := (host3_live m ρ c).trans (live10 m ρ c)
theorem live12 : LiveEq (W12 m ρ c) (W5 m ρ c) := (reg3_live m ρ c).trans (live11 m ρ c)
theorem live13 : LiveEq (W13 m ρ c) (W5 m ρ c) := (host4_live m ρ c).trans (live12 m ρ c)
theorem live14 : LiveEq (W14 m ρ c) (W5 m ρ c) := (reg4_live m ρ c).trans (live13 m ρ c)
theorem live15 : LiveEq (W15 m ρ c) (W5 m ρ c) := (host5_live m ρ c).trans (live14 m ρ c)
theorem live16 : LiveEq (W16 m ρ c) (W5 m ρ c) := (reg5_live m ρ c).trans (live15 m ρ c)
theorem live17 : LiveEq (W17 m ρ c) (W5 m ρ c) := (host6_live m ρ c).trans (live16 m ρ c)
theorem live18 : LiveEq (W18 m ρ c) (W5 m ρ c) := (reg6_live m ρ c).trans (live17 m ρ c)
theorem live19 : LiveEq (W19 m ρ c) (W5 m ρ c) := (host7_live m ρ c).trans (live18 m ρ c)
theorem live20 : LiveEq (W20 m ρ c) (W5 m ρ c) := (reg7_live m ρ c).trans (live19 m ρ c)
theorem live21 : LiveEq (W21 m ρ c) (W5 m ρ c) := (host8_live m ρ c).trans (live20 m ρ c)
theorem live22 : LiveEq (W22 m ρ c) (W5 m ρ c) := (reg8_live m ρ c).trans (live21 m ρ c)
theorem live23 : LiveEq (W23 m ρ c) (W5 m ρ c) := (host9_live m ρ c).trans (live22 m ρ c)
theorem live24 : LiveEq (W24 m ρ c) (W5 m ρ c) := (reg9_live m ρ c).trans (live23 m ρ c)
theorem live25 : LiveEq (W25 m ρ c) (W5 m ρ c) := (host10_live m ρ c).trans (live24 m ρ c)
theorem live26 : LiveEq (W26 m ρ c) (W5 m ρ c) := (reg10_live m ρ c).trans (live25 m ρ c)

/-! ## The first region's entry: the edge data and the first weight matrix, of the arguments -/

theorem p_src1 : W5 m ρ c (Proc.devRef .tc main_v3) = Cert.Spec.srcM (m ((c : Thread nD τ).loc main_arg1)) := Prep.srcM (W0 m ρ c)
theorem p_dst1 : W5 m ρ c (Proc.devRef .tc main_v6) = Cert.Spec.dstM (m ((c : Thread nD τ).loc main_arg1)) := Prep.dstM (W0 m ρ c)
theorem p_nrm1 : W5 m ρ c (Proc.devRef .tc main_v29) = Cert.Spec.nrmM (Cert.Spec.srcM (m ((c : Thread nD τ).loc main_arg1))) (Cert.Spec.dstM (m ((c : Thread nD τ).loc main_arg1))) := Prep.nrmM (W0 m ρ c)
theorem p_src2 : W5 m ρ c (Proc.devRef .tc main_v33) = Cert.Spec.srcC (m ((c : Thread nD τ).loc main_arg2)) := Prep.srcC (W0 m ρ c)
theorem p_dst2 : W5 m ρ c (Proc.devRef .tc main_v36) = Cert.Spec.dstC (m ((c : Thread nD τ).loc main_arg2)) := Prep.dstC (W0 m ρ c)
theorem p_nrm2 : W5 m ρ c (Proc.devRef .tc main_v59) = Cert.Spec.nrmC (Cert.Spec.srcC (m ((c : Thread nD τ).loc main_arg2))) (Cert.Spec.dstC (m ((c : Thread nD τ).loc main_arg2))) := Prep.nrmC (W0 m ρ c)
theorem p_w0 : W5 m ρ c (Proc.devRef .tc main_v61) = Cert.Spec.wsl0 (m ((c : Thread nD τ).loc main_arg3)) := Prep.w0 (W0 m ρ c)
theorem p_a0 : W5 m ρ c (Proc.devRef .tc main_arg0) = (m ((c : Thread nD τ).loc main_arg0)) := (Prep.keep (W0 m ρ c)).1
theorem p_a3 : W5 m ρ c (Proc.devRef .tc main_arg3) = (m ((c : Thread nD τ).loc main_arg3)) := (Prep.keep (W0 m ρ c)).2.1
theorem p_a4 : W5 m ρ c (Proc.devRef .tc main_arg4) = (m ((c : Thread nD τ).loc main_arg4)) := (Prep.keep (W0 m ρ c)).2.2.1
theorem p_a5 : W5 m ρ c (Proc.devRef .tc main_arg5) = (m ((c : Thread nD τ).loc main_arg5)) := (Prep.keep (W0 m ρ c)).2.2.2.1
theorem p_a6 : W5 m ρ c (Proc.devRef .tc main_arg6) = (m ((c : Thread nD τ).loc main_arg6)) := (Prep.keep (W0 m ρ c)).2.2.2.2

/-! ## Layer 0: regions 0, 1, 2 -/

set_option maxHeartbeats 8000000 in
/-- After layer 0 its output array holds the layer and its activation of the arguments and the previous layers. -/
theorem x1 : W10 m ρ c (Proc.devRef .tc main_v96) = Cert.Spec.relu (F := Ideal) (Cert.Spec.layer (F := Ideal) (m ((c : Thread nD τ).loc main_arg0)) (Cert.Spec.wsl0 (m ((c : Thread nD τ).loc main_arg3))) (Cert.Spec.wsl0 (m ((c : Thread nD τ).loc main_arg5))) (Cert.Spec.bsl0 (m ((c : Thread nD τ).loc main_arg4))) (Cert.Spec.bsl0 (m ((c : Thread nD τ).loc main_arg6))) (m ((c : Thread nD τ).loc main_arg1)) (m ((c : Thread nD τ).loc main_arg2))) := by
  have hx : W5 m ρ c (Proc.devRef .tc main_arg0) = (m ((c : Thread nD τ).loc main_arg0)) := p_a0 m ρ c
  have hw : W5 m ρ c (Proc.devRef .tc main_v61) = Cert.Spec.wsl0 (m ((c : Thread nD τ).loc main_arg3)) := p_w0 m ρ c
  have hM : W6 m ρ c (Proc.devRef .tc main_v62) = Cert.Spec.mm (F := Ideal) (m ((c : Thread nD τ).loc main_arg0)) (Cert.Spec.wsl0 (m ((c : Thread nD τ).loc main_arg3))) := by
    have h : W6 m ρ c (Proc.devRef .tc main_v62) = Cert.Spec.mm (F := Ideal) (W5 m ρ c (Proc.devRef .tc main_arg0)) (W5 m ρ c (Proc.devRef .tc main_v61)) := (W6_arr m ρ c 2).trans (Reg0.value (V5 m ρ) c)
    rw [h, hx, hw]
  have hxA : W6 m ρ c (Proc.devRef .tc main_arg0) = (m ((c : Thread nD τ).loc main_arg0)) := ((W6_arr m ρ c 0).trans (((dat0 (V5 m ρ) c).arrAt_in 0 rfl _).trans (A_eq0 (V5 m ρ) c 0))).trans hx
  have hkB := St1.keep (W6 m ρ c)
  have hxB : W7 m ρ c (Proc.devRef .tc main_arg0) = (m ((c : Thread nD τ).loc main_arg0)) := (hkB.2.2.2.2.2.2.2.2.2.2.1).trans hxA
  have hMB : W7 m ρ c (Proc.devRef .tc main_v62) = Cert.Spec.mm (F := Ideal) (m ((c : Thread nD τ).loc main_arg0)) (Cert.Spec.wsl0 (m ((c : Thread nD τ).loc main_arg3))) := (hkB.2.2.2.2.2.2.2.2.2.2.2).trans hM
  have hwC : W7 m ρ c (Proc.devRef .tc main_v64) = Cert.Spec.wsl0 (m ((c : Thread nD τ).loc main_arg5)) := (St1.val (W6 m ρ c)).trans (congrArg Cert.Spec.wsl0 (((live6 m ρ c).a5).trans (p_a5 m ρ c)))
  have hC : W8 m ρ c (Proc.devRef .tc main_v65) = Cert.Spec.mm (F := Ideal) (m ((c : Thread nD τ).loc main_arg0)) (Cert.Spec.wsl0 (m ((c : Thread nD τ).loc main_arg5))) := by
    have h : W8 m ρ c (Proc.devRef .tc main_v65) = Cert.Spec.mm (F := Ideal) (W7 m ρ c (Proc.devRef .tc main_arg0)) (W7 m ρ c (Proc.devRef .tc main_v64)) := (W8_arr m ρ c 2).trans (Reg1.value (V7 m ρ) c)
    rw [h, hxB, hwC]
  have hMC : W8 m ρ c (Proc.devRef .tc main_v62) = Cert.Spec.mm (F := Ideal) (m ((c : Thread nD τ).loc main_arg0)) (Cert.Spec.wsl0 (m ((c : Thread nD τ).loc main_arg3))) := (W8_of_ne m ρ c main_v62 (by decide)).trans hMB
  have hl := live8 m ρ c
  have haM : W9 m ρ c (Proc.devRef .tc main_v78) = Cert.Spec.convM (F := Ideal) (Cert.Spec.mm (F := Ideal) (m ((c : Thread nD τ).loc main_arg0)) (Cert.Spec.wsl0 (m ((c : Thread nD τ).loc main_arg3)))) (Cert.Spec.srcM (m ((c : Thread nD τ).loc main_arg1))) (Cert.Spec.dstM (m ((c : Thread nD τ).loc main_arg1))) (Cert.Spec.nrmM (Cert.Spec.srcM (m ((c : Thread nD τ).loc main_arg1))) (Cert.Spec.dstM (m ((c : Thread nD τ).loc main_arg1)))) :=
    (St2.aggM (W8 m ρ c)).trans (by rw [hMC, hl.v3, hl.v6, hl.v29, p_src1 m ρ c, p_dst1 m ρ c, p_nrm1 m ρ c])
  have haC : W9 m ρ c (Proc.devRef .tc main_v91) = Cert.Spec.convC (F := Ideal) (Cert.Spec.mm (F := Ideal) (m ((c : Thread nD τ).loc main_arg0)) (Cert.Spec.wsl0 (m ((c : Thread nD τ).loc main_arg5)))) (Cert.Spec.srcC (m ((c : Thread nD τ).loc main_arg2))) (Cert.Spec.dstC (m ((c : Thread nD τ).loc main_arg2))) (Cert.Spec.nrmC (Cert.Spec.srcC (m ((c : Thread nD τ).loc main_arg2))) (Cert.Spec.dstC (m ((c : Thread nD τ).loc main_arg2)))) :=
    (St2.aggC (W8 m ρ c)).trans (by rw [hC, hl.v33, hl.v36, hl.v59, p_src2 m ρ c, p_dst2 m ρ c, p_nrm2 m ρ c])
  have hbM : W9 m ρ c (Proc.devRef .tc main_v93) = Cert.Spec.bsl0 (m ((c : Thread nD τ).loc main_arg4)) :=
    (St2.biasM (W8 m ρ c)).trans (by rw [hl.a4, p_a4 m ρ c])
  have hbC : W9 m ρ c (Proc.devRef .tc main_v95) = Cert.Spec.bsl0 (m ((c : Thread nD τ).loc main_arg6)) :=
    (St2.biasC (W8 m ρ c)).trans (by rw [hl.a6, p_a6 m ρ c])
  have h : W10 m ρ c (Proc.devRef .tc main_v96) = Cert.Spec.relu (F := Ideal) (Cert.Spec.comb (F := Ideal) (W9 m ρ c (Proc.devRef .tc main_v78)) (W9 m ρ c (Proc.devRef .tc main_v91)) (W9 m ρ c (Proc.devRef .tc main_v93)) (W9 m ρ c (Proc.devRef .tc main_v95))) := (W10_arr m ρ c 4).trans (Reg2.value (V9 m ρ) c)
  rw [h, haM, haC, hbM, hbC]
  rfl

/-! ## Layer 1: regions 3, 4, 5 -/

set_option maxHeartbeats 8000000 in
/-- After layer 1 its output array holds the layer and its activation of the arguments and the previous layers. -/
theorem x2  : W16 m ρ c (Proc.devRef .tc main_v133) = Cert.Spec.relu (F := Ideal) (Cert.Spec.layer (F := Ideal) (Cert.Spec.relu (F := Ideal) (Cert.Spec.layer (F := Ideal) (m ((c : Thread nD τ).loc main_arg0)) (Cert.Spec.wsl0 (m ((c : Thread nD τ).loc main_arg3))) (Cert.Spec.wsl0 (m ((c : Thread nD τ).loc main_arg5))) (Cert.Spec.bsl0 (m ((c : Thread nD τ).loc main_arg4))) (Cert.Spec.bsl0 (m ((c : Thread nD τ).loc main_arg6))) (m ((c : Thread nD τ).loc main_arg1)) (m ((c : Thread nD τ).loc main_arg2)))) (Cert.Spec.wsl1 (m ((c : Thread nD τ).loc main_arg3))) (Cert.Spec.wsl1 (m ((c : Thread nD τ).loc main_arg5))) (Cert.Spec.bsl1 (m ((c : Thread nD τ).loc main_arg4))) (Cert.Spec.bsl1 (m ((c : Thread nD τ).loc main_arg6))) (m ((c : Thread nD τ).loc main_arg1)) (m ((c : Thread nD τ).loc main_arg2))) := by
  have hx0 : W10 m ρ c (Proc.devRef .tc main_v96) = (Cert.Spec.relu (F := Ideal) (Cert.Spec.layer (F := Ideal) (m ((c : Thread nD τ).loc main_arg0)) (Cert.Spec.wsl0 (m ((c : Thread nD τ).loc main_arg3))) (Cert.Spec.wsl0 (m ((c : Thread nD τ).loc main_arg5))) (Cert.Spec.bsl0 (m ((c : Thread nD τ).loc main_arg4))) (Cert.Spec.bsl0 (m ((c : Thread nD τ).loc main_arg6))) (m ((c : Thread nD τ).loc main_arg1)) (m ((c : Thread nD τ).loc main_arg2)))) := x1 m ρ c
  have hx : W11 m ρ c (Proc.devRef .tc main_v96) = (Cert.Spec.relu (F := Ideal) (Cert.Spec.layer (F := Ideal) (m ((c : Thread nD τ).loc main_arg0)) (Cert.Spec.wsl0 (m ((c : Thread nD τ).loc main_arg3))) (Cert.Spec.wsl0 (m ((c : Thread nD τ).loc main_arg5))) (Cert.Spec.bsl0 (m ((c : Thread nD τ).loc main_arg4))) (Cert.Spec.bsl0 (m ((c : Thread nD τ).loc main_arg6))) (m ((c : Thread nD τ).loc main_arg1)) (m ((c : Thread nD τ).loc main_arg2)))) := ((St3.keep (W10 m ρ c)).2.2.2.2.2.2.2.2.2.2).trans hx0
  have hw : W11 m ρ c (Proc.devRef .tc main_v98) = Cert.Spec.wsl1 (m ((c : Thread nD τ).loc main_arg3)) := (St3.val (W10 m ρ c)).trans (congrArg Cert.Spec.wsl1 (((live10 m ρ c).a3).trans (p_a3 m ρ c)))
  have hM : W12 m ρ c (Proc.devRef .tc main_v99) = Cert.Spec.mm (F := Ideal) (Cert.Spec.relu (F := Ideal) (Cert.Spec.layer (F := Ideal) (m ((c : Thread nD τ).loc main_arg0)) (Cert.Spec.wsl0 (m ((c : Thread nD τ).loc main_arg3))) (Cert.Spec.wsl0 (m ((c : Thread nD τ).loc main_arg5))) (Cert.Spec.bsl0 (m ((c : Thread nD τ).loc main_arg4))) (Cert.Spec.bsl0 (m ((c : Thread nD τ).loc main_arg6))) (m ((c : Thread nD τ).loc main_arg1)) (m ((c : Thread nD τ).loc main_arg2)))) (Cert.Spec.wsl1 (m ((c : Thread nD τ).loc main_arg3))) := by
    have h : W12 m ρ c (Proc.devRef .tc main_v99) = Cert.Spec.mm (F := Ideal) (W11 m ρ c (Proc.devRef .tc main_v96)) (W11 m ρ c (Proc.devRef .tc main_v98)) := (W12_arr m ρ c 2).trans (Reg3.value (V11 m ρ) c)
    rw [h, hx, hw]
  have hxA : W12 m ρ c (Proc.devRef .tc main_v96) = (Cert.Spec.relu (F := Ideal) (Cert.Spec.layer (F := Ideal) (m ((c : Thread nD τ).loc main_arg0)) (Cert.Spec.wsl0 (m ((c : Thread nD τ).loc main_arg3))) (Cert.Spec.wsl0 (m ((c : Thread nD τ).loc main_arg5))) (Cert.Spec.bsl0 (m ((c : Thread nD τ).loc main_arg4))) (Cert.Spec.bsl0 (m ((c : Thread nD τ).loc main_arg6))) (m ((c : Thread nD τ).loc main_arg1)) (m ((c : Thread nD τ).loc main_arg2)))) := ((W12_arr m ρ c 0).trans (((dat3 (V11 m ρ) c).arrAt_in 0 rfl _).trans (A_eq3 (V11 m ρ) c 0))).trans hx
  have hkB := St4.keep (W12 m ρ c)
  have hxB : W13 m ρ c (Proc.devRef .tc main_v96) = (Cert.Spec.relu (F := Ideal) (Cert.Spec.layer (F := Ideal) (m ((c : Thread nD τ).loc main_arg0)) (Cert.Spec.wsl0 (m ((c : Thread nD τ).loc main_arg3))) (Cert.Spec.wsl0 (m ((c : Thread nD τ).loc main_arg5))) (Cert.Spec.bsl0 (m ((c : Thread nD τ).loc main_arg4))) (Cert.Spec.bsl0 (m ((c : Thread nD τ).loc main_arg6))) (m ((c : Thread nD τ).loc main_arg1)) (m ((c : Thread nD τ).loc main_arg2)))) := (hkB.2.2.2.2.2.2.2.2.2.2.1).trans hxA
  have hMB : W13 m ρ c (Proc.devRef .tc main_v99) = Cert.Spec.mm (F := Ideal) (Cert.Spec.relu (F := Ideal) (Cert.Spec.layer (F := Ideal) (m ((c : Thread nD τ).loc main_arg0)) (Cert.Spec.wsl0 (m ((c : Thread nD τ).loc main_arg3))) (Cert.Spec.wsl0 (m ((c : Thread nD τ).loc main_arg5))) (Cert.Spec.bsl0 (m ((c : Thread nD τ).loc main_arg4))) (Cert.Spec.bsl0 (m ((c : Thread nD τ).loc main_arg6))) (m ((c : Thread nD τ).loc main_arg1)) (m ((c : Thread nD τ).loc main_arg2)))) (Cert.Spec.wsl1 (m ((c : Thread nD τ).loc main_arg3))) := (hkB.2.2.2.2.2.2.2.2.2.2.2).trans hM
  have hwC : W13 m ρ c (Proc.devRef .tc main_v101) = Cert.Spec.wsl1 (m ((c : Thread nD τ).loc main_arg5)) := (St4.val (W12 m ρ c)).trans (congrArg Cert.Spec.wsl1 (((live12 m ρ c).a5).trans (p_a5 m ρ c)))
  have hC : W14 m ρ c (Proc.devRef .tc main_v102) = Cert.Spec.mm (F := Ideal) (Cert.Spec.relu (F := Ideal) (Cert.Spec.layer (F := Ideal) (m ((c : Thread nD τ).loc main_arg0)) (Cert.Spec.wsl0 (m ((c : Thread nD τ).loc main_arg3))) (Cert.Spec.wsl0 (m ((c : Thread nD τ).loc main_arg5))) (Cert.Spec.bsl0 (m ((c : Thread nD τ).loc main_arg4))) (Cert.Spec.bsl0 (m ((c : Thread nD τ).loc main_arg6))) (m ((c : Thread nD τ).loc main_arg1)) (m ((c : Thread nD τ).loc main_arg2)))) (Cert.Spec.wsl1 (m ((c : Thread nD τ).loc main_arg5))) := by
    have h : W14 m ρ c (Proc.devRef .tc main_v102) = Cert.Spec.mm (F := Ideal) (W13 m ρ c (Proc.devRef .tc main_v96)) (W13 m ρ c (Proc.devRef .tc main_v101)) := (W14_arr m ρ c 2).trans (Reg4.value (V13 m ρ) c)
    rw [h, hxB, hwC]
  have hMC : W14 m ρ c (Proc.devRef .tc main_v99) = Cert.Spec.mm (F := Ideal) (Cert.Spec.relu (F := Ideal) (Cert.Spec.layer (F := Ideal) (m ((c : Thread nD τ).loc main_arg0)) (Cert.Spec.wsl0 (m ((c : Thread nD τ).loc main_arg3))) (Cert.Spec.wsl0 (m ((c : Thread nD τ).loc main_arg5))) (Cert.Spec.bsl0 (m ((c : Thread nD τ).loc main_arg4))) (Cert.Spec.bsl0 (m ((c : Thread nD τ).loc main_arg6))) (m ((c : Thread nD τ).loc main_arg1)) (m ((c : Thread nD τ).loc main_arg2)))) (Cert.Spec.wsl1 (m ((c : Thread nD τ).loc main_arg3))) := (W14_of_ne m ρ c main_v99 (by decide)).trans hMB
  have hl := live14 m ρ c
  have haM : W15 m ρ c (Proc.devRef .tc main_v115) = Cert.Spec.convM (F := Ideal) (Cert.Spec.mm (F := Ideal) (Cert.Spec.relu (F := Ideal) (Cert.Spec.layer (F := Ideal) (m ((c : Thread nD τ).loc main_arg0)) (Cert.Spec.wsl0 (m ((c : Thread nD τ).loc main_arg3))) (Cert.Spec.wsl0 (m ((c : Thread nD τ).loc main_arg5))) (Cert.Spec.bsl0 (m ((c : Thread nD τ).loc main_arg4))) (Cert.Spec.bsl0 (m ((c : Thread nD τ).loc main_arg6))) (m ((c : Thread nD τ).loc main_arg1)) (m ((c : Thread nD τ).loc main_arg2)))) (Cert.Spec.wsl1 (m ((c : Thread nD τ).loc main_arg3)))) (Cert.Spec.srcM (m ((c : Thread nD τ).loc main_arg1))) (Cert.Spec.dstM (m ((c : Thread nD τ).loc main_arg1))) (Cert.Spec.nrmM (Cert.Spec.srcM (m ((c : Thread nD τ).loc main_arg1))) (Cert.Spec.dstM (m ((c : Thread nD τ).loc main_arg1)))) :=
    (St5.aggM (W14 m ρ c)).trans (by rw [hMC, hl.v3, hl.v6, hl.v29, p_src1 m ρ c, p_dst1 m ρ c, p_nrm1 m ρ c])
  have haC : W15 m ρ c (Proc.devRef .tc main_v128) = Cert.Spec.convC (F := Ideal) (Cert.Spec.mm (F := Ideal) (Cert.Spec.relu (F := Ideal) (Cert.Spec.layer (F := Ideal) (m ((c : Thread nD τ).loc main_arg0)) (Cert.Spec.wsl0 (m ((c : Thread nD τ).loc main_arg3))) (Cert.Spec.wsl0 (m ((c : Thread nD τ).loc main_arg5))) (Cert.Spec.bsl0 (m ((c : Thread nD τ).loc main_arg4))) (Cert.Spec.bsl0 (m ((c : Thread nD τ).loc main_arg6))) (m ((c : Thread nD τ).loc main_arg1)) (m ((c : Thread nD τ).loc main_arg2)))) (Cert.Spec.wsl1 (m ((c : Thread nD τ).loc main_arg5)))) (Cert.Spec.srcC (m ((c : Thread nD τ).loc main_arg2))) (Cert.Spec.dstC (m ((c : Thread nD τ).loc main_arg2))) (Cert.Spec.nrmC (Cert.Spec.srcC (m ((c : Thread nD τ).loc main_arg2))) (Cert.Spec.dstC (m ((c : Thread nD τ).loc main_arg2)))) :=
    (St5.aggC (W14 m ρ c)).trans (by rw [hC, hl.v33, hl.v36, hl.v59, p_src2 m ρ c, p_dst2 m ρ c, p_nrm2 m ρ c])
  have hbM : W15 m ρ c (Proc.devRef .tc main_v130) = Cert.Spec.bsl1 (m ((c : Thread nD τ).loc main_arg4)) :=
    (St5.biasM (W14 m ρ c)).trans (by rw [hl.a4, p_a4 m ρ c])
  have hbC : W15 m ρ c (Proc.devRef .tc main_v132) = Cert.Spec.bsl1 (m ((c : Thread nD τ).loc main_arg6)) :=
    (St5.biasC (W14 m ρ c)).trans (by rw [hl.a6, p_a6 m ρ c])
  have h : W16 m ρ c (Proc.devRef .tc main_v133) = Cert.Spec.relu (F := Ideal) (Cert.Spec.comb (F := Ideal) (W15 m ρ c (Proc.devRef .tc main_v115)) (W15 m ρ c (Proc.devRef .tc main_v128)) (W15 m ρ c (Proc.devRef .tc main_v130)) (W15 m ρ c (Proc.devRef .tc main_v132))) := (W16_arr m ρ c 4).trans (Reg5.value (V15 m ρ) c)
  rw [h, haM, haC, hbM, hbC]
  rfl

/-! ## Layer 2: regions 6, 7, 8 -/

set_option maxHeartbeats 8000000 in
/-- After layer 2 its output array holds the layer and its activation of the arguments and the previous layers. -/
theorem x3  : W22 m ρ c (Proc.devRef .tc main_v170) = Cert.Spec.relu (F := Ideal) (Cert.Spec.layer (F := Ideal) (Cert.Spec.relu (F := Ideal) (Cert.Spec.layer (F := Ideal) (Cert.Spec.relu (F := Ideal) (Cert.Spec.layer (F := Ideal) (m ((c : Thread nD τ).loc main_arg0)) (Cert.Spec.wsl0 (m ((c : Thread nD τ).loc main_arg3))) (Cert.Spec.wsl0 (m ((c : Thread nD τ).loc main_arg5))) (Cert.Spec.bsl0 (m ((c : Thread nD τ).loc main_arg4))) (Cert.Spec.bsl0 (m ((c : Thread nD τ).loc main_arg6))) (m ((c : Thread nD τ).loc main_arg1)) (m ((c : Thread nD τ).loc main_arg2)))) (Cert.Spec.wsl1 (m ((c : Thread nD τ).loc main_arg3))) (Cert.Spec.wsl1 (m ((c : Thread nD τ).loc main_arg5))) (Cert.Spec.bsl1 (m ((c : Thread nD τ).loc main_arg4))) (Cert.Spec.bsl1 (m ((c : Thread nD τ).loc main_arg6))) (m ((c : Thread nD τ).loc main_arg1)) (m ((c : Thread nD τ).loc main_arg2)))) (Cert.Spec.wsl2 (m ((c : Thread nD τ).loc main_arg3))) (Cert.Spec.wsl2 (m ((c : Thread nD τ).loc main_arg5))) (Cert.Spec.bsl2 (m ((c : Thread nD τ).loc main_arg4))) (Cert.Spec.bsl2 (m ((c : Thread nD τ).loc main_arg6))) (m ((c : Thread nD τ).loc main_arg1)) (m ((c : Thread nD τ).loc main_arg2))) := by
  have hx0 : W16 m ρ c (Proc.devRef .tc main_v133) = (Cert.Spec.relu (F := Ideal) (Cert.Spec.layer (F := Ideal) (Cert.Spec.relu (F := Ideal) (Cert.Spec.layer (F := Ideal) (m ((c : Thread nD τ).loc main_arg0)) (Cert.Spec.wsl0 (m ((c : Thread nD τ).loc main_arg3))) (Cert.Spec.wsl0 (m ((c : Thread nD τ).loc main_arg5))) (Cert.Spec.bsl0 (m ((c : Thread nD τ).loc main_arg4))) (Cert.Spec.bsl0 (m ((c : Thread nD τ).loc main_arg6))) (m ((c : Thread nD τ).loc main_arg1)) (m ((c : Thread nD τ).loc main_arg2)))) (Cert.Spec.wsl1 (m ((c : Thread nD τ).loc main_arg3))) (Cert.Spec.wsl1 (m ((c : Thread nD τ).loc main_arg5))) (Cert.Spec.bsl1 (m ((c : Thread nD τ).loc main_arg4))) (Cert.Spec.bsl1 (m ((c : Thread nD τ).loc main_arg6))) (m ((c : Thread nD τ).loc main_arg1)) (m ((c : Thread nD τ).loc main_arg2)))) := x2 m ρ c
  have hx : W17 m ρ c (Proc.devRef .tc main_v133) = (Cert.Spec.relu (F := Ideal) (Cert.Spec.layer (F := Ideal) (Cert.Spec.relu (F := Ideal) (Cert.Spec.layer (F := Ideal) (m ((c : Thread nD τ).loc main_arg0)) (Cert.Spec.wsl0 (m ((c : Thread nD τ).loc main_arg3))) (Cert.Spec.wsl0 (m ((c : Thread nD τ).loc main_arg5))) (Cert.Spec.bsl0 (m ((c : Thread nD τ).loc main_arg4))) (Cert.Spec.bsl0 (m ((c : Thread nD τ).loc main_arg6))) (m ((c : Thread nD τ).loc main_arg1)) (m ((c : Thread nD τ).loc main_arg2)))) (Cert.Spec.wsl1 (m ((c : Thread nD τ).loc main_arg3))) (Cert.Spec.wsl1 (m ((c : Thread nD τ).loc main_arg5))) (Cert.Spec.bsl1 (m ((c : Thread nD τ).loc main_arg4))) (Cert.Spec.bsl1 (m ((c : Thread nD τ).loc main_arg6))) (m ((c : Thread nD τ).loc main_arg1)) (m ((c : Thread nD τ).loc main_arg2)))) := ((St6.keep (W16 m ρ c)).2.2.2.2.2.2.2.2.2.2).trans hx0
  have hw : W17 m ρ c (Proc.devRef .tc main_v135) = Cert.Spec.wsl2 (m ((c : Thread nD τ).loc main_arg3)) := (St6.val (W16 m ρ c)).trans (congrArg Cert.Spec.wsl2 (((live16 m ρ c).a3).trans (p_a3 m ρ c)))
  have hM : W18 m ρ c (Proc.devRef .tc main_v136) = Cert.Spec.mm (F := Ideal) (Cert.Spec.relu (F := Ideal) (Cert.Spec.layer (F := Ideal) (Cert.Spec.relu (F := Ideal) (Cert.Spec.layer (F := Ideal) (m ((c : Thread nD τ).loc main_arg0)) (Cert.Spec.wsl0 (m ((c : Thread nD τ).loc main_arg3))) (Cert.Spec.wsl0 (m ((c : Thread nD τ).loc main_arg5))) (Cert.Spec.bsl0 (m ((c : Thread nD τ).loc main_arg4))) (Cert.Spec.bsl0 (m ((c : Thread nD τ).loc main_arg6))) (m ((c : Thread nD τ).loc main_arg1)) (m ((c : Thread nD τ).loc main_arg2)))) (Cert.Spec.wsl1 (m ((c : Thread nD τ).loc main_arg3))) (Cert.Spec.wsl1 (m ((c : Thread nD τ).loc main_arg5))) (Cert.Spec.bsl1 (m ((c : Thread nD τ).loc main_arg4))) (Cert.Spec.bsl1 (m ((c : Thread nD τ).loc main_arg6))) (m ((c : Thread nD τ).loc main_arg1)) (m ((c : Thread nD τ).loc main_arg2)))) (Cert.Spec.wsl2 (m ((c : Thread nD τ).loc main_arg3))) := by
    have h : W18 m ρ c (Proc.devRef .tc main_v136) = Cert.Spec.mm (F := Ideal) (W17 m ρ c (Proc.devRef .tc main_v133)) (W17 m ρ c (Proc.devRef .tc main_v135)) := (W18_arr m ρ c 2).trans (Reg6.value (V17 m ρ) c)
    rw [h, hx, hw]
  have hxA : W18 m ρ c (Proc.devRef .tc main_v133) = (Cert.Spec.relu (F := Ideal) (Cert.Spec.layer (F := Ideal) (Cert.Spec.relu (F := Ideal) (Cert.Spec.layer (F := Ideal) (m ((c : Thread nD τ).loc main_arg0)) (Cert.Spec.wsl0 (m ((c : Thread nD τ).loc main_arg3))) (Cert.Spec.wsl0 (m ((c : Thread nD τ).loc main_arg5))) (Cert.Spec.bsl0 (m ((c : Thread nD τ).loc main_arg4))) (Cert.Spec.bsl0 (m ((c : Thread nD τ).loc main_arg6))) (m ((c : Thread nD τ).loc main_arg1)) (m ((c : Thread nD τ).loc main_arg2)))) (Cert.Spec.wsl1 (m ((c : Thread nD τ).loc main_arg3))) (Cert.Spec.wsl1 (m ((c : Thread nD τ).loc main_arg5))) (Cert.Spec.bsl1 (m ((c : Thread nD τ).loc main_arg4))) (Cert.Spec.bsl1 (m ((c : Thread nD τ).loc main_arg6))) (m ((c : Thread nD τ).loc main_arg1)) (m ((c : Thread nD τ).loc main_arg2)))) := ((W18_arr m ρ c 0).trans (((dat6 (V17 m ρ) c).arrAt_in 0 rfl _).trans (A_eq6 (V17 m ρ) c 0))).trans hx
  have hkB := St7.keep (W18 m ρ c)
  have hxB : W19 m ρ c (Proc.devRef .tc main_v133) = (Cert.Spec.relu (F := Ideal) (Cert.Spec.layer (F := Ideal) (Cert.Spec.relu (F := Ideal) (Cert.Spec.layer (F := Ideal) (m ((c : Thread nD τ).loc main_arg0)) (Cert.Spec.wsl0 (m ((c : Thread nD τ).loc main_arg3))) (Cert.Spec.wsl0 (m ((c : Thread nD τ).loc main_arg5))) (Cert.Spec.bsl0 (m ((c : Thread nD τ).loc main_arg4))) (Cert.Spec.bsl0 (m ((c : Thread nD τ).loc main_arg6))) (m ((c : Thread nD τ).loc main_arg1)) (m ((c : Thread nD τ).loc main_arg2)))) (Cert.Spec.wsl1 (m ((c : Thread nD τ).loc main_arg3))) (Cert.Spec.wsl1 (m ((c : Thread nD τ).loc main_arg5))) (Cert.Spec.bsl1 (m ((c : Thread nD τ).loc main_arg4))) (Cert.Spec.bsl1 (m ((c : Thread nD τ).loc main_arg6))) (m ((c : Thread nD τ).loc main_arg1)) (m ((c : Thread nD τ).loc main_arg2)))) := (hkB.2.2.2.2.2.2.2.2.2.2.1).trans hxA
  have hMB : W19 m ρ c (Proc.devRef .tc main_v136) = Cert.Spec.mm (F := Ideal) (Cert.Spec.relu (F := Ideal) (Cert.Spec.layer (F := Ideal) (Cert.Spec.relu (F := Ideal) (Cert.Spec.layer (F := Ideal) (m ((c : Thread nD τ).loc main_arg0)) (Cert.Spec.wsl0 (m ((c : Thread nD τ).loc main_arg3))) (Cert.Spec.wsl0 (m ((c : Thread nD τ).loc main_arg5))) (Cert.Spec.bsl0 (m ((c : Thread nD τ).loc main_arg4))) (Cert.Spec.bsl0 (m ((c : Thread nD τ).loc main_arg6))) (m ((c : Thread nD τ).loc main_arg1)) (m ((c : Thread nD τ).loc main_arg2)))) (Cert.Spec.wsl1 (m ((c : Thread nD τ).loc main_arg3))) (Cert.Spec.wsl1 (m ((c : Thread nD τ).loc main_arg5))) (Cert.Spec.bsl1 (m ((c : Thread nD τ).loc main_arg4))) (Cert.Spec.bsl1 (m ((c : Thread nD τ).loc main_arg6))) (m ((c : Thread nD τ).loc main_arg1)) (m ((c : Thread nD τ).loc main_arg2)))) (Cert.Spec.wsl2 (m ((c : Thread nD τ).loc main_arg3))) := (hkB.2.2.2.2.2.2.2.2.2.2.2).trans hM
  have hwC : W19 m ρ c (Proc.devRef .tc main_v138) = Cert.Spec.wsl2 (m ((c : Thread nD τ).loc main_arg5)) := (St7.val (W18 m ρ c)).trans (congrArg Cert.Spec.wsl2 (((live18 m ρ c).a5).trans (p_a5 m ρ c)))
  have hC : W20 m ρ c (Proc.devRef .tc main_v139) = Cert.Spec.mm (F := Ideal) (Cert.Spec.relu (F := Ideal) (Cert.Spec.layer (F := Ideal) (Cert.Spec.relu (F := Ideal) (Cert.Spec.layer (F := Ideal) (m ((c : Thread nD τ).loc main_arg0)) (Cert.Spec.wsl0 (m ((c : Thread nD τ).loc main_arg3))) (Cert.Spec.wsl0 (m ((c : Thread nD τ).loc main_arg5))) (Cert.Spec.bsl0 (m ((c : Thread nD τ).loc main_arg4))) (Cert.Spec.bsl0 (m ((c : Thread nD τ).loc main_arg6))) (m ((c : Thread nD τ).loc main_arg1)) (m ((c : Thread nD τ).loc main_arg2)))) (Cert.Spec.wsl1 (m ((c : Thread nD τ).loc main_arg3))) (Cert.Spec.wsl1 (m ((c : Thread nD τ).loc main_arg5))) (Cert.Spec.bsl1 (m ((c : Thread nD τ).loc main_arg4))) (Cert.Spec.bsl1 (m ((c : Thread nD τ).loc main_arg6))) (m ((c : Thread nD τ).loc main_arg1)) (m ((c : Thread nD τ).loc main_arg2)))) (Cert.Spec.wsl2 (m ((c : Thread nD τ).loc main_arg5))) := by
    have h : W20 m ρ c (Proc.devRef .tc main_v139) = Cert.Spec.mm (F := Ideal) (W19 m ρ c (Proc.devRef .tc main_v133)) (W19 m ρ c (Proc.devRef .tc main_v138)) := (W20_arr m ρ c 2).trans (Reg7.value (V19 m ρ) c)
    rw [h, hxB, hwC]
  have hMC : W20 m ρ c (Proc.devRef .tc main_v136) = Cert.Spec.mm (F := Ideal) (Cert.Spec.relu (F := Ideal) (Cert.Spec.layer (F := Ideal) (Cert.Spec.relu (F := Ideal) (Cert.Spec.layer (F := Ideal) (m ((c : Thread nD τ).loc main_arg0)) (Cert.Spec.wsl0 (m ((c : Thread nD τ).loc main_arg3))) (Cert.Spec.wsl0 (m ((c : Thread nD τ).loc main_arg5))) (Cert.Spec.bsl0 (m ((c : Thread nD τ).loc main_arg4))) (Cert.Spec.bsl0 (m ((c : Thread nD τ).loc main_arg6))) (m ((c : Thread nD τ).loc main_arg1)) (m ((c : Thread nD τ).loc main_arg2)))) (Cert.Spec.wsl1 (m ((c : Thread nD τ).loc main_arg3))) (Cert.Spec.wsl1 (m ((c : Thread nD τ).loc main_arg5))) (Cert.Spec.bsl1 (m ((c : Thread nD τ).loc main_arg4))) (Cert.Spec.bsl1 (m ((c : Thread nD τ).loc main_arg6))) (m ((c : Thread nD τ).loc main_arg1)) (m ((c : Thread nD τ).loc main_arg2)))) (Cert.Spec.wsl2 (m ((c : Thread nD τ).loc main_arg3))) := (W20_of_ne m ρ c main_v136 (by decide)).trans hMB
  have hl := live20 m ρ c
  have haM : W21 m ρ c (Proc.devRef .tc main_v152) = Cert.Spec.convM (F := Ideal) (Cert.Spec.mm (F := Ideal) (Cert.Spec.relu (F := Ideal) (Cert.Spec.layer (F := Ideal) (Cert.Spec.relu (F := Ideal) (Cert.Spec.layer (F := Ideal) (m ((c : Thread nD τ).loc main_arg0)) (Cert.Spec.wsl0 (m ((c : Thread nD τ).loc main_arg3))) (Cert.Spec.wsl0 (m ((c : Thread nD τ).loc main_arg5))) (Cert.Spec.bsl0 (m ((c : Thread nD τ).loc main_arg4))) (Cert.Spec.bsl0 (m ((c : Thread nD τ).loc main_arg6))) (m ((c : Thread nD τ).loc main_arg1)) (m ((c : Thread nD τ).loc main_arg2)))) (Cert.Spec.wsl1 (m ((c : Thread nD τ).loc main_arg3))) (Cert.Spec.wsl1 (m ((c : Thread nD τ).loc main_arg5))) (Cert.Spec.bsl1 (m ((c : Thread nD τ).loc main_arg4))) (Cert.Spec.bsl1 (m ((c : Thread nD τ).loc main_arg6))) (m ((c : Thread nD τ).loc main_arg1)) (m ((c : Thread nD τ).loc main_arg2)))) (Cert.Spec.wsl2 (m ((c : Thread nD τ).loc main_arg3)))) (Cert.Spec.srcM (m ((c : Thread nD τ).loc main_arg1))) (Cert.Spec.dstM (m ((c : Thread nD τ).loc main_arg1))) (Cert.Spec.nrmM (Cert.Spec.srcM (m ((c : Thread nD τ).loc main_arg1))) (Cert.Spec.dstM (m ((c : Thread nD τ).loc main_arg1)))) :=
    (St8.aggM (W20 m ρ c)).trans (by rw [hMC, hl.v3, hl.v6, hl.v29, p_src1 m ρ c, p_dst1 m ρ c, p_nrm1 m ρ c])
  have haC : W21 m ρ c (Proc.devRef .tc main_v165) = Cert.Spec.convC (F := Ideal) (Cert.Spec.mm (F := Ideal) (Cert.Spec.relu (F := Ideal) (Cert.Spec.layer (F := Ideal) (Cert.Spec.relu (F := Ideal) (Cert.Spec.layer (F := Ideal) (m ((c : Thread nD τ).loc main_arg0)) (Cert.Spec.wsl0 (m ((c : Thread nD τ).loc main_arg3))) (Cert.Spec.wsl0 (m ((c : Thread nD τ).loc main_arg5))) (Cert.Spec.bsl0 (m ((c : Thread nD τ).loc main_arg4))) (Cert.Spec.bsl0 (m ((c : Thread nD τ).loc main_arg6))) (m ((c : Thread nD τ).loc main_arg1)) (m ((c : Thread nD τ).loc main_arg2)))) (Cert.Spec.wsl1 (m ((c : Thread nD τ).loc main_arg3))) (Cert.Spec.wsl1 (m ((c : Thread nD τ).loc main_arg5))) (Cert.Spec.bsl1 (m ((c : Thread nD τ).loc main_arg4))) (Cert.Spec.bsl1 (m ((c : Thread nD τ).loc main_arg6))) (m ((c : Thread nD τ).loc main_arg1)) (m ((c : Thread nD τ).loc main_arg2)))) (Cert.Spec.wsl2 (m ((c : Thread nD τ).loc main_arg5)))) (Cert.Spec.srcC (m ((c : Thread nD τ).loc main_arg2))) (Cert.Spec.dstC (m ((c : Thread nD τ).loc main_arg2))) (Cert.Spec.nrmC (Cert.Spec.srcC (m ((c : Thread nD τ).loc main_arg2))) (Cert.Spec.dstC (m ((c : Thread nD τ).loc main_arg2)))) :=
    (St8.aggC (W20 m ρ c)).trans (by rw [hC, hl.v33, hl.v36, hl.v59, p_src2 m ρ c, p_dst2 m ρ c, p_nrm2 m ρ c])
  have hbM : W21 m ρ c (Proc.devRef .tc main_v167) = Cert.Spec.bsl2 (m ((c : Thread nD τ).loc main_arg4)) :=
    (St8.biasM (W20 m ρ c)).trans (by rw [hl.a4, p_a4 m ρ c])
  have hbC : W21 m ρ c (Proc.devRef .tc main_v169) = Cert.Spec.bsl2 (m ((c : Thread nD τ).loc main_arg6)) :=
    (St8.biasC (W20 m ρ c)).trans (by rw [hl.a6, p_a6 m ρ c])
  have h : W22 m ρ c (Proc.devRef .tc main_v170) = Cert.Spec.relu (F := Ideal) (Cert.Spec.comb (F := Ideal) (W21 m ρ c (Proc.devRef .tc main_v152)) (W21 m ρ c (Proc.devRef .tc main_v165)) (W21 m ρ c (Proc.devRef .tc main_v167)) (W21 m ρ c (Proc.devRef .tc main_v169))) := (W22_arr m ρ c 4).trans (Reg8.value (V21 m ρ) c)
  rw [h, haM, haC, hbM, hbC]
  rfl

/-! ## Layer 3: regions 9, 10, 11 -/

set_option maxHeartbeats 8000000 in
/-- After layer 3 its output array holds the layer of the arguments and the previous layers. -/
theorem x4  : W28 m ρ c (Proc.devRef .tc main_v207) = Cert.Spec.layer (F := Ideal) (Cert.Spec.relu (F := Ideal) (Cert.Spec.layer (F := Ideal) (Cert.Spec.relu (F := Ideal) (Cert.Spec.layer (F := Ideal) (Cert.Spec.relu (F := Ideal) (Cert.Spec.layer (F := Ideal) (m ((c : Thread nD τ).loc main_arg0)) (Cert.Spec.wsl0 (m ((c : Thread nD τ).loc main_arg3))) (Cert.Spec.wsl0 (m ((c : Thread nD τ).loc main_arg5))) (Cert.Spec.bsl0 (m ((c : Thread nD τ).loc main_arg4))) (Cert.Spec.bsl0 (m ((c : Thread nD τ).loc main_arg6))) (m ((c : Thread nD τ).loc main_arg1)) (m ((c : Thread nD τ).loc main_arg2)))) (Cert.Spec.wsl1 (m ((c : Thread nD τ).loc main_arg3))) (Cert.Spec.wsl1 (m ((c : Thread nD τ).loc main_arg5))) (Cert.Spec.bsl1 (m ((c : Thread nD τ).loc main_arg4))) (Cert.Spec.bsl1 (m ((c : Thread nD τ).loc main_arg6))) (m ((c : Thread nD τ).loc main_arg1)) (m ((c : Thread nD τ).loc main_arg2)))) (Cert.Spec.wsl2 (m ((c : Thread nD τ).loc main_arg3))) (Cert.Spec.wsl2 (m ((c : Thread nD τ).loc main_arg5))) (Cert.Spec.bsl2 (m ((c : Thread nD τ).loc main_arg4))) (Cert.Spec.bsl2 (m ((c : Thread nD τ).loc main_arg6))) (m ((c : Thread nD τ).loc main_arg1)) (m ((c : Thread nD τ).loc main_arg2)))) (Cert.Spec.wsl3 (m ((c : Thread nD τ).loc main_arg3))) (Cert.Spec.wsl3 (m ((c : Thread nD τ).loc main_arg5))) (Cert.Spec.bsl3 (m ((c : Thread nD τ).loc main_arg4))) (Cert.Spec.bsl3 (m ((c : Thread nD τ).loc main_arg6))) (m ((c : Thread nD τ).loc main_arg1)) (m ((c : Thread nD τ).loc main_arg2)) := by
  have hx0 : W22 m ρ c (Proc.devRef .tc main_v170) = (Cert.Spec.relu (F := Ideal) (Cert.Spec.layer (F := Ideal) (Cert.Spec.relu (F := Ideal) (Cert.Spec.layer (F := Ideal) (Cert.Spec.relu (F := Ideal) (Cert.Spec.layer (F := Ideal) (m ((c : Thread nD τ).loc main_arg0)) (Cert.Spec.wsl0 (m ((c : Thread nD τ).loc main_arg3))) (Cert.Spec.wsl0 (m ((c : Thread nD τ).loc main_arg5))) (Cert.Spec.bsl0 (m ((c : Thread nD τ).loc main_arg4))) (Cert.Spec.bsl0 (m ((c : Thread nD τ).loc main_arg6))) (m ((c : Thread nD τ).loc main_arg1)) (m ((c : Thread nD τ).loc main_arg2)))) (Cert.Spec.wsl1 (m ((c : Thread nD τ).loc main_arg3))) (Cert.Spec.wsl1 (m ((c : Thread nD τ).loc main_arg5))) (Cert.Spec.bsl1 (m ((c : Thread nD τ).loc main_arg4))) (Cert.Spec.bsl1 (m ((c : Thread nD τ).loc main_arg6))) (m ((c : Thread nD τ).loc main_arg1)) (m ((c : Thread nD τ).loc main_arg2)))) (Cert.Spec.wsl2 (m ((c : Thread nD τ).loc main_arg3))) (Cert.Spec.wsl2 (m ((c : Thread nD τ).loc main_arg5))) (Cert.Spec.bsl2 (m ((c : Thread nD τ).loc main_arg4))) (Cert.Spec.bsl2 (m ((c : Thread nD τ).loc main_arg6))) (m ((c : Thread nD τ).loc main_arg1)) (m ((c : Thread nD τ).loc main_arg2)))) := x3 m ρ c
  have hx : W23 m ρ c (Proc.devRef .tc main_v170) = (Cert.Spec.relu (F := Ideal) (Cert.Spec.layer (F := Ideal) (Cert.Spec.relu (F := Ideal) (Cert.Spec.layer (F := Ideal) (Cert.Spec.relu (F := Ideal) (Cert.Spec.layer (F := Ideal) (m ((c : Thread nD τ).loc main_arg0)) (Cert.Spec.wsl0 (m ((c : Thread nD τ).loc main_arg3))) (Cert.Spec.wsl0 (m ((c : Thread nD τ).loc main_arg5))) (Cert.Spec.bsl0 (m ((c : Thread nD τ).loc main_arg4))) (Cert.Spec.bsl0 (m ((c : Thread nD τ).loc main_arg6))) (m ((c : Thread nD τ).loc main_arg1)) (m ((c : Thread nD τ).loc main_arg2)))) (Cert.Spec.wsl1 (m ((c : Thread nD τ).loc main_arg3))) (Cert.Spec.wsl1 (m ((c : Thread nD τ).loc main_arg5))) (Cert.Spec.bsl1 (m ((c : Thread nD τ).loc main_arg4))) (Cert.Spec.bsl1 (m ((c : Thread nD τ).loc main_arg6))) (m ((c : Thread nD τ).loc main_arg1)) (m ((c : Thread nD τ).loc main_arg2)))) (Cert.Spec.wsl2 (m ((c : Thread nD τ).loc main_arg3))) (Cert.Spec.wsl2 (m ((c : Thread nD τ).loc main_arg5))) (Cert.Spec.bsl2 (m ((c : Thread nD τ).loc main_arg4))) (Cert.Spec.bsl2 (m ((c : Thread nD τ).loc main_arg6))) (m ((c : Thread nD τ).loc main_arg1)) (m ((c : Thread nD τ).loc main_arg2)))) := ((St9.keep (W22 m ρ c)).2.2.2.2.2.2.2.2.2.2).trans hx0
  have hw : W23 m ρ c (Proc.devRef .tc main_v172) = Cert.Spec.wsl3 (m ((c : Thread nD τ).loc main_arg3)) := (St9.val (W22 m ρ c)).trans (congrArg Cert.Spec.wsl3 (((live22 m ρ c).a3).trans (p_a3 m ρ c)))
  have hM : W24 m ρ c (Proc.devRef .tc main_v173) = Cert.Spec.mm (F := Ideal) (Cert.Spec.relu (F := Ideal) (Cert.Spec.layer (F := Ideal) (Cert.Spec.relu (F := Ideal) (Cert.Spec.layer (F := Ideal) (Cert.Spec.relu (F := Ideal) (Cert.Spec.layer (F := Ideal) (m ((c : Thread nD τ).loc main_arg0)) (Cert.Spec.wsl0 (m ((c : Thread nD τ).loc main_arg3))) (Cert.Spec.wsl0 (m ((c : Thread nD τ).loc main_arg5))) (Cert.Spec.bsl0 (m ((c : Thread nD τ).loc main_arg4))) (Cert.Spec.bsl0 (m ((c : Thread nD τ).loc main_arg6))) (m ((c : Thread nD τ).loc main_arg1)) (m ((c : Thread nD τ).loc main_arg2)))) (Cert.Spec.wsl1 (m ((c : Thread nD τ).loc main_arg3))) (Cert.Spec.wsl1 (m ((c : Thread nD τ).loc main_arg5))) (Cert.Spec.bsl1 (m ((c : Thread nD τ).loc main_arg4))) (Cert.Spec.bsl1 (m ((c : Thread nD τ).loc main_arg6))) (m ((c : Thread nD τ).loc main_arg1)) (m ((c : Thread nD τ).loc main_arg2)))) (Cert.Spec.wsl2 (m ((c : Thread nD τ).loc main_arg3))) (Cert.Spec.wsl2 (m ((c : Thread nD τ).loc main_arg5))) (Cert.Spec.bsl2 (m ((c : Thread nD τ).loc main_arg4))) (Cert.Spec.bsl2 (m ((c : Thread nD τ).loc main_arg6))) (m ((c : Thread nD τ).loc main_arg1)) (m ((c : Thread nD τ).loc main_arg2)))) (Cert.Spec.wsl3 (m ((c : Thread nD τ).loc main_arg3))) := by
    have h : W24 m ρ c (Proc.devRef .tc main_v173) = Cert.Spec.mm (F := Ideal) (W23 m ρ c (Proc.devRef .tc main_v170)) (W23 m ρ c (Proc.devRef .tc main_v172)) := (W24_arr m ρ c 2).trans (Reg9.value (V23 m ρ) c)
    rw [h, hx, hw]
  have hxA : W24 m ρ c (Proc.devRef .tc main_v170) = (Cert.Spec.relu (F := Ideal) (Cert.Spec.layer (F := Ideal) (Cert.Spec.relu (F := Ideal) (Cert.Spec.layer (F := Ideal) (Cert.Spec.relu (F := Ideal) (Cert.Spec.layer (F := Ideal) (m ((c : Thread nD τ).loc main_arg0)) (Cert.Spec.wsl0 (m ((c : Thread nD τ).loc main_arg3))) (Cert.Spec.wsl0 (m ((c : Thread nD τ).loc main_arg5))) (Cert.Spec.bsl0 (m ((c : Thread nD τ).loc main_arg4))) (Cert.Spec.bsl0 (m ((c : Thread nD τ).loc main_arg6))) (m ((c : Thread nD τ).loc main_arg1)) (m ((c : Thread nD τ).loc main_arg2)))) (Cert.Spec.wsl1 (m ((c : Thread nD τ).loc main_arg3))) (Cert.Spec.wsl1 (m ((c : Thread nD τ).loc main_arg5))) (Cert.Spec.bsl1 (m ((c : Thread nD τ).loc main_arg4))) (Cert.Spec.bsl1 (m ((c : Thread nD τ).loc main_arg6))) (m ((c : Thread nD τ).loc main_arg1)) (m ((c : Thread nD τ).loc main_arg2)))) (Cert.Spec.wsl2 (m ((c : Thread nD τ).loc main_arg3))) (Cert.Spec.wsl2 (m ((c : Thread nD τ).loc main_arg5))) (Cert.Spec.bsl2 (m ((c : Thread nD τ).loc main_arg4))) (Cert.Spec.bsl2 (m ((c : Thread nD τ).loc main_arg6))) (m ((c : Thread nD τ).loc main_arg1)) (m ((c : Thread nD τ).loc main_arg2)))) := ((W24_arr m ρ c 0).trans (((dat9 (V23 m ρ) c).arrAt_in 0 rfl _).trans (A_eq9 (V23 m ρ) c 0))).trans hx
  have hkB := St10.keep (W24 m ρ c)
  have hxB : W25 m ρ c (Proc.devRef .tc main_v170) = (Cert.Spec.relu (F := Ideal) (Cert.Spec.layer (F := Ideal) (Cert.Spec.relu (F := Ideal) (Cert.Spec.layer (F := Ideal) (Cert.Spec.relu (F := Ideal) (Cert.Spec.layer (F := Ideal) (m ((c : Thread nD τ).loc main_arg0)) (Cert.Spec.wsl0 (m ((c : Thread nD τ).loc main_arg3))) (Cert.Spec.wsl0 (m ((c : Thread nD τ).loc main_arg5))) (Cert.Spec.bsl0 (m ((c : Thread nD τ).loc main_arg4))) (Cert.Spec.bsl0 (m ((c : Thread nD τ).loc main_arg6))) (m ((c : Thread nD τ).loc main_arg1)) (m ((c : Thread nD τ).loc main_arg2)))) (Cert.Spec.wsl1 (m ((c : Thread nD τ).loc main_arg3))) (Cert.Spec.wsl1 (m ((c : Thread nD τ).loc main_arg5))) (Cert.Spec.bsl1 (m ((c : Thread nD τ).loc main_arg4))) (Cert.Spec.bsl1 (m ((c : Thread nD τ).loc main_arg6))) (m ((c : Thread nD τ).loc main_arg1)) (m ((c : Thread nD τ).loc main_arg2)))) (Cert.Spec.wsl2 (m ((c : Thread nD τ).loc main_arg3))) (Cert.Spec.wsl2 (m ((c : Thread nD τ).loc main_arg5))) (Cert.Spec.bsl2 (m ((c : Thread nD τ).loc main_arg4))) (Cert.Spec.bsl2 (m ((c : Thread nD τ).loc main_arg6))) (m ((c : Thread nD τ).loc main_arg1)) (m ((c : Thread nD τ).loc main_arg2)))) := (hkB.2.2.2.2.2.2.2.2.2.2.1).trans hxA
  have hMB : W25 m ρ c (Proc.devRef .tc main_v173) = Cert.Spec.mm (F := Ideal) (Cert.Spec.relu (F := Ideal) (Cert.Spec.layer (F := Ideal) (Cert.Spec.relu (F := Ideal) (Cert.Spec.layer (F := Ideal) (Cert.Spec.relu (F := Ideal) (Cert.Spec.layer (F := Ideal) (m ((c : Thread nD τ).loc main_arg0)) (Cert.Spec.wsl0 (m ((c : Thread nD τ).loc main_arg3))) (Cert.Spec.wsl0 (m ((c : Thread nD τ).loc main_arg5))) (Cert.Spec.bsl0 (m ((c : Thread nD τ).loc main_arg4))) (Cert.Spec.bsl0 (m ((c : Thread nD τ).loc main_arg6))) (m ((c : Thread nD τ).loc main_arg1)) (m ((c : Thread nD τ).loc main_arg2)))) (Cert.Spec.wsl1 (m ((c : Thread nD τ).loc main_arg3))) (Cert.Spec.wsl1 (m ((c : Thread nD τ).loc main_arg5))) (Cert.Spec.bsl1 (m ((c : Thread nD τ).loc main_arg4))) (Cert.Spec.bsl1 (m ((c : Thread nD τ).loc main_arg6))) (m ((c : Thread nD τ).loc main_arg1)) (m ((c : Thread nD τ).loc main_arg2)))) (Cert.Spec.wsl2 (m ((c : Thread nD τ).loc main_arg3))) (Cert.Spec.wsl2 (m ((c : Thread nD τ).loc main_arg5))) (Cert.Spec.bsl2 (m ((c : Thread nD τ).loc main_arg4))) (Cert.Spec.bsl2 (m ((c : Thread nD τ).loc main_arg6))) (m ((c : Thread nD τ).loc main_arg1)) (m ((c : Thread nD τ).loc main_arg2)))) (Cert.Spec.wsl3 (m ((c : Thread nD τ).loc main_arg3))) := (hkB.2.2.2.2.2.2.2.2.2.2.2).trans hM
  have hwC : W25 m ρ c (Proc.devRef .tc main_v175) = Cert.Spec.wsl3 (m ((c : Thread nD τ).loc main_arg5)) := (St10.val (W24 m ρ c)).trans (congrArg Cert.Spec.wsl3 (((live24 m ρ c).a5).trans (p_a5 m ρ c)))
  have hC : W26 m ρ c (Proc.devRef .tc main_v176) = Cert.Spec.mm (F := Ideal) (Cert.Spec.relu (F := Ideal) (Cert.Spec.layer (F := Ideal) (Cert.Spec.relu (F := Ideal) (Cert.Spec.layer (F := Ideal) (Cert.Spec.relu (F := Ideal) (Cert.Spec.layer (F := Ideal) (m ((c : Thread nD τ).loc main_arg0)) (Cert.Spec.wsl0 (m ((c : Thread nD τ).loc main_arg3))) (Cert.Spec.wsl0 (m ((c : Thread nD τ).loc main_arg5))) (Cert.Spec.bsl0 (m ((c : Thread nD τ).loc main_arg4))) (Cert.Spec.bsl0 (m ((c : Thread nD τ).loc main_arg6))) (m ((c : Thread nD τ).loc main_arg1)) (m ((c : Thread nD τ).loc main_arg2)))) (Cert.Spec.wsl1 (m ((c : Thread nD τ).loc main_arg3))) (Cert.Spec.wsl1 (m ((c : Thread nD τ).loc main_arg5))) (Cert.Spec.bsl1 (m ((c : Thread nD τ).loc main_arg4))) (Cert.Spec.bsl1 (m ((c : Thread nD τ).loc main_arg6))) (m ((c : Thread nD τ).loc main_arg1)) (m ((c : Thread nD τ).loc main_arg2)))) (Cert.Spec.wsl2 (m ((c : Thread nD τ).loc main_arg3))) (Cert.Spec.wsl2 (m ((c : Thread nD τ).loc main_arg5))) (Cert.Spec.bsl2 (m ((c : Thread nD τ).loc main_arg4))) (Cert.Spec.bsl2 (m ((c : Thread nD τ).loc main_arg6))) (m ((c : Thread nD τ).loc main_arg1)) (m ((c : Thread nD τ).loc main_arg2)))) (Cert.Spec.wsl3 (m ((c : Thread nD τ).loc main_arg5))) := by
    have h : W26 m ρ c (Proc.devRef .tc main_v176) = Cert.Spec.mm (F := Ideal) (W25 m ρ c (Proc.devRef .tc main_v170)) (W25 m ρ c (Proc.devRef .tc main_v175)) := (W26_arr m ρ c 2).trans (Reg10.value (V25 m ρ) c)
    rw [h, hxB, hwC]
  have hMC : W26 m ρ c (Proc.devRef .tc main_v173) = Cert.Spec.mm (F := Ideal) (Cert.Spec.relu (F := Ideal) (Cert.Spec.layer (F := Ideal) (Cert.Spec.relu (F := Ideal) (Cert.Spec.layer (F := Ideal) (Cert.Spec.relu (F := Ideal) (Cert.Spec.layer (F := Ideal) (m ((c : Thread nD τ).loc main_arg0)) (Cert.Spec.wsl0 (m ((c : Thread nD τ).loc main_arg3))) (Cert.Spec.wsl0 (m ((c : Thread nD τ).loc main_arg5))) (Cert.Spec.bsl0 (m ((c : Thread nD τ).loc main_arg4))) (Cert.Spec.bsl0 (m ((c : Thread nD τ).loc main_arg6))) (m ((c : Thread nD τ).loc main_arg1)) (m ((c : Thread nD τ).loc main_arg2)))) (Cert.Spec.wsl1 (m ((c : Thread nD τ).loc main_arg3))) (Cert.Spec.wsl1 (m ((c : Thread nD τ).loc main_arg5))) (Cert.Spec.bsl1 (m ((c : Thread nD τ).loc main_arg4))) (Cert.Spec.bsl1 (m ((c : Thread nD τ).loc main_arg6))) (m ((c : Thread nD τ).loc main_arg1)) (m ((c : Thread nD τ).loc main_arg2)))) (Cert.Spec.wsl2 (m ((c : Thread nD τ).loc main_arg3))) (Cert.Spec.wsl2 (m ((c : Thread nD τ).loc main_arg5))) (Cert.Spec.bsl2 (m ((c : Thread nD τ).loc main_arg4))) (Cert.Spec.bsl2 (m ((c : Thread nD τ).loc main_arg6))) (m ((c : Thread nD τ).loc main_arg1)) (m ((c : Thread nD τ).loc main_arg2)))) (Cert.Spec.wsl3 (m ((c : Thread nD τ).loc main_arg3))) := (W26_of_ne m ρ c main_v173 (by decide)).trans hMB
  have hl := live26 m ρ c
  have haM : W27 m ρ c (Proc.devRef .tc main_v189) = Cert.Spec.convM (F := Ideal) (Cert.Spec.mm (F := Ideal) (Cert.Spec.relu (F := Ideal) (Cert.Spec.layer (F := Ideal) (Cert.Spec.relu (F := Ideal) (Cert.Spec.layer (F := Ideal) (Cert.Spec.relu (F := Ideal) (Cert.Spec.layer (F := Ideal) (m ((c : Thread nD τ).loc main_arg0)) (Cert.Spec.wsl0 (m ((c : Thread nD τ).loc main_arg3))) (Cert.Spec.wsl0 (m ((c : Thread nD τ).loc main_arg5))) (Cert.Spec.bsl0 (m ((c : Thread nD τ).loc main_arg4))) (Cert.Spec.bsl0 (m ((c : Thread nD τ).loc main_arg6))) (m ((c : Thread nD τ).loc main_arg1)) (m ((c : Thread nD τ).loc main_arg2)))) (Cert.Spec.wsl1 (m ((c : Thread nD τ).loc main_arg3))) (Cert.Spec.wsl1 (m ((c : Thread nD τ).loc main_arg5))) (Cert.Spec.bsl1 (m ((c : Thread nD τ).loc main_arg4))) (Cert.Spec.bsl1 (m ((c : Thread nD τ).loc main_arg6))) (m ((c : Thread nD τ).loc main_arg1)) (m ((c : Thread nD τ).loc main_arg2)))) (Cert.Spec.wsl2 (m ((c : Thread nD τ).loc main_arg3))) (Cert.Spec.wsl2 (m ((c : Thread nD τ).loc main_arg5))) (Cert.Spec.bsl2 (m ((c : Thread nD τ).loc main_arg4))) (Cert.Spec.bsl2 (m ((c : Thread nD τ).loc main_arg6))) (m ((c : Thread nD τ).loc main_arg1)) (m ((c : Thread nD τ).loc main_arg2)))) (Cert.Spec.wsl3 (m ((c : Thread nD τ).loc main_arg3)))) (Cert.Spec.srcM (m ((c : Thread nD τ).loc main_arg1))) (Cert.Spec.dstM (m ((c : Thread nD τ).loc main_arg1))) (Cert.Spec.nrmM (Cert.Spec.srcM (m ((c : Thread nD τ).loc main_arg1))) (Cert.Spec.dstM (m ((c : Thread nD τ).loc main_arg1)))) :=
    (St11.aggM (W26 m ρ c)).trans (by rw [hMC, hl.v3, hl.v6, hl.v29, p_src1 m ρ c, p_dst1 m ρ c, p_nrm1 m ρ c])
  have haC : W27 m ρ c (Proc.devRef .tc main_v202) = Cert.Spec.convC (F := Ideal) (Cert.Spec.mm (F := Ideal) (Cert.Spec.relu (F := Ideal) (Cert.Spec.layer (F := Ideal) (Cert.Spec.relu (F := Ideal) (Cert.Spec.layer (F := Ideal) (Cert.Spec.relu (F := Ideal) (Cert.Spec.layer (F := Ideal) (m ((c : Thread nD τ).loc main_arg0)) (Cert.Spec.wsl0 (m ((c : Thread nD τ).loc main_arg3))) (Cert.Spec.wsl0 (m ((c : Thread nD τ).loc main_arg5))) (Cert.Spec.bsl0 (m ((c : Thread nD τ).loc main_arg4))) (Cert.Spec.bsl0 (m ((c : Thread nD τ).loc main_arg6))) (m ((c : Thread nD τ).loc main_arg1)) (m ((c : Thread nD τ).loc main_arg2)))) (Cert.Spec.wsl1 (m ((c : Thread nD τ).loc main_arg3))) (Cert.Spec.wsl1 (m ((c : Thread nD τ).loc main_arg5))) (Cert.Spec.bsl1 (m ((c : Thread nD τ).loc main_arg4))) (Cert.Spec.bsl1 (m ((c : Thread nD τ).loc main_arg6))) (m ((c : Thread nD τ).loc main_arg1)) (m ((c : Thread nD τ).loc main_arg2)))) (Cert.Spec.wsl2 (m ((c : Thread nD τ).loc main_arg3))) (Cert.Spec.wsl2 (m ((c : Thread nD τ).loc main_arg5))) (Cert.Spec.bsl2 (m ((c : Thread nD τ).loc main_arg4))) (Cert.Spec.bsl2 (m ((c : Thread nD τ).loc main_arg6))) (m ((c : Thread nD τ).loc main_arg1)) (m ((c : Thread nD τ).loc main_arg2)))) (Cert.Spec.wsl3 (m ((c : Thread nD τ).loc main_arg5)))) (Cert.Spec.srcC (m ((c : Thread nD τ).loc main_arg2))) (Cert.Spec.dstC (m ((c : Thread nD τ).loc main_arg2))) (Cert.Spec.nrmC (Cert.Spec.srcC (m ((c : Thread nD τ).loc main_arg2))) (Cert.Spec.dstC (m ((c : Thread nD τ).loc main_arg2)))) :=
    (St11.aggC (W26 m ρ c)).trans (by rw [hC, hl.v33, hl.v36, hl.v59, p_src2 m ρ c, p_dst2 m ρ c, p_nrm2 m ρ c])
  have hbM : W27 m ρ c (Proc.devRef .tc main_v204) = Cert.Spec.bsl3 (m ((c : Thread nD τ).loc main_arg4)) :=
    (St11.biasM (W26 m ρ c)).trans (by rw [hl.a4, p_a4 m ρ c])
  have hbC : W27 m ρ c (Proc.devRef .tc main_v206) = Cert.Spec.bsl3 (m ((c : Thread nD τ).loc main_arg6)) :=
    (St11.biasC (W26 m ρ c)).trans (by rw [hl.a6, p_a6 m ρ c])
  have h : W28 m ρ c (Proc.devRef .tc main_v207) = Cert.Spec.comb (F := Ideal) (W27 m ρ c (Proc.devRef .tc main_v189)) (W27 m ρ c (Proc.devRef .tc main_v202)) (W27 m ρ c (Proc.devRef .tc main_v204)) (W27 m ρ c (Proc.devRef .tc main_v206)) := (W28_arr m ρ c 4).trans (Reg11.value (V27 m ρ) c)
  rw [h, haM, haC, hbM, hbC]
  rfl

/-- The kernel program's result array, at the last boundary, is the block of its arguments. -/
theorem result : W28 m ρ c (Proc.devRef .tc main_v207) = Cert.Spec.result (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  x4 m ρ c

end Cert.KernelIdeal.Chain

end
-- ==== Proof.RPrep.lean ====
/-
  The reference program's operations before its first layer: both edge lists get one self-loop per node appended, each
  graph's in-degrees are counted by a scatter-add of ones, d = deg^(-1/2) where the degree is positive and 0 elsewhere,
  and every edge gets the weight d(src)·d(dst).
-/
import proofs.«113452_j3143916060941_1_alg».proof.Proof.Gen.ReferenceIdeal
import proofs.«113452_j3143916060941_1_alg».proof.Proof.Spec
import Idealize.ShloMosaic.Lib.StableHlo.Run

set_option maxRecDepth 16384

noncomputable section

namespace Cert.ReferenceIdeal.RPrep

open Cert.ReferenceIdeal Cert.ReferenceIdeal.Gen Idealize.ShloMosaic Idealize.ShloMosaic.TcCoe Idealize.SL.Sem Idealize.ShloMosaic.StableHlo

variable {F : FTy → Type} [FloatOps F]

/-- The reference's first 80 host operations, in order. -/
abbrev pieceOps : List (HloOp τ sig (Elt F)) :=
  [ nullary main_v0 (iotaInDim S50000 32 0),
    unary main_arg1 main_v1 ((extractStridedSlice S1x800000 ![0, 0] · slices_S2x800000_S1x800000_0_0) : (⟨S2x800000, .i32⟩ : BufTy).Contents (Elt F) → (⟨S1x800000, .i32⟩ : BufTy).Contents (Elt F)),
    reshape main_v1 main_v2 rfl shapeCasts_S1x800000_S800000,
    binary main_v2 main_v0 main_v3 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    unary main_arg1 main_v4 ((extractStridedSlice S1x800000 ![1, 0] · slices_S2x800000_S1x800000_1_0) : (⟨S2x800000, .i32⟩ : BufTy).Contents (Elt F) → (⟨S1x800000, .i32⟩ : BufTy).Contents (Elt F)),
    reshape main_v4 main_v5 rfl shapeCasts_S1x800000_S800000,
    binary main_v5 main_v0 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    nullary main_cst (constant S_ .f32 0x3F800000#32),
    unary main_cst main_v7 (broadcastInDim S850000 ![] bcast_S_S850000 : (⟨S_, .f32⟩ : BufTy).Contents (Elt F) → (⟨S850000, .f32⟩ : BufTy).Contents (Elt F)),
    nullary main_cst_0 (constant S_ .f32 0x00000000#32),
    unary main_cst_0 main_v8 (broadcastInDim S50000 ![] bcast_S_S50000 : (⟨S_, .f32⟩ : BufTy).Contents (Elt F) → (⟨S50000, .f32⟩ : BufTy).Contents (Elt F)),
    unary main_v6 main_v9 (broadcastInDim S850000x1 ![0] bcast_S850000_S850000x1_0 : (⟨S850000, .i32⟩ : BufTy).Contents (Elt F) → (⟨S850000x1, .i32⟩ : BufTy).Contents (Elt F)),
    ternary main_v8 main_v9 main_v7 main_v10 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_1 (constant S_ .f32 0x00000000#32),
    unary main_cst_1 main_v11 (broadcastInDim S50000 ![] bcast_S_S50000 : (⟨S_, .f32⟩ : BufTy).Contents (Elt F) → (⟨S50000, .f32⟩ : BufTy).Contents (Elt F)),
    binary main_v10 main_v11 main_v12 (cmpf .ogt : (⟨S50000, .f32⟩ : BufTy).Contents (Elt F) → (⟨S50000, .f32⟩ : BufTy).Contents (Elt F) → (⟨S50000, .i1⟩ : BufTy).Contents (Elt F)),
    unary main_v10 main_v13 (Host.rsqrt : (⟨S50000, .f32⟩ : BufTy).Contents (Elt F) → (⟨S50000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S50000, .f32⟩) main_call0_v1) (broadcastInDim S50000 ![] bcast_S_S50000),
    TRef.ternary (TRef.of (T := ⟨S50000, .i1⟩) main_v12) (TRef.of (T := ⟨S50000, .f32⟩) main_v13) (TRef.of (T := ⟨S50000, .f32⟩) main_call0_v1) (TRef.of (T := ⟨S50000, .f32⟩) main_v14) select,
    nullary main_c (constantI S_ 32 0#32),
    unary main_c main_v15 (broadcastInDim S850000 ![] bcast_S_S850000 : (⟨S_, .i32⟩ : BufTy).Contents (Elt F) → (⟨S850000, .i32⟩ : BufTy).Contents (Elt F)),
    binary main_v3 main_v15 main_v16 (cmpi .slt : (⟨S850000, .i32⟩ : BufTy).Contents (Elt F) → (⟨S850000, .i32⟩ : BufTy).Contents (Elt F) → (⟨S850000, .i1⟩ : BufTy).Contents (Elt F)),
    nullary main_c_3 (constantI S_ 32 50000#32),
    unary main_c_3 main_v17 (broadcastInDim S850000 ![] bcast_S_S850000 : (⟨S_, .i32⟩ : BufTy).Contents (Elt F) → (⟨S850000, .i32⟩ : BufTy).Contents (Elt F)),
    binary main_v3 main_v17 main_v18 (addi : (⟨S850000, .i32⟩ : BufTy).Contents (Elt F) → (⟨S850000, .i32⟩ : BufTy).Contents (Elt F) → (⟨S850000, .i32⟩ : BufTy).Contents (Elt F)),
    ternary main_v16 main_v18 main_v3 main_v19 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v19 main_v20 (broadcastInDim S850000x1 ![0] bcast_S850000_S850000x1_0 : (⟨S850000, .i32⟩ : BufTy).Contents (Elt F) → (⟨S850000x1, .i32⟩ : BufTy).Contents (Elt F)),
    binary main_v14 main_v20 main_v21 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_4 (constantI S_ 32 0#32),
    unary main_c_4 main_v22 (broadcastInDim S850000 ![] bcast_S_S850000 : (⟨S_, .i32⟩ : BufTy).Contents (Elt F) → (⟨S850000, .i32⟩ : BufTy).Contents (Elt F)),
    binary main_v6 main_v22 main_v23 (cmpi .slt : (⟨S850000, .i32⟩ : BufTy).Contents (Elt F) → (⟨S850000, .i32⟩ : BufTy).Contents (Elt F) → (⟨S850000, .i1⟩ : BufTy).Contents (Elt F)),
    nullary main_c_5 (constantI S_ 32 50000#32),
    unary main_c_5 main_v24 (broadcastInDim S850000 ![] bcast_S_S850000 : (⟨S_, .i32⟩ : BufTy).Contents (Elt F) → (⟨S850000, .i32⟩ : BufTy).Contents (Elt F)),
    binary main_v6 main_v24 main_v25 (addi : (⟨S850000, .i32⟩ : BufTy).Contents (Elt F) → (⟨S850000, .i32⟩ : BufTy).Contents (Elt F) → (⟨S850000, .i32⟩ : BufTy).Contents (Elt F)),
    ternary main_v23 main_v25 main_v6 main_v26 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v26 main_v27 (broadcastInDim S850000x1 ![0] bcast_S850000_S850000x1_0 : (⟨S850000, .i32⟩ : BufTy).Contents (Elt F) → (⟨S850000x1, .i32⟩ : BufTy).Contents (Elt F)),
    binary main_v14 main_v27 main_v28 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v21 main_v28 main_v29 (mulf : (⟨S850000, .f32⟩ : BufTy).Contents (Elt F) → (⟨S850000, .f32⟩ : BufTy).Contents (Elt F) → (⟨S850000, .f32⟩ : BufTy).Contents (Elt F)),
    nullary main_v30 (iotaInDim S50000 32 0),
    unary main_arg2 main_v31 ((extractStridedSlice S1x200000 ![0, 0] · slices_S2x200000_S1x200000_0_0) : (⟨S2x200000, .i32⟩ : BufTy).Contents (Elt F) → (⟨S1x200000, .i32⟩ : BufTy).Contents (Elt F)),
    reshape main_v31 main_v32 rfl shapeCasts_S1x200000_S200000,
    binary main_v32 main_v30 main_v33 ((fun a b => concatenate S250000 0 [⟨S200000, a⟩, ⟨S50000, b⟩] concatenates_S200000_S50000_S250000_d0) : (⟨S200000, .i32⟩ : BufTy).Contents (Elt F) → (⟨S50000, .i32⟩ : BufTy).Contents (Elt F) → (⟨S250000, .i32⟩ : BufTy).Contents (Elt F)),
    unary main_arg2 main_v34 ((extractStridedSlice S1x200000 ![1, 0] · slices_S2x200000_S1x200000_1_0) : (⟨S2x200000, .i32⟩ : BufTy).Contents (Elt F) → (⟨S1x200000, .i32⟩ : BufTy).Contents (Elt F)),
    reshape main_v34 main_v35 rfl shapeCasts_S1x200000_S200000,
    binary main_v35 main_v30 main_v36 ((fun a b => concatenate S250000 0 [⟨S200000, a⟩, ⟨S50000, b⟩] concatenates_S200000_S50000_S250000_d0) : (⟨S200000, .i32⟩ : BufTy).Contents (Elt F) → (⟨S50000, .i32⟩ : BufTy).Contents (Elt F) → (⟨S250000, .i32⟩ : BufTy).Contents (Elt F)),
    nullary main_cst_6 (constant S_ .f32 0x3F800000#32),
    unary main_cst_6 main_v37 (broadcastInDim S250000 ![] bcast_S_S250000 : (⟨S_, .f32⟩ : BufTy).Contents (Elt F) → (⟨S250000, .f32⟩ : BufTy).Contents (Elt F)),
    nullary main_cst_7 (constant S_ .f32 0x00000000#32),
    unary main_cst_7 main_v38 (broadcastInDim S50000 ![] bcast_S_S50000 : (⟨S_, .f32⟩ : BufTy).Contents (Elt F) → (⟨S50000, .f32⟩ : BufTy).Contents (Elt F)),
    unary main_v36 main_v39 (broadcastInDim S250000x1 ![0] bcast_S250000_S250000x1_0 : (⟨S250000, .i32⟩ : BufTy).Contents (Elt F) → (⟨S250000x1, .i32⟩ : BufTy).Contents (Elt F)),
    ternary main_v38 main_v39 main_v37 main_v40 ((fun x i u => Host.scatterAdd scatter_S50000_S250000x1_S250000_n_0_0_1 x i u) : (⟨S50000, .f32⟩ : BufTy).Contents (Elt F) → (⟨S250000x1, .i32⟩ : BufTy).Contents (Elt F) → (⟨S250000, .f32⟩ : BufTy).Contents (Elt F) → (⟨S50000, .f32⟩ : BufTy).Contents (Elt F)),
    nullary main_cst_8 (constant S_ .f32 0x00000000#32),
    unary main_cst_8 main_v41 (broadcastInDim S50000 ![] bcast_S_S50000 : (⟨S_, .f32⟩ : BufTy).Contents (Elt F) → (⟨S50000, .f32⟩ : BufTy).Contents (Elt F)),
    binary main_v40 main_v41 main_v42 (cmpf .ogt : (⟨S50000, .f32⟩ : BufTy).Contents (Elt F) → (⟨S50000, .f32⟩ : BufTy).Contents (Elt F) → (⟨S50000, .i1⟩ : BufTy).Contents (Elt F)),
    unary main_v40 main_v43 (Host.rsqrt : (⟨S50000, .f32⟩ : BufTy).Contents (Elt F) → (⟨S50000, .f32⟩ : BufTy).Contents (Elt F)),
    nullary main_cst_9 (constant S_ .f32 0x00000000#32),
    TRef.unary (TRef.of (T := ⟨S_, .f32⟩) main_cst_9) (TRef.of (T := ⟨S_, .f32⟩) main_call1_v0) id,
    TRef.unary (TRef.of (T := ⟨S_, .f32⟩) main_call1_v0) (TRef.of (T := ⟨S50000, .f32⟩) main_call1_v1) (broadcastInDim S50000 ![] bcast_S_S50000),
    TRef.ternary (TRef.of (T := ⟨S50000, .i1⟩) main_v42) (TRef.of (T := ⟨S50000, .f32⟩) main_v43) (TRef.of (T := ⟨S50000, .f32⟩) main_call1_v1) (TRef.of (T := ⟨S50000, .f32⟩) main_v44) select,
    nullary main_c_10 (constantI S_ 32 0#32),
    unary main_c_10 main_v45 (broadcastInDim S250000 ![] bcast_S_S250000 : (⟨S_, .i32⟩ : BufTy).Contents (Elt F) → (⟨S250000, .i32⟩ : BufTy).Contents (Elt F)),
    binary main_v33 main_v45 main_v46 (cmpi .slt : (⟨S250000, .i32⟩ : BufTy).Contents (Elt F) → (⟨S250000, .i32⟩ : BufTy).Contents (Elt F) → (⟨S250000, .i1⟩ : BufTy).Contents (Elt F)),
    nullary main_c_11 (constantI S_ 32 50000#32),
    unary main_c_11 main_v47 (broadcastInDim S250000 ![] bcast_S_S250000 : (⟨S_, .i32⟩ : BufTy).Contents (Elt F) → (⟨S250000, .i32⟩ : BufTy).Contents (Elt F)),
    binary main_v33 main_v47 main_v48 (addi : (⟨S250000, .i32⟩ : BufTy).Contents (Elt F) → (⟨S250000, .i32⟩ : BufTy).Contents (Elt F) → (⟨S250000, .i32⟩ : BufTy).Contents (Elt F)),
    ternary main_v46 main_v48 main_v33 main_v49 (select : (⟨S250000, .i1⟩ : BufTy).Contents (Elt F) → (⟨S250000, .i32⟩ : BufTy).Contents (Elt F) → (⟨S250000, .i32⟩ : BufTy).Contents (Elt F) → (⟨S250000, .i32⟩ : BufTy).Contents (Elt F)),
    unary main_v49 main_v50 (broadcastInDim S250000x1 ![0] bcast_S250000_S250000x1_0 : (⟨S250000, .i32⟩ : BufTy).Contents (Elt F) → (⟨S250000x1, .i32⟩ : BufTy).Contents (Elt F)),
    binary main_v44 main_v50 main_v51 ((fun x i => Host.gather gather_S50000_S250000x1_S250000_n_0_n_n_0_1_1 x i) : (⟨S50000, .f32⟩ : BufTy).Contents (Elt F) → (⟨S250000x1, .i32⟩ : BufTy).Contents (Elt F) → (⟨S250000, .f32⟩ : BufTy).Contents (Elt F)),
    nullary main_c_12 (constantI S_ 32 0#32),
    unary main_c_12 main_v52 (broadcastInDim S250000 ![] bcast_S_S250000 : (⟨S_, .i32⟩ : BufTy).Contents (Elt F) → (⟨S250000, .i32⟩ : BufTy).Contents (Elt F)),
    binary main_v36 main_v52 main_v53 (cmpi .slt : (⟨S250000, .i32⟩ : BufTy).Contents (Elt F) → (⟨S250000, .i32⟩ : BufTy).Contents (Elt F) → (⟨S250000, .i1⟩ : BufTy).Contents (Elt F)),
    nullary main_c_13 (constantI S_ 32 50000#32),
    unary main_c_13 main_v54 (broadcastInDim S250000 ![] bcast_S_S250000 : (⟨S_, .i32⟩ : BufTy).Contents (Elt F) → (⟨S250000, .i32⟩ : BufTy).Contents (Elt F)),
    binary main_v36 main_v54 main_v55 (addi : (⟨S250000, .i32⟩ : BufTy).Contents (Elt F) → (⟨S250000, .i32⟩ : BufTy).Contents (Elt F) → (⟨S250000, .i32⟩ : BufTy).Contents (Elt F)),
    ternary main_v53 main_v55 main_v36 main_v56 (select : (⟨S250000, .i1⟩ : BufTy).Contents (Elt F) → (⟨S250000, .i32⟩ : BufTy).Contents (Elt F) → (⟨S250000, .i32⟩ : BufTy).Contents (Elt F) → (⟨S250000, .i32⟩ : BufTy).Contents (Elt F)),
    unary main_v56 main_v57 (broadcastInDim S250000x1 ![0] bcast_S250000_S250000x1_0 : (⟨S250000, .i32⟩ : BufTy).Contents (Elt F) → (⟨S250000x1, .i32⟩ : BufTy).Contents (Elt F)),
    binary main_v44 main_v57 main_v58 ((fun x i => Host.gather gather_S50000_S250000x1_S250000_n_0_n_n_0_1_1 x i) : (⟨S50000, .f32⟩ : BufTy).Contents (Elt F) → (⟨S250000x1, .i32⟩ : BufTy).Contents (Elt F) → (⟨S250000, .f32⟩ : BufTy).Contents (Elt F)),
    binary main_v51 main_v58 main_v59 (mulf : (⟨S250000, .f32⟩ : BufTy).Contents (Elt F) → (⟨S250000, .f32⟩ : BufTy).Contents (Elt F) → (⟨S250000, .f32⟩ : BufTy).Contents (Elt F)) ]

set_option maxHeartbeats 4000000 in
theorem srcM (W : Valuation τ sig (Elt F)) : after pieceOps W (Proc.devRef .tc main_v3) = Cert.Spec.srcM (W (Proc.devRef .tc main_arg1)) := by
  simp only [pieceOps]; after_results_simp; rfl
set_option maxHeartbeats 4000000 in
theorem dstM (W : Valuation τ sig (Elt F)) : after pieceOps W (Proc.devRef .tc main_v6) = Cert.Spec.dstM (W (Proc.devRef .tc main_arg1)) := by
  simp only [pieceOps]; after_results_simp; rfl
set_option maxHeartbeats 4000000 in
theorem nrmM (W : Valuation τ sig (Elt F)) : after pieceOps W (Proc.devRef .tc main_v29) = Cert.Spec.nrmM (Cert.Spec.srcM (W (Proc.devRef .tc main_arg1))) (Cert.Spec.dstM (W (Proc.devRef .tc main_arg1))) := by
  simp only [pieceOps]; after_results_simp; rfl
set_option maxHeartbeats 4000000 in
theorem srcC (W : Valuation τ sig (Elt F)) : after pieceOps W (Proc.devRef .tc main_v33) = Cert.Spec.srcC (W (Proc.devRef .tc main_arg2)) := by
  simp only [pieceOps]; after_results_simp; rfl
set_option maxHeartbeats 4000000 in
theorem dstC (W : Valuation τ sig (Elt F)) : after pieceOps W (Proc.devRef .tc main_v36) = Cert.Spec.dstC (W (Proc.devRef .tc main_arg2)) := by
  simp only [pieceOps]; after_results_simp; rfl
set_option maxHeartbeats 4000000 in
theorem nrmC (W : Valuation τ sig (Elt F)) : after pieceOps W (Proc.devRef .tc main_v59) = Cert.Spec.nrmC (Cert.Spec.srcC (W (Proc.devRef .tc main_arg2))) (Cert.Spec.dstC (W (Proc.devRef .tc main_arg2))) := by
  simp only [pieceOps]; after_results_simp; rfl

set_option maxHeartbeats 4000000 in
/-- The piece leaves these buffers as it found them: none of its operations writes them. -/
theorem keep (W : Valuation τ sig (Elt F)) : after pieceOps W (Proc.devRef .tc main_arg0) = W (Proc.devRef .tc main_arg0)
    ∧ after pieceOps W (Proc.devRef .tc main_arg3) = W (Proc.devRef .tc main_arg3)
    ∧ after pieceOps W (Proc.devRef .tc main_arg4) = W (Proc.devRef .tc main_arg4)
    ∧ after pieceOps W (Proc.devRef .tc main_arg5) = W (Proc.devRef .tc main_arg5)
    ∧ after pieceOps W (Proc.devRef .tc main_arg6) = W (Proc.devRef .tc main_arg6) := by
  refine ⟨?_, ?_, ?_, ?_, ?_⟩ <;> (simp only [pieceOps]; after_results_simp)

set_option maxHeartbeats 4000000 in
/-- The piece writes none of the program's arguments. -/
theorem keepArgs (W : Valuation τ sig (Elt F)) : after pieceOps W (Proc.devRef .tc main_arg0) = W (Proc.devRef .tc main_arg0)
    ∧ after pieceOps W (Proc.devRef .tc main_arg1) = W (Proc.devRef .tc main_arg1)
    ∧ after pieceOps W (Proc.devRef .tc main_arg2) = W (Proc.devRef .tc main_arg2)
    ∧ after pieceOps W (Proc.devRef .tc main_arg3) = W (Proc.devRef .tc main_arg3)
    ∧ after pieceOps W (Proc.devRef .tc main_arg4) = W (Proc.devRef .tc main_arg4)
    ∧ after pieceOps W (Proc.devRef .tc main_arg5) = W (Proc.devRef .tc main_arg5)
    ∧ after pieceOps W (Proc.devRef .tc main_arg6) = W (Proc.devRef .tc main_arg6) := by
  refine ⟨?_, ?_, ?_, ?_, ?_, ?_, ?_⟩ <;> (simp only [pieceOps]; after_results_simp)

end Cert.ReferenceIdeal.RPrep

end
-- ==== Proof.SpecV.lean ====
/-
  One layer of the block stated over the edge data as given (the two edge lists with their self-loops and the two
  graphs' edge weights as six arrays), rather than over the two raw edge lists: the form in which a layer's host
  operations read it.
-/
import proofs.«113452_j3143916060941_1_alg».proof.Proof.Spec

noncomputable section

namespace Cert.Spec

open Idealize.ShloMosaic Cert.ReferenceIdeal Cert.ReferenceIdeal.Facts₀ Cert.ReferenceIdeal.Facts

variable {F : FTy → Type} [FloatOps F]

/-- One layer before its activation, of the edge data as given: both branches' products passed along their graphs, the
    two sums and the two bias rows added. -/
def layerV (x : (⟨S50000x128, .f32⟩ : BufTy).Contents (Elt F)) (wm wc : (⟨S128x128, .f32⟩ : BufTy).Contents (Elt F)) (bm bc : (⟨S128, .f32⟩ : BufTy).Contents (Elt F))
    (sM dM : (⟨S850000, .i32⟩ : BufTy).Contents (Elt F)) (nM : (⟨S850000, .f32⟩ : BufTy).Contents (Elt F)) (sC dC : (⟨S250000, .i32⟩ : BufTy).Contents (Elt F)) (nC : (⟨S250000, .f32⟩ : BufTy).Contents (Elt F)) : (⟨S50000x128, .f32⟩ : BufTy).Contents (Elt F) :=
  comb (convM (mm x wm) sM dM nM) (convC (mm x wc) sC dC nC) bm bc

/-- A layer of the two edge lists is that, at the edge data computed from them. -/
theorem layer_eq (x : (⟨S50000x128, .f32⟩ : BufTy).Contents (Elt F)) (wm wc : (⟨S128x128, .f32⟩ : BufTy).Contents (Elt F)) (bm bc : (⟨S128, .f32⟩ : BufTy).Contents (Elt F))
    (e1 : (⟨S2x800000, .i32⟩ : BufTy).Contents (Elt F)) (e2 : (⟨S2x200000, .i32⟩ : BufTy).Contents (Elt F)) :
    layer x wm wc bm bc e1 e2 = layerV x wm wc bm bc (srcM e1) (dstM e1) (nrmM (srcM e1) (dstM e1)) (srcC e2) (dstC e2) (nrmC (srcC e2) (dstC e2)) := rfl

end Cert.Spec

end
-- ==== Proof.RL0.lean ====
/-
  Layer 0 of the reference program: the features times the layer's two weight matrices, each product passed along its
  graph (gather by source, scale by edge weight, sum into destination), the two sums and the two bias rows added, then
  max(·, 0).
-/
import proofs.«113452_j3143916060941_1_alg».proof.Proof.Gen.ReferenceIdeal
import proofs.«113452_j3143916060941_1_alg».proof.Proof.SpecV
import Idealize.ShloMosaic.Lib.StableHlo.Run

set_option maxRecDepth 16384

noncomputable section

namespace Cert.ReferenceIdeal.RL0

open Cert.ReferenceIdeal Cert.ReferenceIdeal.Gen Idealize.ShloMosaic Idealize.ShloMosaic.TcCoe Idealize.SL.Sem Idealize.ShloMosaic.StableHlo

variable {F : FTy → Type} [FloatOps F]

/-- The reference's host operations 81 … 132, in order. -/
abbrev pieceOps : List (HloOp τ sig (Elt F)) :=
  [ unary main_arg3 main_v60 ((extractStridedSlice S1x128x128 ![0, 0, 0] · slices_S4x128x128_S1x128x128_0_0_0) : (⟨S4x128x128, .f32⟩ : BufTy).Contents (Elt F) → (⟨S1x128x128, .f32⟩ : BufTy).Contents (Elt F)),
    reshape main_v60 main_v61 rfl shapeCasts_S1x128x128_S128x128,
    unary main_arg4 main_v62 ((extractStridedSlice S1x128 ![0, 0] · slices_S4x128_S1x128_0_0) : (⟨S4x128, .f32⟩ : BufTy).Contents (Elt F) → (⟨S1x128, .f32⟩ : BufTy).Contents (Elt F)),
    reshape main_v62 main_v63 rfl shapeCasts_S1x128_S128,
    binary main_arg0 main_v61 main_v64 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c_14 (constantI S_ 32 0#32),
    unary main_c_14 main_v65 (broadcastInDim S850000 ![] bcast_S_S850000 : (⟨S_, .i32⟩ : BufTy).Contents (Elt F) → (⟨S850000, .i32⟩ : BufTy).Contents (Elt F)),
    binary main_v3 main_v65 main_v66 (cmpi .slt : (⟨S850000, .i32⟩ : BufTy).Contents (Elt F) → (⟨S850000, .i32⟩ : BufTy).Contents (Elt F) → (⟨S850000, .i1⟩ : BufTy).Contents (Elt F)),
    nullary main_c_15 (constantI S_ 32 50000#32),
    unary main_c_15 main_v67 (broadcastInDim S850000 ![] bcast_S_S850000 : (⟨S_, .i32⟩ : BufTy).Contents (Elt F) → (⟨S850000, .i32⟩ : BufTy).Contents (Elt F)),
    binary main_v3 main_v67 main_v68 (addi : (⟨S850000, .i32⟩ : BufTy).Contents (Elt F) → (⟨S850000, .i32⟩ : BufTy).Contents (Elt F) → (⟨S850000, .i32⟩ : BufTy).Contents (Elt F)),
    ternary main_v66 main_v68 main_v3 main_v69 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v69 main_v70 (broadcastInDim S850000x1 ![0] bcast_S850000_S850000x1_0 : (⟨S850000, .i32⟩ : BufTy).Contents (Elt F) → (⟨S850000x1, .i32⟩ : BufTy).Contents (Elt F)),
    binary main_v64 main_v70 main_v71 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v29 main_v72 (broadcastInDim S850000x1 ![0] bcast_S850000_S850000x1_0 : (⟨S850000, .f32⟩ : BufTy).Contents (Elt F) → (⟨S850000x1, .f32⟩ : BufTy).Contents (Elt F)),
    unary main_v72 main_v73 (broadcastInDim S850000x128 ![0, 1] bcast_S850000x1_S850000x128_0_1 : (⟨S850000x1, .f32⟩ : BufTy).Contents (Elt F) → (⟨S850000x128, .f32⟩ : BufTy).Contents (Elt F)),
    binary main_v71 main_v73 main_v74 (mulf : (⟨S850000x128, .f32⟩ : BufTy).Contents (Elt F) → (⟨S850000x128, .f32⟩ : BufTy).Contents (Elt F) → (⟨S850000x128, .f32⟩ : BufTy).Contents (Elt F)),
    nullary main_cst_16 (constant S_ .f32 0x00000000#32),
    unary main_cst_16 main_v75 (broadcastInDim S50000x128 ![] bcast_S_S50000x128 : (⟨S_, .f32⟩ : BufTy).Contents (Elt F) → (⟨S50000x128, .f32⟩ : BufTy).Contents (Elt F)),
    unary main_v6 main_v76 (broadcastInDim S850000x1 ![0] bcast_S850000_S850000x1_0 : (⟨S850000, .i32⟩ : BufTy).Contents (Elt F) → (⟨S850000x1, .i32⟩ : BufTy).Contents (Elt F)),
    ternary main_v75 main_v76 main_v74 main_v77 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    unary main_v63 main_v78 (broadcastInDim S1x128 ![1] bcast_S128_S1x128_1 : (⟨S128, .f32⟩ : BufTy).Contents (Elt F) → (⟨S1x128, .f32⟩ : BufTy).Contents (Elt F)),
    unary main_v78 main_v79 (broadcastInDim S50000x128 ![0, 1] bcast_S1x128_S50000x128_0_1 : (⟨S1x128, .f32⟩ : BufTy).Contents (Elt F) → (⟨S50000x128, .f32⟩ : BufTy).Contents (Elt F)),
    binary main_v77 main_v79 main_v80 (addf : (⟨S50000x128, .f32⟩ : BufTy).Contents (Elt F) → (⟨S50000x128, .f32⟩ : BufTy).Contents (Elt F) → (⟨S50000x128, .f32⟩ : BufTy).Contents (Elt F)),
    unary main_arg5 main_v81 ((extractStridedSlice S1x128x128 ![0, 0, 0] · slices_S4x128x128_S1x128x128_0_0_0) : (⟨S4x128x128, .f32⟩ : BufTy).Contents (Elt F) → (⟨S1x128x128, .f32⟩ : BufTy).Contents (Elt F)),
    reshape main_v81 main_v82 rfl shapeCasts_S1x128x128_S128x128,
    unary main_arg6 main_v83 ((extractStridedSlice S1x128 ![0, 0] · slices_S4x128_S1x128_0_0) : (⟨S4x128, .f32⟩ : BufTy).Contents (Elt F) → (⟨S1x128, .f32⟩ : BufTy).Contents (Elt F)),
    reshape main_v83 main_v84 rfl shapeCasts_S1x128_S128,
    binary main_arg0 main_v82 main_v85 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c_17 (constantI S_ 32 0#32),
    unary main_c_17 main_v86 (broadcastInDim S250000 ![] bcast_S_S250000 : (⟨S_, .i32⟩ : BufTy).Contents (Elt F) → (⟨S250000, .i32⟩ : BufTy).Contents (Elt F)),
    binary main_v33 main_v86 main_v87 (cmpi .slt : (⟨S250000, .i32⟩ : BufTy).Contents (Elt F) → (⟨S250000, .i32⟩ : BufTy).Contents (Elt F) → (⟨S250000, .i1⟩ : BufTy).Contents (Elt F)),
    nullary main_c_18 (constantI S_ 32 50000#32),
    unary main_c_18 main_v88 (broadcastInDim S250000 ![] bcast_S_S250000 : (⟨S_, .i32⟩ : BufTy).Contents (Elt F) → (⟨S250000, .i32⟩ : BufTy).Contents (Elt F)),
    binary main_v33 main_v88 main_v89 (addi : (⟨S250000, .i32⟩ : BufTy).Contents (Elt F) → (⟨S250000, .i32⟩ : BufTy).Contents (Elt F) → (⟨S250000, .i32⟩ : BufTy).Contents (Elt F)),
    ternary main_v87 main_v89 main_v33 main_v90 (select : (⟨S250000, .i1⟩ : BufTy).Contents (Elt F) → (⟨S250000, .i32⟩ : BufTy).Contents (Elt F) → (⟨S250000, .i32⟩ : BufTy).Contents (Elt F) → (⟨S250000, .i32⟩ : BufTy).Contents (Elt F)),
    unary main_v90 main_v91 (broadcastInDim S250000x1 ![0] bcast_S250000_S250000x1_0 : (⟨S250000, .i32⟩ : BufTy).Contents (Elt F) → (⟨S250000x1, .i32⟩ : BufTy).Contents (Elt F)),
    binary main_v85 main_v91 main_v92 ((fun x i => Host.gather gather_S50000x128_S250000x1_S250000x128_1_0_n_n_0_1_1128 x i) : (⟨S50000x128, .f32⟩ : BufTy).Contents (Elt F) → (⟨S250000x1, .i32⟩ : BufTy).Contents (Elt F) → (⟨S250000x128, .f32⟩ : BufTy).Contents (Elt F)),
    unary main_v59 main_v93 (broadcastInDim S250000x1 ![0] bcast_S250000_S250000x1_0 : (⟨S250000, .f32⟩ : BufTy).Contents (Elt F) → (⟨S250000x1, .f32⟩ : BufTy).Contents (Elt F)),
    unary main_v93 main_v94 (broadcastInDim S250000x128 ![0, 1] bcast_S250000x1_S250000x128_0_1 : (⟨S250000x1, .f32⟩ : BufTy).Contents (Elt F) → (⟨S250000x128, .f32⟩ : BufTy).Contents (Elt F)),
    binary main_v92 main_v94 main_v95 (mulf : (⟨S250000x128, .f32⟩ : BufTy).Contents (Elt F) → (⟨S250000x128, .f32⟩ : BufTy).Contents (Elt F) → (⟨S250000x128, .f32⟩ : BufTy).Contents (Elt F)),
    nullary main_cst_19 (constant S_ .f32 0x00000000#32),
    unary main_cst_19 main_v96 (broadcastInDim S50000x128 ![] bcast_S_S50000x128 : (⟨S_, .f32⟩ : BufTy).Contents (Elt F) → (⟨S50000x128, .f32⟩ : BufTy).Contents (Elt F)),
    unary main_v36 main_v97 (broadcastInDim S250000x1 ![0] bcast_S250000_S250000x1_0 : (⟨S250000, .i32⟩ : BufTy).Contents (Elt F) → (⟨S250000x1, .i32⟩ : BufTy).Contents (Elt F)),
    ternary main_v96 main_v97 main_v95 main_v98 ((fun x i u => Host.scatterAdd scatter_S50000x128_S250000x1_S250000x128_1_0_0_1 x i u) : (⟨S50000x128, .f32⟩ : BufTy).Contents (Elt F) → (⟨S250000x1, .i32⟩ : BufTy).Contents (Elt F) → (⟨S250000x128, .f32⟩ : BufTy).Contents (Elt F) → (⟨S50000x128, .f32⟩ : BufTy).Contents (Elt F)),
    unary main_v84 main_v99 (broadcastInDim S1x128 ![1] bcast_S128_S1x128_1 : (⟨S128, .f32⟩ : BufTy).Contents (Elt F) → (⟨S1x128, .f32⟩ : BufTy).Contents (Elt F)),
    unary main_v99 main_v100 (broadcastInDim S50000x128 ![0, 1] bcast_S1x128_S50000x128_0_1 : (⟨S1x128, .f32⟩ : BufTy).Contents (Elt F) → (⟨S50000x128, .f32⟩ : BufTy).Contents (Elt F)),
    binary main_v98 main_v100 main_v101 (addf : (⟨S50000x128, .f32⟩ : BufTy).Contents (Elt F) → (⟨S50000x128, .f32⟩ : BufTy).Contents (Elt F) → (⟨S50000x128, .f32⟩ : BufTy).Contents (Elt F)),
    binary main_v80 main_v101 main_v102 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S50000x128, .f32⟩) main_call2_v0) (broadcastInDim S50000x128 ![] bcast_S_S50000x128),
    TRef.binary (TRef.of (T := ⟨S50000x128, .f32⟩) main_v102) (TRef.of (T := ⟨S50000x128, .f32⟩) main_call2_v0) (TRef.of (T := ⟨S50000x128, .f32⟩) main_v103) maximumf ]

set_option maxHeartbeats 4000000 in
/-- The piece's result: the layer and its activation of the contents it starts from. -/
theorem val (W : Valuation τ sig (Elt F)) : after pieceOps W (Proc.devRef .tc main_v103) = Cert.Spec.relu (Cert.Spec.layerV (W (Proc.devRef .tc main_arg0)) (Cert.Spec.wsl0 (W (Proc.devRef .tc main_arg3))) (Cert.Spec.wsl0 (W (Proc.devRef .tc main_arg5))) (Cert.Spec.bsl0 (W (Proc.devRef .tc main_arg4))) (Cert.Spec.bsl0 (W (Proc.devRef .tc main_arg6))) (W (Proc.devRef .tc main_v3)) (W (Proc.devRef .tc main_v6)) (W (Proc.devRef .tc main_v29)) (W (Proc.devRef .tc main_v33)) (W (Proc.devRef .tc main_v36)) (W (Proc.devRef .tc main_v59))) := by
  simp only [pieceOps]; after_results_simp; rfl

set_option maxHeartbeats 4000000 in
/-- The piece leaves these buffers as it found them: none of its operations writes them. -/
theorem keep (W : Valuation τ sig (Elt F)) : after pieceOps W (Proc.devRef .tc main_v3) = W (Proc.devRef .tc main_v3)
    ∧ after pieceOps W (Proc.devRef .tc main_v6) = W (Proc.devRef .tc main_v6)
    ∧ after pieceOps W (Proc.devRef .tc main_v29) = W (Proc.devRef .tc main_v29)
    ∧ after pieceOps W (Proc.devRef .tc main_v33) = W (Proc.devRef .tc main_v33)
    ∧ after pieceOps W (Proc.devRef .tc main_v36) = W (Proc.devRef .tc main_v36)
    ∧ after pieceOps W (Proc.devRef .tc main_v59) = W (Proc.devRef .tc main_v59)
    ∧ after pieceOps W (Proc.devRef .tc main_arg3) = W (Proc.devRef .tc main_arg3)
    ∧ after pieceOps W (Proc.devRef .tc main_arg4) = W (Proc.devRef .tc main_arg4)
    ∧ after pieceOps W (Proc.devRef .tc main_arg5) = W (Proc.devRef .tc main_arg5)
    ∧ after pieceOps W (Proc.devRef .tc main_arg6) = W (Proc.devRef .tc main_arg6) := by
  refine ⟨?_, ?_, ?_, ?_, ?_, ?_, ?_, ?_, ?_, ?_⟩ <;> (simp only [pieceOps]; after_results_simp)

set_option maxHeartbeats 4000000 in
/-- The piece writes none of the program's arguments. -/
theorem keepArgs (W : Valuation τ sig (Elt F)) : after pieceOps W (Proc.devRef .tc main_arg0) = W (Proc.devRef .tc main_arg0)
    ∧ after pieceOps W (Proc.devRef .tc main_arg1) = W (Proc.devRef .tc main_arg1)
    ∧ after pieceOps W (Proc.devRef .tc main_arg2) = W (Proc.devRef .tc main_arg2)
    ∧ after pieceOps W (Proc.devRef .tc main_arg3) = W (Proc.devRef .tc main_arg3)
    ∧ after pieceOps W (Proc.devRef .tc main_arg4) = W (Proc.devRef .tc main_arg4)
    ∧ after pieceOps W (Proc.devRef .tc main_arg5) = W (Proc.devRef .tc main_arg5)
    ∧ after pieceOps W (Proc.devRef .tc main_arg6) = W (Proc.devRef .tc main_arg6) := by
  refine ⟨?_, ?_, ?_, ?_, ?_, ?_, ?_⟩ <;> (simp only [pieceOps]; after_results_simp)

end Cert.ReferenceIdeal.RL0

end
-- ==== Proof.RL1.lean ====
/-
  Layer 1 of the reference program: the features times the layer's two weight matrices, each product passed along its
  graph (gather by source, scale by edge weight, sum into destination), the two sums and the two bias rows added, then
  max(·, 0).
-/
import proofs.«113452_j3143916060941_1_alg».proof.Proof.Gen.ReferenceIdeal
import proofs.«113452_j3143916060941_1_alg».proof.Proof.SpecV
import Idealize.ShloMosaic.Lib.StableHlo.Run

set_option maxRecDepth 16384

noncomputable section

namespace Cert.ReferenceIdeal.RL1

open Cert.ReferenceIdeal Cert.ReferenceIdeal.Gen Idealize.ShloMosaic Idealize.ShloMosaic.TcCoe Idealize.SL.Sem Idealize.ShloMosaic.StableHlo

variable {F : FTy → Type} [FloatOps F]

/-- The reference's host operations 133 … 184, in order. -/
abbrev pieceOps : List (HloOp τ sig (Elt F)) :=
  [ unary main_arg3 main_v104 ((extractStridedSlice S1x128x128 ![1, 0, 0] · slices_S4x128x128_S1x128x128_1_0_0) : (⟨S4x128x128, .f32⟩ : BufTy).Contents (Elt F) → (⟨S1x128x128, .f32⟩ : BufTy).Contents (Elt F)),
    reshape main_v104 main_v105 rfl shapeCasts_S1x128x128_S128x128,
    unary main_arg4 main_v106 ((extractStridedSlice S1x128 ![1, 0] · slices_S4x128_S1x128_1_0) : (⟨S4x128, .f32⟩ : BufTy).Contents (Elt F) → (⟨S1x128, .f32⟩ : BufTy).Contents (Elt F)),
    reshape main_v106 main_v107 rfl shapeCasts_S1x128_S128,
    binary main_v103 main_v105 main_v108 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c_20 (constantI S_ 32 0#32),
    unary main_c_20 main_v109 (broadcastInDim S850000 ![] bcast_S_S850000 : (⟨S_, .i32⟩ : BufTy).Contents (Elt F) → (⟨S850000, .i32⟩ : BufTy).Contents (Elt F)),
    binary main_v3 main_v109 main_v110 (cmpi .slt : (⟨S850000, .i32⟩ : BufTy).Contents (Elt F) → (⟨S850000, .i32⟩ : BufTy).Contents (Elt F) → (⟨S850000, .i1⟩ : BufTy).Contents (Elt F)),
    nullary main_c_21 (constantI S_ 32 50000#32),
    unary main_c_21 main_v111 (broadcastInDim S850000 ![] bcast_S_S850000 : (⟨S_, .i32⟩ : BufTy).Contents (Elt F) → (⟨S850000, .i32⟩ : BufTy).Contents (Elt F)),
    binary main_v3 main_v111 main_v112 (addi : (⟨S850000, .i32⟩ : BufTy).Contents (Elt F) → (⟨S850000, .i32⟩ : BufTy).Contents (Elt F) → (⟨S850000, .i32⟩ : BufTy).Contents (Elt F)),
    ternary main_v110 main_v112 main_v3 main_v113 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v113 main_v114 (broadcastInDim S850000x1 ![0] bcast_S850000_S850000x1_0 : (⟨S850000, .i32⟩ : BufTy).Contents (Elt F) → (⟨S850000x1, .i32⟩ : BufTy).Contents (Elt F)),
    binary main_v108 main_v114 main_v115 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v29 main_v116 (broadcastInDim S850000x1 ![0] bcast_S850000_S850000x1_0 : (⟨S850000, .f32⟩ : BufTy).Contents (Elt F) → (⟨S850000x1, .f32⟩ : BufTy).Contents (Elt F)),
    unary main_v116 main_v117 (broadcastInDim S850000x128 ![0, 1] bcast_S850000x1_S850000x128_0_1 : (⟨S850000x1, .f32⟩ : BufTy).Contents (Elt F) → (⟨S850000x128, .f32⟩ : BufTy).Contents (Elt F)),
    binary main_v115 main_v117 main_v118 (mulf : (⟨S850000x128, .f32⟩ : BufTy).Contents (Elt F) → (⟨S850000x128, .f32⟩ : BufTy).Contents (Elt F) → (⟨S850000x128, .f32⟩ : BufTy).Contents (Elt F)),
    nullary main_cst_22 (constant S_ .f32 0x00000000#32),
    unary main_cst_22 main_v119 (broadcastInDim S50000x128 ![] bcast_S_S50000x128 : (⟨S_, .f32⟩ : BufTy).Contents (Elt F) → (⟨S50000x128, .f32⟩ : BufTy).Contents (Elt F)),
    unary main_v6 main_v120 (broadcastInDim S850000x1 ![0] bcast_S850000_S850000x1_0 : (⟨S850000, .i32⟩ : BufTy).Contents (Elt F) → (⟨S850000x1, .i32⟩ : BufTy).Contents (Elt F)),
    ternary main_v119 main_v120 main_v118 main_v121 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    unary main_v107 main_v122 (broadcastInDim S1x128 ![1] bcast_S128_S1x128_1 : (⟨S128, .f32⟩ : BufTy).Contents (Elt F) → (⟨S1x128, .f32⟩ : BufTy).Contents (Elt F)),
    unary main_v122 main_v123 (broadcastInDim S50000x128 ![0, 1] bcast_S1x128_S50000x128_0_1 : (⟨S1x128, .f32⟩ : BufTy).Contents (Elt F) → (⟨S50000x128, .f32⟩ : BufTy).Contents (Elt F)),
    binary main_v121 main_v123 main_v124 (addf : (⟨S50000x128, .f32⟩ : BufTy).Contents (Elt F) → (⟨S50000x128, .f32⟩ : BufTy).Contents (Elt F) → (⟨S50000x128, .f32⟩ : BufTy).Contents (Elt F)),
    unary main_arg5 main_v125 ((extractStridedSlice S1x128x128 ![1, 0, 0] · slices_S4x128x128_S1x128x128_1_0_0) : (⟨S4x128x128, .f32⟩ : BufTy).Contents (Elt F) → (⟨S1x128x128, .f32⟩ : BufTy).Contents (Elt F)),
    reshape main_v125 main_v126 rfl shapeCasts_S1x128x128_S128x128,
    unary main_arg6 main_v127 ((extractStridedSlice S1x128 ![1, 0] · slices_S4x128_S1x128_1_0) : (⟨S4x128, .f32⟩ : BufTy).Contents (Elt F) → (⟨S1x128, .f32⟩ : BufTy).Contents (Elt F)),
    reshape main_v127 main_v128 rfl shapeCasts_S1x128_S128,
    binary main_v103 main_v126 main_v129 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c_23 (constantI S_ 32 0#32),
    unary main_c_23 main_v130 (broadcastInDim S250000 ![] bcast_S_S250000 : (⟨S_, .i32⟩ : BufTy).Contents (Elt F) → (⟨S250000, .i32⟩ : BufTy).Contents (Elt F)),
    binary main_v33 main_v130 main_v131 (cmpi .slt : (⟨S250000, .i32⟩ : BufTy).Contents (Elt F) → (⟨S250000, .i32⟩ : BufTy).Contents (Elt F) → (⟨S250000, .i1⟩ : BufTy).Contents (Elt F)),
    nullary main_c_24 (constantI S_ 32 50000#32),
    unary main_c_24 main_v132 (broadcastInDim S250000 ![] bcast_S_S250000 : (⟨S_, .i32⟩ : BufTy).Contents (Elt F) → (⟨S250000, .i32⟩ : BufTy).Contents (Elt F)),
    binary main_v33 main_v132 main_v133 (addi : (⟨S250000, .i32⟩ : BufTy).Contents (Elt F) → (⟨S250000, .i32⟩ : BufTy).Contents (Elt F) → (⟨S250000, .i32⟩ : BufTy).Contents (Elt F)),
    ternary main_v131 main_v133 main_v33 main_v134 (select : (⟨S250000, .i1⟩ : BufTy).Contents (Elt F) → (⟨S250000, .i32⟩ : BufTy).Contents (Elt F) → (⟨S250000, .i32⟩ : BufTy).Contents (Elt F) → (⟨S250000, .i32⟩ : BufTy).Contents (Elt F)),
    unary main_v134 main_v135 (broadcastInDim S250000x1 ![0] bcast_S250000_S250000x1_0 : (⟨S250000, .i32⟩ : BufTy).Contents (Elt F) → (⟨S250000x1, .i32⟩ : BufTy).Contents (Elt F)),
    binary main_v129 main_v135 main_v136 ((fun x i => Host.gather gather_S50000x128_S250000x1_S250000x128_1_0_n_n_0_1_1128 x i) : (⟨S50000x128, .f32⟩ : BufTy).Contents (Elt F) → (⟨S250000x1, .i32⟩ : BufTy).Contents (Elt F) → (⟨S250000x128, .f32⟩ : BufTy).Contents (Elt F)),
    unary main_v59 main_v137 (broadcastInDim S250000x1 ![0] bcast_S250000_S250000x1_0 : (⟨S250000, .f32⟩ : BufTy).Contents (Elt F) → (⟨S250000x1, .f32⟩ : BufTy).Contents (Elt F)),
    unary main_v137 main_v138 (broadcastInDim S250000x128 ![0, 1] bcast_S250000x1_S250000x128_0_1 : (⟨S250000x1, .f32⟩ : BufTy).Contents (Elt F) → (⟨S250000x128, .f32⟩ : BufTy).Contents (Elt F)),
    binary main_v136 main_v138 main_v139 (mulf : (⟨S250000x128, .f32⟩ : BufTy).Contents (Elt F) → (⟨S250000x128, .f32⟩ : BufTy).Contents (Elt F) → (⟨S250000x128, .f32⟩ : BufTy).Contents (Elt F)),
    nullary main_cst_25 (constant S_ .f32 0x00000000#32),
    unary main_cst_25 main_v140 (broadcastInDim S50000x128 ![] bcast_S_S50000x128 : (⟨S_, .f32⟩ : BufTy).Contents (Elt F) → (⟨S50000x128, .f32⟩ : BufTy).Contents (Elt F)),
    unary main_v36 main_v141 (broadcastInDim S250000x1 ![0] bcast_S250000_S250000x1_0 : (⟨S250000, .i32⟩ : BufTy).Contents (Elt F) → (⟨S250000x1, .i32⟩ : BufTy).Contents (Elt F)),
    ternary main_v140 main_v141 main_v139 main_v142 ((fun x i u => Host.scatterAdd scatter_S50000x128_S250000x1_S250000x128_1_0_0_1 x i u) : (⟨S50000x128, .f32⟩ : BufTy).Contents (Elt F) → (⟨S250000x1, .i32⟩ : BufTy).Contents (Elt F) → (⟨S250000x128, .f32⟩ : BufTy).Contents (Elt F) → (⟨S50000x128, .f32⟩ : BufTy).Contents (Elt F)),
    unary main_v128 main_v143 (broadcastInDim S1x128 ![1] bcast_S128_S1x128_1 : (⟨S128, .f32⟩ : BufTy).Contents (Elt F) → (⟨S1x128, .f32⟩ : BufTy).Contents (Elt F)),
    unary main_v143 main_v144 (broadcastInDim S50000x128 ![0, 1] bcast_S1x128_S50000x128_0_1 : (⟨S1x128, .f32⟩ : BufTy).Contents (Elt F) → (⟨S50000x128, .f32⟩ : BufTy).Contents (Elt F)),
    binary main_v142 main_v144 main_v145 (addf : (⟨S50000x128, .f32⟩ : BufTy).Contents (Elt F) → (⟨S50000x128, .f32⟩ : BufTy).Contents (Elt F) → (⟨S50000x128, .f32⟩ : BufTy).Contents (Elt F)),
    binary main_v124 main_v145 main_v146 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S50000x128, .f32⟩) main_call3_v0) (broadcastInDim S50000x128 ![] bcast_S_S50000x128),
    TRef.binary (TRef.of (T := ⟨S50000x128, .f32⟩) main_v146) (TRef.of (T := ⟨S50000x128, .f32⟩) main_call3_v0) (TRef.of (T := ⟨S50000x128, .f32⟩) main_v147) maximumf ]

set_option maxHeartbeats 4000000 in
/-- The piece's result: the layer and its activation of the contents it starts from. -/
theorem val (W : Valuation τ sig (Elt F)) : after pieceOps W (Proc.devRef .tc main_v147) = Cert.Spec.relu (Cert.Spec.layerV (W (Proc.devRef .tc main_v103)) (Cert.Spec.wsl1 (W (Proc.devRef .tc main_arg3))) (Cert.Spec.wsl1 (W (Proc.devRef .tc main_arg5))) (Cert.Spec.bsl1 (W (Proc.devRef .tc main_arg4))) (Cert.Spec.bsl1 (W (Proc.devRef .tc main_arg6))) (W (Proc.devRef .tc main_v3)) (W (Proc.devRef .tc main_v6)) (W (Proc.devRef .tc main_v29)) (W (Proc.devRef .tc main_v33)) (W (Proc.devRef .tc main_v36)) (W (Proc.devRef .tc main_v59))) := by
  simp only [pieceOps]; after_results_simp; rfl

set_option maxHeartbeats 4000000 in
/-- The piece leaves these buffers as it found them: none of its operations writes them. -/
theorem keep (W : Valuation τ sig (Elt F)) : after pieceOps W (Proc.devRef .tc main_v3) = W (Proc.devRef .tc main_v3)
    ∧ after pieceOps W (Proc.devRef .tc main_v6) = W (Proc.devRef .tc main_v6)
    ∧ after pieceOps W (Proc.devRef .tc main_v29) = W (Proc.devRef .tc main_v29)
    ∧ after pieceOps W (Proc.devRef .tc main_v33) = W (Proc.devRef .tc main_v33)
    ∧ after pieceOps W (Proc.devRef .tc main_v36) = W (Proc.devRef .tc main_v36)
    ∧ after pieceOps W (Proc.devRef .tc main_v59) = W (Proc.devRef .tc main_v59)
    ∧ after pieceOps W (Proc.devRef .tc main_arg3) = W (Proc.devRef .tc main_arg3)
    ∧ after pieceOps W (Proc.devRef .tc main_arg4) = W (Proc.devRef .tc main_arg4)
    ∧ after pieceOps W (Proc.devRef .tc main_arg5) = W (Proc.devRef .tc main_arg5)
    ∧ after pieceOps W (Proc.devRef .tc main_arg6) = W (Proc.devRef .tc main_arg6) := by
  refine ⟨?_, ?_, ?_, ?_, ?_, ?_, ?_, ?_, ?_, ?_⟩ <;> (simp only [pieceOps]; after_results_simp)

set_option maxHeartbeats 4000000 in
/-- The piece writes none of the program's arguments. -/
theorem keepArgs (W : Valuation τ sig (Elt F)) : after pieceOps W (Proc.devRef .tc main_arg0) = W (Proc.devRef .tc main_arg0)
    ∧ after pieceOps W (Proc.devRef .tc main_arg1) = W (Proc.devRef .tc main_arg1)
    ∧ after pieceOps W (Proc.devRef .tc main_arg2) = W (Proc.devRef .tc main_arg2)
    ∧ after pieceOps W (Proc.devRef .tc main_arg3) = W (Proc.devRef .tc main_arg3)
    ∧ after pieceOps W (Proc.devRef .tc main_arg4) = W (Proc.devRef .tc main_arg4)
    ∧ after pieceOps W (Proc.devRef .tc main_arg5) = W (Proc.devRef .tc main_arg5)
    ∧ after pieceOps W (Proc.devRef .tc main_arg6) = W (Proc.devRef .tc main_arg6) := by
  refine ⟨?_, ?_, ?_, ?_, ?_, ?_, ?_⟩ <;> (simp only [pieceOps]; after_results_simp)

end Cert.ReferenceIdeal.RL1

end
-- ==== Proof.RL2.lean ====
/-
  Layer 2 of the reference program: the features times the layer's two weight matrices, each product passed along its
  graph (gather by source, scale by edge weight, sum into destination), the two sums and the two bias rows added, then
  max(·, 0).
-/
import proofs.«113452_j3143916060941_1_alg».proof.Proof.Gen.ReferenceIdeal
import proofs.«113452_j3143916060941_1_alg».proof.Proof.SpecV
import Idealize.ShloMosaic.Lib.StableHlo.Run

set_option maxRecDepth 16384

noncomputable section

namespace Cert.ReferenceIdeal.RL2

open Cert.ReferenceIdeal Cert.ReferenceIdeal.Gen Idealize.ShloMosaic Idealize.ShloMosaic.TcCoe Idealize.SL.Sem Idealize.ShloMosaic.StableHlo

variable {F : FTy → Type} [FloatOps F]

/-- The reference's host operations 185 … 236, in order. -/
abbrev pieceOps : List (HloOp τ sig (Elt F)) :=
  [ unary main_arg3 main_v148 ((extractStridedSlice S1x128x128 ![2, 0, 0] · slices_S4x128x128_S1x128x128_2_0_0) : (⟨S4x128x128, .f32⟩ : BufTy).Contents (Elt F) → (⟨S1x128x128, .f32⟩ : BufTy).Contents (Elt F)),
    reshape main_v148 main_v149 rfl shapeCasts_S1x128x128_S128x128,
    unary main_arg4 main_v150 ((extractStridedSlice S1x128 ![2, 0] · slices_S4x128_S1x128_2_0) : (⟨S4x128, .f32⟩ : BufTy).Contents (Elt F) → (⟨S1x128, .f32⟩ : BufTy).Contents (Elt F)),
    reshape main_v150 main_v151 rfl shapeCasts_S1x128_S128,
    binary main_v147 main_v149 main_v152 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c_26 (constantI S_ 32 0#32),
    unary main_c_26 main_v153 (broadcastInDim S850000 ![] bcast_S_S850000 : (⟨S_, .i32⟩ : BufTy).Contents (Elt F) → (⟨S850000, .i32⟩ : BufTy).Contents (Elt F)),
    binary main_v3 main_v153 main_v154 (cmpi .slt : (⟨S850000, .i32⟩ : BufTy).Contents (Elt F) → (⟨S850000, .i32⟩ : BufTy).Contents (Elt F) → (⟨S850000, .i1⟩ : BufTy).Contents (Elt F)),
    nullary main_c_27 (constantI S_ 32 50000#32),
    unary main_c_27 main_v155 (broadcastInDim S850000 ![] bcast_S_S850000 : (⟨S_, .i32⟩ : BufTy).Contents (Elt F) → (⟨S850000, .i32⟩ : BufTy).Contents (Elt F)),
    binary main_v3 main_v155 main_v156 (addi : (⟨S850000, .i32⟩ : BufTy).Contents (Elt F) → (⟨S850000, .i32⟩ : BufTy).Contents (Elt F) → (⟨S850000, .i32⟩ : BufTy).Contents (Elt F)),
    ternary main_v154 main_v156 main_v3 main_v157 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v157 main_v158 (broadcastInDim S850000x1 ![0] bcast_S850000_S850000x1_0 : (⟨S850000, .i32⟩ : BufTy).Contents (Elt F) → (⟨S850000x1, .i32⟩ : BufTy).Contents (Elt F)),
    binary main_v152 main_v158 main_v159 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v29 main_v160 (broadcastInDim S850000x1 ![0] bcast_S850000_S850000x1_0 : (⟨S850000, .f32⟩ : BufTy).Contents (Elt F) → (⟨S850000x1, .f32⟩ : BufTy).Contents (Elt F)),
    unary main_v160 main_v161 (broadcastInDim S850000x128 ![0, 1] bcast_S850000x1_S850000x128_0_1 : (⟨S850000x1, .f32⟩ : BufTy).Contents (Elt F) → (⟨S850000x128, .f32⟩ : BufTy).Contents (Elt F)),
    binary main_v159 main_v161 main_v162 (mulf : (⟨S850000x128, .f32⟩ : BufTy).Contents (Elt F) → (⟨S850000x128, .f32⟩ : BufTy).Contents (Elt F) → (⟨S850000x128, .f32⟩ : BufTy).Contents (Elt F)),
    nullary main_cst_28 (constant S_ .f32 0x00000000#32),
    unary main_cst_28 main_v163 (broadcastInDim S50000x128 ![] bcast_S_S50000x128 : (⟨S_, .f32⟩ : BufTy).Contents (Elt F) → (⟨S50000x128, .f32⟩ : BufTy).Contents (Elt F)),
    unary main_v6 main_v164 (broadcastInDim S850000x1 ![0] bcast_S850000_S850000x1_0 : (⟨S850000, .i32⟩ : BufTy).Contents (Elt F) → (⟨S850000x1, .i32⟩ : BufTy).Contents (Elt F)),
    ternary main_v163 main_v164 main_v162 main_v165 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    unary main_v151 main_v166 (broadcastInDim S1x128 ![1] bcast_S128_S1x128_1 : (⟨S128, .f32⟩ : BufTy).Contents (Elt F) → (⟨S1x128, .f32⟩ : BufTy).Contents (Elt F)),
    unary main_v166 main_v167 (broadcastInDim S50000x128 ![0, 1] bcast_S1x128_S50000x128_0_1 : (⟨S1x128, .f32⟩ : BufTy).Contents (Elt F) → (⟨S50000x128, .f32⟩ : BufTy).Contents (Elt F)),
    binary main_v165 main_v167 main_v168 (addf : (⟨S50000x128, .f32⟩ : BufTy).Contents (Elt F) → (⟨S50000x128, .f32⟩ : BufTy).Contents (Elt F) → (⟨S50000x128, .f32⟩ : BufTy).Contents (Elt F)),
    unary main_arg5 main_v169 ((extractStridedSlice S1x128x128 ![2, 0, 0] · slices_S4x128x128_S1x128x128_2_0_0) : (⟨S4x128x128, .f32⟩ : BufTy).Contents (Elt F) → (⟨S1x128x128, .f32⟩ : BufTy).Contents (Elt F)),
    reshape main_v169 main_v170 rfl shapeCasts_S1x128x128_S128x128,
    unary main_arg6 main_v171 ((extractStridedSlice S1x128 ![2, 0] · slices_S4x128_S1x128_2_0) : (⟨S4x128, .f32⟩ : BufTy).Contents (Elt F) → (⟨S1x128, .f32⟩ : BufTy).Contents (Elt F)),
    reshape main_v171 main_v172 rfl shapeCasts_S1x128_S128,
    binary main_v147 main_v170 main_v173 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c_29 (constantI S_ 32 0#32),
    unary main_c_29 main_v174 (broadcastInDim S250000 ![] bcast_S_S250000 : (⟨S_, .i32⟩ : BufTy).Contents (Elt F) → (⟨S250000, .i32⟩ : BufTy).Contents (Elt F)),
    binary main_v33 main_v174 main_v175 (cmpi .slt : (⟨S250000, .i32⟩ : BufTy).Contents (Elt F) → (⟨S250000, .i32⟩ : BufTy).Contents (Elt F) → (⟨S250000, .i1⟩ : BufTy).Contents (Elt F)),
    nullary main_c_30 (constantI S_ 32 50000#32),
    unary main_c_30 main_v176 (broadcastInDim S250000 ![] bcast_S_S250000 : (⟨S_, .i32⟩ : BufTy).Contents (Elt F) → (⟨S250000, .i32⟩ : BufTy).Contents (Elt F)),
    binary main_v33 main_v176 main_v177 (addi : (⟨S250000, .i32⟩ : BufTy).Contents (Elt F) → (⟨S250000, .i32⟩ : BufTy).Contents (Elt F) → (⟨S250000, .i32⟩ : BufTy).Contents (Elt F)),
    ternary main_v175 main_v177 main_v33 main_v178 (select : (⟨S250000, .i1⟩ : BufTy).Contents (Elt F) → (⟨S250000, .i32⟩ : BufTy).Contents (Elt F) → (⟨S250000, .i32⟩ : BufTy).Contents (Elt F) → (⟨S250000, .i32⟩ : BufTy).Contents (Elt F)),
    unary main_v178 main_v179 (broadcastInDim S250000x1 ![0] bcast_S250000_S250000x1_0 : (⟨S250000, .i32⟩ : BufTy).Contents (Elt F) → (⟨S250000x1, .i32⟩ : BufTy).Contents (Elt F)),
    binary main_v173 main_v179 main_v180 ((fun x i => Host.gather gather_S50000x128_S250000x1_S250000x128_1_0_n_n_0_1_1128 x i) : (⟨S50000x128, .f32⟩ : BufTy).Contents (Elt F) → (⟨S250000x1, .i32⟩ : BufTy).Contents (Elt F) → (⟨S250000x128, .f32⟩ : BufTy).Contents (Elt F)),
    unary main_v59 main_v181 (broadcastInDim S250000x1 ![0] bcast_S250000_S250000x1_0 : (⟨S250000, .f32⟩ : BufTy).Contents (Elt F) → (⟨S250000x1, .f32⟩ : BufTy).Contents (Elt F)),
    unary main_v181 main_v182 (broadcastInDim S250000x128 ![0, 1] bcast_S250000x1_S250000x128_0_1 : (⟨S250000x1, .f32⟩ : BufTy).Contents (Elt F) → (⟨S250000x128, .f32⟩ : BufTy).Contents (Elt F)),
    binary main_v180 main_v182 main_v183 (mulf : (⟨S250000x128, .f32⟩ : BufTy).Contents (Elt F) → (⟨S250000x128, .f32⟩ : BufTy).Contents (Elt F) → (⟨S250000x128, .f32⟩ : BufTy).Contents (Elt F)),
    nullary main_cst_31 (constant S_ .f32 0x00000000#32),
    unary main_cst_31 main_v184 (broadcastInDim S50000x128 ![] bcast_S_S50000x128 : (⟨S_, .f32⟩ : BufTy).Contents (Elt F) → (⟨S50000x128, .f32⟩ : BufTy).Contents (Elt F)),
    unary main_v36 main_v185 (broadcastInDim S250000x1 ![0] bcast_S250000_S250000x1_0 : (⟨S250000, .i32⟩ : BufTy).Contents (Elt F) → (⟨S250000x1, .i32⟩ : BufTy).Contents (Elt F)),
    ternary main_v184 main_v185 main_v183 main_v186 ((fun x i u => Host.scatterAdd scatter_S50000x128_S250000x1_S250000x128_1_0_0_1 x i u) : (⟨S50000x128, .f32⟩ : BufTy).Contents (Elt F) → (⟨S250000x1, .i32⟩ : BufTy).Contents (Elt F) → (⟨S250000x128, .f32⟩ : BufTy).Contents (Elt F) → (⟨S50000x128, .f32⟩ : BufTy).Contents (Elt F)),
    unary main_v172 main_v187 (broadcastInDim S1x128 ![1] bcast_S128_S1x128_1 : (⟨S128, .f32⟩ : BufTy).Contents (Elt F) → (⟨S1x128, .f32⟩ : BufTy).Contents (Elt F)),
    unary main_v187 main_v188 (broadcastInDim S50000x128 ![0, 1] bcast_S1x128_S50000x128_0_1 : (⟨S1x128, .f32⟩ : BufTy).Contents (Elt F) → (⟨S50000x128, .f32⟩ : BufTy).Contents (Elt F)),
    binary main_v186 main_v188 main_v189 (addf : (⟨S50000x128, .f32⟩ : BufTy).Contents (Elt F) → (⟨S50000x128, .f32⟩ : BufTy).Contents (Elt F) → (⟨S50000x128, .f32⟩ : BufTy).Contents (Elt F)),
    binary main_v168 main_v189 main_v190 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S50000x128, .f32⟩) main_call4_v0) (broadcastInDim S50000x128 ![] bcast_S_S50000x128),
    TRef.binary (TRef.of (T := ⟨S50000x128, .f32⟩) main_v190) (TRef.of (T := ⟨S50000x128, .f32⟩) main_call4_v0) (TRef.of (T := ⟨S50000x128, .f32⟩) main_v191) maximumf ]

set_option maxHeartbeats 4000000 in
/-- The piece's result: the layer and its activation of the contents it starts from. -/
theorem val (W : Valuation τ sig (Elt F)) : after pieceOps W (Proc.devRef .tc main_v191) = Cert.Spec.relu (Cert.Spec.layerV (W (Proc.devRef .tc main_v147)) (Cert.Spec.wsl2 (W (Proc.devRef .tc main_arg3))) (Cert.Spec.wsl2 (W (Proc.devRef .tc main_arg5))) (Cert.Spec.bsl2 (W (Proc.devRef .tc main_arg4))) (Cert.Spec.bsl2 (W (Proc.devRef .tc main_arg6))) (W (Proc.devRef .tc main_v3)) (W (Proc.devRef .tc main_v6)) (W (Proc.devRef .tc main_v29)) (W (Proc.devRef .tc main_v33)) (W (Proc.devRef .tc main_v36)) (W (Proc.devRef .tc main_v59))) := by
  simp only [pieceOps]; after_results_simp; rfl

set_option maxHeartbeats 4000000 in
/-- The piece leaves these buffers as it found them: none of its operations writes them. -/
theorem keep (W : Valuation τ sig (Elt F)) : after pieceOps W (Proc.devRef .tc main_v3) = W (Proc.devRef .tc main_v3)
    ∧ after pieceOps W (Proc.devRef .tc main_v6) = W (Proc.devRef .tc main_v6)
    ∧ after pieceOps W (Proc.devRef .tc main_v29) = W (Proc.devRef .tc main_v29)
    ∧ after pieceOps W (Proc.devRef .tc main_v33) = W (Proc.devRef .tc main_v33)
    ∧ after pieceOps W (Proc.devRef .tc main_v36) = W (Proc.devRef .tc main_v36)
    ∧ after pieceOps W (Proc.devRef .tc main_v59) = W (Proc.devRef .tc main_v59)
    ∧ after pieceOps W (Proc.devRef .tc main_arg3) = W (Proc.devRef .tc main_arg3)
    ∧ after pieceOps W (Proc.devRef .tc main_arg4) = W (Proc.devRef .tc main_arg4)
    ∧ after pieceOps W (Proc.devRef .tc main_arg5) = W (Proc.devRef .tc main_arg5)
    ∧ after pieceOps W (Proc.devRef .tc main_arg6) = W (Proc.devRef .tc main_arg6) := by
  refine ⟨?_, ?_, ?_, ?_, ?_, ?_, ?_, ?_, ?_, ?_⟩ <;> (simp only [pieceOps]; after_results_simp)

set_option maxHeartbeats 4000000 in
/-- The piece writes none of the program's arguments. -/
theorem keepArgs (W : Valuation τ sig (Elt F)) : after pieceOps W (Proc.devRef .tc main_arg0) = W (Proc.devRef .tc main_arg0)
    ∧ after pieceOps W (Proc.devRef .tc main_arg1) = W (Proc.devRef .tc main_arg1)
    ∧ after pieceOps W (Proc.devRef .tc main_arg2) = W (Proc.devRef .tc main_arg2)
    ∧ after pieceOps W (Proc.devRef .tc main_arg3) = W (Proc.devRef .tc main_arg3)
    ∧ after pieceOps W (Proc.devRef .tc main_arg4) = W (Proc.devRef .tc main_arg4)
    ∧ after pieceOps W (Proc.devRef .tc main_arg5) = W (Proc.devRef .tc main_arg5)
    ∧ after pieceOps W (Proc.devRef .tc main_arg6) = W (Proc.devRef .tc main_arg6) := by
  refine ⟨?_, ?_, ?_, ?_, ?_, ?_, ?_⟩ <;> (simp only [pieceOps]; after_results_simp)

end Cert.ReferenceIdeal.RL2

end
-- ==== Proof.RL3.lean ====
/-
  Layer 3 of the reference program: the features times the layer's two weight matrices, each product passed along its
  graph (gather by source, scale by edge weight, sum into destination), the two sums and the two bias rows added.
-/
import proofs.«113452_j3143916060941_1_alg».proof.Proof.Gen.ReferenceIdeal
import proofs.«113452_j3143916060941_1_alg».proof.Proof.SpecV
import Idealize.ShloMosaic.Lib.StableHlo.Run

set_option maxRecDepth 16384

noncomputable section

namespace Cert.ReferenceIdeal.RL3

open Cert.ReferenceIdeal Cert.ReferenceIdeal.Gen Idealize.ShloMosaic Idealize.ShloMosaic.TcCoe Idealize.SL.Sem Idealize.ShloMosaic.StableHlo

variable {F : FTy → Type} [FloatOps F]

/-- The reference's host operations 237 … 285, in order. -/
abbrev pieceOps : List (HloOp τ sig (Elt F)) :=
  [ unary main_arg3 main_v192 ((extractStridedSlice S1x128x128 ![3, 0, 0] · slices_S4x128x128_S1x128x128_3_0_0) : (⟨S4x128x128, .f32⟩ : BufTy).Contents (Elt F) → (⟨S1x128x128, .f32⟩ : BufTy).Contents (Elt F)),
    reshape main_v192 main_v193 rfl shapeCasts_S1x128x128_S128x128,
    unary main_arg4 main_v194 ((extractStridedSlice S1x128 ![3, 0] · slices_S4x128_S1x128_3_0) : (⟨S4x128, .f32⟩ : BufTy).Contents (Elt F) → (⟨S1x128, .f32⟩ : BufTy).Contents (Elt F)),
    reshape main_v194 main_v195 rfl shapeCasts_S1x128_S128,
    binary main_v191 main_v193 main_v196 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c_32 (constantI S_ 32 0#32),
    unary main_c_32 main_v197 (broadcastInDim S850000 ![] bcast_S_S850000 : (⟨S_, .i32⟩ : BufTy).Contents (Elt F) → (⟨S850000, .i32⟩ : BufTy).Contents (Elt F)),
    binary main_v3 main_v197 main_v198 (cmpi .slt : (⟨S850000, .i32⟩ : BufTy).Contents (Elt F) → (⟨S850000, .i32⟩ : BufTy).Contents (Elt F) → (⟨S850000, .i1⟩ : BufTy).Contents (Elt F)),
    nullary main_c_33 (constantI S_ 32 50000#32),
    unary main_c_33 main_v199 (broadcastInDim S850000 ![] bcast_S_S850000 : (⟨S_, .i32⟩ : BufTy).Contents (Elt F) → (⟨S850000, .i32⟩ : BufTy).Contents (Elt F)),
    binary main_v3 main_v199 main_v200 (addi : (⟨S850000, .i32⟩ : BufTy).Contents (Elt F) → (⟨S850000, .i32⟩ : BufTy).Contents (Elt F) → (⟨S850000, .i32⟩ : BufTy).Contents (Elt F)),
    ternary main_v198 main_v200 main_v3 main_v201 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v201 main_v202 (broadcastInDim S850000x1 ![0] bcast_S850000_S850000x1_0 : (⟨S850000, .i32⟩ : BufTy).Contents (Elt F) → (⟨S850000x1, .i32⟩ : BufTy).Contents (Elt F)),
    binary main_v196 main_v202 main_v203 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v29 main_v204 (broadcastInDim S850000x1 ![0] bcast_S850000_S850000x1_0 : (⟨S850000, .f32⟩ : BufTy).Contents (Elt F) → (⟨S850000x1, .f32⟩ : BufTy).Contents (Elt F)),
    unary main_v204 main_v205 (broadcastInDim S850000x128 ![0, 1] bcast_S850000x1_S850000x128_0_1 : (⟨S850000x1, .f32⟩ : BufTy).Contents (Elt F) → (⟨S850000x128, .f32⟩ : BufTy).Contents (Elt F)),
    binary main_v203 main_v205 main_v206 (mulf : (⟨S850000x128, .f32⟩ : BufTy).Contents (Elt F) → (⟨S850000x128, .f32⟩ : BufTy).Contents (Elt F) → (⟨S850000x128, .f32⟩ : BufTy).Contents (Elt F)),
    nullary main_cst_34 (constant S_ .f32 0x00000000#32),
    unary main_cst_34 main_v207 (broadcastInDim S50000x128 ![] bcast_S_S50000x128 : (⟨S_, .f32⟩ : BufTy).Contents (Elt F) → (⟨S50000x128, .f32⟩ : BufTy).Contents (Elt F)),
    unary main_v6 main_v208 (broadcastInDim S850000x1 ![0] bcast_S850000_S850000x1_0 : (⟨S850000, .i32⟩ : BufTy).Contents (Elt F) → (⟨S850000x1, .i32⟩ : BufTy).Contents (Elt F)),
    ternary main_v207 main_v208 main_v206 main_v209 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    unary main_v195 main_v210 (broadcastInDim S1x128 ![1] bcast_S128_S1x128_1 : (⟨S128, .f32⟩ : BufTy).Contents (Elt F) → (⟨S1x128, .f32⟩ : BufTy).Contents (Elt F)),
    unary main_v210 main_v211 (broadcastInDim S50000x128 ![0, 1] bcast_S1x128_S50000x128_0_1 : (⟨S1x128, .f32⟩ : BufTy).Contents (Elt F) → (⟨S50000x128, .f32⟩ : BufTy).Contents (Elt F)),
    binary main_v209 main_v211 main_v212 (addf : (⟨S50000x128, .f32⟩ : BufTy).Contents (Elt F) → (⟨S50000x128, .f32⟩ : BufTy).Contents (Elt F) → (⟨S50000x128, .f32⟩ : BufTy).Contents (Elt F)),
    unary main_arg5 main_v213 ((extractStridedSlice S1x128x128 ![3, 0, 0] · slices_S4x128x128_S1x128x128_3_0_0) : (⟨S4x128x128, .f32⟩ : BufTy).Contents (Elt F) → (⟨S1x128x128, .f32⟩ : BufTy).Contents (Elt F)),
    reshape main_v213 main_v214 rfl shapeCasts_S1x128x128_S128x128,
    unary main_arg6 main_v215 ((extractStridedSlice S1x128 ![3, 0] · slices_S4x128_S1x128_3_0) : (⟨S4x128, .f32⟩ : BufTy).Contents (Elt F) → (⟨S1x128, .f32⟩ : BufTy).Contents (Elt F)),
    reshape main_v215 main_v216 rfl shapeCasts_S1x128_S128,
    binary main_v191 main_v214 main_v217 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c_35 (constantI S_ 32 0#32),
    unary main_c_35 main_v218 (broadcastInDim S250000 ![] bcast_S_S250000 : (⟨S_, .i32⟩ : BufTy).Contents (Elt F) → (⟨S250000, .i32⟩ : BufTy).Contents (Elt F)),
    binary main_v33 main_v218 main_v219 (cmpi .slt : (⟨S250000, .i32⟩ : BufTy).Contents (Elt F) → (⟨S250000, .i32⟩ : BufTy).Contents (Elt F) → (⟨S250000, .i1⟩ : BufTy).Contents (Elt F)),
    nullary main_c_36 (constantI S_ 32 50000#32),
    unary main_c_36 main_v220 (broadcastInDim S250000 ![] bcast_S_S250000 : (⟨S_, .i32⟩ : BufTy).Contents (Elt F) → (⟨S250000, .i32⟩ : BufTy).Contents (Elt F)),
    binary main_v33 main_v220 main_v221 (addi : (⟨S250000, .i32⟩ : BufTy).Contents (Elt F) → (⟨S250000, .i32⟩ : BufTy).Contents (Elt F) → (⟨S250000, .i32⟩ : BufTy).Contents (Elt F)),
    ternary main_v219 main_v221 main_v33 main_v222 (select : (⟨S250000, .i1⟩ : BufTy).Contents (Elt F) → (⟨S250000, .i32⟩ : BufTy).Contents (Elt F) → (⟨S250000, .i32⟩ : BufTy).Contents (Elt F) → (⟨S250000, .i32⟩ : BufTy).Contents (Elt F)),
    unary main_v222 main_v223 (broadcastInDim S250000x1 ![0] bcast_S250000_S250000x1_0 : (⟨S250000, .i32⟩ : BufTy).Contents (Elt F) → (⟨S250000x1, .i32⟩ : BufTy).Contents (Elt F)),
    binary main_v217 main_v223 main_v224 ((fun x i => Host.gather gather_S50000x128_S250000x1_S250000x128_1_0_n_n_0_1_1128 x i) : (⟨S50000x128, .f32⟩ : BufTy).Contents (Elt F) → (⟨S250000x1, .i32⟩ : BufTy).Contents (Elt F) → (⟨S250000x128, .f32⟩ : BufTy).Contents (Elt F)),
    unary main_v59 main_v225 (broadcastInDim S250000x1 ![0] bcast_S250000_S250000x1_0 : (⟨S250000, .f32⟩ : BufTy).Contents (Elt F) → (⟨S250000x1, .f32⟩ : BufTy).Contents (Elt F)),
    unary main_v225 main_v226 (broadcastInDim S250000x128 ![0, 1] bcast_S250000x1_S250000x128_0_1 : (⟨S250000x1, .f32⟩ : BufTy).Contents (Elt F) → (⟨S250000x128, .f32⟩ : BufTy).Contents (Elt F)),
    binary main_v224 main_v226 main_v227 (mulf : (⟨S250000x128, .f32⟩ : BufTy).Contents (Elt F) → (⟨S250000x128, .f32⟩ : BufTy).Contents (Elt F) → (⟨S250000x128, .f32⟩ : BufTy).Contents (Elt F)),
    nullary main_cst_37 (constant S_ .f32 0x00000000#32),
    unary main_cst_37 main_v228 (broadcastInDim S50000x128 ![] bcast_S_S50000x128 : (⟨S_, .f32⟩ : BufTy).Contents (Elt F) → (⟨S50000x128, .f32⟩ : BufTy).Contents (Elt F)),
    unary main_v36 main_v229 (broadcastInDim S250000x1 ![0] bcast_S250000_S250000x1_0 : (⟨S250000, .i32⟩ : BufTy).Contents (Elt F) → (⟨S250000x1, .i32⟩ : BufTy).Contents (Elt F)),
    ternary main_v228 main_v229 main_v227 main_v230 ((fun x i u => Host.scatterAdd scatter_S50000x128_S250000x1_S250000x128_1_0_0_1 x i u) : (⟨S50000x128, .f32⟩ : BufTy).Contents (Elt F) → (⟨S250000x1, .i32⟩ : BufTy).Contents (Elt F) → (⟨S250000x128, .f32⟩ : BufTy).Contents (Elt F) → (⟨S50000x128, .f32⟩ : BufTy).Contents (Elt F)),
    unary main_v216 main_v231 (broadcastInDim S1x128 ![1] bcast_S128_S1x128_1 : (⟨S128, .f32⟩ : BufTy).Contents (Elt F) → (⟨S1x128, .f32⟩ : BufTy).Contents (Elt F)),
    unary main_v231 main_v232 (broadcastInDim S50000x128 ![0, 1] bcast_S1x128_S50000x128_0_1 : (⟨S1x128, .f32⟩ : BufTy).Contents (Elt F) → (⟨S50000x128, .f32⟩ : BufTy).Contents (Elt F)),
    binary main_v230 main_v232 main_v233 (addf : (⟨S50000x128, .f32⟩ : BufTy).Contents (Elt F) → (⟨S50000x128, .f32⟩ : BufTy).Contents (Elt F) → (⟨S50000x128, .f32⟩ : BufTy).Contents (Elt F)),
    binary main_v212 main_v233 main_v234 (addf : (⟨S50000x128, .f32⟩ : BufTy).Contents (Elt F) → (⟨S50000x128, .f32⟩ : BufTy).Contents (Elt F) → (⟨S50000x128, .f32⟩ : BufTy).Contents (Elt F)) ]

set_option maxHeartbeats 4000000 in
/-- The piece's result: the layer of the contents it starts from. -/
theorem val (W : Valuation τ sig (Elt F)) : after pieceOps W (Proc.devRef .tc main_v234) = Cert.Spec.layerV (W (Proc.devRef .tc main_v191)) (Cert.Spec.wsl3 (W (Proc.devRef .tc main_arg3))) (Cert.Spec.wsl3 (W (Proc.devRef .tc main_arg5))) (Cert.Spec.bsl3 (W (Proc.devRef .tc main_arg4))) (Cert.Spec.bsl3 (W (Proc.devRef .tc main_arg6))) (W (Proc.devRef .tc main_v3)) (W (Proc.devRef .tc main_v6)) (W (Proc.devRef .tc main_v29)) (W (Proc.devRef .tc main_v33)) (W (Proc.devRef .tc main_v36)) (W (Proc.devRef .tc main_v59)) := by
  simp only [pieceOps]; after_results_simp; rfl

set_option maxHeartbeats 4000000 in
/-- The piece leaves these buffers as it found them: none of its operations writes them. -/
theorem keep (W : Valuation τ sig (Elt F)) : after pieceOps W (Proc.devRef .tc main_v3) = W (Proc.devRef .tc main_v3)
    ∧ after pieceOps W (Proc.devRef .tc main_v6) = W (Proc.devRef .tc main_v6)
    ∧ after pieceOps W (Proc.devRef .tc main_v29) = W (Proc.devRef .tc main_v29)
    ∧ after pieceOps W (Proc.devRef .tc main_v33) = W (Proc.devRef .tc main_v33)
    ∧ after pieceOps W (Proc.devRef .tc main_v36) = W (Proc.devRef .tc main_v36)
    ∧ after pieceOps W (Proc.devRef .tc main_v59) = W (Proc.devRef .tc main_v59)
    ∧ after pieceOps W (Proc.devRef .tc main_arg3) = W (Proc.devRef .tc main_arg3)
    ∧ after pieceOps W (Proc.devRef .tc main_arg4) = W (Proc.devRef .tc main_arg4)
    ∧ after pieceOps W (Proc.devRef .tc main_arg5) = W (Proc.devRef .tc main_arg5)
    ∧ after pieceOps W (Proc.devRef .tc main_arg6) = W (Proc.devRef .tc main_arg6) := by
  refine ⟨?_, ?_, ?_, ?_, ?_, ?_, ?_, ?_, ?_, ?_⟩ <;> (simp only [pieceOps]; after_results_simp)

set_option maxHeartbeats 4000000 in
/-- The piece writes none of the program's arguments. -/
theorem keepArgs (W : Valuation τ sig (Elt F)) : after pieceOps W (Proc.devRef .tc main_arg0) = W (Proc.devRef .tc main_arg0)
    ∧ after pieceOps W (Proc.devRef .tc main_arg1) = W (Proc.devRef .tc main_arg1)
    ∧ after pieceOps W (Proc.devRef .tc main_arg2) = W (Proc.devRef .tc main_arg2)
    ∧ after pieceOps W (Proc.devRef .tc main_arg3) = W (Proc.devRef .tc main_arg3)
    ∧ after pieceOps W (Proc.devRef .tc main_arg4) = W (Proc.devRef .tc main_arg4)
    ∧ after pieceOps W (Proc.devRef .tc main_arg5) = W (Proc.devRef .tc main_arg5)
    ∧ after pieceOps W (Proc.devRef .tc main_arg6) = W (Proc.devRef .tc main_arg6) := by
  refine ⟨?_, ?_, ?_, ?_, ?_, ?_, ?_⟩ <;> (simp only [pieceOps]; after_results_simp)

end Cert.ReferenceIdeal.RL3

end
-- ==== Proof.RChain.lean ====
/-
  The reference program's result as one function of its arguments.

  The program is a straight line of host operations; read as a fold it splits into the edge preparation and four
  layers. The edge lists with their self-loops, the edge weights and the four float arguments are written by the
  preparation (or never) and read, unchanged, by every layer; each layer's output is the next layer's features.
-/
import proofs.«113452_j3143916060941_1_alg».proof.Proof.RefOps
import proofs.«113452_j3143916060941_1_alg».proof.Proof.RPrep
import proofs.«113452_j3143916060941_1_alg».proof.Proof.RL0
import proofs.«113452_j3143916060941_1_alg».proof.Proof.RL1
import proofs.«113452_j3143916060941_1_alg».proof.Proof.RL2
import proofs.«113452_j3143916060941_1_alg».proof.Proof.RL3

set_option maxRecDepth 16384

noncomputable section

namespace Cert.ReferenceIdeal.RChain

open Cert.ReferenceIdeal Cert.ReferenceIdeal.Gen Idealize.ShloMosaic Idealize.ShloMosaic.TcCoe Idealize.SL.Sem Idealize.ShloMosaic.StableHlo

variable {F : FTy → Type} [FloatOps F]

/-- Folding a list of operations in two parts. -/
theorem after_append (l₁ l₂ : List (HloOp τ sig (Elt F))) (V : Valuation τ sig (Elt F)) : after (l₁ ++ l₂) V = after l₂ (after l₁ V) := by
  induction l₁ generalizing V with
  | nil => rfl
  | cons op l ih => exact ih _

set_option maxRecDepth 16384 in
/-- The program's operations are the five pieces, in order. -/
theorem ops_eq : (ValueP.ops : List (HloOp τ sig (Elt F))) = RPrep.pieceOps ++ (RL0.pieceOps ++ (RL1.pieceOps ++ (RL2.pieceOps ++ RL3.pieceOps))) := rfl

variable (W : Valuation τ sig (Elt F))

theorem fold_eq : after ValueP.ops W = (after RL3.pieceOps (after RL2.pieceOps (after RL1.pieceOps (after RL0.pieceOps (after RPrep.pieceOps W))))) := by
  rw [ops_eq, after_append, after_append, after_append, after_append]

/-- Two stages of the fold agree on the buffers every layer reads. -/
structure LiveEq (A B : Valuation τ sig (Elt F)) : Prop where
  v3 : A (Proc.devRef .tc main_v3) = B (Proc.devRef .tc main_v3)
  v6 : A (Proc.devRef .tc main_v6) = B (Proc.devRef .tc main_v6)
  v29 : A (Proc.devRef .tc main_v29) = B (Proc.devRef .tc main_v29)
  v33 : A (Proc.devRef .tc main_v33) = B (Proc.devRef .tc main_v33)
  v36 : A (Proc.devRef .tc main_v36) = B (Proc.devRef .tc main_v36)
  v59 : A (Proc.devRef .tc main_v59) = B (Proc.devRef .tc main_v59)
  a3 : A (Proc.devRef .tc main_arg3) = B (Proc.devRef .tc main_arg3)
  a4 : A (Proc.devRef .tc main_arg4) = B (Proc.devRef .tc main_arg4)
  a5 : A (Proc.devRef .tc main_arg5) = B (Proc.devRef .tc main_arg5)
  a6 : A (Proc.devRef .tc main_arg6) = B (Proc.devRef .tc main_arg6)

theorem LiveEq.trans {A B C : Valuation τ sig (Elt F)} (h : LiveEq A B) (h' : LiveEq B C) : LiveEq A C :=
  ⟨h.v3.trans h'.v3, h.v6.trans h'.v6, h.v29.trans h'.v29, h.v33.trans h'.v33, h.v36.trans h'.v36, h.v59.trans h'.v59, h.a3.trans h'.a3, h.a4.trans h'.a4, h.a5.trans h'.a5, h.a6.trans h'.a6⟩

theorem live0 : LiveEq (after RL0.pieceOps (after RPrep.pieceOps W)) (after RPrep.pieceOps W) :=
  have h := RL0.keep (after RPrep.pieceOps W)
  ⟨h.1, h.2.1, h.2.2.1, h.2.2.2.1, h.2.2.2.2.1, h.2.2.2.2.2.1, h.2.2.2.2.2.2.1, h.2.2.2.2.2.2.2.1, h.2.2.2.2.2.2.2.2.1, h.2.2.2.2.2.2.2.2.2⟩
theorem live1 : LiveEq (after RL1.pieceOps (after RL0.pieceOps (after RPrep.pieceOps W))) (after RPrep.pieceOps W) :=
  have h := RL1.keep (after RL0.pieceOps (after RPrep.pieceOps W))
  LiveEq.trans ⟨h.1, h.2.1, h.2.2.1, h.2.2.2.1, h.2.2.2.2.1, h.2.2.2.2.2.1, h.2.2.2.2.2.2.1, h.2.2.2.2.2.2.2.1, h.2.2.2.2.2.2.2.2.1, h.2.2.2.2.2.2.2.2.2⟩ (live0 W)
theorem live2 : LiveEq (after RL2.pieceOps (after RL1.pieceOps (after RL0.pieceOps (after RPrep.pieceOps W)))) (after RPrep.pieceOps W) :=
  have h := RL2.keep (after RL1.pieceOps (after RL0.pieceOps (after RPrep.pieceOps W)))
  LiveEq.trans ⟨h.1, h.2.1, h.2.2.1, h.2.2.2.1, h.2.2.2.2.1, h.2.2.2.2.2.1, h.2.2.2.2.2.2.1, h.2.2.2.2.2.2.2.1, h.2.2.2.2.2.2.2.2.1, h.2.2.2.2.2.2.2.2.2⟩ (live1 W)

/-! ## What the preparation leaves, of the arguments -/
theorem p_a3 : (after RPrep.pieceOps W) (Proc.devRef .tc main_arg3) = (W (Proc.devRef .tc main_arg3)) := (RPrep.keep W).2.1
theorem p_a4 : (after RPrep.pieceOps W) (Proc.devRef .tc main_arg4) = (W (Proc.devRef .tc main_arg4)) := (RPrep.keep W).2.2.1
theorem p_a5 : (after RPrep.pieceOps W) (Proc.devRef .tc main_arg5) = (W (Proc.devRef .tc main_arg5)) := (RPrep.keep W).2.2.2.1
theorem p_a6 : (after RPrep.pieceOps W) (Proc.devRef .tc main_arg6) = (W (Proc.devRef .tc main_arg6)) := (RPrep.keep W).2.2.2.2

/-- After layer 0 its output holds the layer and its activation of the arguments and the previous layers. -/
theorem x1 : (after RL0.pieceOps (after RPrep.pieceOps W)) (Proc.devRef .tc main_v103) = Cert.Spec.relu (Cert.Spec.layer (W (Proc.devRef .tc main_arg0)) (Cert.Spec.wsl0 (W (Proc.devRef .tc main_arg3))) (Cert.Spec.wsl0 (W (Proc.devRef .tc main_arg5))) (Cert.Spec.bsl0 (W (Proc.devRef .tc main_arg4))) (Cert.Spec.bsl0 (W (Proc.devRef .tc main_arg6))) (W (Proc.devRef .tc main_arg1)) (W (Proc.devRef .tc main_arg2))) := by
  rw [RL0.val (after RPrep.pieceOps W)]
  rw [(RPrep.keep W).1, p_a3 W, p_a4 W, p_a5 W, p_a6 W, RPrep.srcM W, RPrep.dstM W, RPrep.nrmM W, RPrep.srcC W, RPrep.dstC W, RPrep.nrmC W]
  rfl

/-- After layer 1 its output holds the layer and its activation of the arguments and the previous layers. -/
theorem x2 : (after RL1.pieceOps (after RL0.pieceOps (after RPrep.pieceOps W))) (Proc.devRef .tc main_v147) = Cert.Spec.relu (Cert.Spec.layer (Cert.Spec.relu (Cert.Spec.layer (W (Proc.devRef .tc main_arg0)) (Cert.Spec.wsl0 (W (Proc.devRef .tc main_arg3))) (Cert.Spec.wsl0 (W (Proc.devRef .tc main_arg5))) (Cert.Spec.bsl0 (W (Proc.devRef .tc main_arg4))) (Cert.Spec.bsl0 (W (Proc.devRef .tc main_arg6))) (W (Proc.devRef .tc main_arg1)) (W (Proc.devRef .tc main_arg2)))) (Cert.Spec.wsl1 (W (Proc.devRef .tc main_arg3))) (Cert.Spec.wsl1 (W (Proc.devRef .tc main_arg5))) (Cert.Spec.bsl1 (W (Proc.devRef .tc main_arg4))) (Cert.Spec.bsl1 (W (Proc.devRef .tc main_arg6))) (W (Proc.devRef .tc main_arg1)) (W (Proc.devRef .tc main_arg2))) := by
  rw [RL1.val (after RL0.pieceOps (after RPrep.pieceOps W))]
  have hl := live0 W
  rw [x1 W, hl.v3, hl.v6, hl.v29, hl.v33, hl.v36, hl.v59, hl.a3, hl.a4, hl.a5, hl.a6, p_a3 W, p_a4 W, p_a5 W, p_a6 W, RPrep.srcM W, RPrep.dstM W, RPrep.nrmM W, RPrep.srcC W, RPrep.dstC W, RPrep.nrmC W]
  rfl

/-- After layer 2 its output holds the layer and its activation of the arguments and the previous layers. -/
theorem x3 : (after RL2.pieceOps (after RL1.pieceOps (after RL0.pieceOps (after RPrep.pieceOps W)))) (Proc.devRef .tc main_v191) = Cert.Spec.relu (Cert.Spec.layer (Cert.Spec.relu (Cert.Spec.layer (Cert.Spec.relu (Cert.Spec.layer (W (Proc.devRef .tc main_arg0)) (Cert.Spec.wsl0 (W (Proc.devRef .tc main_arg3))) (Cert.Spec.wsl0 (W (Proc.devRef .tc main_arg5))) (Cert.Spec.bsl0 (W (Proc.devRef .tc main_arg4))) (Cert.Spec.bsl0 (W (Proc.devRef .tc main_arg6))) (W (Proc.devRef .tc main_arg1)) (W (Proc.devRef .tc main_arg2)))) (Cert.Spec.wsl1 (W (Proc.devRef .tc main_arg3))) (Cert.Spec.wsl1 (W (Proc.devRef .tc main_arg5))) (Cert.Spec.bsl1 (W (Proc.devRef .tc main_arg4))) (Cert.Spec.bsl1 (W (Proc.devRef .tc main_arg6))) (W (Proc.devRef .tc main_arg1)) (W (Proc.devRef .tc main_arg2)))) (Cert.Spec.wsl2 (W (Proc.devRef .tc main_arg3))) (Cert.Spec.wsl2 (W (Proc.devRef .tc main_arg5))) (Cert.Spec.bsl2 (W (Proc.devRef .tc main_arg4))) (Cert.Spec.bsl2 (W (Proc.devRef .tc main_arg6))) (W (Proc.devRef .tc main_arg1)) (W (Proc.devRef .tc main_arg2))) := by
  rw [RL2.val (after RL1.pieceOps (after RL0.pieceOps (after RPrep.pieceOps W)))]
  have hl := live1 W
  rw [x2 W, hl.v3, hl.v6, hl.v29, hl.v33, hl.v36, hl.v59, hl.a3, hl.a4, hl.a5, hl.a6, p_a3 W, p_a4 W, p_a5 W, p_a6 W, RPrep.srcM W, RPrep.dstM W, RPrep.nrmM W, RPrep.srcC W, RPrep.dstC W, RPrep.nrmC W]
  rfl

/-- After layer 3 its output holds the layer of the arguments and the previous layers. -/
theorem x4 : (after RL3.pieceOps (after RL2.pieceOps (after RL1.pieceOps (after RL0.pieceOps (after RPrep.pieceOps W))))) (Proc.devRef .tc main_v234) = Cert.Spec.layer (Cert.Spec.relu (Cert.Spec.layer (Cert.Spec.relu (Cert.Spec.layer (Cert.Spec.relu (Cert.Spec.layer (W (Proc.devRef .tc main_arg0)) (Cert.Spec.wsl0 (W (Proc.devRef .tc main_arg3))) (Cert.Spec.wsl0 (W (Proc.devRef .tc main_arg5))) (Cert.Spec.bsl0 (W (Proc.devRef .tc main_arg4))) (Cert.Spec.bsl0 (W (Proc.devRef .tc main_arg6))) (W (Proc.devRef .tc main_arg1)) (W (Proc.devRef .tc main_arg2)))) (Cert.Spec.wsl1 (W (Proc.devRef .tc main_arg3))) (Cert.Spec.wsl1 (W (Proc.devRef .tc main_arg5))) (Cert.Spec.bsl1 (W (Proc.devRef .tc main_arg4))) (Cert.Spec.bsl1 (W (Proc.devRef .tc main_arg6))) (W (Proc.devRef .tc main_arg1)) (W (Proc.devRef .tc main_arg2)))) (Cert.Spec.wsl2 (W (Proc.devRef .tc main_arg3))) (Cert.Spec.wsl2 (W (Proc.devRef .tc main_arg5))) (Cert.Spec.bsl2 (W (Proc.devRef .tc main_arg4))) (Cert.Spec.bsl2 (W (Proc.devRef .tc main_arg6))) (W (Proc.devRef .tc main_arg1)) (W (Proc.devRef .tc main_arg2)))) (Cert.Spec.wsl3 (W (Proc.devRef .tc main_arg3))) (Cert.Spec.wsl3 (W (Proc.devRef .tc main_arg5))) (Cert.Spec.bsl3 (W (Proc.devRef .tc main_arg4))) (Cert.Spec.bsl3 (W (Proc.devRef .tc main_arg6))) (W (Proc.devRef .tc main_arg1)) (W (Proc.devRef .tc main_arg2)) := by
  rw [RL3.val (after RL2.pieceOps (after RL1.pieceOps (after RL0.pieceOps (after RPrep.pieceOps W))))]
  have hl := live2 W
  rw [x3 W, hl.v3, hl.v6, hl.v29, hl.v33, hl.v36, hl.v59, hl.a3, hl.a4, hl.a5, hl.a6, p_a3 W, p_a4 W, p_a5 W, p_a6 W, RPrep.srcM W, RPrep.dstM W, RPrep.nrmM W, RPrep.srcC W, RPrep.dstC W, RPrep.nrmC W]
  rfl

/-- No operation of the program writes an argument: after all of them each argument array is as it was. -/
theorem args_kept : after ValueP.ops W (Proc.devRef .tc main_arg0) = W (Proc.devRef .tc main_arg0)
    ∧ after ValueP.ops W (Proc.devRef .tc main_arg1) = W (Proc.devRef .tc main_arg1)
    ∧ after ValueP.ops W (Proc.devRef .tc main_arg2) = W (Proc.devRef .tc main_arg2)
    ∧ after ValueP.ops W (Proc.devRef .tc main_arg3) = W (Proc.devRef .tc main_arg3)
    ∧ after ValueP.ops W (Proc.devRef .tc main_arg4) = W (Proc.devRef .tc main_arg4)
    ∧ after ValueP.ops W (Proc.devRef .tc main_arg5) = W (Proc.devRef .tc main_arg5)
    ∧ after ValueP.ops W (Proc.devRef .tc main_arg6) = W (Proc.devRef .tc main_arg6) := by
  rw [fold_eq W]
  have h0 := RPrep.keepArgs W
  have h1 := RL0.keepArgs (after RPrep.pieceOps W)
  have h2 := RL1.keepArgs (after RL0.pieceOps (after RPrep.pieceOps W))
  have h3 := RL2.keepArgs (after RL1.pieceOps (after RL0.pieceOps (after RPrep.pieceOps W)))
  have h4 := RL3.keepArgs (after RL2.pieceOps (after RL1.pieceOps (after RL0.pieceOps (after RPrep.pieceOps W))))
  exact ⟨(h4.1).trans ((h3.1).trans ((h2.1).trans ((h1.1).trans (h0.1)))),
    (h4.2.1).trans ((h3.2.1).trans ((h2.2.1).trans ((h1.2.1).trans (h0.2.1)))),
    (h4.2.2.1).trans ((h3.2.2.1).trans ((h2.2.2.1).trans ((h1.2.2.1).trans (h0.2.2.1)))),
    (h4.2.2.2.1).trans ((h3.2.2.2.1).trans ((h2.2.2.2.1).trans ((h1.2.2.2.1).trans (h0.2.2.2.1)))),
    (h4.2.2.2.2.1).trans ((h3.2.2.2.2.1).trans ((h2.2.2.2.2.1).trans ((h1.2.2.2.2.1).trans (h0.2.2.2.2.1)))),
    (h4.2.2.2.2.2.1).trans ((h3.2.2.2.2.2.1).trans ((h2.2.2.2.2.2.1).trans ((h1.2.2.2.2.2.1).trans (h0.2.2.2.2.2.1)))),
    (h4.2.2.2.2.2.2).trans ((h3.2.2.2.2.2.2).trans ((h2.2.2.2.2.2.2).trans ((h1.2.2.2.2.2.2).trans (h0.2.2.2.2.2.2))))⟩

/-- The reference program's result, after all its operations, is the block of its arguments. -/
theorem result : after ValueP.ops W (Proc.devRef .tc main_v234) = Cert.Spec.result (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) := by
  rw [fold_eq W]
  exact x4 W

end Cert.ReferenceIdeal.RChain

end
-- ==== Proof.lean ====
/-
  A four-layer graph-convolution block: a Pallas program against its jnp reference, equal over the extended reals.

  Each layer multiplies the node features (50000 × 128) by two weight matrices, passes each product along its graph
  (gather the rows at the edges' sources, scale by the edge weight, sum into the destinations), adds the two sums and
  the two bias rows, and (but for the last layer) takes max(·, 0). The two programs share every host operation on the
  edge lists; they differ in two places per layer. The kernel computes each product in ten row blocks of 5000 on the
  matrix unit after a change of float format, which at the exact instance is the identity, so the ten blocks are the
  rows of the one product the reference computes. And the kernel adds ((a + b) + bm) + bc where the reference adds
  (a + bm) + (b + bc): addition of extended reals is commutative and associative with the infinities included, so the
  two agree with no finiteness assumption. Both runs are therefore posted at one function of the seven arguments
  (Proof/Spec.lean): the kernel's by walking the fold of its host stretches and regions back from the last boundary
  (Proof/KChain.lean over the regions' block lemmas), the reference's by cutting its operation list into the edge
  preparation and the four layers (Proof/RChain.lean). No rewrite was applied when the kernel was idealized, so that
  claim is empty.
-/
import proofs.«113452_j3143916060941_1_alg».proof.Defs
import proofs.«113452_j3143916060941_1_alg».proof.Proof.Gen.Kernel
import proofs.«113452_j3143916060941_1_alg».proof.Proof.Gen.Kernel.Frame
import proofs.«113452_j3143916060941_1_alg».proof.Proof.Gen.KernelIdeal
import proofs.«113452_j3143916060941_1_alg».proof.Proof.Gen.KernelIdeal.Frame
import proofs.«113452_j3143916060941_1_alg».proof.Proof.Gen.ReferenceIdeal
import proofs.«113452_j3143916060941_1_alg».proof.Proof.Gen.Pre_finite_inputs
import proofs.«113452_j3143916060941_1_alg».proof.Proof.KRun
import proofs.«113452_j3143916060941_1_alg».proof.Proof.KChain
import proofs.«113452_j3143916060941_1_alg».proof.Proof.RChain
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference runs, and no operation of it writes an argument. -/
theorem frame_ri : Cert.frame_ReferenceIdeal := fun m ρ _ =>
  (θ_run Cert.ReferenceIdeal.defs _ _).mono (fun r h c =>
    have k := Cert.ReferenceIdeal.RChain.args_kept (StableHlo.launchContents m c)
    ⟨(h c Cert.ReferenceIdeal.main_arg0).trans k.1, (h c Cert.ReferenceIdeal.main_arg1).trans k.2.1, (h c Cert.ReferenceIdeal.main_arg2).trans k.2.2.1,
     (h c Cert.ReferenceIdeal.main_arg3).trans k.2.2.2.1, (h c Cert.ReferenceIdeal.main_arg4).trans k.2.2.2.2.1, (h c Cert.ReferenceIdeal.main_arg5).trans k.2.2.2.2.2.1,
     (h c Cert.ReferenceIdeal.main_arg6).trans k.2.2.2.2.2.2⟩)
    (Cert.ReferenceIdeal.ValueP.run_after (F := Ideal) m ρ)

/-- The ideal pass rewrote nothing: the idealized kernel is the kernel's own text read at the exact instance. -/
theorem preserves : Cert.preserves_Kernel_KernelIdeal := trivial

/-- From memories agreeing on the arguments both programs end at the block of those arguments. -/
theorem algebraic : Cert.algebraic_KernelIdeal_ReferenceIdeal := by
  intro m ρ m' ρ' _ hagree
  refine ⟨fun c => Cert.Spec.result (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono (fun r h c => ⟨(h c).1.trans (Cert.KernelIdeal.Chain.result m ρ c), (h c).2⟩)
      (Cert.KernelIdeal.ValueRun.run_value (F := Ideal) m ρ)
  · refine (θ_run Cert.ReferenceIdeal.defs _ _).mono (fun r h c => ?_) (Cert.ReferenceIdeal.ValueP.run_after (F := Ideal) m' ρ')
    have k := Cert.ReferenceIdeal.RChain.args_kept (StableHlo.launchContents m' c)
    have hr := Cert.ReferenceIdeal.RChain.result (StableHlo.launchContents m' c)
    obtain ⟨e0, e1, e2, e3, e4, e5, e6⟩ := hagree c
    refine ⟨?_, (h c Cert.ReferenceIdeal.main_arg0).trans k.1, (h c Cert.ReferenceIdeal.main_arg1).trans k.2.1, (h c Cert.ReferenceIdeal.main_arg2).trans k.2.2.1,
      (h c Cert.ReferenceIdeal.main_arg3).trans k.2.2.2.1, (h c Cert.ReferenceIdeal.main_arg4).trans k.2.2.2.2.1, (h c Cert.ReferenceIdeal.main_arg5).trans k.2.2.2.2.2.1,
      (h c Cert.ReferenceIdeal.main_arg6).trans k.2.2.2.2.2.2⟩
    refine ((h c Cert.ReferenceIdeal.main_v234).trans hr).trans ?_
    show Cert.Spec.result (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) = _
    rw [e0, e1, e2, e3, e4, e5, e6]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
